-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1544 : Shape := ⟨2, ![50000, 1544]⟩
abbrev S768x32 : Shape := ⟨2, ![768, 32]⟩
abbrev S32 : Shape := ⟨1, ![32]⟩
abbrev S6x32 : Shape := ⟨2, ![6, 32]⟩
abbrev S2x32 : Shape := ⟨2, ![2, 32]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S200000 : Shape := ⟨1, ![200000]⟩
abbrev S2x1600000 : Shape := ⟨2, ![2, 1600000]⟩
abbrev S2x400000 : Shape := ⟨2, ![2, 400000]⟩
abbrev S2x100000 : Shape := ⟨2, ![2, 100000]⟩
abbrev S50000 : Shape := ⟨1, ![50000]⟩
abbrev S12500 : Shape := ⟨1, ![12500]⟩
abbrev S_ : Shape := ⟨0, ![]⟩

class Facts : Prop where
  bcast_S_S50000x1544 : S_.BroadcastsInDim S50000x1544 (![] : Fin 0 → Fin S50000x1544.rank)
  reducesTo_S50000x1544_S_d0_1 : S50000x1544.ReducesTo [0, 1] S_
  h_S_ : 0 < S_.numel
  bcast_S_S768x32 : S_.BroadcastsInDim S768x32 (![] : Fin 0 → Fin S768x32.rank)
  reducesTo_S768x32_S_d0_1 : S768x32.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S2x32 : S_.BroadcastsInDim S2x32 (![] : Fin 0 → Fin S2x32.rank)
  reducesTo_S2x32_S_d0_1 : S2x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x128 : S_.BroadcastsInDim S384x128 (![] : Fin 0 → Fin S384x128.rank)
  reducesTo_S384x128_S_d0_1 : S384x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S384x128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S384x128 .f32 := Host.absf main_arg14
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S3x128x128 .f32) (main_arg13 : FVec F S3x128 .f32) (main_arg14 : FVec F S384x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S3x128x128 .f32 := Host.absf main_arg12
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_arg17 main_v63 main_v67

def fn_part2 {F : FTy → Type} [FloatOps F] (main_arg7 : FVec F S2x32 .f32) (main_arg8 : FVec F S32 .f32) (main_arg9 : FVec F S128x128 .f32) (main_arg10 : FVec F S128 .f32) (main_arg11 : FVec F S128 .f32) (main_arg12 : FVec F S3x128x128 .f32) (main_arg13 : FVec F S3x128 .f32) (main_arg14 : FVec F S384x128 .f32) (main_arg15 : FVec F S128 .f32) (main_arg16 : FVec F S128x128 .f32) (main_arg17 : FVec F S128 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S32 .f32) (main_arg5 : FVec F S6x32 .f32) (main_arg6 : FVec F S32 .f32) (main_arg7 : FVec F S2x32 .f32) (main_arg8 : FVec F S32 .f32) (main_arg9 : FVec F S128x128 .f32) (main_arg10 : FVec F S128 .f32) (main_arg11 : FVec F S128 .f32) (main_arg12 : FVec F S3x128x128 .f32) (main_arg13 : FVec F S3x128 .f32) (main_arg14 : FVec F S384x128 .f32) (main_arg15 : FVec F S128 .f32) (main_arg16 : FVec F S128x128 .f32) (main_arg17 : FVec F S128 .f32) (main_v13 : IVec S_ 1) (main_v16 : IVec S768x32 1) : IVec S_ 1 :=
  let main_c_5 : IVec S_ 1 := constantI S_ 1 1#1
  let main_v17 : IVec S_ 1 := (fun x v => Host.reduce IntOp.andi x v reducesTo_S768x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S6x32 .f32 := Host.absf main_arg5
  let main_cst_8 : FVec F S_ .f32 := constant S_ .f32 0x7F800000#32
  let main_v25 : FVec F S6x32 .f32 := broadcastInDim S6x32 ![] bcast_S_S6x32 main_cst_8
  let main_v26 : IVec S6x32 1 := cmpf .olt main_v24 main_v25
  let main_c_9 : IVec S_ 1 := constantI S_ 1 1#1
  let main_v27 : IVec S_ 1 := (fun x v => Host.reduce IntOp.andi x v reducesTo_S6x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x1544 .f32) (main_arg1 : FVec F S768x32 .f32) (main_arg2 : FVec F S32 .f32) (main_arg3 : FVec F S768x32 .f32) (main_arg4 : FVec F S32 .f32) (main_arg5 : FVec F S6x32 .f32) (main_arg6 : FVec F S32 .f32) (main_arg7 : FVec F S2x32 .f32) (main_arg8 : FVec F S32 .f32) (main_arg9 : FVec F S128x128 .f32) (main_arg10 : FVec F S128 .f32) (main_arg11 : FVec F S128 .f32) (main_arg12 : FVec F S3x128x128 .f32) (main_arg13 : FVec F S3x128 .f32) (main_arg14 : FVec F S384x128 .f32) (main_arg15 : FVec F S128 .f32) (main_arg16 : FVec F S128x128 .f32) (main_arg17 : FVec F S128 .f32) (main_arg18 : IVec S200000 32) (main_arg19 : IVec S2x1600000 32) (main_arg20 : IVec S2x400000 32) (main_arg21 : IVec S2x100000 32) (main_arg22 : IVec S200000 32) (main_arg23 : IVec S50000 32) (main_arg24 : IVec S50000 32) (main_arg25 : IVec S12500 32) : IVec S_ 1 :=
  let main_v0 : FVec F S50000x1544 .f32 := Host.absf main_arg0
  let main_cst : FVec F S_ .f32 := constant S_ .f32 0x7F800000#32
  let main_v1 : FVec F S50000x1544 .f32 := broadcastInDim S50000x1544 ![] bcast_S_S50000x1544 main_cst
  let main_v2 : IVec S50000x1544 1 := cmpf .olt main_v0 main_v1
  let main_c : IVec S_ 1 := constantI S_ 1 1#1
  let main_v3 : IVec S_ 1 := (fun x v => Host.reduce IntOp.andi x v reducesTo_S50000x1544_S_d0_1 h_S_) main_v2 main_c
  let main_v4 : FVec F S768x32 .f32 := Host.absf main_arg1
  let main_cst_0 : FVec F S_ .f32 := constant S_ .f32 0x7F800000#32
  let main_v5 : FVec F S768x32 .f32 := broadcastInDim S768x32 ![] bcast_S_S768x32 main_cst_0
  let main_v6 : IVec S768x32 1 := cmpf .olt main_v4 main_v5
  let main_c_1 : IVec S_ 1 := constantI S_ 1 1#1
  let main_v7 : IVec S_ 1 := (fun x v => Host.reduce IntOp.andi x v reducesTo_S768x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S768x32 .f32 := Host.absf main_arg3
  let main_cst_4 : FVec F S_ .f32 := constant S_ .f32 0x7F800000#32
  let main_v15 : FVec F S768x32 .f32 := broadcastInDim S768x32 ![] bcast_S_S768x32 main_cst_4
  let main_v16 : IVec S768x32 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x1544 : Shape := ⟨2, ![50000, 1544]⟩
abbrev S768x32 : Shape := ⟨2, ![768, 32]⟩
abbrev S32 : Shape := ⟨1, ![32]⟩
abbrev S6x32 : Shape := ⟨2, ![6, 32]⟩
abbrev S2x32 : Shape := ⟨2, ![2, 32]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S200000 : Shape := ⟨1, ![200000]⟩
abbrev S2x1600000 : Shape := ⟨2, ![2, 1600000]⟩
abbrev S2x400000 : Shape := ⟨2, ![2, 400000]⟩
abbrev S2x100000 : Shape := ⟨2, ![2, 100000]⟩
abbrev S50000 : Shape := ⟨1, ![50000]⟩
abbrev S12500 : Shape := ⟨1, ![12500]⟩
abbrev S50000x128 : Shape := ⟨2, ![50000, 128]⟩
abbrev S2000x1544 : Shape := ⟨2, ![2000, 1544]⟩
abbrev S2000x128 : Shape := ⟨2, ![2000, 128]⟩
abbrev S2000x6 : Shape := ⟨2, ![2000, 6]⟩
abbrev S2000x768 : Shape := ⟨2, ![2000, 768]⟩
abbrev S2000x2 : Shape := ⟨2, ![2000, 2]⟩
abbrev S2000x32 : Shape := ⟨2, ![2000, 32]⟩
abbrev S1x32 : Shape := ⟨2, ![1, 32]⟩
abbrev S1x128 : Shape := ⟨2, ![1, 128]⟩
abbrev S_ : Shape := ⟨0, ![]⟩
abbrev S200000x1 : Shape := ⟨2, ![200000, 1]⟩
abbrev S200000x128 : Shape := ⟨2, ![200000, 128]⟩
abbrev S1x128x128 : Shape := ⟨3, ![1, 128, 128]⟩
abbrev S4000x128 : Shape := ⟨2, ![4000, 128]⟩
abbrev S1x1600000 : Shape := ⟨2, ![1, 1600000]⟩
abbrev S1600000 : Shape := ⟨1, ![1600000]⟩
abbrev S1800000 : Shape := ⟨1, ![1800000]⟩
abbrev S1800000x1 : Shape := ⟨2, ![1800000, 1]⟩
abbrev S1800000x128 : Shape := ⟨2, ![1800000, 128]⟩
abbrev S5000x128 : Shape := ⟨2, ![5000, 128]⟩
abbrev S1x400000 : Shape := ⟨2, ![1, 400000]⟩
abbrev S400000 : Shape := ⟨1, ![400000]⟩
abbrev S450000 : Shape := ⟨1, ![450000]⟩
abbrev S450000x1 : Shape := ⟨2, ![450000, 1]⟩
abbrev S450000x128 : Shape := ⟨2, ![450000, 128]⟩
abbrev S12500x128 : Shape := ⟨2, ![12500, 128]⟩
abbrev S50000x1 : Shape := ⟨2, ![50000, 1]⟩
abbrev S1x100000 : Shape := ⟨2, ![1, 100000]⟩
abbrev S100000 : Shape := ⟨1, ![100000]⟩
abbrev S112500 : Shape := ⟨1, ![112500]⟩
abbrev S112500x1 : Shape := ⟨2, ![112500, 1]⟩
abbrev S112500x128 : Shape := ⟨2, ![112500, 128]⟩
abbrev S12500x1 : Shape := ⟨2, ![12500, 1]⟩
abbrev S128x384 : Shape := ⟨2, ![128, 384]⟩

abbrev nBuf : Space → Nat
  | .hbm => 266
  | .vmem => 36
  | .smem => 0
  | _ => 0

abbrev hbmTy0_0 (i : Nat) : BufTy := match i % 128 with
  | 0 => ⟨S50000x1544, .f32⟩
  | 1 => ⟨S768x32, .f32⟩
  | 2 => ⟨S32, .f32⟩
  | 3 => ⟨S768x32, .f32⟩
  | 4 => ⟨S32, .f32⟩
  | 5 => ⟨S6x32, .f32⟩
  | 6 => ⟨S32, .f32⟩
  | 7 => ⟨S2x32, .f32⟩
  | 8 => ⟨S32, .f32⟩
  | 9 => ⟨S128x128, .f32⟩
  | 10 => ⟨S128, .f32⟩
  | 11 => ⟨S128, .f32⟩
  | 12 => ⟨S3x128x128, .f32⟩
  | 13 => ⟨S3x128, .f32⟩
  | 14 => ⟨S384x128, .f32⟩
  | 15 => ⟨S128, .f32⟩
  | 16 => ⟨S128x128, .f32⟩
  | 17 => ⟨S128, .f32⟩
  | 18 => ⟨S200000, .i32⟩
  | 19 => ⟨S2x1600000, .i32⟩
  | 20 => ⟨S2x400000, .i32⟩
  | 21 => ⟨S2x100000, .i32⟩
  | 22 => ⟨S200000, .i32⟩
  | 23 => ⟨S50000, .i32⟩
  | 24 => ⟨S50000, .i32⟩
  | 25 => ⟨S12500, .i32⟩
  | 26 => ⟨S50000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S1x128x128, .f32⟩
  | 37 => ⟨S128x128, .f32⟩
  | 38 => ⟨S200000x128, .f32⟩
  | 39 => ⟨S1x128, .f32⟩
  | 40 => ⟨S128, .f32⟩
  | 41 => ⟨S200000, .i32⟩
  | 42 => ⟨S1x1600000, .i32⟩
  | 43 => ⟨S1600000, .i32⟩
  | 44 => ⟨S1800000, .i32⟩
  | 45 => ⟨S1x1600000, .i32⟩
  | 46 => ⟨S1600000, .i32⟩
  | 47 => ⟨S1800000, .i32⟩
  | 48 => ⟨S_, .f32⟩
  | 49 => ⟨S1800000, .f32⟩
  | 50 => ⟨S_, .f32⟩
  | 51 => ⟨S200000, .f32⟩
  | 52 => ⟨S1800000x1, .i32⟩
  | 53 => ⟨S200000, .f32⟩
  | 54 => ⟨S_, .f32⟩
  | 55 => ⟨S200000, .f32⟩
  | 56 => ⟨S200000, .i1⟩
  | 57 => ⟨S200000, .f32⟩
  | 58 => ⟨S_, .f32⟩
  | 59 => ⟨S_, .f32⟩
  | 60 => ⟨S200000, .f32⟩
  | 61 => ⟨S200000, .f32⟩
  | 62 => ⟨S_, .i32⟩
  | 63 => ⟨S1800000, .i32⟩
  | 64 => ⟨S1800000, .i1⟩
  | 65 => ⟨S_, .i32⟩
  | 66 => ⟨S1800000, .i32⟩
  | 67 => ⟨S1800000, .i32⟩
  | 68 => ⟨S1800000, .i32⟩
  | 69 => ⟨S1800000x1, .i32⟩
  | 70 => ⟨S1800000x128, .f32⟩
  | 71 => ⟨S_, .i32⟩
  | 72 => ⟨S1800000, .i32⟩
  | 73 => ⟨S1800000, .i1⟩
  | 74 => ⟨S_, .i32⟩
  | 75 => ⟨S1800000, .i32⟩
  | 76 => ⟨S1800000, .i32⟩
  | 77 => ⟨S1800000, .i32⟩
  | 78 => ⟨S1800000x1, .i32⟩
  | 79 => ⟨S1800000, .f32⟩
  | 80 => ⟨S_, .i32⟩
  | 81 => ⟨S1800000, .i32⟩
  | 82 => ⟨S1800000, .i1⟩
  | 83 => ⟨S_, .i32⟩
  | 84 => ⟨S1800000, .i32⟩
  | 85 => ⟨S1800000, .i32⟩
  | 86 => ⟨S1800000, .i32⟩
  | 87 => ⟨S1800000x1, .i32⟩
  | 88 => ⟨S1800000, .f32⟩
  | 89 => ⟨S1800000, .f32⟩
  | 90 => ⟨S1800000x1, .f32⟩
  | 91 => ⟨S1800000x128, .f32⟩
  | 92 => ⟨S1800000x128, .f32⟩
  | 93 => ⟨S_, .f32⟩
  | 94 => ⟨S200000x128, .f32⟩
  | 95 => ⟨S1800000x1, .i32⟩
  | 96 => ⟨S200000x128, .f32⟩
  | 97 => ⟨S1x128, .f32⟩
  | 98 => ⟨S200000x128, .f32⟩
  | 99 => ⟨S200000x128, .f32⟩
  | 100 => ⟨S_, .f32⟩
  | 101 => ⟨S200000x128, .f32⟩
  | 102 => ⟨S200000x128, .f32⟩
  | 103 => ⟨S_, .f32⟩
  | 104 => ⟨S50000x128, .f32⟩
  | 105 => ⟨S200000x1, .i32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S50000, .i32⟩
  | 116 => ⟨S1x400000, .i32⟩
  | 117 => ⟨S400000, .i32⟩
  | 118 => ⟨S450000, .i32⟩
  | 119 => ⟨S1x400000, .i32⟩
  | 120 => ⟨S400000, .i32⟩
  | 121 => ⟨S450000, .i32⟩
  | 122 => ⟨S_, .f32⟩
  | 123 => ⟨S450000, .f32⟩
  | 124 => ⟨S_, .f32⟩
  | 125 => ⟨S50000, .f32⟩
  | 126 => ⟨S450000x1, .i32⟩
  | 127 => ⟨S50000, .f32⟩
  | _ => ⟨S50000x1544, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S450000, .i32⟩
  | 10 => ⟨S450000, .i1⟩
  | 11 => ⟨S_, .i32⟩
  | 12 => ⟨S450000, .i32⟩
  | 13 => ⟨S450000, .i32⟩
  | 14 => ⟨S450000, .i32⟩
  | 15 => ⟨S450000x1, .i32⟩
  | 16 => ⟨S450000x128, .f32⟩
  | 17 => ⟨S_, .i32⟩
  | 18 => ⟨S450000, .i32⟩
  | 19 => ⟨S450000, .i1⟩
  | 20 => ⟨S_, .i32⟩
  | 21 => ⟨S450000, .i32⟩
  | 22 => ⟨S450000, .i32⟩
  | 23 => ⟨S450000, .i32⟩
  | 24 => ⟨S450000x1, .i32⟩
  | 25 => ⟨S450000, .f32⟩
  | 26 => ⟨S_, .i32⟩
  | 27 => ⟨S450000, .i32⟩
  | 28 => ⟨S450000, .i1⟩
  | 29 => ⟨S_, .i32⟩
  | 30 => ⟨S450000, .i32⟩
  | 31 => ⟨S450000, .i32⟩
  | 32 => ⟨S450000, .i32⟩
  | 33 => ⟨S450000x1, .i32⟩
  | 34 => ⟨S450000, .f32⟩
  | 35 => ⟨S450000, .f32⟩
  | 36 => ⟨S450000x1, .f32⟩
  | 37 => ⟨S450000x128, .f32⟩
  | 38 => ⟨S450000x128, .f32⟩
  | 39 => ⟨S_, .f32⟩
  | 40 => ⟨S50000x128, .f32⟩
  | 41 => ⟨S450000x1, .i32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S12500x128, .f32⟩
  | 51 => ⟨S50000x1, .i32⟩
  | 52 => ⟨S12500x128, .f32⟩
  | 53 => ⟨S_, .f32⟩
  | 54 => ⟨S12500x128, .f32⟩
  | 55 => ⟨S12500x128, .f32⟩
  | 56 => ⟨S1x128x128, .f32⟩
  | 57 => ⟨S128x128, .f32⟩
  | 58 => ⟨S12500x128, .f32⟩
  | 59 => ⟨S1x128, .f32⟩
  | 60 => ⟨S128, .f32⟩
  | 61 => ⟨S12500, .i32⟩
  | 62 => ⟨S1x100000, .i32⟩
  | 63 => ⟨S100000, .i32⟩
  | 64 => ⟨S112500, .i32⟩
  | 65 => ⟨S1x100000, .i32⟩
  | 66 => ⟨S100000, .i32⟩
  | 67 => ⟨S112500, .i32⟩
  | 68 => ⟨S_, .f32⟩
  | 69 => ⟨S112500, .f32⟩
  | 70 => ⟨S_, .f32⟩
  | 71 => ⟨S12500, .f32⟩
  | 72 => ⟨S112500x1, .i32⟩
  | 73 => ⟨S12500, .f32⟩
  | 74 => ⟨S_, .f32⟩
  | 75 => ⟨S12500, .f32⟩
  | 76 => ⟨S12500, .i1⟩
  | 77 => ⟨S12500, .f32⟩
  | 78 => ⟨S_, .f32⟩
  | 79 => ⟨S_, .f32⟩
  | 80 => ⟨S12500, .f32⟩
  | 81 => ⟨S12500, .f32⟩
  | 82 => ⟨S_, .i32⟩
  | 83 => ⟨S112500, .i32⟩
  | 84 => ⟨S112500, .i1⟩
  | 85 => ⟨S_, .i32⟩
  | 86 => ⟨S112500, .i32⟩
  | 87 => ⟨S112500, .i32⟩
  | 88 => ⟨S112500, .i32⟩
  | 89 => ⟨S112500x1, .i32⟩
  | 90 => ⟨S112500x128, .f32⟩
  | 91 => ⟨S_, .i32⟩
  | 92 => ⟨S112500, .i32⟩
  | 93 => ⟨S112500, .i1⟩
  | 94 => ⟨S_, .i32⟩
  | 95 => ⟨S112500, .i32⟩
  | 96 => ⟨S112500, .i32⟩
  | 97 => ⟨S112500, .i32⟩
  | 98 => ⟨S112500x1, .i32⟩
  | 99 => ⟨S112500, .f32⟩
  | 100 => ⟨S_, .i32⟩
  | 101 => ⟨S112500, .i32⟩
  | 102 => ⟨S112500, .i1⟩
  | 103 => ⟨S_, .i32⟩
  | 104 => ⟨S112500, .i32⟩
  | 105 => ⟨S112500, .i32⟩
  | 106 => ⟨S112500, .i32⟩
  | 107 => ⟨S112500x1, .i32⟩
  | 108 => ⟨S112500, .f32⟩
  | 109 => ⟨S112500, .f32⟩
  | 110 => ⟨S112500x1, .f32⟩
  | 111 => ⟨S112500x128, .f32⟩
  | 112 => ⟨S112500x128, .f32⟩
  | 113 => ⟨S_, .f32⟩
  | 114 => ⟨S12500x128, .f32⟩
  | 115 => ⟨S112500x1, .i32⟩
  | 116 => ⟨S12500x128, .f32⟩
  | 117 => ⟨S1x128, .f32⟩
  | 118 => ⟨S12500x128, .f32⟩
  | 119 => ⟨S12500x128, .f32⟩
  | 120 => ⟨S_, .f32⟩
  | 121 => ⟨S12500x128, .f32⟩
  | 122 => ⟨S12500x128, .f32⟩
  | 123 => ⟨S_, .f32⟩
  | 124 => ⟨S128x128, .f32⟩
  | 125 => ⟨S50000x1, .i32⟩
  | 126 => ⟨S128x128, .f32⟩
  | 127 => ⟨S_, .f32⟩
  | _ => ⟨S50000x1544, .f32⟩

abbrev hbmTy0_2 (i : Nat) : BufTy := match i % 128 with
  | 0 => ⟨S128x128, .f32⟩
  | 1 => ⟨S12500x1, .i32⟩
  | 2 => ⟨S128x128, .f32⟩
  | 3 => ⟨S_, .f32⟩
  | 4 => ⟨S128x128, .f32⟩
  | 5 => ⟨S12500x1, .i32⟩
  | 6 => ⟨S128x128, .f32⟩
  | 7 => ⟨S128x384, .f32⟩
  | 8 => ⟨S128x128, .f32⟩
  | 9 => ⟨S128x128, .f32⟩
  | _ => ⟨S50000x1544, .f32⟩

abbrev hbmTy (i : Nat) : BufTy := match i / 128 with
  | 0 => hbmTy0_0 i
  | 1 => hbmTy0_1 i
  | 2 => hbmTy0_2 i
  | _ => ⟨S50000x1544, .f32⟩

abbrev bufTy : (tb : Table) → Fin (tcTables nBuf tb) → BufTy
  | .hbm, ⟨i, _⟩ => hbmTy i
  | .local _ .vmem, ⟨0, _⟩ => ⟨S2000x1544, .f32⟩
  | .local _ .vmem, ⟨1, _⟩ => ⟨S2000x1544, .f32⟩
  | .local _ .vmem, ⟨2, _⟩ => ⟨S6x32, .f32⟩
  | .local _ .vmem, ⟨3, _⟩ => ⟨S32, .f32⟩
  | .local _ .vmem, ⟨4, _⟩ => ⟨S768x32, .f32⟩
  | .local _ .vmem, ⟨5, _⟩ => ⟨S32, .f32⟩
  | .local _ .vmem, ⟨6, _⟩ => ⟨S2x32, .f32⟩
  | .local _ .vmem, ⟨7, _⟩ => ⟨S32, .f32⟩
  | .local _ .vmem, ⟨8, _⟩ => ⟨S768x32, .f32⟩
  | .local _ .vmem, ⟨9, _⟩ => ⟨S32, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S4000x128, .f32⟩
  | .local _ .vmem, ⟨19, _⟩ => ⟨S4000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S12500x128, .f32⟩
  | .local _ .vmem, ⟨26, _⟩ => ⟨S128x128, .f32⟩
  | .local _ .vmem, ⟨27, _⟩ => ⟨S12500x128, .f32⟩
  | .local _ .vmem, ⟨28, _⟩ => ⟨S128x384, .f32⟩
  | .local _ .vmem, ⟨29, _⟩ => ⟨S384x128, .f32⟩
  | .local _ .vmem, ⟨30, _⟩ => ⟨S128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128, .f32⟩
  | .local _ .vmem, ⟨35, _⟩ => ⟨S128x128, .f32⟩
  | _, _ => ⟨S50000x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst : Ref sig .tc := ⟨.hbm, 48, rfl⟩
abbrev main_v20 : Ref sig .tc := ⟨.hbm, 49, rfl⟩
abbrev main_cst_1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_call0_v0 : Ref sig .tc := ⟨.hbm, 59, rfl⟩
abbrev main_call0_v1 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_6 : Ref sig .tc := ⟨.hbm, 71, rfl⟩
abbrev main_v35 : Ref sig .tc := ⟨.hbm, 72, rfl⟩
abbrev main_v36 : Ref sig .tc := ⟨.hbm, 73, rfl⟩
abbrev main_c_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_8 : Ref sig .tc := ⟨.hbm, 80, rfl⟩
abbrev main_v42 : Ref sig .tc := ⟨.hbm, 81, rfl⟩
abbrev main_v43 : Ref sig .tc := ⟨.hbm, 82, rfl⟩
abbrev main_c_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_10 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_11 : Ref sig .tc := ⟨.hbm, 100, rfl⟩
abbrev main_v59 : Ref sig .tc := ⟨.hbm, 101, rfl⟩
abbrev main_v60 : Ref sig .tc := ⟨.hbm, 102, rfl⟩
abbrev main_cst_12 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_13 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_14 : Ref sig .tc := ⟨.hbm, 122, rfl⟩
abbrev main_v78 : Ref sig .tc := ⟨.hbm, 123, rfl⟩
abbrev main_cst_15 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_17 : Ref sig .tc := ⟨.hbm, 132, rfl⟩
abbrev main_call1_v0 : Ref sig .tc := ⟨.hbm, 133, rfl⟩
abbrev main_call1_v1 : Ref sig .tc := ⟨.hbm, 134, rfl⟩
abbrev main_v85 : Ref sig .tc := ⟨.hbm, 135, rfl⟩
abbrev main_c_18 : Ref sig .tc := ⟨.hbm, 136, rfl⟩
abbrev main_v86 : Ref sig .tc := ⟨.hbm, 137, rfl⟩
abbrev main_v87 : Ref sig .tc := ⟨.hbm, 138, rfl⟩
abbrev main_c_19 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_20 : Ref sig .tc := ⟨.hbm, 145, rfl⟩
abbrev main_v93 : Ref sig .tc := ⟨.hbm, 146, rfl⟩
abbrev main_v94 : Ref sig .tc := ⟨.hbm, 147, rfl⟩
abbrev main_c_21 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_22 : Ref sig .tc := ⟨.hbm, 154, rfl⟩
abbrev main_v100 : Ref sig .tc := ⟨.hbm, 155, rfl⟩
abbrev main_v101 : Ref sig .tc := ⟨.hbm, 156, rfl⟩
abbrev main_c_23 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_24 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_25 : Ref sig .tc := ⟨.hbm, 174, rfl⟩
abbrev main_v117 : Ref sig .tc := ⟨.hbm, 175, rfl⟩
abbrev main_v118 : Ref sig .tc := ⟨.hbm, 176, rfl⟩
abbrev main_cst_26 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_27 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_28 : Ref sig .tc := ⟨.hbm, 196, rfl⟩
abbrev main_v136 : Ref sig .tc := ⟨.hbm, 197, rfl⟩
abbrev main_cst_29 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_30 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_31 : Ref sig .tc := ⟨.hbm, 206, rfl⟩
abbrev main_call2_v0 : Ref sig .tc := ⟨.hbm, 207, rfl⟩
abbrev main_call2_v1 : Ref sig .tc := ⟨.hbm, 208, rfl⟩
abbrev main_v143 : Ref sig .tc := ⟨.hbm, 209, rfl⟩
abbrev main_c_32 : Ref sig .tc := ⟨.hbm, 210, rfl⟩
abbrev main_v144 : Ref sig .tc := ⟨.hbm, 211, rfl⟩
abbrev main_v145 : Ref sig .tc := ⟨.hbm, 212, rfl⟩
abbrev main_c_33 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_c_34 : Ref sig .tc := ⟨.hbm, 219, rfl⟩
abbrev main_v151 : Ref sig .tc := ⟨.hbm, 220, rfl⟩
abbrev main_v152 : Ref sig .tc := ⟨.hbm, 221, rfl⟩
abbrev main_c_35 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_c_36 : Ref sig .tc := ⟨.hbm, 228, rfl⟩
abbrev main_v158 : Ref sig .tc := ⟨.hbm, 229, rfl⟩
abbrev main_v159 : Ref sig .tc := ⟨.hbm, 230, rfl⟩
abbrev main_c_37 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_cst_38 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_cst_39 : Ref sig .tc := ⟨.hbm, 248, rfl⟩
abbrev main_v175 : Ref sig .tc := ⟨.hbm, 249, rfl⟩
abbrev main_v176 : Ref sig .tc := ⟨.hbm, 250, rfl⟩
abbrev main_cst_40 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_cst_41 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_42 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg2_0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem1_0 : DmaSem sig := 26
abbrev cc3_sem2_0 : DmaSem sig := 27
abbrev cc4_sem0_0 : DmaSem sig := 28
abbrev cc4_sem1_0 : DmaSem sig := 29
abbrev cc4_sem2_0 : DmaSem sig := 30
abbrev cc4_sem3_0 : DmaSem sig := 31
abbrev cc5_sem0_0 : DmaSem sig := 32
abbrev cc5_sem1_0 : DmaSem sig := 33
abbrev cc5_sem2_0 : DmaSem sig := 34
abbrev cc5_sem3_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S12500x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S12500x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x384 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  inb_S2000x1544_S2000x1544_0_0 : ∀ a, (![0, 0] : Fin 2 → Nat) a + S2000x1544.size a ≤ S2000x1544.size a
  h_S2000x1544 : 0 < S2000x1544.numel
  slices_S2000x1544_o0_0_S2000x6 : S2000x1544.Slices ![0, 0] S2000x6
  slices_S2000x1544_o0_6_S2000x768 : S2000x1544.Slices ![0, 6] S2000x768
  slices_S2000x1544_o0_774_S2000x2 : S2000x1544.Slices ![0, 774] S2000x2
  slices_S2000x1544_o0_776_S2000x768 : S2000x1544.Slices ![0, 776] S2000x768
  inb_S6x32_S6x32_0_0 : ∀ a, (![0, 0] : Fin 2 → Nat) a + S6x32.size a ≤ S6x32.size a
  h_S6x32 : 0 < S6x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S768x32_S768x32_0_0 : ∀ a, (![0, 0] : Fin 2 → Nat) a + S768x32.size a ≤ S768x32.size a
  h_S768x32 : 0 < S768x32.numel
  inb_S2x32_S2x32_0_0 : ∀ a, (![0, 0] : Fin 2 → Nat) a + S2x32.size a ≤ S2x32.size a
  h_S2x32 : 0 < S2x32.numel
  concatenates_S2000x32_S2000x32_S2000x32_S2000x32_S2000x128_d1 : Shape.Concatenates [S2000x32, S2000x32, S2000x32, S2000x32] S2000x128 1
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S200000 : S_.BroadcastsInDim S200000 (![] : Fin 0 → Fin S200000.rank)
  bcast_S200000_S200000x1_0 : S200000.BroadcastsInDim S200000x1 (![0] : Fin 1 → Fin S200000x1.rank)
  slices_S3x128x128_S1x128x128_0_0_0 : S3x128x128.Slices ![0, 0, 0] S1x128x128
  shapeCasts_S1x128x128_S128x128 : S1x128x128.ShapeCasts S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  slices_S3x128_S1x128_0_0 : S3x128.Slices ![0, 0] S1x128
  shapeCasts_S1x128_S128 : S1x128.ShapeCasts S128
  slices_S2x1600000_S1x1600000_0_0 : S2x1600000.Slices ![0, 0] S1x1600000
  shapeCasts_S1x1600000_S1600000 : S1x1600000.ShapeCasts S1600000
  concatenates_S1600000_S200000_S1800000_d0 : Shape.Concatenates [S1600000, S200000] S1800000 0
  slices_S2x1600000_S1x1600000_1_0 : S2x1600000.Slices ![1, 0] S1x1600000
  bcast_S_S1800000 : S_.BroadcastsInDim S1800000 (![] : Fin 0 → Fin S1800000.rank)
  bcast_S1800000_S1800000x1_0 : S1800000.BroadcastsInDim S1800000x1 (![0] : Fin 1 → Fin S1800000x1.rank)
  bcast_S1800000x1_S1800000x128_0_1 : S1800000x1.BroadcastsInDim S1800000x128 (![0, 1] : Fin 2 → Fin S1800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  slices_S3x128x128_S1x128x128_1_0_0 : S3x128x128.Slices ![1, 0, 0] S1x128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S3x128_S1x128_1_0 : S3x128.Slices ![1, 0] S1x128
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x128_0_1 : S450000x1.BroadcastsInDim S450000x128 (![0, 1] : Fin 2 → Fin S450000x128.rank)
  bcast_S1x128_S50000x128_0_1 : S1x128.BroadcastsInDim S50000x128 (![0, 1] : Fin 2 → Fin S50000x128.rank)
  bcast_S_S12500x128 : S_.BroadcastsInDim S12500x128 (![] : Fin 0 → Fin S12500x128.rank)
  bcast_S50000_S50000x1_0 : S50000.BroadcastsInDim S50000x1 (![0] : Fin 1 → Fin S50000x1.rank)
  slices_S3x128x128_S1x128x128_2_0_0 : S3x128x128.Slices ![2, 0, 0] S1x128x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  slices_S3x128_S1x128_2_0 : S3x128.Slices ![2, 0] S1x128
  slices_S2x100000_S1x100000_0_0 : S2x100000.Slices ![0, 0] S1x100000
  shapeCasts_S1x100000_S100000 : S1x100000.ShapeCasts S100000
  concatenates_S100000_S12500_S112500_d0 : Shape.Concatenates [S100000, S12500] S112500 0
  slices_S2x100000_S1x100000_1_0 : S2x100000.Slices ![1, 0] S1x100000
  bcast_S_S112500 : S_.BroadcastsInDim S112500 (![] : Fin 0 → Fin S112500.rank)
  bcast_S_S12500 : S_.BroadcastsInDim S12500 (![] : Fin 0 → Fin S12500.rank)
  bcast_S112500_S112500x1_0 : S112500.BroadcastsInDim S112500x1 (![0] : Fin 1 → Fin S112500x1.rank)
  bcast_S112500x1_S112500x128_0_1 : S112500x1.BroadcastsInDim S112500x128 (![0, 1] : Fin 2 → Fin S112500x128.rank)
  bcast_S1x128_S12500x128_0_1 : S1x128.BroadcastsInDim S12500x128 (![0, 1] : Fin 2 → Fin S12500x128.rank)
  bcast_S_S128x128 : S_.BroadcastsInDim S128x128 (![] : Fin 0 → Fin S128x128.rank)
  bcast_S12500_S12500x1_0 : S12500.BroadcastsInDim S12500x1 (![0] : Fin 1 → Fin S12500x1.rank)
  concatenates_S128x128_S128x128_S128x128_S128x384_d1 : Shape.Concatenates [S128x128, S128x128, S128x128] S128x384 1
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384x128_S384x128_0_0 : ∀ a, (![0, 0] : Fin 2 → Nat) a + S384x128.size a ≤ S384x128.size a
  h_S384x128 : 0 < S384x128.numel
  broadcasts_S1x128_S128x128 : S1x128.Broadcasts S128x128
  dot_S2000x6_S6x32_S2000x32_1_0_0_1_n_n_wf : DotDims.WF S2000x6 S6x32 S2000x32 [1] [0] [0] [1] [] []
  dot_S2000x768_S768x32_S2000x32_1_0_0_1_n_n_wf : DotDims.WF S2000x768 S768x32 S2000x32 [1] [0] [0] [1] [] []
  dot_S2000x2_S2x32_S2000x32_1_0_0_1_n_n_wf : DotDims.WF S2000x2 S2x32 S2000x32 [1] [0] [0] [1] [] []
  dot_S2000x128_S128x128_S2000x128_1_0_0_1_n_n_wf : DotDims.WF S2000x128 S128x128 S2000x128 [1] [0] [0] [1] [] []
  gather_S50000x128_S200000x1_S200000x128_1_0_n_n_0_1_1128_wf : GatherDims.WF S50000x128 S200000x1 S200000x128 [1] [0] [] [0] [] 1 ![1, 128]
  dot_S4000x128_S128x128_S4000x128_1_0_0_1_n_n_wf : DotDims.WF S4000x128 S128x128 S4000x128 [1] [0] [0] [1] [] []
  scatter_S200000_S1800000x1_S1800000_n_0_0_1_wf : ScatterDims.WF S200000 S1800000x1 S1800000 [] [0] [0] 1
  gather_S200000x128_S1800000x1_S1800000x128_1_0_n_n_0_1_1128_wf : GatherDims.WF S200000x128 S1800000x1 S1800000x128 [1] [0] [] [0] [] 1 ![1, 128]
  gather_S200000_S1800000x1_S1800000_n_0_n_n_0_1_1_wf : GatherDims.WF S200000 S1800000x1 S1800000 [] [0] [] [0] [] 1 ![1]
  scatter_S200000x128_S1800000x1_S1800000x128_1_0_0_1_wf : ScatterDims.WF S200000x128 S1800000x1 S1800000x128 [1] [0] [0] 1
  scatter_S50000x128_S200000x1_S200000x128_1_0_0_1_wf : ScatterDims.WF S50000x128 S200000x1 S200000x128 [1] [0] [0] 1
  dot_S5000x128_S128x128_S5000x128_1_0_0_1_n_n_wf : DotDims.WF S5000x128 S128x128 S5000x128 [1] [0] [0] [1] [] []
  scatter_S50000_S450000x1_S450000_n_0_0_1_wf : ScatterDims.WF S50000 S450000x1 S450000 [] [0] [0] 1
  gather_S50000x128_S450000x1_S450000x128_1_0_n_n_0_1_1128_wf : GatherDims.WF S50000x128 S450000x1 S450000x128 [1] [0] [] [0] [] 1 ![1, 128]
  gather_S50000_S450000x1_S450000_n_0_n_n_0_1_1_wf : GatherDims.WF S50000 S450000x1 S450000 [] [0] [] [0] [] 1 ![1]
  scatter_S50000x128_S450000x1_S450000x128_1_0_0_1_wf : ScatterDims.WF S50000x128 S450000x1 S450000x128 [1] [0] [0] 1
  scatter_S12500x128_S50000x1_S50000x128_1_0_0_1_wf : ScatterDims.WF S12500x128 S50000x1 S50000x128 [1] [0] [0] 1
  dot_S12500x128_S128x128_S12500x128_1_0_0_1_n_n_wf : DotDims.WF S12500x128 S128x128 S12500x128 [1] [0] [0] [1] [] []
  scatter_S12500_S112500x1_S112500_n_0_0_1_wf : ScatterDims.WF S12500 S112500x1 S112500 [] [0] [0] 1
  gather_S12500x128_S112500x1_S112500x128_1_0_n_n_0_1_1128_wf : GatherDims.WF S12500x128 S112500x1 S112500x128 [1] [0] [] [0] [] 1 ![1, 128]
  gather_S12500_S112500x1_S112500_n_0_n_n_0_1_1_wf : GatherDims.WF S12500 S112500x1 S112500 [] [0] [] [0] [] 1 ![1]
  scatter_S12500x128_S112500x1_S112500x128_1_0_0_1_wf : ScatterDims.WF S12500x128 S112500x1 S112500x128 [1] [0] [0] 1
  scatter_S128x128_S50000x1_S50000x128_1_0_0_1_wf : ScatterDims.WF S128x128 S50000x1 S50000x128 [1] [0] [0] 1
  scatter_S128x128_S12500x1_S12500x128_1_0_0_1_wf : ScatterDims.WF S128x128 S12500x1 S12500x128 [1] [0] [0] 1
  dot_S128x384_S384x128_S128x128_1_0_0_1_n_n_wf : DotDims.WF S128x384 S384x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1544.size a ≤ S50000x1544.size a
  hwx0_0 : ∀ i : grid0.Coords, EltTy.bits .f32 = 32 ∨ (Rect.block (s := S50000x1544) S2000x1544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x32.size a ≤ S768x32.size a
  hwx0_3 : ∀ i : grid0.Coords, EltTy.bits .f32 = 32 ∨ (Rect.block (s := S768x32) S768x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .f32 = 32 ∨ (Rect.block (s := S2x32) S2x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x32.size a ≤ S768x32.size a
  hwx0_7 : ∀ i : grid0.Coords, EltTy.bits .f32 = 32 ∨ (Rect.block (s := S768x32) S768x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S200000x128.size a
  hwx1_2 : ∀ i : grid1.Coords, EltTy.bits .f32 = 32 ∨ (Rect.block (s := S200000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S12500x128.size a ≤ S12500x128.size a
  hwx3_0 : ∀ i : grid3.Coords, EltTy.bits .f32 = 32 ∨ (Rect.block (s := S12500x128) S12500x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S12500x128.size a ≤ S12500x128.size a
  hwx3_2 : ∀ i : grid3.Coords, EltTy.bits .f32 = 32 ∨ (Rect.block (s := S12500x128) S12500x128.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S128x384.size a ≤ S128x384.size a
  hwx4_0 : ∀ i : grid4.Coords, EltTy.bits .f32 = 32 ∨ (Rect.block (s := S128x384) S128x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S128x128.size a
  hwx5_0 : ∀ i : grid5.Coords, EltTy.bits .f32 = 32 ∨ (Rect.block (s := S128x128) S128x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)

variable [Facts₀]

def dot_S2000x6_S6x32_S2000x32_1_0_0_1_n_n : DotDims S2000x6 S6x32 S2000x32 where
  lhsContracting := [1]
  rhsContracting := [0]
  lhsNonContracting := [0]
  rhsNonContracting := [1]
  lhsBatch := []
  rhsBatch := []
  wf := dot_S2000x6_S6x32_S2000x32_1_0_0_1_n_n_wf
def dot_S2000x768_S768x32_S2000x32_1_0_0_1_n_n : DotDims S2000x768 S768x32 S2000x32 where
  lhsContracting := [1]
  rhsContracting := [0]
  lhsNonContracting := [0]
  rhsNonContracting := [1]
  lhsBatch := []
  rhsBatch := []
  wf := dot_S2000x768_S768x32_S2000x32_1_0_0_1_n_n_wf
def dot_S2000x2_S2x32_S2000x32_1_0_0_1_n_n : DotDims S2000x2 S2x32 S2000x32 where
  lhsContracting := [1]
  rhsContracting := [0]
  lhsNonContracting := [0]
  rhsNonContracting := [1]
  lhsBatch := []
  rhsBatch := []
  wf := dot_S2000x2_S2x32_S2000x32_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S200000_S1800000x1_S1800000_n_0_0_1 : ScatterDims S200000 S1800000x1 S1800000 where
  updateWindowDims := []
  insertedWindowDims := [0]
  scatterDimsToOperandDims := [0]
  indexVectorDim := 1
  wf := scatter_S200000_S1800000x1_S1800000_n_0_0_1_wf
def gather_S200000x128_S1800000x1_S1800000x128_1_0_n_n_0_1_1128 : GatherDims S200000x128 S1800000x1 S1800000x128 where
  offsetDims := [1]
  collapsedSliceDims := [0]
  operandBatchingDims := []
  startIndicesBatchingDims := []
  startIndexMap := [0]
  indexVectorDim := 1
  sliceSizes := ![1, 128]
  wf := gather_S200000x128_S1800000x1_S1800000x128_1_0_n_n_0_1_1128_wf
def gather_S200000_S1800000x1_S1800000_n_0_n_n_0_1_1 : GatherDims S200000 S1800000x1 S1800000 where
  offsetDims := []
  collapsedSliceDims := [0]
  operandBatchingDims := []
  startIndicesBatchingDims := []
  startIndexMap := [0]
  indexVectorDim := 1
  sliceSizes := ![1]
  wf := gather_S200000_S1800000x1_S1800000_n_0_n_n_0_1_1_wf
def scatter_S200000x128_S1800000x1_S1800000x128_1_0_0_1 : ScatterDims S200000x128 S1800000x1 S1800000x128 where
  updateWindowDims := [1]
  insertedWindowDims := [0]
  scatterDimsToOperandDims := [0]
  indexVectorDim := 1
  wf := scatter_S200000x128_S1800000x1_S1800000x128_1_0_0_1_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def scatter_S12500x128_S50000x1_S50000x128_1_0_0_1 : ScatterDims S12500x128 S50000x1 S50000x128 where
  updateWindowDims := [1]
  insertedWindowDims := [0]
  scatterDimsToOperandDims := [0]
  indexVectorDim := 1
  wf := scatter_S12500x128_S50000x1_S50000x128_1_0_0_1_wf
def dot_S12500x128_S128x128_S12500x128_1_0_0_1_n_n : DotDims S12500x128 S128x128 S12500x128 where
  lhsContracting := [1]
  rhsContracting := [0]
  lhsNonContracting := [0]
  rhsNonContracting := [1]
  lhsBatch := []
  rhsBatch := []
  wf := dot_S12500x128_S128x128_S12500x128_1_0_0_1_n_n_wf
def scatter_S12500_S112500x1_S112500_n_0_0_1 : ScatterDims S12500 S112500x1 S112500 where
  updateWindowDims := []
  insertedWindowDims := [0]
  scatterDimsToOperandDims := [0]
  indexVectorDim := 1
  wf := scatter_S12500_S112500x1_S112500_n_0_0_1_wf
def gather_S12500x128_S112500x1_S112500x128_1_0_n_n_0_1_1128 : GatherDims S12500x128 S112500x1 S112500x128 where
  offsetDims := [1]
  collapsedSliceDims := [0]
  operandBatchingDims := []
  startIndicesBatchingDims := []
  startIndexMap := [0]
  indexVectorDim := 1
  sliceSizes := ![1, 128]
  wf := gather_S12500x128_S112500x1_S112500x128_1_0_n_n_0_1_1128_wf
def gather_S12500_S112500x1_S112500_n_0_n_n_0_1_1 : GatherDims S12500 S112500x1 S112500 where
  offsetDims := []
  collapsedSliceDims := [0]
  operandBatchingDims := []
  startIndicesBatchingDims := []
  startIndexMap := [0]
  indexVectorDim := 1
  sliceSizes := ![1]
  wf := gather_S12500_S112500x1_S112500_n_0_n_n_0_1_1_wf
def scatter_S12500x128_S112500x1_S112500x128_1_0_0_1 : ScatterDims S12500x128 S112500x1 S112500x128 where
  updateWindowDims := [1]
  insertedWindowDims := [0]
  scatterDimsToOperandDims := [0]
  indexVectorDim := 1
  wf := scatter_S12500x128_S112500x1_S112500x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128x128_S12500x1_S12500x128_1_0_0_1 : ScatterDims S128x128 S12500x1 S12500x128 where
  updateWindowDims := [1]
  insertedWindowDims := [0]
  scatterDimsToOperandDims := [0]
  indexVectorDim := 1
  wf := scatter_S128x128_S12500x1_S12500x128_1_0_0_1_wf
def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S2000x1544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S768x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v123) S12500x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v125) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v126) S12500x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v186) S128x384.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v187) S128x128.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v187) S128x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v188) S128x128.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x1544 : Shape := ⟨2, ![50000, 1544]⟩
abbrev S768x32 : Shape := ⟨2, ![768, 32]⟩
abbrev S32 : Shape := ⟨1, ![32]⟩
abbrev S6x32 : Shape := ⟨2, ![6, 32]⟩
abbrev S2x32 : Shape := ⟨2, ![2, 32]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S384x128 : Shape := ⟨2, ![384, 128]⟩
abbrev S200000 : Shape := ⟨1, ![200000]⟩
abbrev S2x1600000 : Shape := ⟨2, ![2, 1600000]⟩
abbrev S2x400000 : Shape := ⟨2, ![2, 400000]⟩
abbrev S2x100000 : Shape := ⟨2, ![2, 100000]⟩
abbrev S50000 : Shape := ⟨1, ![50000]⟩
abbrev S12500 : Shape := ⟨1, ![12500]⟩
abbrev S50000x6 : Shape := ⟨2, ![50000, 6]⟩
abbrev S50000x32 : Shape := ⟨2, ![50000, 32]⟩
abbrev S1x32 : Shape := ⟨2, ![1, 32]⟩
abbrev S_ : Shape := ⟨0, ![]⟩
abbrev S50000x768 : Shape := ⟨2, ![50000, 768]⟩
abbrev S50000x2 : Shape := ⟨2, ![50000, 2]⟩
abbrev S50000x128 : Shape := ⟨2, ![50000, 128]⟩
abbrev S1x128 : Shape := ⟨2, ![1, 128]⟩
abbrev S200000x1 : Shape := ⟨2, ![200000, 1]⟩
abbrev S200000x128 : Shape := ⟨2, ![200000, 128]⟩
abbrev S1x128x128 : Shape := ⟨3, ![1, 128, 128]⟩
abbrev S1x1600000 : Shape := ⟨2, ![1, 1600000]⟩
abbrev S1600000 : Shape := ⟨1, ![1600000]⟩
abbrev S1800000 : Shape := ⟨1, ![1800000]⟩
abbrev S1800000x1 : Shape := ⟨2, ![1800000, 1]⟩
abbrev S1800000x128 : Shape := ⟨2, ![1800000, 128]⟩
abbrev S1x400000 : Shape := ⟨2, ![1, 400000]⟩
abbrev S400000 : Shape := ⟨1, ![400000]⟩
abbrev S450000 : Shape := ⟨1, ![450000]⟩
abbrev S450000x1 : Shape := ⟨2, ![450000, 1]⟩
abbrev S450000x128 : Shape := ⟨2, ![450000, 128]⟩
abbrev S12500x128 : Shape := ⟨2, ![12500, 128]⟩
abbrev S50000x1 : Shape := ⟨2, ![50000, 1]⟩
abbrev S1x100000 : Shape := ⟨2, ![1, 100000]⟩
abbrev S100000 : Shape := ⟨1, ![100000]⟩
abbrev S112500 : Shape := ⟨1, ![112500]⟩
abbrev S112500x1 : Shape := ⟨2, ![112500, 1]⟩
abbrev S112500x128 : Shape := ⟨2, ![112500, 128]⟩
abbrev S12500x1 : Shape := ⟨2, ![12500, 1]⟩
abbrev S128x384 : Shape := ⟨2, ![128, 384]⟩

abbrev nBuf : Space → Nat
  | .hbm => 334
  | .vmem => 0
  | .smem => 0
  | _ => 0

abbrev hbmTy0_0 (i : Nat) : BufTy := match i % 128 with
  | 0 => ⟨S50000x1544, .f32⟩
  | 1 => ⟨S768x32, .f32⟩
  | 2 => ⟨S32, .f32⟩
  | 3 => ⟨S768x32, .f32⟩
  | 4 => ⟨S32, .f32⟩
  | 5 => ⟨S6x32, .f32⟩
  | 6 => ⟨S32, .f32⟩
  | 7 => ⟨S2x32, .f32⟩
  | 8 => ⟨S32, .f32⟩
  | 9 => ⟨S128x128, .f32⟩
  | 10 => ⟨S128, .f32⟩
  | 11 => ⟨S128, .f32⟩
  | 12 => ⟨S3x128x128, .f32⟩
  | 13 => ⟨S3x128, .f32⟩
  | 14 => ⟨S384x128, .f32⟩
  | 15 => ⟨S128, .f32⟩
  | 16 => ⟨S128x128, .f32⟩
  | 17 => ⟨S128, .f32⟩
  | 18 => ⟨S200000, .i32⟩
  | 19 => ⟨S2x1600000, .i32⟩
  | 20 => ⟨S2x400000, .i32⟩
  | 21 => ⟨S2x100000, .i32⟩
  | 22 => ⟨S200000, .i32⟩
  | 23 => ⟨S50000, .i32⟩
  | 24 => ⟨S50000, .i32⟩
  | 25 => ⟨S12500, .i32⟩
  | 26 => ⟨S50000x6, .f32⟩
  | 27 => ⟨S50000x32, .f32⟩
  | 28 => ⟨S1x32, .f32⟩
  | 29 => ⟨S50000x32, .f32⟩
  | 30 => ⟨S50000x32, .f32⟩
  | 31 => ⟨S_, .f32⟩
  | 32 => ⟨S50000x32, .f32⟩
  | 33 => ⟨S50000x32, .i1⟩
  | 34 => ⟨S_, .f32⟩
  | 35 => ⟨S50000x32, .f32⟩
  | 36 => ⟨S50000x32, .f32⟩
  | 37 => ⟨S50000x32, .f32⟩
  | 38 => ⟨S50000x768, .f32⟩
  | 39 => ⟨S50000x32, .f32⟩
  | 40 => ⟨S1x32, .f32⟩
  | 41 => ⟨S50000x32, .f32⟩
  | 42 => ⟨S50000x32, .f32⟩
  | 43 => ⟨S_, .f32⟩
  | 44 => ⟨S50000x32, .f32⟩
  | 45 => ⟨S50000x32, .i1⟩
  | 46 => ⟨S_, .f32⟩
  | 47 => ⟨S50000x32, .f32⟩
  | 48 => ⟨S50000x32, .f32⟩
  | 49 => ⟨S50000x32, .f32⟩
  | 50 => ⟨S50000x2, .f32⟩
  | 51 => ⟨S50000x32, .f32⟩
  | 52 => ⟨S1x32, .f32⟩
  | 53 => ⟨S50000x32, .f32⟩
  | 54 => ⟨S50000x32, .f32⟩
  | 55 => ⟨S_, .f32⟩
  | 56 => ⟨S50000x32, .f32⟩
  | 57 => ⟨S50000x32, .i1⟩
  | 58 => ⟨S_, .f32⟩
  | 59 => ⟨S50000x32, .f32⟩
  | 60 => ⟨S50000x32, .f32⟩
  | 61 => ⟨S50000x32, .f32⟩
  | 62 => ⟨S50000x768, .f32⟩
  | 63 => ⟨S50000x32, .f32⟩
  | 64 => ⟨S1x32, .f32⟩
  | 65 => ⟨S50000x32, .f32⟩
  | 66 => ⟨S50000x32, .f32⟩
  | 67 => ⟨S_, .f32⟩
  | 68 => ⟨S50000x32, .f32⟩
  | 69 => ⟨S50000x32, .i1⟩
  | 70 => ⟨S_, .f32⟩
  | 71 => ⟨S50000x32, .f32⟩
  | 72 => ⟨S50000x32, .f32⟩
  | 73 => ⟨S50000x32, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S1x128, .f32⟩
  | 83 => ⟨S50000x128, .f32⟩
  | 84 => ⟨S50000x128, .f32⟩
  | 85 => ⟨S50000x128, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x128, .f32⟩
  | 95 => ⟨S1x128x128, .f32⟩
  | 96 => ⟨S128x128, .f32⟩
  | 97 => ⟨S1x128, .f32⟩
  | 98 => ⟨S128, .f32⟩
  | 99 => ⟨S200000x128, .f32⟩
  | 100 => ⟨S200000, .i32⟩
  | 101 => ⟨S1x1600000, .i32⟩
  | 102 => ⟨S1600000, .i32⟩
  | 103 => ⟨S1800000, .i32⟩
  | 104 => ⟨S1x1600000, .i32⟩
  | 105 => ⟨S1600000, .i32⟩
  | 106 => ⟨S1800000, .i32⟩
  | 107 => ⟨S_, .f32⟩
  | 108 => ⟨S1800000, .f32⟩
  | 109 => ⟨S_, .f32⟩
  | 110 => ⟨S200000, .f32⟩
  | 111 => ⟨S1800000x1, .i32⟩
  | 112 => ⟨S200000, .f32⟩
  | 113 => ⟨S_, .f32⟩
  | 114 => ⟨S200000, .f32⟩
  | 115 => ⟨S200000, .i1⟩
  | 116 => ⟨S200000, .f32⟩
  | 117 => ⟨S_, .f32⟩
  | 118 => ⟨S_, .f32⟩
  | 119 => ⟨S200000, .f32⟩
  | 120 => ⟨S200000, .f32⟩
  | 121 => ⟨S_, .i32⟩
  | 122 => ⟨S1800000, .i32⟩
  | 123 => ⟨S1800000, .i1⟩
  | 124 => ⟨S_, .i32⟩
  | 125 => ⟨S1800000, .i32⟩
  | 126 => ⟨S1800000, .i32⟩
  | 127 => ⟨S1800000, .i32⟩
  | _ => ⟨S50000x1544, .f32⟩

abbrev hbmTy0_1 (i : Nat) : BufTy := match i % 128 with
  | 0 => ⟨S1800000x1, .i32⟩
  | 1 => ⟨S1800000x128, .f32⟩
  | 2 => ⟨S_, .i32⟩
  | 3 => ⟨S1800000, .i32⟩
  | 4 => ⟨S1800000, .i1⟩
  | 5 => ⟨S_, .i32⟩
  | 6 => ⟨S1800000, .i32⟩
  | 7 => ⟨S1800000, .i32⟩
  | 8 => ⟨S1800000, .i32⟩
  | 9 => ⟨S1800000x1, .i32⟩
  | 10 => ⟨S1800000, .f32⟩
  | 11 => ⟨S_, .i32⟩
  | 12 => ⟨S1800000, .i32⟩
  | 13 => ⟨S1800000, .i1⟩
  | 14 => ⟨S_, .i32⟩
  | 15 => ⟨S1800000, .i32⟩
  | 16 => ⟨S1800000, .i32⟩
  | 17 => ⟨S1800000, .i32⟩
  | 18 => ⟨S1800000x1, .i32⟩
  | 19 => ⟨S1800000, .f32⟩
  | 20 => ⟨S1800000, .f32⟩
  | 21 => ⟨S1800000x1, .f32⟩
  | 22 => ⟨S1800000x128, .f32⟩
  | 23 => ⟨S1800000x128, .f32⟩
  | 24 => ⟨S_, .f32⟩
  | 25 => ⟨S200000x128, .f32⟩
  | 26 => ⟨S1800000x1, .i32⟩
  | 27 => ⟨S200000x128, .f32⟩
  | 28 => ⟨S1x128, .f32⟩
  | 29 => ⟨S200000x128, .f32⟩
  | 30 => ⟨S200000x128, .f32⟩
  | 31 => ⟨S_, .f32⟩
  | 32 => ⟨S200000x128, .f32⟩
  | 33 => ⟨S200000x128, .f32⟩
  | 34 => ⟨S_, .f32⟩
  | 35 => ⟨S50000x128, .f32⟩
  | 36 => ⟨S200000x1, .i32⟩
  | 37 => ⟨S50000x128, .f32⟩
  | 38 => ⟨S_, .f32⟩
  | 39 => ⟨S50000x128, .f32⟩
  | 40 => ⟨S50000x128, .f32⟩
  | 41 => ⟨S1x128x128, .f32⟩
  | 42 => ⟨S128x128, .f32⟩
  | 43 => ⟨S1x128, .f32⟩
  | 44 => ⟨S128, .f32⟩
  | 45 => ⟨S50000x128, .f32⟩
  | 46 => ⟨S50000, .i32⟩
  | 47 => ⟨S1x400000, .i32⟩
  | 48 => ⟨S400000, .i32⟩
  | 49 => ⟨S450000, .i32⟩
  | 50 => ⟨S1x400000, .i32⟩
  | 51 => ⟨S400000, .i32⟩
  | 52 => ⟨S450000, .i32⟩
  | 53 => ⟨S_, .f32⟩
  | 54 => ⟨S450000, .f32⟩
  | 55 => ⟨S_, .f32⟩
  | 56 => ⟨S50000, .f32⟩
  | 57 => ⟨S450000x1, .i32⟩
  | 58 => ⟨S50000, .f32⟩
  | 59 => ⟨S_, .f32⟩
  | 60 => ⟨S50000, .f32⟩
  | 61 => ⟨S50000, .i1⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S450000, .i32⟩
  | 69 => ⟨S450000, .i1⟩
  | 70 => ⟨S_, .i32⟩
  | 71 => ⟨S450000, .i32⟩
  | 72 => ⟨S450000, .i32⟩
  | 73 => ⟨S450000, .i32⟩
  | 74 => ⟨S450000x1, .i32⟩
  | 75 => ⟨S450000x128, .f32⟩
  | 76 => ⟨S_, .i32⟩
  | 77 => ⟨S450000, .i32⟩
  | 78 => ⟨S450000, .i1⟩
  | 79 => ⟨S_, .i32⟩
  | 80 => ⟨S450000, .i32⟩
  | 81 => ⟨S450000, .i32⟩
  | 82 => ⟨S450000, .i32⟩
  | 83 => ⟨S450000x1, .i32⟩
  | 84 => ⟨S450000, .f32⟩
  | 85 => ⟨S_, .i32⟩
  | 86 => ⟨S450000, .i32⟩
  | 87 => ⟨S450000, .i1⟩
  | 88 => ⟨S_, .i32⟩
  | 89 => ⟨S450000, .i32⟩
  | 90 => ⟨S450000, .i32⟩
  | 91 => ⟨S450000, .i32⟩
  | 92 => ⟨S450000x1, .i32⟩
  | 93 => ⟨S450000, .f32⟩
  | 94 => ⟨S450000, .f32⟩
  | 95 => ⟨S450000x1, .f32⟩
  | 96 => ⟨S450000x128, .f32⟩
  | 97 => ⟨S450000x128, .f32⟩
  | 98 => ⟨S_, .f32⟩
  | 99 => ⟨S50000x128, .f32⟩
  | 100 => ⟨S450000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .f32⟩
  | 109 => ⟨S12500x128, .f32⟩
  | 110 => ⟨S50000x1, .i32⟩
  | 111 => ⟨S12500x128, .f32⟩
  | 112 => ⟨S_, .f32⟩
  | 113 => ⟨S12500x128, .f32⟩
  | 114 => ⟨S12500x128, .f32⟩
  | 115 => ⟨S1x128x128, .f32⟩
  | 116 => ⟨S128x128, .f32⟩
  | 117 => ⟨S1x128, .f32⟩
  | 118 => ⟨S128, .f32⟩
  | 119 => ⟨S12500x128, .f32⟩
  | 120 => ⟨S12500, .i32⟩
  | 121 => ⟨S1x100000, .i32⟩
  | 122 => ⟨S100000, .i32⟩
  | 123 => ⟨S112500, .i32⟩
  | 124 => ⟨S1x100000, .i32⟩
  | 125 => ⟨S100000, .i32⟩
  | 126 => ⟨S112500, .i32⟩
  | 127 => ⟨S_, .f32⟩
  | _ => ⟨S50000x1544, .f32⟩

abbrev hbmTy0_2 (i : Nat) : BufTy := match i % 128 with
  | 0 => ⟨S112500, .f32⟩
  | 1 => ⟨S_, .f32⟩
  | 2 => ⟨S12500, .f32⟩
  | 3 => ⟨S112500x1, .i32⟩
  | 4 => ⟨S12500, .f32⟩
  | 5 => ⟨S_, .f32⟩
  | 6 => ⟨S12500, .f32⟩
  | 7 => ⟨S12500, .i1⟩
  | 8 => ⟨S12500, .f32⟩
  | 9 => ⟨S_, .f32⟩
  | 10 => ⟨S_, .f32⟩
  | 11 => ⟨S12500, .f32⟩
  | 12 => ⟨S12500, .f32⟩
  | 13 => ⟨S_, .i32⟩
  | 14 => ⟨S112500, .i32⟩
  | 15 => ⟨S112500, .i1⟩
  | 16 => ⟨S_, .i32⟩
  | 17 => ⟨S112500, .i32⟩
  | 18 => ⟨S112500, .i32⟩
  | 19 => ⟨S112500, .i32⟩
  | 20 => ⟨S112500x1, .i32⟩
  | 21 => ⟨S112500x128, .f32⟩
  | 22 => ⟨S_, .i32⟩
  | 23 => ⟨S112500, .i32⟩
  | 24 => ⟨S112500, .i1⟩
  | 25 => ⟨S_, .i32⟩
  | 26 => ⟨S112500, .i32⟩
  | 27 => ⟨S112500, .i32⟩
  | 28 => ⟨S112500, .i32⟩
  | 29 => ⟨S112500x1, .i32⟩
  | 30 => ⟨S112500, .f32⟩
  | 31 => ⟨S_, .i32⟩
  | 32 => ⟨S112500, .i32⟩
  | 33 => ⟨S112500, .i1⟩
  | 34 => ⟨S_, .i32⟩
  | 35 => ⟨S112500, .i32⟩
  | 36 => ⟨S112500, .i32⟩
  | 37 => ⟨S112500, .i32⟩
  | 38 => ⟨S112500x1, .i32⟩
  | 39 => ⟨S112500, .f32⟩
  | 40 => ⟨S112500, .f32⟩
  | 41 => ⟨S112500x1, .f32⟩
  | 42 => ⟨S112500x128, .f32⟩
  | 43 => ⟨S112500x128, .f32⟩
  | 44 => ⟨S_, .f32⟩
  | 45 => ⟨S12500x128, .f32⟩
  | 46 => ⟨S112500x1, .i32⟩
  | 47 => ⟨S12500x128, .f32⟩
  | 48 => ⟨S1x128, .f32⟩
  | 49 => ⟨S12500x128, .f32⟩
  | 50 => ⟨S12500x128, .f32⟩
  | 51 => ⟨S_, .f32⟩
  | 52 => ⟨S12500x128, .f32⟩
  | 53 => ⟨S12500x128, .f32⟩
  | 54 => ⟨S_, .f32⟩
  | 55 => ⟨S128x128, .f32⟩
  | 56 => ⟨S50000x1, .i32⟩
  | 57 => ⟨S128x128, .f32⟩
  | 58 => ⟨S_, .f32⟩
  | 59 => ⟨S128x128, .f32⟩
  | 60 => ⟨S12500x1, .i32⟩
  | 61 => ⟨S128x128, .f32⟩
  | 62 => ⟨S_, .f32⟩
  | 63 => ⟨S128x128, .f32⟩
  | 64 => ⟨S12500x1, .i32⟩
  | 65 => ⟨S128x128, .f32⟩
  | 66 => ⟨S128x384, .f32⟩
  | 67 => ⟨S128x128, .f32⟩
  | 68 => ⟨S1x128, .f32⟩
  | 69 => ⟨S128x128, .f32⟩
  | 70 => ⟨S128x128, .f32⟩
  | 71 => ⟨S_, .f32⟩
  | 72 => ⟨S128x128, .f32⟩
  | 73 => ⟨S128x128, .f32⟩
  | 74 => ⟨S128x128, .f32⟩
  | 75 => ⟨S1x128, .f32⟩
  | 76 => ⟨S128x128, .f32⟩
  | 77 => ⟨S128x128, .f32⟩
  | _ => ⟨S50000x1544, .f32⟩

abbrev hbmTy (i : Nat) : BufTy := match i / 128 with
  | 0 => hbmTy0_0 i
  | 1 => hbmTy0_1 i
  | 2 => hbmTy0_2 i
  | _ => ⟨S50000x1544, .f32⟩

abbrev bufTy : (tb : Table) → Fin (tcTables nBuf tb) → BufTy
  | .hbm, ⟨i, _⟩ => hbmTy i
  | _, _ => ⟨S50000x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_5 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c : Ref sig .tc := ⟨.hbm, 86, rfl⟩
abbrev main_v51 : Ref sig .tc := ⟨.hbm, 87, rfl⟩
abbrev main_v52 : Ref sig .tc := ⟨.hbm, 88, rfl⟩
abbrev main_c_8 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_9 : Ref sig .tc := ⟨.hbm, 107, rfl⟩
abbrev main_v70 : Ref sig .tc := ⟨.hbm, 108, rfl⟩
abbrev main_cst_10 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_11 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_12 : Ref sig .tc := ⟨.hbm, 117, rfl⟩
abbrev main_call5_v0 : Ref sig .tc := ⟨.hbm, 118, rfl⟩
abbrev main_call5_v1 : Ref sig .tc := ⟨.hbm, 119, rfl⟩
abbrev main_v77 : Ref sig .tc := ⟨.hbm, 120, rfl⟩
abbrev main_c_13 : Ref sig .tc := ⟨.hbm, 121, rfl⟩
abbrev main_v78 : Ref sig .tc := ⟨.hbm, 122, rfl⟩
abbrev main_v79 : Ref sig .tc := ⟨.hbm, 123, rfl⟩
abbrev main_c_14 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_15 : Ref sig .tc := ⟨.hbm, 130, rfl⟩
abbrev main_v85 : Ref sig .tc := ⟨.hbm, 131, rfl⟩
abbrev main_v86 : Ref sig .tc := ⟨.hbm, 132, rfl⟩
abbrev main_c_16 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_17 : Ref sig .tc := ⟨.hbm, 139, rfl⟩
abbrev main_v92 : Ref sig .tc := ⟨.hbm, 140, rfl⟩
abbrev main_v93 : Ref sig .tc := ⟨.hbm, 141, rfl⟩
abbrev main_c_18 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_19 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call6_cst : Ref sig .tc := ⟨.hbm, 159, rfl⟩
abbrev main_call6_v0 : Ref sig .tc := ⟨.hbm, 160, rfl⟩
abbrev main_v109 : Ref sig .tc := ⟨.hbm, 161, rfl⟩
abbrev main_cst_20 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_call7_cst : Ref sig .tc := ⟨.hbm, 166, rfl⟩
abbrev main_call7_v0 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_21 : Ref sig .tc := ⟨.hbm, 181, rfl⟩
abbrev main_v126 : Ref sig .tc := ⟨.hbm, 182, rfl⟩
abbrev main_cst_22 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_23 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_cst_24 : Ref sig .tc := ⟨.hbm, 191, rfl⟩
abbrev main_call8_v0 : Ref sig .tc := ⟨.hbm, 192, rfl⟩
abbrev main_call8_v1 : Ref sig .tc := ⟨.hbm, 193, rfl⟩
abbrev main_v133 : Ref sig .tc := ⟨.hbm, 194, rfl⟩
abbrev main_c_25 : Ref sig .tc := ⟨.hbm, 195, rfl⟩
abbrev main_v134 : Ref sig .tc := ⟨.hbm, 196, rfl⟩
abbrev main_v135 : Ref sig .tc := ⟨.hbm, 197, rfl⟩
abbrev main_c_26 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_c_27 : Ref sig .tc := ⟨.hbm, 204, rfl⟩
abbrev main_v141 : Ref sig .tc := ⟨.hbm, 205, rfl⟩
abbrev main_v142 : Ref sig .tc := ⟨.hbm, 206, rfl⟩
abbrev main_c_28 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_c_29 : Ref sig .tc := ⟨.hbm, 213, rfl⟩
abbrev main_v148 : Ref sig .tc := ⟨.hbm, 214, rfl⟩
abbrev main_v149 : Ref sig .tc := ⟨.hbm, 215, rfl⟩
abbrev main_c_30 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_cst_31 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_call9_cst : Ref sig .tc := ⟨.hbm, 233, rfl⟩
abbrev main_call9_v0 : Ref sig .tc := ⟨.hbm, 234, rfl⟩
abbrev main_v165 : Ref sig .tc := ⟨.hbm, 235, rfl⟩
abbrev main_cst_32 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_call10_cst : Ref sig .tc := ⟨.hbm, 240, rfl⟩
abbrev main_call10_v0 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_33 : Ref sig .tc := ⟨.hbm, 255, rfl⟩
abbrev main_v182 : Ref sig .tc := ⟨.hbm, 256, rfl⟩
abbrev main_cst_34 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_35 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_cst_36 : Ref sig .tc := ⟨.hbm, 265, rfl⟩
abbrev main_call11_v0 : Ref sig .tc := ⟨.hbm, 266, rfl⟩
abbrev main_call11_v1 : Ref sig .tc := ⟨.hbm, 267, rfl⟩
abbrev main_v189 : Ref sig .tc := ⟨.hbm, 268, rfl⟩
abbrev main_c_37 : Ref sig .tc := ⟨.hbm, 269, rfl⟩
abbrev main_v190 : Ref sig .tc := ⟨.hbm, 270, rfl⟩
abbrev main_v191 : Ref sig .tc := ⟨.hbm, 271, rfl⟩
abbrev main_c_38 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_c_39 : Ref sig .tc := ⟨.hbm, 278, rfl⟩
abbrev main_v197 : Ref sig .tc := ⟨.hbm, 279, rfl⟩
abbrev main_v198 : Ref sig .tc := ⟨.hbm, 280, rfl⟩
abbrev main_c_40 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_c_41 : Ref sig .tc := ⟨.hbm, 287, rfl⟩
abbrev main_v204 : Ref sig .tc := ⟨.hbm, 288, rfl⟩
abbrev main_v205 : Ref sig .tc := ⟨.hbm, 289, rfl⟩
abbrev main_c_42 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_cst_43 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_call12_cst : Ref sig .tc := ⟨.hbm, 307, rfl⟩
abbrev main_call12_v0 : Ref sig .tc := ⟨.hbm, 308, rfl⟩
abbrev main_v221 : Ref sig .tc := ⟨.hbm, 309, rfl⟩
abbrev main_cst_44 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_cst_45 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_cst_46 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_call13_cst : Ref sig .tc := ⟨.hbm, 327, rfl⟩
abbrev main_call13_v0 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩

abbrev nD : Nat := 1
abbrev τ : Topo := Topo.v7x

variable {F : FTy → Type} [FloatOps F]

class Facts₀ : Prop where
  slices_S50000x1544_S50000x6_0_0 : S50000x1544.Slices ![0, 0] S50000x6
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  slices_S50000x1544_S50000x768_0_6 : S50000x1544.Slices ![0, 6] S50000x768
  slices_S50000x1544_S50000x2_0_774 : S50000x1544.Slices ![0, 774] S50000x2
  slices_S50000x1544_S50000x768_0_776 : S50000x1544.Slices ![0, 776] S50000x768
  concatenates_S50000x32_S50000x32_S50000x32_S50000x32_S50000x128_d1 : Shape.Concatenates [S50000x32, S50000x32, S50000x32, S50000x32] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x1600000_S1x1600000_0_0 : S2x1600000.Slices ![0, 0] S1x1600000
  shapeCasts_S1x1600000_S1600000 : S1x1600000.ShapeCasts S1600000
  concatenates_S1600000_S200000_S1800000_d0 : Shape.Concatenates [S1600000, S200000] S1800000 0
  slices_S2x1600000_S1x1600000_1_0 : S2x1600000.Slices ![1, 0] S1x1600000
  bcast_S_S1800000 : S_.BroadcastsInDim S1800000 (![] : Fin 0 → Fin S1800000.rank)
  bcast_S1800000_S1800000x1_0 : S1800000.BroadcastsInDim S1800000x1 (![0] : Fin 1 → Fin S1800000x1.rank)
  bcast_S1800000x1_S1800000x128_0_1 : S1800000x1.BroadcastsInDim S1800000x128 (![0, 1] : Fin 2 → Fin S1800000x128.rank)
  bcast_S_S200000x128 : S_.BroadcastsInDim S200000x128 (![] : Fin 0 → Fin S200000x128.rank)
  bcast_S1x128_S200000x128_0_1 : S1x128.BroadcastsInDim S200000x128 (![0, 1] : Fin 2 → Fin S200000x128.rank)
  slices_S3x128x128_S1x128x128_1_0_0 : S3x128x128.Slices ![1, 0, 0] S1x128x128
  slices_S3x128_S1x128_1_0 : S3x128.Slices ![1, 0] S1x128
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x128_0_1 : S450000x1.BroadcastsInDim S450000x128 (![0, 1] : Fin 2 → Fin S450000x128.rank)
  bcast_S_S12500x128 : S_.BroadcastsInDim S12500x128 (![] : Fin 0 → Fin S12500x128.rank)
  bcast_S50000_S50000x1_0 : S50000.BroadcastsInDim S50000x1 (![0] : Fin 1 → Fin S50000x1.rank)
  slices_S3x128x128_S1x128x128_2_0_0 : S3x128x128.Slices ![2, 0, 0] S1x128x128
  slices_S3x128_S1x128_2_0 : S3x128.Slices ![2, 0] S1x128
  slices_S2x100000_S1x100000_0_0 : S2x100000.Slices ![0, 0] S1x100000
  shapeCasts_S1x100000_S100000 : S1x100000.ShapeCasts S100000
  concatenates_S100000_S12500_S112500_d0 : Shape.Concatenates [S100000, S12500] S112500 0
  slices_S2x100000_S1x100000_1_0 : S2x100000.Slices ![1, 0] S1x100000
  bcast_S_S112500 : S_.BroadcastsInDim S112500 (![] : Fin 0 → Fin S112500.rank)
  bcast_S_S12500 : S_.BroadcastsInDim S12500 (![] : Fin 0 → Fin S12500.rank)
  bcast_S112500_S112500x1_0 : S112500.BroadcastsInDim S112500x1 (![0] : Fin 1 → Fin S112500x1.rank)
  bcast_S112500x1_S112500x128_0_1 : S112500x1.BroadcastsInDim S112500x128 (![0, 1] : Fin 2 → Fin S112500x128.rank)
  bcast_S1x128_S12500x128_0_1 : S1x128.BroadcastsInDim S12500x128 (![0, 1] : Fin 2 → Fin S12500x128.rank)
  bcast_S_S128x128 : S_.BroadcastsInDim S128x128 (![] : Fin 0 → Fin S128x128.rank)
  bcast_S12500_S12500x1_0 : S12500.BroadcastsInDim S12500x1 (![0] : Fin 1 → Fin S12500x1.rank)
  concatenates_S128x128_S128x128_S128x128_S128x384_d1 : Shape.Concatenates [S128x128, S128x128, S128x128] S128x384 1
  bcast_S1x128_S128x128_0_1 : S1x128.BroadcastsInDim S128x128 (![0, 1] : Fin 2 → Fin S128x128.rank)
  dot_S50000x6_S6x32_S50000x32_1_0_0_1_n_n_wf : DotDims.WF S50000x6 S6x32 S50000x32 [1] [0] [0] [1] [] []
  dot_S50000x768_S768x32_S50000x32_1_0_0_1_n_n_wf : DotDims.WF S50000x768 S768x32 S50000x32 [1] [0] [0] [1] [] []
  dot_S50000x2_S2x32_S50000x32_1_0_0_1_n_n_wf : DotDims.WF S50000x2 S2x32 S50000x32 [1] [0] [0] [1] [] []
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x128_S128x128_S200000x128_1_0_0_1_n_n_wf : DotDims.WF S200000x128 S128x128 S200000x128 [1] [0] [0] [1] [] []
  scatter_S200000_S1800000x1_S1800000_n_0_0_1_wf : ScatterDims.WF S200000 S1800000x1 S1800000 [] [0] [0] 1
  gather_S200000x128_S1800000x1_S1800000x128_1_0_n_n_0_1_1128_wf : GatherDims.WF S200000x128 S1800000x1 S1800000x128 [1] [0] [] [0] [] 1 ![1, 128]
  gather_S200000_S1800000x1_S1800000_n_0_n_n_0_1_1_wf : GatherDims.WF S200000 S1800000x1 S1800000 [] [0] [] [0] [] 1 ![1]
  scatter_S200000x128_S1800000x1_S1800000x128_1_0_0_1_wf : ScatterDims.WF S200000x128 S1800000x1 S1800000x128 [1] [0] [0] 1
  scatter_S50000x128_S200000x1_S200000x128_1_0_0_1_wf : ScatterDims.WF S50000x128 S200000x1 S200000x128 [1] [0] [0] 1
  scatter_S50000_S450000x1_S450000_n_0_0_1_wf : ScatterDims.WF S50000 S450000x1 S450000 [] [0] [0] 1
  gather_S50000x128_S450000x1_S450000x128_1_0_n_n_0_1_1128_wf : GatherDims.WF S50000x128 S450000x1 S450000x128 [1] [0] [] [0] [] 1 ![1, 128]
  gather_S50000_S450000x1_S450000_n_0_n_n_0_1_1_wf : GatherDims.WF S50000 S450000x1 S450000 [] [0] [] [0] [] 1 ![1]
  scatter_S50000x128_S450000x1_S450000x128_1_0_0_1_wf : ScatterDims.WF S50000x128 S450000x1 S450000x128 [1] [0] [0] 1
  scatter_S12500x128_S50000x1_S50000x128_1_0_0_1_wf : ScatterDims.WF S12500x128 S50000x1 S50000x128 [1] [0] [0] 1
  dot_S12500x128_S128x128_S12500x128_1_0_0_1_n_n_wf : DotDims.WF S12500x128 S128x128 S12500x128 [1] [0] [0] [1] [] []
  scatter_S12500_S112500x1_S112500_n_0_0_1_wf : ScatterDims.WF S12500 S112500x1 S112500 [] [0] [0] 1
  gather_S12500x128_S112500x1_S112500x128_1_0_n_n_0_1_1128_wf : GatherDims.WF S12500x128 S112500x1 S112500x128 [1] [0] [] [0] [] 1 ![1, 128]
  gather_S12500_S112500x1_S112500_n_0_n_n_0_1_1_wf : GatherDims.WF S12500 S112500x1 S112500 [] [0] [] [0] [] 1 ![1]
  scatter_S12500x128_S112500x1_S112500x128_1_0_0_1_wf : ScatterDims.WF S12500x128 S112500x1 S112500x128 [1] [0] [0] 1
  scatter_S128x128_S50000x1_S50000x128_1_0_0_1_wf : ScatterDims.WF S128x128 S50000x1 S50000x128 [1] [0] [0] 1
  scatter_S128x128_S12500x1_S12500x128_1_0_0_1_wf : ScatterDims.WF S128x128 S12500x1 S12500x128 [1] [0] [0] 1
  dot_S128x384_S384x128_S128x128_1_0_0_1_n_n_wf : DotDims.WF S128x384 S384x128 S128x128 [1] [0] [0] [1] [] []
  dot_S128x128_S128x128_S128x128_1_0_0_1_n_n_wf : DotDims.WF S128x128 S128x128 S128x128 [1] [0] [0] [1] [] []

variable [Facts₀]

def dot_S50000x6_S6x32_S50000x32_1_0_0_1_n_n : DotDims S50000x6 S6x32 S50000x32 where
  lhsContracting := [1]
  rhsContracting := [0]
  lhsNonContracting := [0]
  rhsNonContracting := [1]
  lhsBatch := []
  rhsBatch := []
  wf := dot_S50000x6_S6x32_S50000x32_1_0_0_1_n_n_wf
def dot_S50000x768_S768x32_S50000x32_1_0_0_1_n_n : DotDims S50000x768 S768x32 S50000x32 where
  lhsContracting := [1]
  rhsContracting := [0]
  lhsNonContracting := [0]
  rhsNonContracting := [1]
  lhsBatch := []
  rhsBatch := []
  wf := dot_S50000x768_S768x32_S50000x32_1_0_0_1_n_n_wf
def dot_S50000x2_S2x32_S50000x32_1_0_0_1_n_n : DotDims S50000x2 S2x32 S50000x32 where
  lhsContracting := [1]
  rhsContracting := [0]
  lhsNonContracting := [0]
  rhsNonContracting := [1]
  lhsBatch := []
  rhsBatch := []
  wf := dot_S50000x2_S2x32_S50000x32_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S1800000x1_S1800000_n_0_0_1 : ScatterDims S200000 S1800000x1 S1800000 where
  updateWindowDims := []
  insertedWindowDims := [0]
  scatterDimsToOperandDims := [0]
  indexVectorDim := 1
  wf := scatter_S200000_S1800000x1_S1800000_n_0_0_1_wf
def gather_S200000x128_S1800000x1_S1800000x128_1_0_n_n_0_1_1128 : GatherDims S200000x128 S1800000x1 S1800000x128 where
  offsetDims := [1]
  collapsedSliceDims := [0]
  operandBatchingDims := []
  startIndicesBatchingDims := []
  startIndexMap := [0]
  indexVectorDim := 1
  sliceSizes := ![1, 128]
  wf := gather_S200000x128_S1800000x1_S1800000x128_1_0_n_n_0_1_1128_wf
def gather_S200000_S1800000x1_S1800000_n_0_n_n_0_1_1 : GatherDims S200000 S1800000x1 S1800000 where
  offsetDims := []
  collapsedSliceDims := [0]
  operandBatchingDims := []
  startIndicesBatchingDims := []
  startIndexMap := [0]
  indexVectorDim := 1
  sliceSizes := ![1]
  wf := gather_S200000_S1800000x1_S1800000_n_0_n_n_0_1_1_wf
def scatter_S200000x128_S1800000x1_S1800000x128_1_0_0_1 : ScatterDims S200000x128 S1800000x1 S1800000x128 where
  updateWindowDims := [1]
  insertedWindowDims := [0]
  scatterDimsToOperandDims := [0]
  indexVectorDim := 1
  wf := scatter_S200000x128_S1800000x1_S1800000x128_1_0_0_1_wf
def scatter_S50000x128_S200000x1_S200000x128_1_0_0_1 : ScatterDims S50000x128 S200000x1 S200000x128 where
  updateWindowDims := [1]
  insertedWindowDims := [0]
  scatterDimsToOperandDims := [0]
  indexVectorDim := 1
  wf := scatter_S50000x128_S200000x1_S200000x128_1_0_0_1_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def scatter_S12500x128_S50000x1_S50000x128_1_0_0_1 : ScatterDims S12500x128 S50000x1 S50000x128 where
  updateWindowDims := [1]
  insertedWindowDims := [0]
  scatterDimsToOperandDims := [0]
  indexVectorDim := 1
  wf := scatter_S12500x128_S50000x1_S50000x128_1_0_0_1_wf
def dot_S12500x128_S128x128_S12500x128_1_0_0_1_n_n : DotDims S12500x128 S128x128 S12500x128 where
  lhsContracting := [1]
  rhsContracting := [0]
  lhsNonContracting := [0]
  rhsNonContracting := [1]
  lhsBatch := []
  rhsBatch := []
  wf := dot_S12500x128_S128x128_S12500x128_1_0_0_1_n_n_wf
def scatter_S12500_S112500x1_S112500_n_0_0_1 : ScatterDims S12500 S112500x1 S112500 where
  updateWindowDims := []
  insertedWindowDims := [0]
  scatterDimsToOperandDims := [0]
  indexVectorDim := 1
  wf := scatter_S12500_S112500x1_S112500_n_0_0_1_wf
def gather_S12500x128_S112500x1_S112500x128_1_0_n_n_0_1_1128 : GatherDims S12500x128 S112500x1 S112500x128 where
  offsetDims := [1]
  collapsedSliceDims := [0]
  operandBatchingDims := []
  startIndicesBatchingDims := []
  startIndexMap := [0]
  indexVectorDim := 1
  sliceSizes := ![1, 128]
  wf := gather_S12500x128_S112500x1_S112500x128_1_0_n_n_0_1_1128_wf
def gather_S12500_S112500x1_S112500_n_0_n_n_0_1_1 : GatherDims S12500 S112500x1 S112500 where
  offsetDims := []
  collapsedSliceDims := [0]
  operandBatchingDims := []
  startIndicesBatchingDims := []
  startIndexMap := [0]
  indexVectorDim := 1
  sliceSizes := ![1]
  wf := gather_S12500_S112500x1_S112500_n_0_n_n_0_1_1_wf
def scatter_S12500x128_S112500x1_S112500x128_1_0_0_1 : ScatterDims S12500x128 S112500x1 S112500x128 where
  updateWindowDims := [1]
  insertedWindowDims := [0]
  scatterDimsToOperandDims := [0]
  indexVectorDim := 1
  wf := scatter_S12500x128_S112500x1_S112500x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128x128_S12500x1_S12500x128_1_0_0_1 : ScatterDims S128x128 S12500x1 S12500x128 where
  updateWindowDims := [1]
  insertedWindowDims := [0]
  scatterDimsToOperandDims := [0]
  indexVectorDim := 1
  wf := scatter_S128x128_S12500x1_S12500x128_1_0_0_1_wf
def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.Bits.Enc0.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 0, the feature encoder: each grid point takes a block of 2000 rows of the raw features [50000, 1544] and the
    eleven whole parameter arrays, and writes the block of the same rows of the encoded features [50000, 128]: four
    column slices of the rows, each multiplied by its weight, shifted by its bias and passed through the leaky
    rectifier, are laid side by side, multiplied by the mixing weight, shifted, and passed through the parametric
    rectifier. Stated at the contents `V` the region is entered from. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each operand's staging buffer holds its block at every point: the row block is fetched at every point, a
    parameter array's block never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x1544 := Rect.unit (s := S2000x1544) ![0, 0] S2000x1544.size inb_S2000x1544_S2000x1544_0_0
abbrev r0_1 : Rect S6x32 := Rect.unit (s := S6x32) ![0, 0] S6x32.size inb_S6x32_S6x32_0_0
abbrev r0_2 : Rect S32 := Rect.unit (s := S32) ![0] S32.size inb_S32_S32_0
abbrev r0_3 : Rect S768x32 := Rect.unit (s := S768x32) ![0, 0] S768x32.size inb_S768x32_S768x32_0_0
abbrev r0_4 : Rect S32 := Rect.unit (s := S32) ![0] S32.size inb_S32_S32_0
abbrev r0_5 : Rect S2x32 := Rect.unit (s := S2x32) ![0, 0] S2x32.size inb_S2x32_S2x32_0_0
abbrev r0_6 : Rect S32 := Rect.unit (s := S32) ![0] S32.size inb_S32_S32_0
abbrev r0_7 : Rect S768x32 := Rect.unit (s := S768x32) ![0, 0] S768x32.size inb_S768x32_S768x32_0_0
abbrev r0_8 : Rect S32 := Rect.unit (s := S32) ![0] S32.size inb_S32_S32_0
abbrev r0_9 : Rect S128x128 := Rect.unit (s := S128x128) ![0, 0] S128x128.size inb_S128x128_S128x128_0_0
abbrev r0_10 : Rect S128 := Rect.unit (s := S128) ![0] S128.size inb_S128_S128_0
abbrev r0_11 : Rect S128 := Rect.unit (s := S128) ![0] S128.size inb_S128_S128_0
abbrev r0_12 : Rect S2000x128 := Rect.unit (s := S2000x128) ![0, 0] S2000x128.size inb_S2000x128_S2000x128_0_0

/-- The result block after the body: the encoder's value of the row block and the parameters, stored whole. -/
def out0_12 (x0 : Vec F S2000x1544 .f32) (x1 : Vec F S6x32 .f32) (x2 : Vec F S32 .f32) (x3 : Vec F S768x32 .f32) (x4 : Vec F S32 .f32) (x5 : Vec F S2x32 .f32) (x6 : Vec F S32 .f32) (x7 : Vec F S768x32 .f32) (x8 : Vec F S32 .f32) (x9 : Vec F S128x128 .f32) (x10 : Vec F S128 .f32) (x11 : Vec F S128 .f32) : Vec F S2000x128 .f32 :=
  View.canon [⟨r0_12, k0_pay1 (k0_pay2 (View.ld x0 r0_0)) (k0_pay3 (View.ld x0 r0_0) (View.ld x1 r0_1) (View.ld x2 r0_2))
    (k0_pay4 (View.ld x0 r0_0) (View.ld x3 r0_3) (View.ld x4 r0_4)) (k0_pay5 (View.ld x0 r0_0) (View.ld x5 r0_5) (View.ld x6 r0_6))
    (View.ld x7 r0_7) (View.ld x8 r0_8) (View.ld x9 r0_9) (View.ld x10 r0_10) (View.ld x11 r0_11)⟩]

/-- The one store covers the whole result block. -/
theorem cover0_12 (p0 : Vec F S2000x128 .f32) (y : S2000x128.Idx) :
    ∃ pc ∈ ([⟨r0_12, p0⟩] : List (View.Piece (Elt F) S2000x128 .f32)), y ∈ pc.1.set :=
  View.cover_of_tiled [⟨r0_12, p0⟩] S2000x128.size (by rfl) y

set_option maxHeartbeats 4000000 in
/-- The body on whole staging buffers: the operands stay as read, the result buffer ends at `out0_12` of them. -/
theorem sound_kernel0 (c : Dev nD) (E : Set ℕ) (i : grid0.Coords) (arg1 : Memref sig .tc .vmem S2000x1544 .f32) (harg1 : arg1.IsWhole) (arg2 : Memref sig .tc .vmem S6x32 .f32) (harg2 : arg2.IsWhole) (arg3 : Memref sig .tc .vmem S32 .f32) (harg3 : arg3.IsWhole) (arg4 : Memref sig .tc .vmem S768x32 .f32) (harg4 : arg4.IsWhole) (arg5 : Memref sig .tc .vmem S32 .f32) (harg5 : arg5.IsWhole) (arg6 : Memref sig .tc .vmem S2x32 .f32) (harg6 : arg6.IsWhole) (arg7 : Memref sig .tc .vmem S32 .f32) (harg7 : arg7.IsWhole) (arg8 : Memref sig .tc .vmem S768x32 .f32) (harg8 : arg8.IsWhole) (arg9 : Memref sig .tc .vmem S32 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S2000x128 .f32) (harg13 : arg13.IsWhole)
    (x0 : Vec F S2000x1544 .f32) (x1 : Vec F S6x32 .f32) (x2 : Vec F S32 .f32) (x3 : Vec F S768x32 .f32) (x4 : Vec F S32 .f32) (x5 : Vec F S2x32 .f32) (x6 : Vec F S32 .f32) (x7 : Vec F S768x32 .f32) (x8 : Vec F S32 .f32) (x9 : Vec F S128x128 .f32) (x10 : Vec F S128 .f32) (x11 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13) K := by
  simp only [cc0__encoder_kernel_eq_skeleton]; unfold cc0__encoder_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover0_12 _)

/-- The proof data of region 0 on core `c`: arrays as entered; after the body each operand's buffer at its
    block and the result's at the encoder's value of the blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.Bits.Mat1.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 1: each grid point multiplies a block of 4000 rows of the left
    array by the whole 128×128 right array and writes the block of the same rows of the result. Stated at the
    contents `V` the region is entered from. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds the whole right array at every point (its block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0

/-- The result block after the body: the product of the row block with the right array, stored whole. -/
def out1_2 (x0 : Vec F S4000x128 .f32) (x1 : Vec F S128x128 .f32) : Vec F S4000x128 .f32 :=
  View.canon [⟨r1_0, k1_pay1 (View.ld x0 r1_0) (View.ld x1 r1_1)⟩]

/-- The one store covers the whole result block. -/
theorem cover1_2 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The body on whole staging buffers: the operands stay as read, the result buffer ends at `out1_2` of them. -/
theorem sound_kernel1 (c : Dev nD) (E : Set ℕ) (i : grid1.Coords) (arg1 : Memref sig .tc .vmem S4000x128 .f32) (harg1 : arg1.IsWhole) (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core `c`: arrays as entered; after the body each operand's buffer at its
    block and the result's at the product of the blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.Bits.Mat2.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 2: each grid point multiplies a block of 5000 rows of the left
    array by the whole 128×128 right array and writes the block of the same rows of the result. Stated at the
    contents `V` the region is entered from. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds the whole right array at every point (its block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-- The result block after the body: the product of the row block with the right array, stored whole. -/
def out2_2 (x0 : Vec F S5000x128 .f32) (x1 : Vec F S128x128 .f32) : Vec F S5000x128 .f32 :=
  View.canon [⟨r2_0, k2_pay1 (View.ld x0 r2_0) (View.ld x1 r2_1)⟩]

/-- The one store covers the whole result block. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The body on whole staging buffers: the operands stay as read, the result buffer ends at `out2_2` of them. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core `c`: arrays as entered; after the body each operand's buffer at its
    block and the result's at the product of the blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.Bits.Mat3.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 3: each grid point multiplies a block of 12500 rows of the left
    array by the whole 128×128 right array and writes the block of the same rows of the result. Stated at the
    contents `V` the region is entered from. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its row block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds the whole right array at every point (its block never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S12500x128 := Rect.unit (s := S12500x128) ![0, 0] S12500x128.size inb_S12500x128_S12500x128_0_0
abbrev r3_1 : Rect S128x128 := Rect.unit (s := S128x128) ![0, 0] S128x128.size inb_S128x128_S128x128_0_0

/-- The result block after the body: the product of the row block with the right array, stored whole. -/
def out3_2 (x0 : Vec F S12500x128 .f32) (x1 : Vec F S128x128 .f32) : Vec F S12500x128 .f32 :=
  View.canon [⟨r3_0, k3_pay1 (View.ld x0 r3_0) (View.ld x1 r3_1)⟩]

/-- The one store covers the whole result block. -/
theorem cover3_2 (p0 : Vec F S12500x128 .f32) (y : S12500x128.Idx) :
    ∃ pc ∈ ([⟨r3_0, p0⟩] : List (View.Piece (Elt F) S12500x128 .f32)), y ∈ pc.1.set :=
  View.cover_of_tiled [⟨r3_0, p0⟩] S12500x128.size (by rfl) y

set_option maxHeartbeats 1000000 in
/-- The body on whole staging buffers: the operands stay as read, the result buffer ends at `out3_2` of them. -/
theorem sound_kernel3 (c : Dev nD) (E : Set ℕ) (i : grid3.Coords) (arg1 : Memref sig .tc .vmem S12500x128 .f32) (harg1 : arg1.IsWhole) (arg2 : Memref sig .tc .vmem S128x128 .f32) (harg2 : arg2.IsWhole) (arg3 : Memref sig .tc .vmem S12500x128 .f32) (harg3 : arg3.IsWhole)
    (x0 : Vec F S12500x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3 on core `c`: arrays as entered; after the body each operand's buffer at its
    block and the result's at the product of the blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.Bits.Aff4.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 4, the first classifier layer: one grid point takes the whole pooled array [128, 384], multiplies it by
    the weight [384, 128], adds the bias row and clamps below at zero. Stated at the contents `V` the region is
    entered from. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S128x384 := Rect.unit (s := S128x384) ![0, 0] S128x384.size inb_S128x384_S128x384_0_0
abbrev r4_1 : Rect S384x128 := Rect.unit (s := S384x128) ![0, 0] S384x128.size inb_S384x128_S384x128_0_0
abbrev r4_2 : Rect S128 := Rect.unit (s := S128) ![0] S128.size inb_S128_S128_0
abbrev r4_3 : Rect S128x128 := Rect.unit (s := S128x128) ![0, 0] S128x128.size inb_S128x128_S128x128_0_0

/-- The result block after the body: the layer's value of the three operands, stored whole. -/
def out4_3 (x0 : Vec F S128x384 .f32) (x1 : Vec F S384x128 .f32) (x2 : Vec F S128 .f32) : Vec F S128x128 .f32 :=
  View.canon [⟨r4_3, k4_pay1 (View.ld x0 r4_0) (View.ld x1 r4_1) (View.ld x2 r4_2)⟩]

/-- The one store covers the whole result block. -/
theorem cover4_3 (p0 : Vec F S128x128 .f32) (y : S128x128.Idx) :
    ∃ pc ∈ ([⟨r4_3, p0⟩] : List (View.Piece (Elt F) S128x128 .f32)), y ∈ pc.1.set :=
  View.cover_of_tiled [⟨r4_3, p0⟩] S128x128.size (by rfl) y

set_option maxHeartbeats 1000000 in
/-- The body on whole staging buffers: the operands stay as read, the result buffer ends at `out4_3` of them. -/
theorem sound_kernel4 (c : Dev nD) (E : Set ℕ) (i : grid4.Coords) (arg1 : Memref sig .tc .vmem S128x384 .f32) (harg1 : arg1.IsWhole) (arg2 : Memref sig .tc .vmem S384x128 .f32) (harg2 : arg2.IsWhole) (arg3 : Memref sig .tc .vmem S128 .f32) (harg3 : arg3.IsWhole) (arg4 : Memref sig .tc .vmem S128x128 .f32) (harg4 : arg4.IsWhole)
    (x0 : Vec F S128x384 .f32) (x1 : Vec F S384x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__affine_kernel i arg1 harg1 arg2 harg2 arg3 harg3 arg4 harg4) K := by
  simp only [cc4__affine_kernel_eq_skeleton]; unfold cc4__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of region 4 on core `c`: arrays as entered; after the body each operand's buffer at its
    block and the result's at the layer's value of the blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.Kernel.Regions

end
-- ==== Proof.Bits.Aff5.lean ====
import proofs.«152442_j4492535791675_1_alg».proof.Proof.Gen.Kernel.Launch
import proofs.«152442_j4492535791675_1_alg».proof.Proof.Gen.Kernel.Skeleton
import proofs.«152442_j4492535791675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 5, the second classifier layer: one grid point takes the whole hidden array [128, 128], multiplies it by
    the weight [128, 128] and adds the bias row. Stated at the contents `V` the region is entered from. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each operand's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S128x128 := Rect.unit (s := S128x128) ![0, 0] S128x128.size inb_S128x128_S128x128_0_0
abbrev r5_1 : Rect S128x128 := Rect.unit (s := S128x128) ![0, 0] S128x128.size inb_S128x128_S128x128_0_0
abbrev r5_2 : Rect S128 := Rect.unit (s := S128) ![0] S128.size inb_S128_S128_0
abbrev r5_3 : Rect S128x128 := Rect.unit (s := S128x128) ![0, 0] S128x128.size inb_S128x128_S128x128_0_0

/-- The result block after the body: the layer's value of the three operands, stored whole. -/
def out5_3 (x0 : Vec F S128x128 .f32) (x1 : Vec F S128x128 .f32) (x2 : Vec F S128 .f32) : Vec F S128x128 .f32 :=
  View.canon [⟨r5_3, k5_pay1 (View.ld x0 r5_0) (View.ld x1 r5_1) (View.ld x2 r5_2)⟩]

/-- The one store covers the whole result block. -/
theorem cover5_3 (p0 : Vec F S128x128 .f32) (y : S128x128.Idx) :
    ∃ pc ∈ ([⟨r5_3, p0⟩] : List (View.Piece (Elt F) S128x128 .f32)), y ∈ pc.1.set :=
  View.cover_of_tiled [⟨r5_3, p0⟩] S128x128.size (by rfl) y

set_option maxHeartbeats 1000000 in
/-- The body on whole staging buffers: the operands stay as read, the result buffer ends at `out5_3` of them. -/
theorem sound_kernel5 (c : Dev nD) (E : Set ℕ) (i : grid5.Coords) (arg1 : Memref sig .tc .vmem S128x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole)
    (x0 : Vec F S128x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_kernel i arg1 harg1 arg2 harg2 arg3 harg3 arg4 harg4) K := by
  simp only [cc5__affine_kernel_eq_skeleton]; unfold cc5__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of region 5 on core `c`: arrays as entered; after the body each operand's buffer at its
    block and the result's at the layer's value of the blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 5, at every point. -/
theorem body_obligation5 (c : Dev nD) : BodyObligation (dat5 (F := F) V c) (defs₀ (F := F)) Variants.none () Set.univ := fun t => by
  rw [bigSep_W5, bigSep_W5]
  exact sound_body5 V c t

end Cert.Kernel.Regions

end
-- ==== Proof.Bits.Bound.lean ====
import proofs.«152442_j4492535791675_1_alg».proof.Proof.Bits.Enc0
import proofs.«152442_j4492535791675_1_alg».proof.Proof.Bits.Mat1
import proofs.«152442_j4492535791675_1_alg».proof.Proof.Bits.Mat2
import proofs.«152442_j4492535791675_1_alg».proof.Proof.Bits.Mat3
import proofs.«152442_j4492535791675_1_alg».proof.Proof.Bits.Aff4
import proofs.«152442_j4492535791675_1_alg».proof.Proof.Bits.Aff5
import proofs.«152442_j4492535791675_1_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The buffer contents at each boundary of @main

    `Y0` is the launch memory; a host stretch applies its operations; a region replaces its result array by what its
    write-backs leave (`Dat.arrAt … N` of the region's proof data at the contents it is entered from). -/

abbrev Y0 (c : Dev nD) : Valuation τ sig (Elt F) := fun b => m (c, b)
abbrev YT0 : (c : Dev nD) → (b : Ref sig .tc) → Buf (Elt F) ((c : Thread nD τ).loc b) := fun c b => Y0 m c b

/-- What region 0 leaves in its result array `main_v0`. -/
def o1 (c : Dev nD) : Buf (Elt F) ((c : Thread nD τ).loc main_v0) := (dat0 (YT0 m) c).arrAt 12 cfg0.N
/-- The contents after region 0. -/
def Y1 (c : Dev nD) : Valuation τ sig (Elt F) := Function.update (Y0 m c) main_v0 (o1 m c)
abbrev YT1 : (c : Dev nD) → (b : Ref sig .tc) → Buf (Elt F) ((c : Thread nD τ).loc b) := fun c b => Y1 m c b
/-- The contents after the host stretch `hostOps1`. -/
def Y2 (c : Dev nD) : Valuation τ sig (Elt F) := StableHlo.after hostOps1 (Y1 m c)
abbrev YT2 : (c : Dev nD) → (b : Ref sig .tc) → Buf (Elt F) ((c : Thread nD τ).loc b) := fun c b => Y2 m c b

/-- What region 1 leaves in its result array `main_v10`. -/
def o3 (c : Dev nD) : Buf (Elt F) ((c : Thread nD τ).loc main_v10) := (dat1 (YT2 m) c).arrAt 2 cfg1.N
/-- The contents after region 1. -/
def Y3 (c : Dev nD) : Valuation τ sig (Elt F) := Function.update (Y2 m c) main_v10 (o3 m c)
abbrev YT3 : (c : Dev nD) → (b : Ref sig .tc) → Buf (Elt F) ((c : Thread nD τ).loc b) := fun c b => Y3 m c b
/-- The contents after the host stretch `hostOps2`. -/
def Y4 (c : Dev nD) : Valuation τ sig (Elt F) := StableHlo.after hostOps2 (Y3 m c)
/-- The contents after the host stretch `hostOps2_1`. -/
def Y5 (c : Dev nD) : Valuation τ sig (Elt F) := StableHlo.after hostOps2_1 (Y4 m c)
/-- The contents after the host stretch `hostOps2_2`. -/
def Y6 (c : Dev nD) : Valuation τ sig (Elt F) := StableHlo.after hostOps2_2 (Y5 m c)
abbrev YT6 : (c : Dev nD) → (b : Ref sig .tc) → Buf (Elt F) ((c : Thread nD τ).loc b) := fun c b => Y6 m c b

/-- What region 2 leaves in its result array `main_v68`. -/
def o7 (c : Dev nD) : Buf (Elt F) ((c : Thread nD τ).loc main_v68) := (dat2 (YT6 m) c).arrAt 2 cfg2.N
/-- The contents after region 2. -/
def Y7 (c : Dev nD) : Valuation τ sig (Elt F) := Function.update (Y6 m c) main_v68 (o7 m c)
abbrev YT7 : (c : Dev nD) → (b : Ref sig .tc) → Buf (Elt F) ((c : Thread nD τ).loc b) := fun c b => Y7 m c b
/-- The contents after the host stretch `hostOps3`. -/
def Y8 (c : Dev nD) : Valuation τ sig (Elt F) := StableHlo.after hostOps3 (Y7 m c)
/-- The contents after the host stretch `hostOps3_1`. -/
def Y9 (c : Dev nD) : Valuation τ sig (Elt F) := StableHlo.after hostOps3_1 (Y8 m c)
/-- The contents after the host stretch `hostOps3_2`. -/
def Y10 (c : Dev nD) : Valuation τ sig (Elt F) := StableHlo.after hostOps3_2 (Y9 m c)
abbrev YT10 : (c : Dev nD) → (b : Ref sig .tc) → Buf (Elt F) ((c : Thread nD τ).loc b) := fun c b => Y10 m c b

/-- What region 3 leaves in its result array `main_v126`. -/
def o11 (c : Dev nD) : Buf (Elt F) ((c : Thread nD τ).loc main_v126) := (dat3 (YT10 m) c).arrAt 2 cfg3.N
/-- The contents after region 3. -/
def Y11 (c : Dev nD) : Valuation τ sig (Elt F) := Function.update (Y10 m c) main_v126 (o11 m c)
abbrev YT11 : (c : Dev nD) → (b : Ref sig .tc) → Buf (Elt F) ((c : Thread nD τ).loc b) := fun c b => Y11 m c b
/-- The contents after the host stretch `hostOps4`. -/
def Y12 (c : Dev nD) : Valuation τ sig (Elt F) := StableHlo.after hostOps4 (Y11 m c)
/-- The contents after the host stretch `hostOps4_1`. -/
def Y13 (c : Dev nD) : Valuation τ sig (Elt F) := StableHlo.after hostOps4_1 (Y12 m c)
/-- The contents after the host stretch `hostOps4_2`. -/
def Y14 (c : Dev nD) : Valuation τ sig (Elt F) := StableHlo.after hostOps4_2 (Y13 m c)
abbrev YT14 : (c : Dev nD) → (b : Ref sig .tc) → Buf (Elt F) ((c : Thread nD τ).loc b) := fun c b => Y14 m c b

/-- What region 4 leaves in its result array `main_v187`. -/
def o15 (c : Dev nD) : Buf (Elt F) ((c : Thread nD τ).loc main_v187) := (dat4 (YT14 m) c).arrAt 3 cfg4.N
/-- The contents after region 4. -/
def Y15 (c : Dev nD) : Valuation τ sig (Elt F) := Function.update (Y14 m c) main_v187 (o15 m c)
abbrev YT15 : (c : Dev nD) → (b : Ref sig .tc) → Buf (Elt F) ((c : Thread nD τ).loc b) := fun c b => Y15 m c b

/-- What region 5 leaves in its result array `main_v188`. -/
def o16 (c : Dev nD) : Buf (Elt F) ((c : Thread nD τ).loc main_v188) := (dat5 (YT15 m) c).arrAt 3 cfg5.N
/-- The contents after region 5. -/
def Y16 (c : Dev nD) : Valuation τ sig (Elt F) := Function.update (Y15 m c) main_v188 (o16 m c)
abbrev YT16 : (c : Dev nD) → (b : Ref sig .tc) → Buf (Elt F) ((c : Thread nD τ).loc b) := fun c b => Y16 m c b

/-! ## Each region's exit contents: its result array at what the write-backs leave, every other buffer as entered -/

theorem isIn0 : ∀ w : Fin 13, w ≠ 12 → (cfg0.win w).isOut = false := by decide
theorem refNe0 : ∀ w : Fin 13, w ≠ 12 → Pipeline.arrRef (spec0) w ≠ main_v0 := by decide
theorem hF0 (c : Dev nD) (w : Fin cfg0.W) : (dat0 (YT0 m) c).arrAt w cfg0.N = YT1 m c (Pipeline.arrRef spec0 w) := by
  by_cases h : w = 12
  · subst h
    show (dat0 (YT0 m) c).arrAt 12 cfg0.N = Y1 m c (Proc.devRef .tc main_v0)
    unfold Y1
    rw [Function.update_self]; rfl
  · rw [(dat0 (YT0 m) c).arrAt_in w (isIn0 w h) _, A_eq0]
    show YT0 m c (Pipeline.arrRef spec0 w) = Y1 m c (Proc.devRef .tc (Pipeline.arrRef spec0 w))
    unfold Y1
    rw [Function.update_of_ne (StableHlo.devRef_ne_of_ne (refNe0 w h))]
theorem hrest0 (c : Dev nD) : ∀ b, b ∉ Finset.univ.image (Pipeline.arrRef spec0) → YT1 m c b = YT0 m c b := fun b hb => by
  have hne : b ≠ main_v0 := fun e => hb (Finset.mem_image.mpr ⟨12, Finset.mem_univ _, e.symm⟩)
  show Y1 m c (Proc.devRef .tc b) = Y0 m c (Proc.devRef .tc b)
  unfold Y1
  rw [Function.update_of_ne (StableHlo.devRef_ne_of_ne hne)]

theorem isIn1 : ∀ w : Fin 3, w ≠ 2 → (cfg1.win w).isOut = false := by decide
theorem refNe1 : ∀ w : Fin 3, w ≠ 2 → Pipeline.arrRef (spec1) w ≠ main_v10 := by decide
theorem hF1 (c : Dev nD) (w : Fin cfg1.W) : (dat1 (YT2 m) c).arrAt w cfg1.N = YT3 m c (Pipeline.arrRef spec1 w) := by
  by_cases h : w = 2
  · subst h
    show (dat1 (YT2 m) c).arrAt 2 cfg1.N = Y3 m c (Proc.devRef .tc main_v10)
    unfold Y3
    rw [Function.update_self]; rfl
  · rw [(dat1 (YT2 m) c).arrAt_in w (isIn1 w h) _, A_eq1]
    show YT2 m c (Pipeline.arrRef spec1 w) = Y3 m c (Proc.devRef .tc (Pipeline.arrRef spec1 w))
    unfold Y3
    rw [Function.update_of_ne (StableHlo.devRef_ne_of_ne (refNe1 w h))]
theorem hrest1 (c : Dev nD) : ∀ b, b ∉ Finset.univ.image (Pipeline.arrRef spec1) → YT3 m c b = YT2 m c b := fun b hb => by
  have hne : b ≠ main_v10 := fun e => hb (Finset.mem_image.mpr ⟨2, Finset.mem_univ _, e.symm⟩)
  show Y3 m c (Proc.devRef .tc b) = Y2 m c (Proc.devRef .tc b)
  unfold Y3
  rw [Function.update_of_ne (StableHlo.devRef_ne_of_ne hne)]

theorem isIn2 : ∀ w : Fin 3, w ≠ 2 → (cfg2.win w).isOut = false := by decide
theorem refNe2 : ∀ w : Fin 3, w ≠ 2 → Pipeline.arrRef (spec2) w ≠ main_v68 := by decide
theorem hF2 (c : Dev nD) (w : Fin cfg2.W) : (dat2 (YT6 m) c).arrAt w cfg2.N = YT7 m c (Pipeline.arrRef spec2 w) := by
  by_cases h : w = 2
  · subst h
    show (dat2 (YT6 m) c).arrAt 2 cfg2.N = Y7 m c (Proc.devRef .tc main_v68)
    unfold Y7
    rw [Function.update_self]; rfl
  · rw [(dat2 (YT6 m) c).arrAt_in w (isIn2 w h) _, A_eq2]
    show YT6 m c (Pipeline.arrRef spec2 w) = Y7 m c (Proc.devRef .tc (Pipeline.arrRef spec2 w))
    unfold Y7
    rw [Function.update_of_ne (StableHlo.devRef_ne_of_ne (refNe2 w h))]
theorem hrest2 (c : Dev nD) : ∀ b, b ∉ Finset.univ.image (Pipeline.arrRef spec2) → YT7 m c b = YT6 m c b := fun b hb => by
  have hne : b ≠ main_v68 := fun e => hb (Finset.mem_image.mpr ⟨2, Finset.mem_univ _, e.symm⟩)
  show Y7 m c (Proc.devRef .tc b) = Y6 m c (Proc.devRef .tc b)
  unfold Y7
  rw [Function.update_of_ne (StableHlo.devRef_ne_of_ne hne)]

theorem isIn3 : ∀ w : Fin 3, w ≠ 2 → (cfg3.win w).isOut = false := by decide
theorem refNe3 : ∀ w : Fin 3, w ≠ 2 → Pipeline.arrRef (spec3) w ≠ main_v126 := by decide
theorem hF3 (c : Dev nD) (w : Fin cfg3.W) : (dat3 (YT10 m) c).arrAt w cfg3.N = YT11 m c (Pipeline.arrRef spec3 w) := by
  by_cases h : w = 2
  · subst h
    show (dat3 (YT10 m) c).arrAt 2 cfg3.N = Y11 m c (Proc.devRef .tc main_v126)
    unfold Y11
    rw [Function.update_self]; rfl
  · rw [(dat3 (YT10 m) c).arrAt_in w (isIn3 w h) _, A_eq3]
    show YT10 m c (Pipeline.arrRef spec3 w) = Y11 m c (Proc.devRef .tc (Pipeline.arrRef spec3 w))
    unfold Y11
    rw [Function.update_of_ne (StableHlo.devRef_ne_of_ne (refNe3 w h))]
theorem hrest3 (c : Dev nD) : ∀ b, b ∉ Finset.univ.image (Pipeline.arrRef spec3) → YT11 m c b = YT10 m c b := fun b hb => by
  have hne : b ≠ main_v126 := fun e => hb (Finset.mem_image.mpr ⟨2, Finset.mem_univ _, e.symm⟩)
  show Y11 m c (Proc.devRef .tc b) = Y10 m c (Proc.devRef .tc b)
  unfold Y11
  rw [Function.update_of_ne (StableHlo.devRef_ne_of_ne hne)]

theorem isIn4 : ∀ w : Fin 4, w ≠ 3 → (cfg4.win w).isOut = false := by decide
theorem refNe4 : ∀ w : Fin 4, w ≠ 3 → Pipeline.arrRef (spec4) w ≠ main_v187 := by decide
theorem hF4 (c : Dev nD) (w : Fin cfg4.W) : (dat4 (YT14 m) c).arrAt w cfg4.N = YT15 m c (Pipeline.arrRef spec4 w) := by
  by_cases h : w = 3
  · subst h
    show (dat4 (YT14 m) c).arrAt 3 cfg4.N = Y15 m c (Proc.devRef .tc main_v187)
    unfold Y15
    rw [Function.update_self]; rfl
  · rw [(dat4 (YT14 m) c).arrAt_in w (isIn4 w h) _, A_eq4]
    show YT14 m c (Pipeline.arrRef spec4 w) = Y15 m c (Proc.devRef .tc (Pipeline.arrRef spec4 w))
    unfold Y15
    rw [Function.update_of_ne (StableHlo.devRef_ne_of_ne (refNe4 w h))]
theorem hrest4 (c : Dev nD) : ∀ b, b ∉ Finset.univ.image (Pipeline.arrRef spec4) → YT15 m c b = YT14 m c b := fun b hb => by
  have hne : b ≠ main_v187 := fun e => hb (Finset.mem_image.mpr ⟨3, Finset.mem_univ _, e.symm⟩)
  show Y15 m c (Proc.devRef .tc b) = Y14 m c (Proc.devRef .tc b)
  unfold Y15
  rw [Function.update_of_ne (StableHlo.devRef_ne_of_ne hne)]

theorem isIn5 : ∀ w : Fin 4, w ≠ 3 → (cfg5.win w).isOut = false := by decide
theorem refNe5 : ∀ w : Fin 4, w ≠ 3 → Pipeline.arrRef (spec5) w ≠ main_v188 := by decide
theorem hF5 (c : Dev nD) (w : Fin cfg5.W) : (dat5 (YT15 m) c).arrAt w cfg5.N = YT16 m c (Pipeline.arrRef spec5 w) := by
  by_cases h : w = 3
  · subst h
    show (dat5 (YT15 m) c).arrAt 3 cfg5.N = Y16 m c (Proc.devRef .tc main_v188)
    unfold Y16
    rw [Function.update_self]; rfl
  · rw [(dat5 (YT15 m) c).arrAt_in w (isIn5 w h) _, A_eq5]
    show YT15 m c (Pipeline.arrRef spec5 w) = Y16 m c (Proc.devRef .tc (Pipeline.arrRef spec5 w))
    unfold Y16
    rw [Function.update_of_ne (StableHlo.devRef_ne_of_ne (refNe5 w h))]
theorem hrest5 (c : Dev nD) : ∀ b, b ∉ Finset.univ.image (Pipeline.arrRef spec5) → YT16 m c b = YT15 m c b := fun b hb => by
  have hne : b ≠ main_v188 := fun e => hb (Finset.mem_image.mpr ⟨3, Finset.mem_univ _, e.symm⟩)
  show Y16 m c (Proc.devRef .tc b) = Y15 m c (Proc.devRef .tc b)
  unfold Y16
  rw [Function.update_of_ne (StableHlo.devRef_ne_of_ne hne)]

/-! ## The proof data family and the thread state -/

/-- Every region's proof data, each at the contents its region is entered from. -/
def pdats : (p : Fin 6) → (c : Dev nD) → Dat τ (Elt F) Unit ℕ (UR sig nD τ) ℕ (cfgs p) c
  | ⟨0, _⟩ => fun c => dat0 (YT0 m) c
  | ⟨1, _⟩ => fun c => dat1 (YT2 m) c
  | ⟨2, _⟩ => fun c => dat2 (YT6 m) c
  | ⟨3, _⟩ => fun c => dat3 (YT10 m) c
  | ⟨4, _⟩ => fun c => dat4 (YT14 m) c
  | ⟨5, _⟩ => fun c => dat5 (YT15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

end Cert.Kernel.Regions

end
-- ==== Proof.Bits.Reg0.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at the contents before it, left with them at the
    contents after it; its arrays are split out of the unscoped buffers and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (YT0 m) c).loose
  hwaits := Pipeline.hwaits_of_owed_zero _ _ _ _ L lv 0 fun _ _ => rfl
  pre c := iprop(StableHlo.held (c : Thread nD τ) (Pipeline.ucRefs τ sig) (Y0 m c) ∗ R c)
  post c := iprop(StableHlo.held (c : Thread nD τ) (Pipeline.ucRefs τ sig) (Y1 m c) ∗ R c)
  X c := iprop(∃ r, prngReg c r)
  Y c := iprop(∃ r, prngReg c r)
  Z c := Pipeline.unscopedRest (Ix := Unit) (Name := ℕ) (U := UR sig nD τ) (Lvl := ℕ) spec0 c (YT0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (YT0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (YT0 m c) (YT1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Reg1.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at the contents before it, left with them at the
    contents after it; its arrays are split out of the unscoped buffers and put back at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (YT2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec1 c (YT2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (YT2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (YT2 m c) (YT3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Reg2.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at the contents before it, left with them at the
    contents after it; its arrays are split out of the unscoped buffers and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (YT6 m) c).loose
  hwaits := Pipeline.hwaits_of_owed_zero _ _ _ _ L lv 2 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec2 c (YT6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (YT6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (YT6 m c) (YT7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Reg3.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at the contents before it, left with them at the
    contents after it; its arrays are split out of the unscoped buffers and put back at what the write-backs leave. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (YT10 m) c).loose
  hwaits := Pipeline.hwaits_of_owed_zero _ _ _ _ L lv 3 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec3 c (YT10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (YT10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (YT10 m c) (YT11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Reg4.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at the contents before it, left with them at the
    contents after it; its arrays are split out of the unscoped buffers and put back at what the write-backs leave. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (YT14 m) c).loose
  hwaits := Pipeline.hwaits_of_owed_zero _ _ _ _ L lv 4 fun _ _ => rfl
  pre c := iprop(StableHlo.held (c : Thread nD τ) (Pipeline.ucRefs τ sig) (Y14 m c) ∗ R c)
  post c := iprop(StableHlo.held (c : Thread nD τ) (Pipeline.ucRefs τ sig) (Y15 m c) ∗ R c)
  X c := iprop(∃ r, prngReg c r)
  Y c := iprop(∃ r, prngReg c r)
  Z c := Pipeline.unscopedRest (Ix := Unit) (Name := ℕ) (U := UR sig nD τ) (Lvl := ℕ) spec4 c (YT14 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (YT14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (YT14 m c) (YT15 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Reg5.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at the contents before it, left with them at the
    contents after it; its arrays are split out of the unscoped buffers and put back at what the write-backs leave. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (YT15 m) c).loose
  hwaits := Pipeline.hwaits_of_owed_zero _ _ _ _ L lv 5 fun _ _ => rfl
  pre c := iprop(StableHlo.held (c : Thread nD τ) (Pipeline.ucRefs τ sig) (Y15 m c) ∗ R c)
  post c := iprop(StableHlo.held (c : Thread nD τ) (Pipeline.ucRefs τ sig) (Y16 m c) ∗ R c)
  X c := iprop(∃ r, prngReg c r)
  Y c := iprop(∃ r, prngReg c r)
  Z c := Pipeline.unscopedRest (Ix := Unit) (Name := ℕ) (U := UR sig nD τ) (Lvl := ℕ) spec5 c (YT15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (YT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (YT15 m c) (YT16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regions

end
-- ==== Proof.Bits.Outs.lean ====
import proofs.«152442_j4492535791675_1_alg».proof.Proof.Bits.Bound

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, as the family the conditional frame is stated over -/

-- what a region leaves is a fold of its write-backs over the grid, kept folded here
attribute [local irreducible] o1 o3 o7 o11 o15 o16

/-- After item J−1 the buffer `r` holds its contents at boundary J (read only at the six result arrays). -/
def outs : Outs (F := F) := fun J r c =>
  if J = 1 then Y1 m c r else if J = 3 then Y3 m c r else if J = 7 then Y7 m c r
  else if J = 11 then Y11 m c r else if J = 15 then Y15 m c r else Y16 m c r

theorem outs_at1 (r : Ref sig .tc) (c : Dev nD) : outs m 1 r c = Y1 m c r := if_pos rfl
theorem outs_at3 (r : Ref sig .tc) (c : Dev nD) : outs m 3 r c = Y3 m c r :=
  (if_neg (by decide)).trans (if_pos rfl)
theorem outs_at7 (r : Ref sig .tc) (c : Dev nD) : outs m 7 r c = Y7 m c r :=
  (if_neg (by decide)).trans ((if_neg (by decide)).trans (if_pos rfl))
theorem outs_at11 (r : Ref sig .tc) (c : Dev nD) : outs m 11 r c = Y11 m c r :=
  (if_neg (by decide)).trans ((if_neg (by decide)).trans ((if_neg (by decide)).trans (if_pos rfl)))
theorem outs_at15 (r : Ref sig .tc) (c : Dev nD) : outs m 15 r c = Y15 m c r :=
  (if_neg (by decide)).trans ((if_neg (by decide)).trans ((if_neg (by decide)).trans ((if_neg (by decide)).trans (if_pos rfl))))
theorem outs_at16 (r : Ref sig .tc) (c : Dev nD) : outs m 16 r c = Y16 m c r :=
  (if_neg (by decide)).trans ((if_neg (by decide)).trans ((if_neg (by decide)).trans ((if_neg (by decide)).trans (if_neg (by decide)))))

theorem Y1_out (c : Dev nD) : Y1 m c main_v0 = o1 m c := by
  unfold Y1; rw [Function.update_self]
theorem outs_1 (c : Dev nD) : outs m 1 main_v0 c = o1 m c :=
  (outs_at1 m main_v0 c).trans (Y1_out m c)
theorem Y3_out (c : Dev nD) : Y3 m c main_v10 = o3 m c := by
  unfold Y3; rw [Function.update_self]
theorem outs_3 (c : Dev nD) : outs m 3 main_v10 c = o3 m c :=
  (outs_at3 m main_v10 c).trans (Y3_out m c)
theorem Y7_out (c : Dev nD) : Y7 m c main_v68 = o7 m c := by
  unfold Y7; rw [Function.update_self]
theorem outs_7 (c : Dev nD) : outs m 7 main_v68 c = o7 m c :=
  (outs_at7 m main_v68 c).trans (Y7_out m c)
theorem Y11_out (c : Dev nD) : Y11 m c main_v126 = o11 m c := by
  unfold Y11; rw [Function.update_self]
theorem outs_11 (c : Dev nD) : outs m 11 main_v126 c = o11 m c :=
  (outs_at11 m main_v126 c).trans (Y11_out m c)
theorem Y15_out (c : Dev nD) : Y15 m c main_v187 = o15 m c := by
  unfold Y15; rw [Function.update_self]
theorem outs_15 (c : Dev nD) : outs m 15 main_v187 c = o15 m c :=
  (outs_at15 m main_v187 c).trans (Y15_out m c)
theorem Y16_out (c : Dev nD) : Y16 m c main_v188 = o16 m c := by
  unfold Y16; rw [Function.update_self]
theorem outs_16 (c : Dev nD) : outs m 16 main_v188 c = o16 m c :=
  (outs_at16 m main_v188 c).trans (Y16_out m c)

theorem V1_eq (c : Dev nD) : V1 m (outs m) c = Y1 m c := by
  unfold Y1; rw [← outs_1 m c]
theorem V2_eq (c : Dev nD) : V2 m (outs m) c = Y2 m c := by
  unfold Y2; rw [← V1_eq m c]
theorem V3_eq (c : Dev nD) : V3 m (outs m) c = Y3 m c := by
  unfold Y3; rw [← outs_3 m c, ← V2_eq m c]
theorem V4_eq (c : Dev nD) : V4 m (outs m) c = Y4 m c := by
  unfold Y4; rw [← V3_eq m c]
theorem V5_eq (c : Dev nD) : V5 m (outs m) c = Y5 m c := by
  unfold Y5; rw [← V4_eq m c]
theorem V6_eq (c : Dev nD) : V6 m (outs m) c = Y6 m c := by
  unfold Y6; rw [← V5_eq m c]
theorem V7_eq (c : Dev nD) : V7 m (outs m) c = Y7 m c := by
  unfold Y7; rw [← outs_7 m c, ← V6_eq m c]
theorem V8_eq (c : Dev nD) : V8 m (outs m) c = Y8 m c := by
  unfold Y8; rw [← V7_eq m c]
theorem V9_eq (c : Dev nD) : V9 m (outs m) c = Y9 m c := by
  unfold Y9; rw [← V8_eq m c]
theorem V10_eq (c : Dev nD) : V10 m (outs m) c = Y10 m c := by
  unfold Y10; rw [← V9_eq m c]
theorem V11_eq (c : Dev nD) : V11 m (outs m) c = Y11 m c := by
  unfold Y11; rw [← outs_11 m c, ← V10_eq m c]
theorem V12_eq (c : Dev nD) : V12 m (outs m) c = Y12 m c := by
  unfold Y12; rw [← V11_eq m c]
theorem V13_eq (c : Dev nD) : V13 m (outs m) c = Y13 m c := by
  unfold Y13; rw [← V12_eq m c]
theorem V14_eq (c : Dev nD) : V14 m (outs m) c = Y14 m c := by
  unfold Y14; rw [← V13_eq m c]
theorem V15_eq (c : Dev nD) : V15 m (outs m) c = Y15 m c := by
  unfold Y15; rw [← outs_15 m c, ← V14_eq m c]
theorem V16_eq (c : Dev nD) : V16 m (outs m) c = Y16 m c := by
  unfold Y16; rw [← outs_16 m c, ← V15_eq m c]

end Cert.Kernel.Regions

end
-- ==== Proof.Bits.Frame.lean ====
import proofs.«152442_j4492535791675_1_alg».proof.Proof.Bits.Reg0
import proofs.«152442_j4492535791675_1_alg».proof.Proof.Bits.Reg1
import proofs.«152442_j4492535791675_1_alg».proof.Proof.Bits.Reg2
import proofs.«152442_j4492535791675_1_alg».proof.Proof.Bits.Reg3
import proofs.«152442_j4492535791675_1_alg».proof.Proof.Bits.Reg4
import proofs.«152442_j4492535791675_1_alg».proof.Proof.Bits.Reg5
import proofs.«152442_j4492535791675_1_alg».proof.Proof.Bits.Outs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers, the same at every boundary. -/
abbrev Es : Fin 7 → Dev nD → sProp 𝕄 := fun _ c => R c

/-- The launch deals every core its generator register and an empty debt. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : Es (F := F) 6 c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V0 m c) ∗ Es 0 c) ⊢ (reg0 m).pre c := .rfl
theorem hpost0 (c : Dev nD) : (reg0 m).post c ⊢ iprop(StableHlo.held (c : Thread nD τ) (Pipeline.ucRefs τ sig) (V1 m (outs m) c) ∗ Es 1 c) := by
  rw [V1_eq]; exact .rfl
theorem hpre1 (c : Dev nD) : iprop(StableHlo.held (c : Thread nD τ) (Pipeline.ucRefs τ sig) (V2 m (outs m) c) ∗ Es 1 c) ⊢ (reg1 m).pre c := by
  rw [V2_eq]; exact .rfl
theorem hpost1 (c : Dev nD) : (reg1 m).post c ⊢ iprop(StableHlo.held (c : Thread nD τ) (Pipeline.ucRefs τ sig) (V3 m (outs m) c) ∗ Es 2 c) := by
  rw [V3_eq]; exact .rfl
theorem hpre2 (c : Dev nD) : iprop(StableHlo.held (c : Thread nD τ) (Pipeline.ucRefs τ sig) (V6 m (outs m) c) ∗ Es 2 c) ⊢ (reg2 m).pre c := by
  rw [V6_eq]; exact .rfl
theorem hpost2 (c : Dev nD) : (reg2 m).post c ⊢ iprop(StableHlo.held (c : Thread nD τ) (Pipeline.ucRefs τ sig) (V7 m (outs m) c) ∗ Es 3 c) := by
  rw [V7_eq]; exact .rfl
theorem hpre3 (c : Dev nD) : iprop(StableHlo.held (c : Thread nD τ) (Pipeline.ucRefs τ sig) (V10 m (outs m) c) ∗ Es 3 c) ⊢ (reg3 m).pre c := by
  rw [V10_eq]; exact .rfl
theorem hpost3 (c : Dev nD) : (reg3 m).post c ⊢ iprop(StableHlo.held (c : Thread nD τ) (Pipeline.ucRefs τ sig) (V11 m (outs m) c) ∗ Es 4 c) := by
  rw [V11_eq]; exact .rfl
theorem hpre4 (c : Dev nD) : iprop(StableHlo.held (c : Thread nD τ) (Pipeline.ucRefs τ sig) (V14 m (outs m) c) ∗ Es 4 c) ⊢ (reg4 m).pre c := by
  rw [V14_eq]; exact .rfl
theorem hpost4 (c : Dev nD) : (reg4 m).post c ⊢ iprop(StableHlo.held (c : Thread nD τ) (Pipeline.ucRefs τ sig) (V15 m (outs m) c) ∗ Es 5 c) := by
  rw [V15_eq]; exact .rfl
theorem hpre5 (c : Dev nD) : iprop(StableHlo.held (c : Thread nD τ) (Pipeline.ucRefs τ sig) (V15 m (outs m) c) ∗ Es 5 c) ⊢ (reg5 m).pre c := by
  rw [V15_eq]; exact .rfl
theorem hpost5 (c : Dev nD) : (reg5 m).post c ⊢ iprop(StableHlo.held (c : Thread nD τ) (Pipeline.ucRefs τ sig) (V16 m (outs m) c) ∗ Es 6 c) := by
  rw [V16_eq]; exact .rfl

set_option backward.isDefEq.respectTransparency.types false in
/-- Every weakly fair execution of @main from memory `m` with zero counters terminates, nothing faulting, and every
    argument array ends as launched: the conditional frame at the six regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_cond m (emb₁) () 𝒱₀ L lv (fun _ _ => rfl) ρ (outs m) (pdats m) 0 (fun _ => (BI.emp : sProp 𝕄))
    (initOf (Pipeline.cells cfgs cellOf_inj) (Pipeline.launchToks cfgs cellOf_inj)) hu₀ Es (hE0 ρ) hE6
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)

end Cert.Kernel.Regions

end
-- ==== Proof.Ideal.Enc0.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 0, the feature encoder: each grid point takes a block of 2000 rows of the raw features [50000, 1544] and the
    eleven whole parameter arrays, and writes the block of the same rows of the encoded features [50000, 128]: four
    column slices of the rows, each multiplied by its weight, shifted by its bias and passed through the leaky
    rectifier, are laid side by side, multiplied by the mixing weight, shifted, and passed through the parametric
    rectifier. Stated at the contents `V` the region is entered from. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each operand's staging buffer holds its block at every point: the row block is fetched at every point, a
    parameter array's block never moves. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x1544 := Rect.unit (s := S2000x1544) ![0, 0] S2000x1544.size inb_S2000x1544_S2000x1544_0_0
abbrev r0_1 : Rect S6x32 := Rect.unit (s := S6x32) ![0, 0] S6x32.size inb_S6x32_S6x32_0_0
abbrev r0_2 : Rect S32 := Rect.unit (s := S32) ![0] S32.size inb_S32_S32_0
abbrev r0_3 : Rect S768x32 := Rect.unit (s := S768x32) ![0, 0] S768x32.size inb_S768x32_S768x32_0_0
abbrev r0_4 : Rect S32 := Rect.unit (s := S32) ![0] S32.size inb_S32_S32_0
abbrev r0_5 : Rect S2x32 := Rect.unit (s := S2x32) ![0, 0] S2x32.size inb_S2x32_S2x32_0_0
abbrev r0_6 : Rect S32 := Rect.unit (s := S32) ![0] S32.size inb_S32_S32_0
abbrev r0_7 : Rect S768x32 := Rect.unit (s := S768x32) ![0, 0] S768x32.size inb_S768x32_S768x32_0_0
abbrev r0_8 : Rect S32 := Rect.unit (s := S32) ![0] S32.size inb_S32_S32_0
abbrev r0_9 : Rect S128x128 := Rect.unit (s := S128x128) ![0, 0] S128x128.size inb_S128x128_S128x128_0_0
abbrev r0_10 : Rect S128 := Rect.unit (s := S128) ![0] S128.size inb_S128_S128_0
abbrev r0_11 : Rect S128 := Rect.unit (s := S128) ![0] S128.size inb_S128_S128_0
abbrev r0_12 : Rect S2000x128 := Rect.unit (s := S2000x128) ![0, 0] S2000x128.size inb_S2000x128_S2000x128_0_0

/-- The result block after the body: the encoder's value of the row block and the parameters, stored whole. -/
def out0_12 (x0 : Vec F S2000x1544 .f32) (x1 : Vec F S6x32 .f32) (x2 : Vec F S32 .f32) (x3 : Vec F S768x32 .f32) (x4 : Vec F S32 .f32) (x5 : Vec F S2x32 .f32) (x6 : Vec F S32 .f32) (x7 : Vec F S768x32 .f32) (x8 : Vec F S32 .f32) (x9 : Vec F S128x128 .f32) (x10 : Vec F S128 .f32) (x11 : Vec F S128 .f32) : Vec F S2000x128 .f32 :=
  View.canon [⟨r0_12, k0_pay1 (k0_pay2 (View.ld x0 r0_0)) (k0_pay3 (View.ld x0 r0_0) (View.ld x1 r0_1) (View.ld x2 r0_2))
    (k0_pay4 (View.ld x0 r0_0) (View.ld x3 r0_3) (View.ld x4 r0_4)) (k0_pay5 (View.ld x0 r0_0) (View.ld x5 r0_5) (View.ld x6 r0_6))
    (View.ld x7 r0_7) (View.ld x8 r0_8) (View.ld x9 r0_9) (View.ld x10 r0_10) (View.ld x11 r0_11)⟩]

/-- The one store covers the whole result block. -/
theorem cover0_12 (p0 : Vec F S2000x128 .f32) (y : S2000x128.Idx) :
    ∃ pc ∈ ([⟨r0_12, p0⟩] : List (View.Piece (Elt F) S2000x128 .f32)), y ∈ pc.1.set :=
  View.cover_of_tiled [⟨r0_12, p0⟩] S2000x128.size (by rfl) y

set_option maxHeartbeats 4000000 in
/-- The body on whole staging buffers: the operands stay as read, the result buffer ends at `out0_12` of them. -/
theorem sound_kernel0 (c : Dev nD) (E : Set ℕ) (i : grid0.Coords) (arg1 : Memref sig .tc .vmem S2000x1544 .f32) (harg1 : arg1.IsWhole) (arg2 : Memref sig .tc .vmem S6x32 .f32) (harg2 : arg2.IsWhole) (arg3 : Memref sig .tc .vmem S32 .f32) (harg3 : arg3.IsWhole) (arg4 : Memref sig .tc .vmem S768x32 .f32) (harg4 : arg4.IsWhole) (arg5 : Memref sig .tc .vmem S32 .f32) (harg5 : arg5.IsWhole) (arg6 : Memref sig .tc .vmem S2x32 .f32) (harg6 : arg6.IsWhole) (arg7 : Memref sig .tc .vmem S32 .f32) (harg7 : arg7.IsWhole) (arg8 : Memref sig .tc .vmem S768x32 .f32) (harg8 : arg8.IsWhole) (arg9 : Memref sig .tc .vmem S32 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128 .f32) (harg12 : arg12.IsWhole) (arg13 : Memref sig .tc .vmem S2000x128 .f32) (harg13 : arg13.IsWhole)
    (x0 : Vec F S2000x1544 .f32) (x1 : Vec F S6x32 .f32) (x2 : Vec F S32 .f32) (x3 : Vec F S768x32 .f32) (x4 : Vec F S32 .f32) (x5 : Vec F S2x32 .f32) (x6 : Vec F S32 .f32) (x7 : Vec F S768x32 .f32) (x8 : Vec F S32 .f32) (x9 : Vec F S128x128 .f32) (x10 : Vec F S128 .f32) (x11 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13) K := by
  simp only [cc0__encoder_kernel_eq_skeleton]; unfold cc0__encoder_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover0_12 _)

/-- The proof data of region 0 on core `c`: arrays as entered; after the body each operand's buffer at its
    block and the result's at the encoder's value of the blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.Ideal.Mat1.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 1: each grid point multiplies a block of 4000 rows of the left
    array by the whole 128×128 right array and writes the block of the same rows of the result. Stated at the
    contents `V` the region is entered from. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its row block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right operand's staging buffer holds the whole right array at every point (its block never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0

/-- The result block after the body: the product of the row block with the right array, stored whole. -/
def out1_2 (x0 : Vec F S4000x128 .f32) (x1 : Vec F S128x128 .f32) : Vec F S4000x128 .f32 :=
  View.canon [⟨r1_0, k1_pay1 (View.ld x0 r1_0) (View.ld x1 r1_1)⟩]

/-- The one store covers the whole result block. -/
theorem cover1_2 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

set_option maxHeartbeats 1000000 in
/-- The body on whole staging buffers: the operands stay as read, the result buffer ends at `out1_2` of them. -/
theorem sound_kernel1 (c : Dev nD) (E : Set ℕ) (i : grid1.Coords) (arg1 : Memref sig .tc .vmem S4000x128 .f32) (harg1 : arg1.IsWhole) (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of region 1 on core `c`: arrays as entered; after the body each operand's buffer at its
    block and the result's at the product of the blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.Ideal.Mat2.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 2: each grid point multiplies a block of 5000 rows of the left
    array by the whole 128×128 right array and writes the block of the same rows of the result. Stated at the
    contents `V` the region is entered from. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its row block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The right operand's staging buffer holds the whole right array at every point (its block never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-- The result block after the body: the product of the row block with the right array, stored whole. -/
def out2_2 (x0 : Vec F S5000x128 .f32) (x1 : Vec F S128x128 .f32) : Vec F S5000x128 .f32 :=
  View.canon [⟨r2_0, k2_pay1 (View.ld x0 r2_0) (View.ld x1 r2_1)⟩]

/-- The one store covers the whole result block. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The body on whole staging buffers: the operands stay as read, the result buffer ends at `out2_2` of them. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core `c`: arrays as entered; after the body each operand's buffer at its
    block and the result's at the product of the blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.Ideal.Mat3.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! The row-blocked product of region 3: each grid point multiplies a block of 12500 rows of the left
    array by the whole 128×128 right array and writes the block of the same rows of the result. Stated at the
    contents `V` the region is entered from. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its row block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds the whole right array at every point (its block never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S12500x128 := Rect.unit (s := S12500x128) ![0, 0] S12500x128.size inb_S12500x128_S12500x128_0_0
abbrev r3_1 : Rect S128x128 := Rect.unit (s := S128x128) ![0, 0] S128x128.size inb_S128x128_S128x128_0_0

/-- The result block after the body: the product of the row block with the right array, stored whole. -/
def out3_2 (x0 : Vec F S12500x128 .f32) (x1 : Vec F S128x128 .f32) : Vec F S12500x128 .f32 :=
  View.canon [⟨r3_0, k3_pay1 (View.ld x0 r3_0) (View.ld x1 r3_1)⟩]

/-- The one store covers the whole result block. -/
theorem cover3_2 (p0 : Vec F S12500x128 .f32) (y : S12500x128.Idx) :
    ∃ pc ∈ ([⟨r3_0, p0⟩] : List (View.Piece (Elt F) S12500x128 .f32)), y ∈ pc.1.set :=
  View.cover_of_tiled [⟨r3_0, p0⟩] S12500x128.size (by rfl) y

set_option maxHeartbeats 1000000 in
/-- The body on whole staging buffers: the operands stay as read, the result buffer ends at `out3_2` of them. -/
theorem sound_kernel3 (c : Dev nD) (E : Set ℕ) (i : grid3.Coords) (arg1 : Memref sig .tc .vmem S12500x128 .f32) (harg1 : arg1.IsWhole) (arg2 : Memref sig .tc .vmem S128x128 .f32) (harg2 : arg2.IsWhole) (arg3 : Memref sig .tc .vmem S12500x128 .f32) (harg3 : arg3.IsWhole)
    (x0 : Vec F S12500x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of region 3 on core `c`: arrays as entered; after the body each operand's buffer at its
    block and the result's at the product of the blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.Ideal.Aff4.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 4, the first classifier layer: one grid point takes the whole pooled array [128, 384], multiplies it by
    the weight [384, 128], adds the bias row and clamps below at zero. Stated at the contents `V` the region is
    entered from. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S128x384 := Rect.unit (s := S128x384) ![0, 0] S128x384.size inb_S128x384_S128x384_0_0
abbrev r4_1 : Rect S384x128 := Rect.unit (s := S384x128) ![0, 0] S384x128.size inb_S384x128_S384x128_0_0
abbrev r4_2 : Rect S128 := Rect.unit (s := S128) ![0] S128.size inb_S128_S128_0
abbrev r4_3 : Rect S128x128 := Rect.unit (s := S128x128) ![0, 0] S128x128.size inb_S128x128_S128x128_0_0

/-- The result block after the body: the layer's value of the three operands, stored whole. -/
def out4_3 (x0 : Vec F S128x384 .f32) (x1 : Vec F S384x128 .f32) (x2 : Vec F S128 .f32) : Vec F S128x128 .f32 :=
  View.canon [⟨r4_3, k4_pay1 (View.ld x0 r4_0) (View.ld x1 r4_1) (View.ld x2 r4_2)⟩]

/-- The one store covers the whole result block. -/
theorem cover4_3 (p0 : Vec F S128x128 .f32) (y : S128x128.Idx) :
    ∃ pc ∈ ([⟨r4_3, p0⟩] : List (View.Piece (Elt F) S128x128 .f32)), y ∈ pc.1.set :=
  View.cover_of_tiled [⟨r4_3, p0⟩] S128x128.size (by rfl) y

set_option maxHeartbeats 1000000 in
/-- The body on whole staging buffers: the operands stay as read, the result buffer ends at `out4_3` of them. -/
theorem sound_kernel4 (c : Dev nD) (E : Set ℕ) (i : grid4.Coords) (arg1 : Memref sig .tc .vmem S128x384 .f32) (harg1 : arg1.IsWhole) (arg2 : Memref sig .tc .vmem S384x128 .f32) (harg2 : arg2.IsWhole) (arg3 : Memref sig .tc .vmem S128 .f32) (harg3 : arg3.IsWhole) (arg4 : Memref sig .tc .vmem S128x128 .f32) (harg4 : arg4.IsWhole)
    (x0 : Vec F S128x384 .f32) (x1 : Vec F S384x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__affine_kernel i arg1 harg1 arg2 harg2 arg3 harg3 arg4 harg4) K := by
  simp only [cc4__affine_kernel_eq_skeleton]; unfold cc4__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of region 4 on core `c`: arrays as entered; after the body each operand's buffer at its
    block and the result's at the layer's value of the blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Regions

end
-- ==== Proof.Ideal.Aff5.lean ====
import proofs.«152442_j4492535791675_1_alg».proof.Proof.Gen.KernelIdeal.Launch
import proofs.«152442_j4492535791675_1_alg».proof.Proof.Gen.KernelIdeal.Skeleton
import proofs.«152442_j4492535791675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! Region 5, the second classifier layer: one grid point takes the whole hidden array [128, 128], multiplies it by
    the weight [128, 128] and adds the bias row. Stated at the contents `V` the region is entered from. -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each operand's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S128x128 := Rect.unit (s := S128x128) ![0, 0] S128x128.size inb_S128x128_S128x128_0_0
abbrev r5_1 : Rect S128x128 := Rect.unit (s := S128x128) ![0, 0] S128x128.size inb_S128x128_S128x128_0_0
abbrev r5_2 : Rect S128 := Rect.unit (s := S128) ![0] S128.size inb_S128_S128_0
abbrev r5_3 : Rect S128x128 := Rect.unit (s := S128x128) ![0, 0] S128x128.size inb_S128x128_S128x128_0_0

/-- The result block after the body: the layer's value of the three operands, stored whole. -/
def out5_3 (x0 : Vec F S128x128 .f32) (x1 : Vec F S128x128 .f32) (x2 : Vec F S128 .f32) : Vec F S128x128 .f32 :=
  View.canon [⟨r5_3, k5_pay1 (View.ld x0 r5_0) (View.ld x1 r5_1) (View.ld x2 r5_2)⟩]

/-- The one store covers the whole result block. -/
theorem cover5_3 (p0 : Vec F S128x128 .f32) (y : S128x128.Idx) :
    ∃ pc ∈ ([⟨r5_3, p0⟩] : List (View.Piece (Elt F) S128x128 .f32)), y ∈ pc.1.set :=
  View.cover_of_tiled [⟨r5_3, p0⟩] S128x128.size (by rfl) y

set_option maxHeartbeats 1000000 in
/-- The body on whole staging buffers: the operands stay as read, the result buffer ends at `out5_3` of them. -/
theorem sound_kernel5 (c : Dev nD) (E : Set ℕ) (i : grid5.Coords) (arg1 : Memref sig .tc .vmem S128x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x128 .f32) (harg4 : arg4.IsWhole)
    (x0 : Vec F S128x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__affine_kernel i arg1 harg1 arg2 harg2 arg3 harg3 arg4 harg4) K := by
  simp only [cc5__affine_kernel_eq_skeleton]; unfold cc5__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of region 5 on core `c`: arrays as entered; after the body each operand's buffer at its
    block and the result's at the layer's value of the blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 5, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Regions

end
-- ==== Proof.Ideal.Bound.lean ====
import proofs.«152442_j4492535791675_1_alg».proof.Proof.Ideal.Enc0
import proofs.«152442_j4492535791675_1_alg».proof.Proof.Ideal.Mat1
import proofs.«152442_j4492535791675_1_alg».proof.Proof.Ideal.Mat2
import proofs.«152442_j4492535791675_1_alg».proof.Proof.Ideal.Mat3
import proofs.«152442_j4492535791675_1_alg».proof.Proof.Ideal.Aff4
import proofs.«152442_j4492535791675_1_alg».proof.Proof.Ideal.Aff5
import proofs.«152442_j4492535791675_1_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## The buffer contents at each boundary of @main

    `Y0` is the launch memory; a host stretch applies its operations; a region replaces its result array by what its
    write-backs leave (`Dat.arrAt … N` of the region's proof data at the contents it is entered from). -/

abbrev Y0 (c : Dev nD) : Valuation τ sig (Elt F) := fun b => m (c, b)
abbrev YT0 : (c : Dev nD) → (b : Ref sig .tc) → Buf (Elt F) ((c : Thread nD τ).loc b) := fun c b => Y0 m c b

/-- What region 0 leaves in its result array `main_v0`. -/
def o1 (c : Dev nD) : Buf (Elt F) ((c : Thread nD τ).loc main_v0) := (dat0 (YT0 m) c).arrAt 12 cfg0.N
/-- The contents after region 0. -/
def Y1 (c : Dev nD) : Valuation τ sig (Elt F) := Function.update (Y0 m c) main_v0 (o1 m c)
abbrev YT1 : (c : Dev nD) → (b : Ref sig .tc) → Buf (Elt F) ((c : Thread nD τ).loc b) := fun c b => Y1 m c b
/-- The contents after the host stretch `hostOps1`. -/
def Y2 (c : Dev nD) : Valuation τ sig (Elt F) := StableHlo.after hostOps1 (Y1 m c)
abbrev YT2 : (c : Dev nD) → (b : Ref sig .tc) → Buf (Elt F) ((c : Thread nD τ).loc b) := fun c b => Y2 m c b

/-- What region 1 leaves in its result array `main_v10`. -/
def o3 (c : Dev nD) : Buf (Elt F) ((c : Thread nD τ).loc main_v10) := (dat1 (YT2 m) c).arrAt 2 cfg1.N
/-- The contents after region 1. -/
def Y3 (c : Dev nD) : Valuation τ sig (Elt F) := Function.update (Y2 m c) main_v10 (o3 m c)
abbrev YT3 : (c : Dev nD) → (b : Ref sig .tc) → Buf (Elt F) ((c : Thread nD τ).loc b) := fun c b => Y3 m c b
/-- The contents after the host stretch `hostOps2`. -/
def Y4 (c : Dev nD) : Valuation τ sig (Elt F) := StableHlo.after hostOps2 (Y3 m c)
/-- The contents after the host stretch `hostOps2_1`. -/
def Y5 (c : Dev nD) : Valuation τ sig (Elt F) := StableHlo.after hostOps2_1 (Y4 m c)
/-- The contents after the host stretch `hostOps2_2`. -/
def Y6 (c : Dev nD) : Valuation τ sig (Elt F) := StableHlo.after hostOps2_2 (Y5 m c)
abbrev YT6 : (c : Dev nD) → (b : Ref sig .tc) → Buf (Elt F) ((c : Thread nD τ).loc b) := fun c b => Y6 m c b

/-- What region 2 leaves in its result array `main_v68`. -/
def o7 (c : Dev nD) : Buf (Elt F) ((c : Thread nD τ).loc main_v68) := (dat2 (YT6 m) c).arrAt 2 cfg2.N
/-- The contents after region 2. -/
def Y7 (c : Dev nD) : Valuation τ sig (Elt F) := Function.update (Y6 m c) main_v68 (o7 m c)
abbrev YT7 : (c : Dev nD) → (b : Ref sig .tc) → Buf (Elt F) ((c : Thread nD τ).loc b) := fun c b => Y7 m c b
/-- The contents after the host stretch `hostOps3`. -/
def Y8 (c : Dev nD) : Valuation τ sig (Elt F) := StableHlo.after hostOps3 (Y7 m c)
/-- The contents after the host stretch `hostOps3_1`. -/
def Y9 (c : Dev nD) : Valuation τ sig (Elt F) := StableHlo.after hostOps3_1 (Y8 m c)
/-- The contents after the host stretch `hostOps3_2`. -/
def Y10 (c : Dev nD) : Valuation τ sig (Elt F) := StableHlo.after hostOps3_2 (Y9 m c)
abbrev YT10 : (c : Dev nD) → (b : Ref sig .tc) → Buf (Elt F) ((c : Thread nD τ).loc b) := fun c b => Y10 m c b

/-- What region 3 leaves in its result array `main_v126`. -/
def o11 (c : Dev nD) : Buf (Elt F) ((c : Thread nD τ).loc main_v126) := (dat3 (YT10 m) c).arrAt 2 cfg3.N
/-- The contents after region 3. -/
def Y11 (c : Dev nD) : Valuation τ sig (Elt F) := Function.update (Y10 m c) main_v126 (o11 m c)
abbrev YT11 : (c : Dev nD) → (b : Ref sig .tc) → Buf (Elt F) ((c : Thread nD τ).loc b) := fun c b => Y11 m c b
/-- The contents after the host stretch `hostOps4`. -/
def Y12 (c : Dev nD) : Valuation τ sig (Elt F) := StableHlo.after hostOps4 (Y11 m c)
/-- The contents after the host stretch `hostOps4_1`. -/
def Y13 (c : Dev nD) : Valuation τ sig (Elt F) := StableHlo.after hostOps4_1 (Y12 m c)
/-- The contents after the host stretch `hostOps4_2`. -/
def Y14 (c : Dev nD) : Valuation τ sig (Elt F) := StableHlo.after hostOps4_2 (Y13 m c)
abbrev YT14 : (c : Dev nD) → (b : Ref sig .tc) → Buf (Elt F) ((c : Thread nD τ).loc b) := fun c b => Y14 m c b

/-- What region 4 leaves in its result array `main_v187`. -/
def o15 (c : Dev nD) : Buf (Elt F) ((c : Thread nD τ).loc main_v187) := (dat4 (YT14 m) c).arrAt 3 cfg4.N
/-- The contents after region 4. -/
def Y15 (c : Dev nD) : Valuation τ sig (Elt F) := Function.update (Y14 m c) main_v187 (o15 m c)
abbrev YT15 : (c : Dev nD) → (b : Ref sig .tc) → Buf (Elt F) ((c : Thread nD τ).loc b) := fun c b => Y15 m c b

/-- What region 5 leaves in its result array `main_v188`. -/
def o16 (c : Dev nD) : Buf (Elt F) ((c : Thread nD τ).loc main_v188) := (dat5 (YT15 m) c).arrAt 3 cfg5.N
/-- The contents after region 5. -/
def Y16 (c : Dev nD) : Valuation τ sig (Elt F) := Function.update (Y15 m c) main_v188 (o16 m c)
abbrev YT16 : (c : Dev nD) → (b : Ref sig .tc) → Buf (Elt F) ((c : Thread nD τ).loc b) := fun c b => Y16 m c b

/-! ## Each region's exit contents: its result array at what the write-backs leave, every other buffer as entered -/

theorem isIn0 : ∀ w : Fin 13, w ≠ 12 → (cfg0.win w).isOut = false := by decide
theorem refNe0 : ∀ w : Fin 13, w ≠ 12 → Pipeline.arrRef (spec0) w ≠ main_v0 := by decide
theorem hF0 (c : Dev nD) (w : Fin cfg0.W) : (dat0 (YT0 m) c).arrAt w cfg0.N = YT1 m c (Pipeline.arrRef spec0 w) := by
  by_cases h : w = 12
  · subst h
    show (dat0 (YT0 m) c).arrAt 12 cfg0.N = Y1 m c (Proc.devRef .tc main_v0)
    unfold Y1
    rw [Function.update_self]; rfl
  · rw [(dat0 (YT0 m) c).arrAt_in w (isIn0 w h) _, A_eq0]
    show YT0 m c (Pipeline.arrRef spec0 w) = Y1 m c (Proc.devRef .tc (Pipeline.arrRef spec0 w))
    unfold Y1
    rw [Function.update_of_ne (StableHlo.devRef_ne_of_ne (refNe0 w h))]
theorem hrest0 (c : Dev nD) : ∀ b, b ∉ Finset.univ.image (Pipeline.arrRef spec0) → YT1 m c b = YT0 m c b := fun b hb => by
  have hne : b ≠ main_v0 := fun e => hb (Finset.mem_image.mpr ⟨12, Finset.mem_univ _, e.symm⟩)
  show Y1 m c (Proc.devRef .tc b) = Y0 m c (Proc.devRef .tc b)
  unfold Y1
  rw [Function.update_of_ne (StableHlo.devRef_ne_of_ne hne)]

theorem isIn1 : ∀ w : Fin 3, w ≠ 2 → (cfg1.win w).isOut = false := by decide
theorem refNe1 : ∀ w : Fin 3, w ≠ 2 → Pipeline.arrRef (spec1) w ≠ main_v10 := by decide
theorem hF1 (c : Dev nD) (w : Fin cfg1.W) : (dat1 (YT2 m) c).arrAt w cfg1.N = YT3 m c (Pipeline.arrRef spec1 w) := by
  by_cases h : w = 2
  · subst h
    show (dat1 (YT2 m) c).arrAt 2 cfg1.N = Y3 m c (Proc.devRef .tc main_v10)
    unfold Y3
    rw [Function.update_self]; rfl
  · rw [(dat1 (YT2 m) c).arrAt_in w (isIn1 w h) _, A_eq1]
    show YT2 m c (Pipeline.arrRef spec1 w) = Y3 m c (Proc.devRef .tc (Pipeline.arrRef spec1 w))
    unfold Y3
    rw [Function.update_of_ne (StableHlo.devRef_ne_of_ne (refNe1 w h))]
theorem hrest1 (c : Dev nD) : ∀ b, b ∉ Finset.univ.image (Pipeline.arrRef spec1) → YT3 m c b = YT2 m c b := fun b hb => by
  have hne : b ≠ main_v10 := fun e => hb (Finset.mem_image.mpr ⟨2, Finset.mem_univ _, e.symm⟩)
  show Y3 m c (Proc.devRef .tc b) = Y2 m c (Proc.devRef .tc b)
  unfold Y3
  rw [Function.update_of_ne (StableHlo.devRef_ne_of_ne hne)]

theorem isIn2 : ∀ w : Fin 3, w ≠ 2 → (cfg2.win w).isOut = false := by decide
theorem refNe2 : ∀ w : Fin 3, w ≠ 2 → Pipeline.arrRef (spec2) w ≠ main_v68 := by decide
theorem hF2 (c : Dev nD) (w : Fin cfg2.W) : (dat2 (YT6 m) c).arrAt w cfg2.N = YT7 m c (Pipeline.arrRef spec2 w) := by
  by_cases h : w = 2
  · subst h
    show (dat2 (YT6 m) c).arrAt 2 cfg2.N = Y7 m c (Proc.devRef .tc main_v68)
    unfold Y7
    rw [Function.update_self]; rfl
  · rw [(dat2 (YT6 m) c).arrAt_in w (isIn2 w h) _, A_eq2]
    show YT6 m c (Pipeline.arrRef spec2 w) = Y7 m c (Proc.devRef .tc (Pipeline.arrRef spec2 w))
    unfold Y7
    rw [Function.update_of_ne (StableHlo.devRef_ne_of_ne (refNe2 w h))]
theorem hrest2 (c : Dev nD) : ∀ b, b ∉ Finset.univ.image (Pipeline.arrRef spec2) → YT7 m c b = YT6 m c b := fun b hb => by
  have hne : b ≠ main_v68 := fun e => hb (Finset.mem_image.mpr ⟨2, Finset.mem_univ _, e.symm⟩)
  show Y7 m c (Proc.devRef .tc b) = Y6 m c (Proc.devRef .tc b)
  unfold Y7
  rw [Function.update_of_ne (StableHlo.devRef_ne_of_ne hne)]

theorem isIn3 : ∀ w : Fin 3, w ≠ 2 → (cfg3.win w).isOut = false := by decide
theorem refNe3 : ∀ w : Fin 3, w ≠ 2 → Pipeline.arrRef (spec3) w ≠ main_v126 := by decide
theorem hF3 (c : Dev nD) (w : Fin cfg3.W) : (dat3 (YT10 m) c).arrAt w cfg3.N = YT11 m c (Pipeline.arrRef spec3 w) := by
  by_cases h : w = 2
  · subst h
    show (dat3 (YT10 m) c).arrAt 2 cfg3.N = Y11 m c (Proc.devRef .tc main_v126)
    unfold Y11
    rw [Function.update_self]; rfl
  · rw [(dat3 (YT10 m) c).arrAt_in w (isIn3 w h) _, A_eq3]
    show YT10 m c (Pipeline.arrRef spec3 w) = Y11 m c (Proc.devRef .tc (Pipeline.arrRef spec3 w))
    unfold Y11
    rw [Function.update_of_ne (StableHlo.devRef_ne_of_ne (refNe3 w h))]
theorem hrest3 (c : Dev nD) : ∀ b, b ∉ Finset.univ.image (Pipeline.arrRef spec3) → YT11 m c b = YT10 m c b := fun b hb => by
  have hne : b ≠ main_v126 := fun e => hb (Finset.mem_image.mpr ⟨2, Finset.mem_univ _, e.symm⟩)
  show Y11 m c (Proc.devRef .tc b) = Y10 m c (Proc.devRef .tc b)
  unfold Y11
  rw [Function.update_of_ne (StableHlo.devRef_ne_of_ne hne)]

theorem isIn4 : ∀ w : Fin 4, w ≠ 3 → (cfg4.win w).isOut = false := by decide
theorem refNe4 : ∀ w : Fin 4, w ≠ 3 → Pipeline.arrRef (spec4) w ≠ main_v187 := by decide
theorem hF4 (c : Dev nD) (w : Fin cfg4.W) : (dat4 (YT14 m) c).arrAt w cfg4.N = YT15 m c (Pipeline.arrRef spec4 w) := by
  by_cases h : w = 3
  · subst h
    show (dat4 (YT14 m) c).arrAt 3 cfg4.N = Y15 m c (Proc.devRef .tc main_v187)
    unfold Y15
    rw [Function.update_self]; rfl
  · rw [(dat4 (YT14 m) c).arrAt_in w (isIn4 w h) _, A_eq4]
    show YT14 m c (Pipeline.arrRef spec4 w) = Y15 m c (Proc.devRef .tc (Pipeline.arrRef spec4 w))
    unfold Y15
    rw [Function.update_of_ne (StableHlo.devRef_ne_of_ne (refNe4 w h))]
theorem hrest4 (c : Dev nD) : ∀ b, b ∉ Finset.univ.image (Pipeline.arrRef spec4) → YT15 m c b = YT14 m c b := fun b hb => by
  have hne : b ≠ main_v187 := fun e => hb (Finset.mem_image.mpr ⟨3, Finset.mem_univ _, e.symm⟩)
  show Y15 m c (Proc.devRef .tc b) = Y14 m c (Proc.devRef .tc b)
  unfold Y15
  rw [Function.update_of_ne (StableHlo.devRef_ne_of_ne hne)]

theorem isIn5 : ∀ w : Fin 4, w ≠ 3 → (cfg5.win w).isOut = false := by decide
theorem refNe5 : ∀ w : Fin 4, w ≠ 3 → Pipeline.arrRef (spec5) w ≠ main_v188 := by decide
theorem hF5 (c : Dev nD) (w : Fin cfg5.W) : (dat5 (YT15 m) c).arrAt w cfg5.N = YT16 m c (Pipeline.arrRef spec5 w) := by
  by_cases h : w = 3
  · subst h
    show (dat5 (YT15 m) c).arrAt 3 cfg5.N = Y16 m c (Proc.devRef .tc main_v188)
    unfold Y16
    rw [Function.update_self]; rfl
  · rw [(dat5 (YT15 m) c).arrAt_in w (isIn5 w h) _, A_eq5]
    show YT15 m c (Pipeline.arrRef spec5 w) = Y16 m c (Proc.devRef .tc (Pipeline.arrRef spec5 w))
    unfold Y16
    rw [Function.update_of_ne (StableHlo.devRef_ne_of_ne (refNe5 w h))]
theorem hrest5 (c : Dev nD) : ∀ b, b ∉ Finset.univ.image (Pipeline.arrRef spec5) → YT16 m c b = YT15 m c b := fun b hb => by
  have hne : b ≠ main_v188 := fun e => hb (Finset.mem_image.mpr ⟨3, Finset.mem_univ _, e.symm⟩)
  show Y16 m c (Proc.devRef .tc b) = Y15 m c (Proc.devRef .tc b)
  unfold Y16
  rw [Function.update_of_ne (StableHlo.devRef_ne_of_ne hne)]

/-! ## The proof data family and the thread state -/

/-- Every region's proof data, each at the contents its region is entered from. -/
def pdats : (p : Fin 6) → (c : Dev nD) → Dat τ (Elt F) Unit ℕ (UR sig nD τ) ℕ (cfgs p) c
  | ⟨0, _⟩ => fun c => dat0 (YT0 m) c
  | ⟨1, _⟩ => fun c => dat1 (YT2 m) c
  | ⟨2, _⟩ => fun c => dat2 (YT6 m) c
  | ⟨3, _⟩ => fun c => dat3 (YT10 m) c
  | ⟨4, _⟩ => fun c => dat4 (YT14 m) c
  | ⟨5, _⟩ => fun c => dat5 (YT15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

end Cert.KernelIdeal.Regions

end
-- ==== Proof.Ideal.Reg0.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered with every unscoped buffer at the contents before it, left with them at the
    contents after it; its arrays are split out of the unscoped buffers and put back at what the write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (YT0 m) c).loose
  hwaits := Pipeline.hwaits_of_owed_zero _ _ _ _ L lv 0 fun _ _ => rfl
  pre c := iprop(StableHlo.held (c : Thread nD τ) (Pipeline.ucRefs τ sig) (Y0 m c) ∗ R c)
  post c := iprop(StableHlo.held (c : Thread nD τ) (Pipeline.ucRefs τ sig) (Y1 m c) ∗ R c)
  X c := iprop(∃ r, prngReg c r)
  Y c := iprop(∃ r, prngReg c r)
  Z c := Pipeline.unscopedRest (Ix := Unit) (Name := ℕ) (U := UR sig nD τ) (Lvl := ℕ) spec0 c (YT0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (YT0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (YT0 m c) (YT1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Reg1.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 1 over the thread state: entered with every unscoped buffer at the contents before it, left with them at the
    contents after it; its arrays are split out of the unscoped buffers and put back at what the write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (YT2 m) c).loose
  hwaits := Pipeline.hwaits_of_owed_zero _ _ _ _ L lv 1 fun _ _ => rfl
  pre c := iprop(StableHlo.held (c : Thread nD τ) (Pipeline.ucRefs τ sig) (Y2 m c) ∗ R c)
  post c := iprop(StableHlo.held (c : Thread nD τ) (Pipeline.ucRefs τ sig) (Y3 m c) ∗ R c)
  X c := iprop(∃ r, prngReg c r)
  Y c := iprop(∃ r, prngReg c r)
  Z c := Pipeline.unscopedRest (Ix := Unit) (Name := ℕ) (U := UR sig nD τ) (Lvl := ℕ) spec1 c (YT2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (YT2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (YT2 m c) (YT3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Reg2.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 2 over the thread state: entered with every unscoped buffer at the contents before it, left with them at the
    contents after it; its arrays are split out of the unscoped buffers and put back at what the write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (YT6 m) c).loose
  hwaits := Pipeline.hwaits_of_owed_zero _ _ _ _ L lv 2 fun _ _ => rfl
  pre c := iprop(StableHlo.held (c : Thread nD τ) (Pipeline.ucRefs τ sig) (Y6 m c) ∗ R c)
  post c := iprop(StableHlo.held (c : Thread nD τ) (Pipeline.ucRefs τ sig) (Y7 m c) ∗ R c)
  X c := iprop(∃ r, prngReg c r)
  Y c := iprop(∃ r, prngReg c r)
  Z c := Pipeline.unscopedRest (Ix := Unit) (Name := ℕ) (U := UR sig nD τ) (Lvl := ℕ) spec2 c (YT6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (YT6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (YT6 m c) (YT7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Reg3.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 3 over the thread state: entered with every unscoped buffer at the contents before it, left with them at the
    contents after it; its arrays are split out of the unscoped buffers and put back at what the write-backs leave. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (YT10 m) c).loose
  hwaits := Pipeline.hwaits_of_owed_zero _ _ _ _ L lv 3 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec3 c (YT10 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (YT10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (YT10 m c) (YT11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Reg4.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered with every unscoped buffer at the contents before it, left with them at the
    contents after it; its arrays are split out of the unscoped buffers and put back at what the write-backs leave. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (YT14 m) c).loose
  hwaits := Pipeline.hwaits_of_owed_zero _ _ _ _ L lv 4 fun _ _ => rfl
  pre c := iprop(StableHlo.held (c : Thread nD τ) (Pipeline.ucRefs τ sig) (Y14 m c) ∗ R c)
  post c := iprop(StableHlo.held (c : Thread nD τ) (Pipeline.ucRefs τ sig) (Y15 m c) ∗ R c)
  X c := iprop(∃ r, prngReg c r)
  Y c := iprop(∃ r, prngReg c r)
  Z c := Pipeline.unscopedRest (Ix := Unit) (Name := ℕ) (U := UR sig nD τ) (Lvl := ℕ) spec4 c (YT14 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (YT14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (YT14 m c) (YT15 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Reg5.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 5 over the thread state: entered with every unscoped buffer at the contents before it, left with them at the
    contents after it; its arrays are split out of the unscoped buffers and put back at what the write-backs leave. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (YT15 m) c).loose
  hwaits := Pipeline.hwaits_of_owed_zero _ _ _ _ L lv 5 fun _ _ => rfl
  pre c := iprop(StableHlo.held (c : Thread nD τ) (Pipeline.ucRefs τ sig) (Y15 m c) ∗ R c)
  post c := iprop(StableHlo.held (c : Thread nD τ) (Pipeline.ucRefs τ sig) (Y16 m c) ∗ R c)
  X c := iprop(∃ r, prngReg c r)
  Y c := iprop(∃ r, prngReg c r)
  Z c := Pipeline.unscopedRest (Ix := Unit) (Name := ℕ) (U := UR sig nD τ) (Lvl := ℕ) spec5 c (YT15 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (YT15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (YT15 m c) (YT16 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regions

end
-- ==== Proof.Ideal.Outs.lean ====
import proofs.«152442_j4492535791675_1_alg».proof.Proof.Ideal.Bound

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, as the family the conditional frame is stated over -/

-- what a region leaves is a fold of its write-backs over the grid, kept folded here
attribute [local irreducible] o1 o3 o7 o11 o15 o16

/-- After item J−1 the buffer `r` holds its contents at boundary J (read only at the six result arrays). -/
def outs : Outs (F := F) := fun J r c =>
  if J = 1 then Y1 m c r else if J = 3 then Y3 m c r else if J = 7 then Y7 m c r
  else if J = 11 then Y11 m c r else if J = 15 then Y15 m c r else Y16 m c r

theorem outs_at1 (r : Ref sig .tc) (c : Dev nD) : outs m 1 r c = Y1 m c r := if_pos rfl
theorem outs_at3 (r : Ref sig .tc) (c : Dev nD) : outs m 3 r c = Y3 m c r :=
  (if_neg (by decide)).trans (if_pos rfl)
theorem outs_at7 (r : Ref sig .tc) (c : Dev nD) : outs m 7 r c = Y7 m c r :=
  (if_neg (by decide)).trans ((if_neg (by decide)).trans (if_pos rfl))
theorem outs_at11 (r : Ref sig .tc) (c : Dev nD) : outs m 11 r c = Y11 m c r :=
  (if_neg (by decide)).trans ((if_neg (by decide)).trans ((if_neg (by decide)).trans (if_pos rfl)))
theorem outs_at15 (r : Ref sig .tc) (c : Dev nD) : outs m 15 r c = Y15 m c r :=
  (if_neg (by decide)).trans ((if_neg (by decide)).trans ((if_neg (by decide)).trans ((if_neg (by decide)).trans (if_pos rfl))))
theorem outs_at16 (r : Ref sig .tc) (c : Dev nD) : outs m 16 r c = Y16 m c r :=
  (if_neg (by decide)).trans ((if_neg (by decide)).trans ((if_neg (by decide)).trans ((if_neg (by decide)).trans (if_neg (by decide)))))

theorem Y1_out (c : Dev nD) : Y1 m c main_v0 = o1 m c := by
  unfold Y1; rw [Function.update_self]
theorem outs_1 (c : Dev nD) : outs m 1 main_v0 c = o1 m c :=
  (outs_at1 m main_v0 c).trans (Y1_out m c)
theorem Y3_out (c : Dev nD) : Y3 m c main_v10 = o3 m c := by
  unfold Y3; rw [Function.update_self]
theorem outs_3 (c : Dev nD) : outs m 3 main_v10 c = o3 m c :=
  (outs_at3 m main_v10 c).trans (Y3_out m c)
theorem Y7_out (c : Dev nD) : Y7 m c main_v68 = o7 m c := by
  unfold Y7; rw [Function.update_self]
theorem outs_7 (c : Dev nD) : outs m 7 main_v68 c = o7 m c :=
  (outs_at7 m main_v68 c).trans (Y7_out m c)
theorem Y11_out (c : Dev nD) : Y11 m c main_v126 = o11 m c := by
  unfold Y11; rw [Function.update_self]
theorem outs_11 (c : Dev nD) : outs m 11 main_v126 c = o11 m c :=
  (outs_at11 m main_v126 c).trans (Y11_out m c)
theorem Y15_out (c : Dev nD) : Y15 m c main_v187 = o15 m c := by
  unfold Y15; rw [Function.update_self]
theorem outs_15 (c : Dev nD) : outs m 15 main_v187 c = o15 m c :=
  (outs_at15 m main_v187 c).trans (Y15_out m c)
theorem Y16_out (c : Dev nD) : Y16 m c main_v188 = o16 m c := by
  unfold Y16; rw [Function.update_self]
theorem outs_16 (c : Dev nD) : outs m 16 main_v188 c = o16 m c :=
  (outs_at16 m main_v188 c).trans (Y16_out m c)

theorem V1_eq (c : Dev nD) : V1 m (outs m) c = Y1 m c := by
  unfold Y1; rw [← outs_1 m c]
theorem V2_eq (c : Dev nD) : V2 m (outs m) c = Y2 m c := by
  unfold Y2; rw [← V1_eq m c]
theorem V3_eq (c : Dev nD) : V3 m (outs m) c = Y3 m c := by
  unfold Y3; rw [← outs_3 m c, ← V2_eq m c]
theorem V4_eq (c : Dev nD) : V4 m (outs m) c = Y4 m c := by
  unfold Y4; rw [← V3_eq m c]
theorem V5_eq (c : Dev nD) : V5 m (outs m) c = Y5 m c := by
  unfold Y5; rw [← V4_eq m c]
theorem V6_eq (c : Dev nD) : V6 m (outs m) c = Y6 m c := by
  unfold Y6; rw [← V5_eq m c]
theorem V7_eq (c : Dev nD) : V7 m (outs m) c = Y7 m c := by
  unfold Y7; rw [← outs_7 m c, ← V6_eq m c]
theorem V8_eq (c : Dev nD) : V8 m (outs m) c = Y8 m c := by
  unfold Y8; rw [← V7_eq m c]
theorem V9_eq (c : Dev nD) : V9 m (outs m) c = Y9 m c := by
  unfold Y9; rw [← V8_eq m c]
theorem V10_eq (c : Dev nD) : V10 m (outs m) c = Y10 m c := by
  unfold Y10; rw [← V9_eq m c]
theorem V11_eq (c : Dev nD) : V11 m (outs m) c = Y11 m c := by
  unfold Y11; rw [← outs_11 m c, ← V10_eq m c]
theorem V12_eq (c : Dev nD) : V12 m (outs m) c = Y12 m c := by
  unfold Y12; rw [← V11_eq m c]
theorem V13_eq (c : Dev nD) : V13 m (outs m) c = Y13 m c := by
  unfold Y13; rw [← V12_eq m c]
theorem V14_eq (c : Dev nD) : V14 m (outs m) c = Y14 m c := by
  unfold Y14; rw [← V13_eq m c]
theorem V15_eq (c : Dev nD) : V15 m (outs m) c = Y15 m c := by
  unfold Y15; rw [← outs_15 m c, ← V14_eq m c]
theorem V16_eq (c : Dev nD) : V16 m (outs m) c = Y16 m c := by
  unfold Y16; rw [← outs_16 m c, ← V15_eq m c]

end Cert.KernelIdeal.Regions

end
-- ==== Proof.Ideal.Frame.lean ====
import proofs.«152442_j4492535791675_1_alg».proof.Proof.Ideal.Reg0
import proofs.«152442_j4492535791675_1_alg».proof.Proof.Ideal.Reg1
import proofs.«152442_j4492535791675_1_alg».proof.Proof.Ideal.Reg2
import proofs.«152442_j4492535791675_1_alg».proof.Proof.Ideal.Reg3
import proofs.«152442_j4492535791675_1_alg».proof.Proof.Ideal.Reg4
import proofs.«152442_j4492535791675_1_alg».proof.Proof.Ideal.Reg5
import proofs.«152442_j4492535791675_1_alg».proof.Proof.Ideal.Outs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides beside the buffers, the same at every boundary. -/
abbrev Es : Fin 7 → Dev nD → sProp 𝕄 := fun _ c => R c

/-- The launch deals every core its generator register and an empty debt. -/
theorem hE0 (ρ : Dev nD → PrngReg) : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : Es (F := F) 6 c ⊢ (iprop(∃ W, owes (c : Thread nD τ) (0 : CellTallies nD τ sig Unit) W) : sProp 𝕄) := by
  iintro ⟨-, HO⟩; iexact HO

theorem hpre0 (c : Dev nD) : iprop(StableHlo.held (c : Thread nD τ) (Pipeline.ucRefs τ sig) (V0 m c) ∗ Es 0 c) ⊢ (reg0 m).pre c := .rfl
theorem hpost0 (c : Dev nD) : (reg0 m).post c ⊢ iprop(StableHlo.held (c : Thread nD τ) (Pipeline.ucRefs τ sig) (V1 m (outs m) c) ∗ Es 1 c) := by
  rw [V1_eq]; exact .rfl
theorem hpre1 (c : Dev nD) : iprop(StableHlo.held (c : Thread nD τ) (Pipeline.ucRefs τ sig) (V2 m (outs m) c) ∗ Es 1 c) ⊢ (reg1 m).pre c := by
  rw [V2_eq]; exact .rfl
theorem hpost1 (c : Dev nD) : (reg1 m).post c ⊢ iprop(StableHlo.held (c : Thread nD τ) (Pipeline.ucRefs τ sig) (V3 m (outs m) c) ∗ Es 2 c) := by
  rw [V3_eq]; exact .rfl
theorem hpre2 (c : Dev nD) : iprop(StableHlo.held (c : Thread nD τ) (Pipeline.ucRefs τ sig) (V6 m (outs m) c) ∗ Es 2 c) ⊢ (reg2 m).pre c := by
  rw [V6_eq]; exact .rfl
theorem hpost2 (c : Dev nD) : (reg2 m).post c ⊢ iprop(StableHlo.held (c : Thread nD τ) (Pipeline.ucRefs τ sig) (V7 m (outs m) c) ∗ Es 3 c) := by
  rw [V7_eq]; exact .rfl
theorem hpre3 (c : Dev nD) : iprop(StableHlo.held (c : Thread nD τ) (Pipeline.ucRefs τ sig) (V10 m (outs m) c) ∗ Es 3 c) ⊢ (reg3 m).pre c := by
  rw [V10_eq]; exact .rfl
theorem hpost3 (c : Dev nD) : (reg3 m).post c ⊢ iprop(StableHlo.held (c : Thread nD τ) (Pipeline.ucRefs τ sig) (V11 m (outs m) c) ∗ Es 4 c) := by
  rw [V11_eq]; exact .rfl
theorem hpre4 (c : Dev nD) : iprop(StableHlo.held (c : Thread nD τ) (Pipeline.ucRefs τ sig) (V14 m (outs m) c) ∗ Es 4 c) ⊢ (reg4 m).pre c := by
  rw [V14_eq]; exact .rfl
theorem hpost4 (c : Dev nD) : (reg4 m).post c ⊢ iprop(StableHlo.held (c : Thread nD τ) (Pipeline.ucRefs τ sig) (V15 m (outs m) c) ∗ Es 5 c) := by
  rw [V15_eq]; exact .rfl
theorem hpre5 (c : Dev nD) : iprop(StableHlo.held (c : Thread nD τ) (Pipeline.ucRefs τ sig) (V15 m (outs m) c) ∗ Es 5 c) ⊢ (reg5 m).pre c := by
  rw [V15_eq]; exact .rfl
theorem hpost5 (c : Dev nD) : (reg5 m).post c ⊢ iprop(StableHlo.held (c : Thread nD τ) (Pipeline.ucRefs τ sig) (V16 m (outs m) c) ∗ Es 6 c) := by
  rw [V16_eq]; exact .rfl

set_option backward.isDefEq.respectTransparency.types false in
/-- Every weakly fair execution of @main from memory `m` with zero counters terminates, nothing faulting, and every
    argument array ends as launched: the conditional frame at the six regions' records. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_cond m (emb₁) () 𝒱₀ L lv (fun _ _ => rfl) ρ (outs m) (pdats m) 0 (fun _ => (BI.emp : sProp 𝕄))
    (initOf (Pipeline.cells cfgs cellOf_inj) (Pipeline.launchToks cfgs cellOf_inj)) hu₀ Es (hE0 ρ) hE6
    (reg0 m) (hpre0 m) (hpost0 m) (reg1 m) (hpre1 m) (hpost1 m) (reg2 m) (hpre2 m) (hpost2 m)
    (reg3 m) (hpre3 m) (hpost3 m) (reg4 m) (hpre4 m) (hpost4 m) (reg5 m) (hpre5 m) (hpost5 m)

end Cert.KernelIdeal.Regions

end
-- ==== Proof.MatSum.lean ====
/-
  A plain matrix product at the extended reals, entry by entry.

  For a left operand of shape [R, K] and a right operand of shape [K, C], contracted on the left's
  second and the right's first axis with no batch axis, the matrix unit's product into a zero
  accumulator and the host's dot product both read, at row p and column q, the sum over k of
  left (p, k) times right (k, q). The entry of X · W at (r, q) is named `mmAt X W r q`; a block of
  rows of X multiplied by W gives the same rows of X · W, because an entry of the product depends on
  one row of the left operand only.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PayVal

open Idealize.ShloMosaic Idealize.ShloMosaic.ValueIdx

/-- Entry (r, q) of the matrix product X · W: the sum over k of X (r, k) · W (k, q). -/
def mmAt {R K C : Nat} (X : (⟨2, ![R, K]⟩ : Shape).Idx → EReal) (W : (⟨2, ![K, C]⟩ : Shape).Idx → EReal)
    (r : Fin R) (q : Fin C) : EReal :=
  ∑ k : Fin K, X (ix2 r k) * W (ix2 k q)

/-- The matrix product X · W as an array. -/
def mm {R K C : Nat} (X : (⟨2, ![R, K]⟩ : Shape).Idx → EReal) (W : (⟨2, ![K, C]⟩ : Shape).Idx → EReal) :
    (⟨2, ![R, C]⟩ : Shape).Idx → EReal :=
  fun i => mmAt X W ⟨(i 0).val, idx2_lt0 i⟩ ⟨(i 1).val, idx2_lt1 i⟩

theorem mm_ix2 {R K C : Nat} (X : (⟨2, ![R, K]⟩ : Shape).Idx → EReal) (W : (⟨2, ![K, C]⟩ : Shape).Idx → EReal)
    (r : Fin R) (q : Fin C) : mm X W (ix2 r q) = mmAt X W r q := rfl

/-- An entry of the product depends on one row of the left operand: if row p of x is row r of X,
    then row p of x · W is row r of X · W. -/
theorem mmAt_row {B R K C : Nat} (x : (⟨2, ![B, K]⟩ : Shape).Idx → EReal) (X : (⟨2, ![R, K]⟩ : Shape).Idx → EReal)
    (W : (⟨2, ![K, C]⟩ : Shape).Idx → EReal) (p : Fin B) (r : Fin R) (q : Fin C)
    (h : ∀ k : Fin K, x (ix2 p k) = X (ix2 r k)) : mmAt x W p q = mmAt X W r q :=
  Finset.sum_congr rfl fun k _ => by rw [h k]

/-! ## The operand indices of a plain product -/

theorem plain_lhs0 (R K C : Nat) (i : (⟨2, ![R, C]⟩ : Shape).Idx) (k : (DotDims.plain R K C).contr.Idx) :
    ((DotDims.plain R K C).lhsIdx i k 0).val = (i 0).val := by
  unfold DotDims.lhsIdx
  rw [dif_neg (show ¬(0 : Fin (⟨2, ![R, K]⟩ : Shape).rank) ∈ (DotDims.plain R K C).lhsBatch from List.not_mem_nil),
    dif_pos (show (0 : Fin (⟨2, ![R, K]⟩ : Shape).rank) ∈ (DotDims.plain R K C).lhsNonContracting from List.mem_singleton.mpr rfl)]
  rfl

theorem plain_rhs1 (R K C : Nat) (i : (⟨2, ![R, C]⟩ : Shape).Idx) (k : (DotDims.plain R K C).contr.Idx) :
    ((DotDims.plain R K C).rhsIdx i k 1).val = (i 1).val := by
  unfold DotDims.rhsIdx
  rw [dif_neg (show ¬(1 : Fin (⟨2, ![K, C]⟩ : Shape).rank) ∈ (DotDims.plain R K C).rhsBatch from List.not_mem_nil),
    dif_pos (show (1 : Fin (⟨2, ![K, C]⟩ : Shape).rank) ∈ (DotDims.plain R K C).rhsNonContracting from List.mem_singleton.mpr rfl)]
  rfl

/-- The sum over the contraction index of a plain product is the sum over k of left (p, k) · right (k, q). -/
theorem plain_dot_sum (R K C : Nat) (l : (⟨2, ![R, K]⟩ : Shape).Idx → EReal) (r : (⟨2, ![K, C]⟩ : Shape).Idx → EReal)
    (p : Fin R) (q : Fin C) :
    ∑ k : (DotDims.plain R K C).contr.Idx,
        l ((DotDims.plain R K C).lhsIdx (ix2 p q) k) * r ((DotDims.plain R K C).rhsIdx (ix2 p q) k)
      = mmAt l r p q := by
  unfold mmAt
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx (ix2 p q) ((contrEquiv1 (DotDims.plain R K C) K rfl rfl).symm k) = ix2 p k :=
    funext fun a => Fin.ext (by
      match a with
      | ⟨0, _⟩ => exact plain_lhs0 R K C _ _
      | ⟨1, _⟩ => exact ((DotDims.plain R K C).lhsIdx_val_of_single rfl _ _).trans hk)
  have er : (DotDims.plain R K C).rhsIdx (ix2 p q) ((contrEquiv1 (DotDims.plain R K C) K rfl rfl).symm k) = ix2 k q :=
    funext fun a => Fin.ext (by
      match a with
      | ⟨0, _⟩ => exact ((DotDims.plain R K C).rhsIdx_val_of_single rfl _ _).trans hk
      | ⟨1, _⟩ => exact plain_rhs1 R K C _ _)
  rw [el, er]

/-- The matrix unit's plain product into a zero accumulator, at (p, q). -/
theorem matmul_plain_zero {R K C : Nat} {φ₁ φ₂ : FTy} (D : DotDims ⟨2, ![R, K]⟩ ⟨2, ![K, C]⟩ ⟨2, ![R, C]⟩)
    (hD : D = DotDims.plain R K C) (prec : Option ContractPrecision)
    (l : FVec Ideal ⟨2, ![R, K]⟩ φ₁) (r : FVec Ideal ⟨2, ![K, C]⟩ φ₂) (p : Fin R) (q : Fin C) :
    FloatOps.matmul D prec l r (constant (F := Ideal) ⟨2, ![R, C]⟩ .f32 0x00000000#32) (ix2 p q) = mmAt l r p q := by
  subst hD
  rw [Ideal.matmul_constant_zero_apply]
  exact plain_dot_sum R K C l r p q

/-- The host's plain dot product, at (p, q). -/
theorem dotGeneral_plain {R K C : Nat} {φ₁ φ₂ : FTy} (D : DotDims ⟨2, ![R, K]⟩ ⟨2, ![K, C]⟩ ⟨2, ![R, C]⟩)
    (hD : D = DotDims.plain R K C) (prec : Option ContractPrecision) (sched : HostSchedule)
    (l : FVec Ideal ⟨2, ![R, K]⟩ φ₁) (r : FVec Ideal ⟨2, ![K, C]⟩ φ₂) (p : Fin R) (q : Fin C) :
    FloatOps.dotGeneral D prec sched l r (ix2 p q) = mmAt l r p q := by
  subst hD
  rw [Ideal.dotGeneral_apply]
  exact plain_dot_sum R K C l r p q

/-! ## A product plus a bias row, and its rectified form -/

/-- Entry (r, q) of X · W + b, the bias b added to every row. -/
def aff {R K C : Nat} (X : (⟨2, ![R, K]⟩ : Shape).Idx → EReal) (W : (⟨2, ![K, C]⟩ : Shape).Idx → EReal)
    (b : (⟨1, ![C]⟩ : Shape).Idx → EReal) : (⟨2, ![R, C]⟩ : Shape).Idx → EReal :=
  fun i => mmAt X W ⟨(i 0).val, idx2_lt0 i⟩ ⟨(i 1).val, idx2_lt1 i⟩ + b (ix1 ⟨(i 1).val, idx2_lt1 i⟩)

/-- max (X · W + b) 0, entry by entry. -/
def affRelu {R K C : Nat} (X : (⟨2, ![R, K]⟩ : Shape).Idx → EReal) (W : (⟨2, ![K, C]⟩ : Shape).Idx → EReal)
    (b : (⟨1, ![C]⟩ : Shape).Idx → EReal) : (⟨2, ![R, C]⟩ : Shape).Idx → EReal :=
  fun i => max (aff X W b i) 0

theorem aff_ix2 {R K C : Nat} (X : (⟨2, ![R, K]⟩ : Shape).Idx → EReal) (W : (⟨2, ![K, C]⟩ : Shape).Idx → EReal)
    (b : (⟨1, ![C]⟩ : Shape).Idx → EReal) (r : Fin R) (q : Fin C) :
    aff X W b (ix2 r q) = mmAt X W r q + b (ix1 q) := rfl

theorem affRelu_ix2 {R K C : Nat} (X : (⟨2, ![R, K]⟩ : Shape).Idx → EReal) (W : (⟨2, ![K, C]⟩ : Shape).Idx → EReal)
    (b : (⟨1, ![C]⟩ : Shape).Idx → EReal) (r : Fin R) (q : Fin C) :
    affRelu X W b (ix2 r q) = max (mmAt X W r q + b (ix1 q)) 0 := rfl

end Cert.PayVal

end
-- ==== Proof.PayMatmul.lean ====
/-
  The five matrix-product bodies of the kernel, read entry by entry at the extended reals.

  Each of the three graph-layer bodies multiplies its block of rows by the 128 × 128 weight into a zero
  accumulator: entry (p, q) is the sum over k of x (p, k) · w (k, q). The two classifier bodies add the
  bias of column q, and the first of them takes the maximum with zero.
-/
import proofs.«152442_j4492535791675_1_alg».proof.Proof.Gen.KernelIdeal.Skeleton
import proofs.«152442_j4492535791675_1_alg».proof.Proof.MatSum

noncomputable section

namespace Cert.PayVal

open Cert.KernelIdeal Cert.KernelIdeal.Gen Idealize.ShloMosaic Idealize.ShloMosaic.ValueIdx

/-- The 4000-row block of the first graph layer's product: row p, column q of x · w. -/
theorem k1_pay1_at (x : Vec Ideal S4000x128 .f32) (w : Vec Ideal S128x128 .f32) (p : Fin 4000) (q : Fin 128) :
    k1_pay1 (F := Ideal) x w (ix2 p q) = mmAt x w p q := by
  unfold k1_pay1
  rw [shapeCast_self, shapeCast_self]
  exact matmul_plain_zero _ rfl none x w p q

/-- The 5000-row block of the second graph layer's product. -/
theorem k2_pay1_at (x : Vec Ideal S5000x128 .f32) (w : Vec Ideal S128x128 .f32) (p : Fin 5000) (q : Fin 128) :
    k2_pay1 (F := Ideal) x w (ix2 p q) = mmAt x w p q := by
  unfold k2_pay1
  rw [shapeCast_self, shapeCast_self]
  exact matmul_plain_zero _ rfl none x w p q

/-- The whole 12500-row product of the third graph layer. -/
theorem k3_pay1_at (x : Vec Ideal S12500x128 .f32) (w : Vec Ideal S128x128 .f32) (p : Fin 12500) (q : Fin 128) :
    k3_pay1 (F := Ideal) x w (ix2 p q) = mmAt x w p q := by
  unfold k3_pay1
  rw [shapeCast_self, shapeCast_self]
  exact matmul_plain_zero _ rfl none x w p q

/-- A bias vector added to every row: a [n] vector cast to [1, n] and broadcast over the rows reads b q at (p, q). -/
theorem bias_row_apply {α : Type} {a n : Nat} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ b h1) h2 (ix2 p q) = b (ix1 q) := by
  rw [broadcastTo_1b_ab_apply, shapeCast_a_1a_apply]

/-- The classifier's first layer: max (x · w + b) 0 at (p, q). -/
theorem k4_pay1_at (x : Vec Ideal S128x384 .f32) (w : Vec Ideal S384x128 .f32) (b : Vec Ideal S128 .f32)
    (p : Fin 128) (q : Fin 128) :
    k4_pay1 (F := Ideal) x w b (ix2 p q) = max (mmAt x w p q + b (ix1 q)) 0 := by
  unfold k4_pay1
  rw [shapeCast_self]
  show max (FloatOps.matmul _ none x w (constant (F := Ideal) S128x128 .f32 0x00000000#32) (ix2 p q)
      + broadcastTo S128x128 (shapeCast S1x128 b _) _ (ix2 p q)) (Ideal.ofBits .f32 0x00000000#32) = _
  rw [matmul_plain_zero dot_S128x384_S384x128_S128x128_1_0_0_1_n_n rfl none x w p q, bias_row_apply, Ideal.ofBits_zero_f32]

/-- The classifier's second layer: x · w + b at (p, q). -/
theorem k5_pay1_at (x : Vec Ideal S128x128 .f32) (w : Vec Ideal S128x128 .f32) (b : Vec Ideal S128 .f32)
    (p : Fin 128) (q : Fin 128) :
    k5_pay1 (F := Ideal) x w b (ix2 p q) = mmAt x w p q + b (ix1 q) := by
  unfold k5_pay1
  rw [shapeCast_self]
  show FloatOps.matmul _ none x w (constant (F := Ideal) S128x128 .f32 0x00000000#32) (ix2 p q)
      + broadcastTo S128x128 (shapeCast S1x128 b _) _ (ix2 p q) = _
  rw [matmul_plain_zero dot_S128x128_S128x128_S128x128_1_0_0_1_n_n rfl none x w p q, bias_row_apply]

end Cert.PayVal

end
-- ==== Proof.EncSpec.lean ====
/-
  The feature encoder, one row at a time.

  A row of the raw features has 1544 columns: 6 numeric, 768 tweet, 2 categorical, 768 description. Each
  group is multiplied by its own weight, the bias is added, and a rectifier with a fixed slope on the
  negative side is applied; the four 32-column results are laid side by side in the order description,
  tweet, numeric, categorical; the 128 columns are multiplied by W_in, b_in is added, and a rectifier whose
  negative slope is a per-column parameter is applied. Every entry of the result depends on ONE row of the
  raw features, so a block of rows is encoded to the same rows of the whole array's encoding.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PayVal

open Idealize.ShloMosaic Idealize.ShloMosaic.ValueIdx

/-- z where z is above zero, else s · z: a rectifier with slope s on the negative side. The comparison
    and the product are the extended reals'; the zero is the f32 zero word. -/
def lk (s z : EReal) : EReal :=
  Scalar.select (FloatOps.cmpf (F := Ideal) (φ := .f32) .ogt z (Ideal.ofBits .f32 0x00000000#32)) z (s * z)

/-- The slope of the four projections' rectifier: the f32 word 0x3C23D70A. -/
def slope : EReal := Ideal.ofBits .f32 0x3C23D70A#32

/-- One projection of a feature row: columns off … off + K of the row times W, plus the bias b, through
    the rectifier. -/
def proj {K : Nat} (off : Nat) (hoff : off + K ≤ 1544) (W : (⟨2, ![K, 32]⟩ : Shape).Idx → EReal)
    (b : (⟨1, ![32]⟩ : Shape).Idx → EReal) (row : Fin 1544 → EReal) (j : Fin 32) : EReal :=
  lk slope ((∑ k : Fin K, row ⟨off + k.val, by have := k.isLt; omega⟩ * W (ix2 k j)) + b (ix1 j))

/-- The four projections of a row side by side, 32 columns each: the description columns (776 on), the
    tweet columns (6 on), the numeric columns (0 on), the categorical columns (774 on). -/
def feat (Wd : (⟨2, ![768, 32]⟩ : Shape).Idx → EReal) (bd : (⟨1, ![32]⟩ : Shape).Idx → EReal)
    (Wt : (⟨2, ![768, 32]⟩ : Shape).Idx → EReal) (bt : (⟨1, ![32]⟩ : Shape).Idx → EReal)
    (Wn : (⟨2, ![6, 32]⟩ : Shape).Idx → EReal) (bn : (⟨1, ![32]⟩ : Shape).Idx → EReal)
    (Wc : (⟨2, ![2, 32]⟩ : Shape).Idx → EReal) (bc : (⟨1, ![32]⟩ : Shape).Idx → EReal)
    (row : Fin 1544 → EReal) (k : Fin 128) : EReal :=
  if h0 : k.val < 32 then proj 776 (by decide) Wd bd row ⟨k.val, h0⟩
  else if h1 : k.val < 64 then proj 6 (by decide) Wt bt row ⟨k.val - 32, by omega⟩
  else if h2 : k.val < 96 then proj 0 (by decide) Wn bn row ⟨k.val - 64, by omega⟩
  else proj 774 (by decide) Wc bc row ⟨k.val - 96, by have := k.isLt; omega⟩

/-- One row of the encoder: the 128 features times W_in, plus b_in, through the rectifier whose
    slope on the negative side is the column's entry of a. -/
def encRow (Wd : (⟨2, ![768, 32]⟩ : Shape).Idx → EReal) (bd : (⟨1, ![32]⟩ : Shape).Idx → EReal)
    (Wt : (⟨2, ![768, 32]⟩ : Shape).Idx → EReal) (bt : (⟨1, ![32]⟩ : Shape).Idx → EReal)
    (Wn : (⟨2, ![6, 32]⟩ : Shape).Idx → EReal) (bn : (⟨1, ![32]⟩ : Shape).Idx → EReal)
    (Wc : (⟨2, ![2, 32]⟩ : Shape).Idx → EReal) (bc : (⟨1, ![32]⟩ : Shape).Idx → EReal)
    (Win : (⟨2, ![128, 128]⟩ : Shape).Idx → EReal) (bin a : (⟨1, ![128]⟩ : Shape).Idx → EReal)
    (row : Fin 1544 → EReal) (q : Fin 128) : EReal :=
  lk (a (ix1 q)) ((∑ k : Fin 128, feat Wd bd Wt bt Wn bn Wc bc row k * Win (ix2 k q)) + bin (ix1 q))

/-- The encoder of a whole array of feature rows: entry (r, q) is the encoder's row of X's row r, at q. -/
def enc {R : Nat} (X : (⟨2, ![R, 1544]⟩ : Shape).Idx → EReal)
    (Wd : (⟨2, ![768, 32]⟩ : Shape).Idx → EReal) (bd : (⟨1, ![32]⟩ : Shape).Idx → EReal)
    (Wt : (⟨2, ![768, 32]⟩ : Shape).Idx → EReal) (bt : (⟨1, ![32]⟩ : Shape).Idx → EReal)
    (Wn : (⟨2, ![6, 32]⟩ : Shape).Idx → EReal) (bn : (⟨1, ![32]⟩ : Shape).Idx → EReal)
    (Wc : (⟨2, ![2, 32]⟩ : Shape).Idx → EReal) (bc : (⟨1, ![32]⟩ : Shape).Idx → EReal)
    (Win : (⟨2, ![128, 128]⟩ : Shape).Idx → EReal) (bin a : (⟨1, ![128]⟩ : Shape).Idx → EReal) :
    (⟨2, ![R, 128]⟩ : Shape).Idx → EReal :=
  fun i => encRow Wd bd Wt bt Wn bn Wc bc Win bin a
    (fun c => X (ix2 (⟨(i 0).val, idx2_lt0 i⟩ : Fin R) c)) ⟨(i 1).val, idx2_lt1 i⟩

theorem enc_ix2 {R : Nat} (X : (⟨2, ![R, 1544]⟩ : Shape).Idx → EReal)
    (Wd : (⟨2, ![768, 32]⟩ : Shape).Idx → EReal) (bd : (⟨1, ![32]⟩ : Shape).Idx → EReal)
    (Wt : (⟨2, ![768, 32]⟩ : Shape).Idx → EReal) (bt : (⟨1, ![32]⟩ : Shape).Idx → EReal)
    (Wn : (⟨2, ![6, 32]⟩ : Shape).Idx → EReal) (bn : (⟨1, ![32]⟩ : Shape).Idx → EReal)
    (Wc : (⟨2, ![2, 32]⟩ : Shape).Idx → EReal) (bc : (⟨1, ![32]⟩ : Shape).Idx → EReal)
    (Win : (⟨2, ![128, 128]⟩ : Shape).Idx → EReal) (bin a : (⟨1, ![128]⟩ : Shape).Idx → EReal)
    (r : Fin R) (q : Fin 128) :
    enc X Wd bd Wt bt Wn bn Wc bc Win bin a (ix2 r q)
      = encRow Wd bd Wt bt Wn bn Wc bc Win bin a (fun c => X (ix2 r c)) q := rfl

/-- Four 32-column pieces joined along the columns: column k of the result is column k mod 32 of
    piece k / 32. -/
theorem concat4_at {α : Type} {R : Nat} (x0 x1 x2 x3 : (⟨2, ![R, 32]⟩ : Shape).Idx → α)
    (h : Shape.Concatenates
      (([⟨⟨2, ![R, 32]⟩, x0⟩, ⟨⟨2, ![R, 32]⟩, x1⟩, ⟨⟨2, ![R, 32]⟩, x2⟩, ⟨⟨2, ![R, 32]⟩, x3⟩] :
        List ((s : Shape) × (s.Idx → α))).map (·.1)) ⟨2, ![R, 128]⟩ 1)
    (r : Fin R) (k : Fin 128) :
    concatenate ⟨2, ![R, 128]⟩ 1 [⟨⟨2, ![R, 32]⟩, x0⟩, ⟨⟨2, ![R, 32]⟩, x1⟩, ⟨⟨2, ![R, 32]⟩, x2⟩, ⟨⟨2, ![R, 32]⟩, x3⟩] h (ix2 r k)
      = if h0 : k.val < 32 then x0 (ix2 r ⟨k.val, h0⟩)
        else if h1 : k.val < 64 then x1 (ix2 r ⟨k.val - 32, by omega⟩)
        else if h2 : k.val < 96 then x2 (ix2 r ⟨k.val - 64, by omega⟩)
        else x3 (ix2 r ⟨k.val - 96, by have := k.isLt; omega⟩) := by
  have hk := k.isLt
  by_cases h0 : k.val < 32
  · rw [dif_pos h0]
    exact concatenate_apply_piece 1 _ h (ix2 r k) 0 (by simp) _ x0 rfl rfl 0 rfl (ix2 r ⟨k.val, h0⟩)
      (fun b hb => by
        match b with
        | ⟨0, _⟩ => rfl
        | ⟨1, _⟩ => exact absurd rfl hb)
      (by show 0 + k.val = k.val; omega)
  · rw [dif_neg h0]
    by_cases h1 : k.val < 64
    · rw [dif_pos h1]
      exact concatenate_apply_piece 1 _ h (ix2 r k) 1 (by simp) _ x1 rfl rfl 32 rfl (ix2 r ⟨k.val - 32, by omega⟩)
        (fun b hb => by
          match b with
          | ⟨0, _⟩ => rfl
          | ⟨1, _⟩ => exact absurd rfl hb)
        (by show 32 + (k.val - 32) = k.val; omega)
    · rw [dif_neg h1]
      by_cases h2 : k.val < 96
      · rw [dif_pos h2]
        exact concatenate_apply_piece 1 _ h (ix2 r k) 2 (by simp) _ x2 rfl rfl 64 rfl (ix2 r ⟨k.val - 64, by omega⟩)
          (fun b hb => by
            match b with
            | ⟨0, _⟩ => rfl
            | ⟨1, _⟩ => exact absurd rfl hb)
          (by show 64 + (k.val - 64) = k.val; omega)
      · rw [dif_neg h2]
        exact concatenate_apply_piece 1 _ h (ix2 r k) 3 (by simp) _ x3 rfl rfl 96 rfl (ix2 r ⟨k.val - 96, by omega⟩)
          (fun b hb => by
            match b with
            | ⟨0, _⟩ => rfl
            | ⟨1, _⟩ => exact absurd rfl hb)
          (by show 96 + (k.val - 96) = k.val; omega)

end Cert.PayVal

end
-- ==== Proof.PayEnc.lean ====
/-
  The encoder body of the kernel, read entry by entry at the extended reals.

  Over a block of 2000 rows the body cuts the four column groups out of the block, projects each (a product
  into a zero accumulator, a bias row, a rectifier with a fixed slope), joins the four 32-column results,
  multiplies by W_in, adds b_in and applies the rectifier with the per-column slopes. Row p of the result is
  the encoder's row (EncSpec) of row p of the block: nothing in it looks at another row.
-/
import proofs.«152442_j4492535791675_1_alg».proof.Proof.Gen.KernelIdeal.Skeleton
import proofs.«152442_j4492535791675_1_alg».proof.Proof.MatSum
import proofs.«152442_j4492535791675_1_alg».proof.Proof.EncSpec
import proofs.«152442_j4492535791675_1_alg».proof.Proof.PayMatmul

noncomputable section

namespace Cert.PayVal

open Cert.KernelIdeal Cert.KernelIdeal.Gen Idealize.ShloMosaic Idealize.ShloMosaic.ValueIdx

/-- The rectifier over a whole vector, as a body spells it (a comparison with the zero splat, a product with the
    slopes, a select), read at an index. -/
theorem lkVec_at {s : Shape} (A S : FVec Ideal s .f32) (i : s.Idx) :
    select (cmpf .ogt A (broadcast s (Scalar.ofBits .f32 0x00000000#32))) A (mulf S A) i = lk (S i) (A i) := rfl

/-- One projection as the encoder body computes it over a block of 2000 rows: the columns from `off` of the
    block times W into a zero accumulator, plus the bias row, through the rectifier. -/
def projVec {K : Nat} (off : Nat) (x : FVec Ideal S2000x1544 .f32)
    (hs : S2000x1544.Slices ![0, off] ⟨2, ![2000, K]⟩)
    (D : DotDims ⟨2, ![2000, K]⟩ ⟨2, ![K, 32]⟩ S2000x32)
    (W : FVec Ideal ⟨2, ![K, 32]⟩ .f32) (b : FVec Ideal S32 .f32) : FVec Ideal S2000x32 .f32 :=
  select
    (cmpf .ogt
      (addf (matmul D none (extractStridedSlice ⟨2, ![2000, K]⟩ ![0, off] x hs) W (constant S2000x32 .f32 0x00000000#32))
        (broadcastTo S2000x32 (shapeCast S1x32 b shapeCasts_S32_S1x32) broadcasts_S1x32_S2000x32))
      (broadcast S2000x32 (Scalar.ofBits .f32 0x00000000#32)))
    (addf (matmul D none (extractStridedSlice ⟨2, ![2000, K]⟩ ![0, off] x hs) W (constant S2000x32 .f32 0x00000000#32))
      (broadcastTo S2000x32 (shapeCast S1x32 b shapeCasts_S32_S1x32) broadcasts_S1x32_S2000x32))
    (mulf (broadcast S2000x32 (Scalar.ofBits .f32 0x3C23D70A#32))
      (addf (matmul D none (extractStridedSlice ⟨2, ![2000, K]⟩ ![0, off] x hs) W (constant S2000x32 .f32 0x00000000#32))
        (broadcastTo S2000x32 (shapeCast S1x32 b shapeCasts_S32_S1x32) broadcasts_S1x32_S2000x32)))

/-- Row p of that projection is the projection of row p of the block. -/
theorem projVec_at {K : Nat} (off : Nat) (hoff : off + K ≤ 1544) (x : FVec Ideal S2000x1544 .f32)
    (hs : S2000x1544.Slices ![0, off] ⟨2, ![2000, K]⟩)
    (D : DotDims ⟨2, ![2000, K]⟩ ⟨2, ![K, 32]⟩ S2000x32) (hD : D = DotDims.plain 2000 K 32)
    (W : FVec Ideal ⟨2, ![K, 32]⟩ .f32) (b : FVec Ideal S32 .f32) (p : Fin 2000) (j : Fin 32) :
    projVec off x hs D W b (ix2 p j) = proj off hoff W b (fun c => x (ix2 p c)) j := by
  have hz : (addf (matmul D none (extractStridedSlice ⟨2, ![2000, K]⟩ ![0, off] x hs) W (constant (F := Ideal) S2000x32 .f32 0x00000000#32))
        (broadcastTo S2000x32 (shapeCast S1x32 b shapeCasts_S32_S1x32) broadcasts_S1x32_S2000x32)) (ix2 p j)
      = (∑ k : Fin K, x (ix2 p ⟨off + k.val, by have := k.isLt; omega⟩) * W (ix2 k j)) + b (ix1 j) := by
    show FloatOps.matmul D none (extractStridedSlice ⟨2, ![2000, K]⟩ ![0, off] x hs) W (constant (F := Ideal) S2000x32 .f32 0x00000000#32) (ix2 p j)
        + broadcastTo S2000x32 (shapeCast S1x32 b shapeCasts_S32_S1x32) broadcasts_S1x32_S2000x32 (ix2 p j) = _
    rw [matmul_plain_zero D hD none _ W p j, bias_row_apply]
    refine congrArg (· + b (ix1 j)) (Finset.sum_congr rfl fun k _ => ?_)
    rw [slice2_axis1_eq]
  exact Eq.trans rfl (congrArg (lk slope) hz)

/-- The encoder body's last stage over a block: the four projections joined along the columns, times W_in
    into a zero accumulator, plus the bias row, through the rectifier whose slope is the row a. -/
def encVec (d t n c : FVec Ideal S2000x32 .f32) (Win : FVec Ideal S128x128 .f32) (bin a : FVec Ideal S128 .f32) :
    FVec Ideal S2000x128 .f32 :=
  select
    (cmpf .ogt
      (addf (matmul dot_S2000x128_S128x128_S2000x128_1_0_0_1_n_n none
          (concatenate S2000x128 1 [⟨S2000x32, d⟩, ⟨S2000x32, t⟩, ⟨S2000x32, n⟩, ⟨S2000x32, c⟩] concatenates_S2000x32_S2000x32_S2000x32_S2000x32_S2000x128_d1)
          Win (constant S2000x128 .f32 0x00000000#32))
        (broadcastTo S2000x128 (shapeCast S1x128 bin shapeCasts_S128_S1x128) broadcasts_S1x128_S2000x128))
      (broadcast S2000x128 (Scalar.ofBits .f32 0x00000000#32)))
    (addf (matmul dot_S2000x128_S128x128_S2000x128_1_0_0_1_n_n none
        (concatenate S2000x128 1 [⟨S2000x32, d⟩, ⟨S2000x32, t⟩, ⟨S2000x32, n⟩, ⟨S2000x32, c⟩] concatenates_S2000x32_S2000x32_S2000x32_S2000x32_S2000x128_d1)
        Win (constant S2000x128 .f32 0x00000000#32))
      (broadcastTo S2000x128 (shapeCast S1x128 bin shapeCasts_S128_S1x128) broadcasts_S1x128_S2000x128))
    (mulf (broadcastTo S2000x128 (shapeCast S1x128 a shapeCasts_S128_S1x128) broadcasts_S1x128_S2000x128)
      (addf (matmul dot_S2000x128_S128x128_S2000x128_1_0_0_1_n_n none
          (concatenate S2000x128 1 [⟨S2000x32, d⟩, ⟨S2000x32, t⟩, ⟨S2000x32, n⟩, ⟨S2000x32, c⟩] concatenates_S2000x32_S2000x32_S2000x32_S2000x32_S2000x128_d1)
          Win (constant S2000x128 .f32 0x00000000#32))
        (broadcastTo S2000x128 (shapeCast S1x128 bin shapeCasts_S128_S1x128) broadcasts_S1x128_S2000x128)))

/-- Entry (p, q) of the last stage: the joined row p times column q of W_in, plus b_in q, through the rectifier. -/
theorem encVec_at (d t n c : FVec Ideal S2000x32 .f32) (Win : FVec Ideal S128x128 .f32) (bin a : FVec Ideal S128 .f32)
    (p : Fin 2000) (q : Fin 128) :
    encVec d t n c Win bin a (ix2 p q)
      = lk (a (ix1 q)) ((∑ k : Fin 128,
          (if h0 : k.val < 32 then d (ix2 p ⟨k.val, h0⟩)
           else if h1 : k.val < 64 then t (ix2 p ⟨k.val - 32, by omega⟩)
           else if h2 : k.val < 96 then n (ix2 p ⟨k.val - 64, by omega⟩)
           else c (ix2 p ⟨k.val - 96, by have := k.isLt; omega⟩)) * Win (ix2 k q)) + bin (ix1 q)) := by
  have hz : (addf (matmul dot_S2000x128_S128x128_S2000x128_1_0_0_1_n_n none
          (concatenate S2000x128 1 [⟨S2000x32, d⟩, ⟨S2000x32, t⟩, ⟨S2000x32, n⟩, ⟨S2000x32, c⟩] concatenates_S2000x32_S2000x32_S2000x32_S2000x32_S2000x128_d1)
          Win (constant (F := Ideal) S2000x128 .f32 0x00000000#32))
        (broadcastTo S2000x128 (shapeCast S1x128 bin shapeCasts_S128_S1x128) broadcasts_S1x128_S2000x128)) (ix2 p q)
      = (∑ k : Fin 128,
          (if h0 : k.val < 32 then d (ix2 p ⟨k.val, h0⟩)
           else if h1 : k.val < 64 then t (ix2 p ⟨k.val - 32, by omega⟩)
           else if h2 : k.val < 96 then n (ix2 p ⟨k.val - 64, by omega⟩)
           else c (ix2 p ⟨k.val - 96, by have := k.isLt; omega⟩)) * Win (ix2 k q)) + bin (ix1 q) := by
    show FloatOps.matmul dot_S2000x128_S128x128_S2000x128_1_0_0_1_n_n none
          (concatenate S2000x128 1 [⟨S2000x32, d⟩, ⟨S2000x32, t⟩, ⟨S2000x32, n⟩, ⟨S2000x32, c⟩] concatenates_S2000x32_S2000x32_S2000x32_S2000x32_S2000x128_d1)
          Win (constant (F := Ideal) S2000x128 .f32 0x00000000#32) (ix2 p q)
        + broadcastTo S2000x128 (shapeCast S1x128 bin shapeCasts_S128_S1x128) broadcasts_S1x128_S2000x128 (ix2 p q) = _
    rw [matmul_plain_zero dot_S2000x128_S128x128_S2000x128_1_0_0_1_n_n rfl none _ Win p q, bias_row_apply]
    refine congrArg (· + bin (ix1 q)) (Finset.sum_congr rfl fun k _ => congrArg (· * Win (ix2 k q)) ?_)
    exact concat4_at d t n c _ p k
  have ha : broadcastTo S2000x128 (shapeCast S1x128 a shapeCasts_S128_S1x128) broadcasts_S1x128_S2000x128 (ix2 p q) = a (ix1 q) :=
    bias_row_apply a _ _ p q
  unfold encVec
  rw [lkVec_at, ha, hz]

/-- THE ENCODER BODY at an entry: row p of the block's result is the encoder's row of row p of the block. -/
theorem k0_enc_at (x : Vec Ideal S2000x1544 .f32)
    (Wn : Vec Ideal S6x32 .f32) (bn : Vec Ideal S32 .f32) (Wt : Vec Ideal S768x32 .f32) (bt : Vec Ideal S32 .f32)
    (Wc : Vec Ideal S2x32 .f32) (bc : Vec Ideal S32 .f32) (Wd : Vec Ideal S768x32 .f32) (bd : Vec Ideal S32 .f32)
    (Win : Vec Ideal S128x128 .f32) (bin a : Vec Ideal S128 .f32) (p : Fin 2000) (q : Fin 128) :
    k0_pay1 (F := Ideal) (k0_pay2 x) (k0_pay3 x Wn bn) (k0_pay4 x Wt bt) (k0_pay5 x Wc bc) Wd bd Win bin a (ix2 p q)
      = encRow Wd bd Wt bt Wn bn Wc bc Win bin a (fun c => x (ix2 p c)) q := by
  have e : k0_pay1 (F := Ideal) (k0_pay2 x) (k0_pay3 x Wn bn) (k0_pay4 x Wt bt) (k0_pay5 x Wc bc) Wd bd Win bin a
      = encVec (projVec 776 x slices_S2000x1544_o0_776_S2000x768 dot_S2000x768_S768x32_S2000x32_1_0_0_1_n_n Wd bd)
          (projVec 6 x slices_S2000x1544_o0_6_S2000x768 dot_S2000x768_S768x32_S2000x32_1_0_0_1_n_n Wt bt)
          (projVec 0 x slices_S2000x1544_o0_0_S2000x6 dot_S2000x6_S6x32_S2000x32_1_0_0_1_n_n Wn bn)
          (projVec 774 x slices_S2000x1544_o0_774_S2000x2 dot_S2000x2_S2x32_S2000x32_1_0_0_1_n_n Wc bc) Win bin a := rfl
  rw [e, encVec_at]
  unfold encRow
  refine congrArg (fun z => lk (a (ix1 q)) (z + bin (ix1 q))) (Finset.sum_congr rfl fun k _ => congrArg (· * Win (ix2 k q)) ?_)
  unfold feat
  by_cases h0 : k.val < 32
  · rw [dif_pos h0, dif_pos h0]
    exact projVec_at 776 (by decide) x _ _ rfl Wd bd p _
  · rw [dif_neg h0, dif_neg h0]
    by_cases h1 : k.val < 64
    · rw [dif_pos h1, dif_pos h1]
      exact projVec_at 6 (by decide) x _ _ rfl Wt bt p _
    · rw [dif_neg h1, dif_neg h1]
      by_cases h2 : k.val < 96
      · rw [dif_pos h2, dif_pos h2]
        exact projVec_at 0 (by decide) x _ _ rfl Wn bn p _
      · rw [dif_neg h2, dif_neg h2]
        exact projVec_at 774 (by decide) x _ _ rfl Wc bc p _

end Cert.PayVal

end
-- ==== Proof.Blocks.lean ====
/-
  Each body of the kernel over a block of rows gives the same rows of one function of the whole arrays.

  The six bodies work row by row: an entry of a body's result depends on one row of the block it loaded. So
  if row p of the block is row r of the whole array, entry (p, q) of the body's result is entry (r, q) of the
  whole array's function: the encoder of the raw features, the matrix product with the layer's weight, the
  product plus a bias, the rectified product plus a bias.
-/
import proofs.«152442_j4492535791675_1_alg».proof.Proof.PayMatmul
import proofs.«152442_j4492535791675_1_alg».proof.Proof.PayEnc

noncomputable section

namespace Cert.PayVal

open Cert.KernelIdeal Cert.KernelIdeal.Gen Idealize.ShloMosaic Idealize.ShloMosaic.ValueIdx

/-- The encoder body: row p of a block that is row r of the raw features gives row r of the encoding. -/
theorem k0_block (X : (⟨2, ![50000, 1544]⟩ : Shape).Idx → EReal) (x : Vec Ideal S2000x1544 .f32)
    (Wn : Vec Ideal S6x32 .f32) (bn : Vec Ideal S32 .f32) (Wt : Vec Ideal S768x32 .f32) (bt : Vec Ideal S32 .f32)
    (Wc : Vec Ideal S2x32 .f32) (bc : Vec Ideal S32 .f32) (Wd : Vec Ideal S768x32 .f32) (bd : Vec Ideal S32 .f32)
    (Win : Vec Ideal S128x128 .f32) (bin a : Vec Ideal S128 .f32) (p : Fin 2000) (r : Fin 50000) (q : Fin 128)
    (h : ∀ c : Fin 1544, x (ix2 p c) = X (ix2 r c)) :
    k0_pay1 (F := Ideal) (k0_pay2 x) (k0_pay3 x Wn bn) (k0_pay4 x Wt bt) (k0_pay5 x Wc bc) Wd bd Win bin a (ix2 p q)
      = enc X Wd bd Wt bt Wn bn Wc bc Win bin a (ix2 r q) :=
  (k0_enc_at x Wn bn Wt bt Wc bc Wd bd Win bin a p q).trans
    (congrArg (fun row => encRow Wd bd Wt bt Wn bn Wc bc Win bin a row q) (funext h))

/-- The first graph layer's product: row p of a 4000-row block that is row r of the 200000 rows. -/
theorem k1_block (X : (⟨2, ![200000, 128]⟩ : Shape).Idx → EReal) (x : Vec Ideal S4000x128 .f32)
    (w : Vec Ideal S128x128 .f32) (p : Fin 4000) (r : Fin 200000) (q : Fin 128)
    (h : ∀ k : Fin 128, x (ix2 p k) = X (ix2 r k)) :
    k1_pay1 (F := Ideal) x w (ix2 p q) = mm X w (ix2 r q) :=
  (k1_pay1_at x w p q).trans (mmAt_row x X w p r q h)

/-- The second graph layer's product: row p of a 5000-row block that is row r of the 50000 rows. -/
theorem k2_block (X : (⟨2, ![50000, 128]⟩ : Shape).Idx → EReal) (x : Vec Ideal S5000x128 .f32)
    (w : Vec Ideal S128x128 .f32) (p : Fin 5000) (r : Fin 50000) (q : Fin 128)
    (h : ∀ k : Fin 128, x (ix2 p k) = X (ix2 r k)) :
    k2_pay1 (F := Ideal) x w (ix2 p q) = mm X w (ix2 r q) :=
  (k2_pay1_at x w p q).trans (mmAt_row x X w p r q h)

/-- The third graph layer's product is one block: the whole product. -/
theorem k3_whole (x : Vec Ideal S12500x128 .f32) (w : Vec Ideal S128x128 .f32) :
    k3_pay1 (F := Ideal) x w = mm x w := by
  funext i
  obtain ⟨p, q, rfl⟩ : ∃ (p : Fin 12500) (q : Fin 128), i = ix2 p q := ⟨i 0, i 1, eq_ix2 i⟩
  exact k3_pay1_at x w p q

/-- The classifier's first layer is one block: max (x · w + b) 0. -/
theorem k4_whole (x : Vec Ideal S128x384 .f32) (w : Vec Ideal S384x128 .f32) (b : Vec Ideal S128 .f32) :
    k4_pay1 (F := Ideal) x w b = affRelu x w b := by
  funext i
  obtain ⟨p, q, rfl⟩ : ∃ (p : Fin 128) (q : Fin 128), i = ix2 p q := ⟨i 0, i 1, eq_ix2 i⟩
  exact k4_pay1_at x w b p q

/-- The classifier's second layer is one block: x · w + b. -/
theorem k5_whole (x : Vec Ideal S128x128 .f32) (w : Vec Ideal S128x128 .f32) (b : Vec Ideal S128 .f32) :
    k5_pay1 (F := Ideal) x w b = aff x w b := by
  funext i
  obtain ⟨p, q, rfl⟩ : ∃ (p : Fin 128) (q : Fin 128), i = ix2 p q := ⟨i 0, i 1, eq_ix2 i⟩
  exact k5_pay1_at x w b p q

end Cert.PayVal

end
-- ==== Proof.Ideal.Fin0.lean ====
import proofs.«152442_j4492535791675_1_alg».proof.Proof.Ideal.Enc0
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_0 : (![0, 0] : Fin 2 → Nat) = fun _ => 0 := funext fun a => by fin_cases a <;> rfl

/-! ## Region 0: the array it leaves is the encoding of the whole raw-feature array

    Point `t` encodes rows 2000·t … 2000·t + 1999 with the eleven whole parameter arrays; the 25 blocks tile the 50000 rows. -/

theorem hz1_0 : (![0] : Fin 1 → Nat) = fun _ => 0 := funext fun a => by fin_cases a; rfl

/-- The block indices over the grid: the rows and the result move down with the point, every parameter array stays. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 2) = t.val
    ∧ win0_12.index t (1 : Fin 2) = 0 :=
  (by decide +kernel : ∀ t : Fin grid0.N, _)

/-- One entry of the body's result on a block whose rows are rows n·2000… of `X`. -/
theorem pt0 (X : Vec Ideal S50000x1544 .f32) (x : Vec Ideal S2000x1544 .f32)
    (Wn : Vec Ideal S6x32 .f32) (bn : Vec Ideal S32 .f32) (Wt : Vec Ideal S768x32 .f32) (bt : Vec Ideal S32 .f32)
    (Wc : Vec Ideal S2x32 .f32) (bc : Vec Ideal S32 .f32) (Wd : Vec Ideal S768x32 .f32) (bd : Vec Ideal S32 .f32)
    (Win : Vec Ideal S128x128 .f32) (bin a : Vec Ideal S128 .f32)
    (n : ℕ) (hx : ∀ (y : S2000x1544.Idx) (i : S50000x1544.Idx), (i 0).val = n * 2000 + (y 0).val → (i 1).val = (y 1).val → x y = X i)
    (j : S2000x128.Idx) (i : S50000x128.Idx) (h0 : (i 0).val = n * 2000 + (j 0).val) (h1 : (i 1).val = (j 1).val) :
    k0_pay1 (F := Ideal) (k0_pay2 x) (k0_pay3 x Wn bn) (k0_pay4 x Wt bt) (k0_pay5 x Wc bc) Wd bd Win bin a j
      = enc X Wd bd Wt bt Wn bn Wc bc Win bin a i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  exact k0_block X x Wn bn Wt bt Wc bc Wd bd Win bin a p r q' fun cc => hx (ix2 p cc) (ix2 r cc) h0 rfl

set_option maxHeartbeats 1000000 in
/-- What point `t` writes back is block `t` of the encoding of the arrays as the region finds them. -/
theorem flushed0_eq (c : Dev nD) (t : Fin cfg0.N) :
    (dat0 V c).flushed 12 t = ((cfg0.win 12).blk t).view.read (Elt Ideal) (enc (V c (Pipeline.arrRef spec0 0)) (V c (Pipeline.arrRef spec0 7)) (V c (Pipeline.arrRef spec0 8)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 9)) (V c (Pipeline.arrRef spec0 10)) (V c (Pipeline.arrRef spec0 11))) := by
  show (cfg0.win 12).cut (grid0.coords t) ((dat0 V c).after 12 t) = _
  rw [after0_12]
  unfold out0_12
  rw [View.canon_unit_zero hz_0]
  simp only [View.ld_unit_zero (S := S2000x1544) hz_0, View.ld_unit_zero (S := S6x32) hz_0, View.ld_unit_zero (S := S32) hz1_0, View.ld_unit_zero (S := S768x32) hz_0, View.ld_unit_zero (S := S2x32) hz_0, View.ld_unit_zero (S := S128x128) hz_0, View.ld_unit_zero (S := S128) hz1_0]
  obtain ⟨e0, e1, e2, e3, e4, e5, e6, e7, e8, e9, e10, e11, e12, e13, e14, e15, e16, e17, e18, e19⟩ := idx0 t
  have hW1 : iblk0 V c 1 t = V c (Pipeline.arrRef spec0 1) := funext fun y => by
    show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 6 + 1 * (y 0).val = (y 0).val; omega
    | ⟨1, _⟩ => show win0_1.index t (1 : Fin 2) * 32 + 1 * (y 1).val = (y 1).val; omega
  have hW2 : iblk0 V c 2 t = V c (Pipeline.arrRef spec0 2) := funext fun y => by
    show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 1) * 32 + 1 * (y 0).val = (y 0).val; omega
  have hW3 : iblk0 V c 3 t = V c (Pipeline.arrRef spec0 3) := funext fun y => by
    show V c (Pipeline.arrRef spec0 3) (((cfg0.win 3).blk t).view.emb y) = V c (Pipeline.arrRef spec0 3) y
    refine congrArg (V c (Pipeline.arrRef spec0 3)) (funext fun a => Fin.ext ?_)
    match a with
    | ⟨0, _⟩ => show win0_3.index t (0 : Fin 2) * 768 + 1 * (y 0).val = (y 0).val; omega
    | ⟨1, _⟩ => show win0_3.index t (1 : Fin 2) * 32 + 1 * (y 1).val = (y 1).val; omega
  have hW4 : iblk0 V c 4 t = V c (Pipeline.arrRef spec0 4) := funext fun y => by
    show V c (Pipeline.arrRef spec0 4) (((cfg0.win 4).blk t).view.emb y) = V c (Pipeline.arrRef spec0 4) y
    refine congrArg (V c (Pipeline.arrRef spec0 4)) (funext fun a => Fin.ext ?_)
    match a with
    | ⟨0, _⟩ => show win0_4.index t (0 : Fin 1) * 32 + 1 * (y 0).val = (y 0).val; omega
  have hW5 : iblk0 V c 5 t = V c (Pipeline.arrRef spec0 5) := funext fun y => by
    show V c (Pipeline.arrRef spec0 5) (((cfg0.win 5).blk t).view.emb y) = V c (Pipeline.arrRef spec0 5) y
    refine congrArg (V c (Pipeline.arrRef spec0 5)) (funext fun a => Fin.ext ?_)
    match a with
    | ⟨0, _⟩ => show win0_5.index t (0 : Fin 2) * 2 + 1 * (y 0).val = (y 0).val; omega
    | ⟨1, _⟩ => show win0_5.index t (1 : Fin 2) * 32 + 1 * (y 1).val = (y 1).val; omega
  have hW6 : iblk0 V c 6 t = V c (Pipeline.arrRef spec0 6) := funext fun y => by
    show V c (Pipeline.arrRef spec0 6) (((cfg0.win 6).blk t).view.emb y) = V c (Pipeline.arrRef spec0 6) y
    refine congrArg (V c (Pipeline.arrRef spec0 6)) (funext fun a => Fin.ext ?_)
    match a with
    | ⟨0, _⟩ => show win0_6.index t (0 : Fin 1) * 32 + 1 * (y 0).val = (y 0).val; omega
  have hW7 : iblk0 V c 7 t = V c (Pipeline.arrRef spec0 7) := funext fun y => by
    show V c (Pipeline.arrRef spec0 7) (((cfg0.win 7).blk t).view.emb y) = V c (Pipeline.arrRef spec0 7) y
    refine congrArg (V c (Pipeline.arrRef spec0 7)) (funext fun a => Fin.ext ?_)
    match a with
    | ⟨0, _⟩ => show win0_7.index t (0 : Fin 2) * 768 + 1 * (y 0).val = (y 0).val; omega
    | ⟨1, _⟩ => show win0_7.index t (1 : Fin 2) * 32 + 1 * (y 1).val = (y 1).val; omega
  have hW8 : iblk0 V c 8 t = V c (Pipeline.arrRef spec0 8) := funext fun y => by
    show V c (Pipeline.arrRef spec0 8) (((cfg0.win 8).blk t).view.emb y) = V c (Pipeline.arrRef spec0 8) y
    refine congrArg (V c (Pipeline.arrRef spec0 8)) (funext fun a => Fin.ext ?_)
    match a with
    | ⟨0, _⟩ => show win0_8.index t (0 : Fin 1) * 32 + 1 * (y 0).val = (y 0).val; omega
  have hW9 : iblk0 V c 9 t = V c (Pipeline.arrRef spec0 9) := funext fun y => by
    show V c (Pipeline.arrRef spec0 9) (((cfg0.win 9).blk t).view.emb y) = V c (Pipeline.arrRef spec0 9) y
    refine congrArg (V c (Pipeline.arrRef spec0 9)) (funext fun a => Fin.ext ?_)
    match a with
    | ⟨0, _⟩ => show win0_9.index t (0 : Fin 2) * 128 + 1 * (y 0).val = (y 0).val; omega
    | ⟨1, _⟩ => show win0_9.index t (1 : Fin 2) * 128 + 1 * (y 1).val = (y 1).val; omega
  have hW10 : iblk0 V c 10 t = V c (Pipeline.arrRef spec0 10) := funext fun y => by
    show V c (Pipeline.arrRef spec0 10) (((cfg0.win 10).blk t).view.emb y) = V c (Pipeline.arrRef spec0 10) y
    refine congrArg (V c (Pipeline.arrRef spec0 10)) (funext fun a => Fin.ext ?_)
    match a with
    | ⟨0, _⟩ => show win0_10.index t (0 : Fin 1) * 128 + 1 * (y 0).val = (y 0).val; omega
  have hW11 : iblk0 V c 11 t = V c (Pipeline.arrRef spec0 11) := funext fun y => by
    show V c (Pipeline.arrRef spec0 11) (((cfg0.win 11).blk t).view.emb y) = V c (Pipeline.arrRef spec0 11) y
    refine congrArg (V c (Pipeline.arrRef spec0 11)) (funext fun a => Fin.ext ?_)
    match a with
    | ⟨0, _⟩ => show win0_11.index t (0 : Fin 1) * 128 + 1 * (y 0).val = (y 0).val; omega
  rw [hW1, hW2, hW3, hW4, hW5, hW6, hW7, hW8, hW9, hW10, hW11]
  funext j
  refine pt0 _ _ _ _ _ _ _ _ _ _ _ _ _ (win0_12.index t (0 : Fin 2)) (fun y i h0 h1 => ?_) j _ ?_ ?_
  · show V c (Pipeline.arrRef spec0 0) (((cfg0.win 0).blk t).view.emb y) = V c (Pipeline.arrRef spec0 0) i
    refine congrArg (V c (Pipeline.arrRef spec0 0)) (funext fun a => Fin.ext ?_)
    match a with
    | ⟨0, _⟩ => show win0_0.index t (0 : Fin 2) * 2000 + 1 * (y 0).val = (i 0).val; omega
    | ⟨1, _⟩ => show win0_0.index t (1 : Fin 2) * 1544 + 1 * (y 1).val = (i 1).val; omega
  · show win0_12.index t (0 : Fin 2) * 2000 + 1 * (j 0).val = win0_12.index t (0 : Fin 2) * 2000 + (j 0).val; omega
  · show win0_12.index t (1 : Fin 2) * 128 + 1 * (j 1).val = (j 1).val; omega

theorem mem_blk0 (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v0).slice (win0_12.rect t)).set ↔ _
  rw [View.set_slice_whole, Rect.mem_set_unit]
  exact Iff.rfl

theorem cover0 (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨e0, e1, e2, e3, e4, e5, e6, e7, e8, e9, e10, e11, e12, e13, e14, e15, e16, e17, e18, e19⟩ := idx0 t
  have ht : t.val = (i 0).val / 2000 := rfl
  refine ⟨t, flush0_12 t, ?_⟩
  rw [mem_blk0]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 128 ≤ (i 1).val ∧ (i 1).val < win0_12.index t (1 : Fin 2) * 128 + 128; omega

/-- The array region 0 leaves: the encoding of the raw features with the parameters, all as the region finds them. -/
theorem final0 (c : Dev nD) : (dat0 V c).arrAt 12 cfg0.N = enc (V c (Pipeline.arrRef spec0 0)) (V c (Pipeline.arrRef spec0 7)) (V c (Pipeline.arrRef spec0 8)) (V c (Pipeline.arrRef spec0 3)) (V c (Pipeline.arrRef spec0 4)) (V c (Pipeline.arrRef spec0 1)) (V c (Pipeline.arrRef spec0 2)) (V c (Pipeline.arrRef spec0 5)) (V c (Pipeline.arrRef spec0 6)) (V c (Pipeline.arrRef spec0 9)) (V c (Pipeline.arrRef spec0 10)) (V c (Pipeline.arrRef spec0 11)) :=
  (dat0 V c).arrAt_eq_of_cover 12 _ (fun t _ => flushed0_eq V c t) (cover0)

end Cert.KernelIdeal.Regions

end
-- ==== Proof.Ideal.Fin1.lean ====
import proofs.«152442_j4492535791675_1_alg».proof.Proof.Ideal.Mat1
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_1 : (![0, 0] : Fin 2 → Nat) = fun _ => 0 := funext fun a => by fin_cases a <;> rfl

/-! ## Region 1: the array it leaves is the product of the whole left array with the weight

    Point `t` multiplies rows 4000·t … 4000·t + 3999; the 50 blocks tile the 200000 rows. -/

/-- The block indices over the grid: the left operand and the result move down with the point, the weight stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the body's result on a block whose rows are rows n·4000… of `X` and whose weight is `W`. -/
theorem pt1 (X : Vec Ideal S200000x128 .f32) (W : Vec Ideal S128x128 .f32) (x : Vec Ideal S4000x128 .f32) (w : Vec Ideal S128x128 .f32)
    (n : ℕ) (hx : ∀ (y : S4000x128.Idx) (i : S200000x128.Idx), (i 0).val = n * 4000 + (y 0).val → (i 1).val = (y 1).val → x y = X i)
    (hw : w = W) (j : S4000x128.Idx) (i : S200000x128.Idx) (h0 : (i 0).val = n * 4000 + (j 0).val) (h1 : (i 1).val = (j 1).val) :
    k1_pay1 (F := Ideal) x w j = mm X W i := by
  subst hw
  obtain ⟨p, q, rfl⟩ : ∃ (p : Fin 4000) (q : Fin 128), j = ix2 p q := ⟨j 0, j 1, eq_ix2 j⟩
  obtain ⟨r, q', rfl⟩ : ∃ (r : Fin 200000) (q' : Fin 128), i = ix2 r q' := ⟨i 0, i 1, eq_ix2 i⟩
  obtain rfl : q' = q := Fin.ext h1
  exact k1_block X x w p r q' fun k => hx (ix2 p k) (ix2 r k) h0 rfl

/-- What point `t` writes back is block `t` of the product of the arrays as the region finds them. -/
theorem flushed1_eq (c : Dev nD) (t : Fin cfg1.N) :
    (dat1 V c).flushed 2 t = ((cfg1.win 2).blk t).view.read (Elt Ideal)
      (mm (V c (Pipeline.arrRef spec1 0)) (V c (Pipeline.arrRef spec1 1))) := by
  show (cfg1.win 2).cut (grid1.coords t) ((dat1 V c).after 2 t) = _
  rw [after1_2]
  unfold out1_2
  rw [View.canon_unit_zero hz_1]
  simp only [View.ld_unit_zero (S := S4000x128) hz_1, View.ld_unit_zero (S := S128x128) hz_1]
  obtain ⟨e0, e1, e2, e3, e4, e5⟩ := idx1 t
  funext j
  refine pt1 _ _ _ _ (win1_2.index t (0 : Fin 2)) (fun y i h0 h1 => ?_) (funext fun y => ?_) j _ ?_ ?_
  · show V c (Pipeline.arrRef spec1 0) (((cfg1.win 0).blk t).view.emb y) = V c (Pipeline.arrRef spec1 0) i
    refine congrArg (V c (Pipeline.arrRef spec1 0)) (funext fun a => Fin.ext ?_)
    match a with
    | ⟨0, _⟩ => show win1_0.index t (0 : Fin 2) * 4000 + 1 * (y 0).val = (i 0).val; omega
    | ⟨1, _⟩ => show win1_0.index t (1 : Fin 2) * 128 + 1 * (y 1).val = (i 1).val; omega
  · show V c (Pipeline.arrRef spec1 1) (((cfg1.win 1).blk t).view.emb y) = V c (Pipeline.arrRef spec1 1) y
    refine congrArg (V c (Pipeline.arrRef spec1 1)) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · show win1_2.index t (0 : Fin 2) * 4000 + 1 * (j 0).val = win1_2.index t (0 : Fin 2) * 4000 + (j 0).val; omega
  · show win1_2.index t (1 : Fin 2) * 128 + 1 * (j 1).val = (j 1).val; omega

/-- An index of the result array is in point `t`'s block iff each coordinate is in the block's range. -/
theorem mem_blk1 (t : Fin cfg1.N) (i : S200000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v10).slice (win1_2.rect t)).set ↔ _
  rw [View.set_slice_whole, Rect.mem_set_unit]
  exact Iff.rfl

/-- Every row of the result is in the block of the point row / 4000. -/
theorem cover1 (i : S200000x128.Idx) : ∃ t : Fin cfg1.N, (cfg1.win 2).flush t = true ∧ i ∈ ((cfg1.win 2).blk t).view.set := by
  have hi0 : (i 0).val < 200000 := (i 0).isLt
  have hi1 : (i 1).val < 128 := (i 1).isLt
  have hN : grid1.N = 50 := N_1
  let t : Fin cfg1.N := ⟨(i 0).val / 4000, by show (i 0).val / 4000 < grid1.N; omega⟩
  obtain ⟨e0, e1, e2, e3, e4, e5⟩ := idx1 t
  have ht : t.val = (i 0).val / 4000 := rfl
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 128 ≤ (i 1).val ∧ (i 1).val < win1_2.index t (1 : Fin 2) * 128 + 128; omega

/-- The array region 1 leaves: the product of the left array with the weight, both as the region finds them. -/
theorem final1 (c : Dev nD) : (dat1 V c).arrAt 2 cfg1.N = mm (V c (Pipeline.arrRef spec1 0)) (V c (Pipeline.arrRef spec1 1)) :=
  (dat1 V c).arrAt_eq_of_cover 2 _ (fun t _ => flushed1_eq V c t) (cover1)

end Cert.KernelIdeal.Regions

end
-- ==== Proof.Ideal.Fin2.lean ====
import proofs.«152442_j4492535791675_1_alg».proof.Proof.Ideal.Mat2
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_2 : (![0, 0] : Fin 2 → Nat) = fun _ => 0 := funext fun a => by fin_cases a <;> rfl

/-! ## Region 2: the array it leaves is the product of the whole left array with the weight

    Point `t` multiplies rows 5000·t … 5000·t + 4999; the 10 blocks tile the 50000 rows. -/

/-- The block indices over the grid: the left operand and the result move down with the point, the weight stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of the body's result on a block whose rows are rows n·5000… of `X` and whose weight is `W`. -/
theorem pt2 (X : Vec Ideal S50000x128 .f32) (W : Vec Ideal S128x128 .f32) (x : Vec Ideal S5000x128 .f32) (w : Vec Ideal S128x128 .f32)
    (n : ℕ) (hx : ∀ (y : S5000x128.Idx) (i : S50000x128.Idx), (i 0).val = n * 5000 + (y 0).val → (i 1).val = (y 1).val → x y = X i)
    (hw : w = W) (j : S5000x128.Idx) (i : S50000x128.Idx) (h0 : (i 0).val = n * 5000 + (j 0).val) (h1 : (i 1).val = (j 1).val) :
    k2_pay1 (F := Ideal) x w j = mm X W i := by
  subst hw
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext h1
  exact k2_block X x w p r q' fun k => hx (ix2 p k) (ix2 r k) h0 rfl

/-- What point `t` writes back is block `t` of the product of the arrays as the region finds them. -/
theorem flushed2_eq (c : Dev nD) (t : Fin cfg2.N) :
    (dat2 V c).flushed 2 t = ((cfg2.win 2).blk t).view.read (Elt Ideal)
      (mm (V c (Pipeline.arrRef spec2 0)) (V c (Pipeline.arrRef spec2 1))) := by
  show (cfg2.win 2).cut (grid2.coords t) ((dat2 V c).after 2 t) = _
  rw [after2_2]
  unfold out2_2
  rw [View.canon_unit_zero hz_2]
  simp only [View.ld_unit_zero (S := S5000x128) hz_2, View.ld_unit_zero (S := S128x128) hz_2]
  obtain ⟨e0, e1, e2, e3, e4, e5⟩ := idx2 t
  funext j
  refine pt2 _ _ _ _ (win2_2.index t (0 : Fin 2)) (fun y i h0 h1 => ?_) (funext fun y => ?_) j _ ?_ ?_
  · show V c (Pipeline.arrRef spec2 0) (((cfg2.win 0).blk t).view.emb y) = V c (Pipeline.arrRef spec2 0) i
    refine congrArg (V c (Pipeline.arrRef spec2 0)) (funext fun a => Fin.ext ?_)
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 5000 + 1 * (j 0).val = win2_2.index t (0 : Fin 2) * 5000 + (j 0).val; omega
  · show win2_2.index t (1 : Fin 2) * 128 + 1 * (j 1).val = (j 1).val; omega

/-- An index of the result array is in point `t`'s block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v68).slice (win2_2.rect t)).set ↔ _
  rw [View.set_slice_whole, Rect.mem_set_unit]
  exact Iff.rfl

/-- Every row of the result is in the block of the point row / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e0, e1, e2, e3, e4, e5⟩ := idx2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array region 2 leaves: the product of the left array with the weight, both as the region finds them. -/
theorem final2 (c : Dev nD) : (dat2 V c).arrAt 2 cfg2.N = mm (V c (Pipeline.arrRef spec2 0)) (V c (Pipeline.arrRef spec2 1)) :=
  (dat2 V c).arrAt_eq_of_cover 2 _ (fun t _ => flushed2_eq V c t) (cover2)

end Cert.KernelIdeal.Regions

end
-- ==== Proof.Ideal.Fin3.lean ====
import proofs.«152442_j4492535791675_1_alg».proof.Proof.Ideal.Mat3
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_3 : (![0, 0] : Fin 2 → Nat) = fun _ => 0 := funext fun a => by fin_cases a <;> rfl

/-! ## Region 3: the array it leaves is the product of the whole left array with the weight

    Point `t` multiplies rows 12500·t … 12500·t + 12499; the 1 blocks tile the 12500 rows. -/

/-- The block indices over the grid: the left operand and the result move down with the point, the weight stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of the body's result on a block whose rows are rows n·12500… of `X` and whose weight is `W`. -/
theorem pt3 (X : Vec Ideal S12500x128 .f32) (W : Vec Ideal S128x128 .f32) (x : Vec Ideal S12500x128 .f32) (w : Vec Ideal S128x128 .f32)
    (n : ℕ) (hx : ∀ (y : S12500x128.Idx) (i : S12500x128.Idx), (i 0).val = n * 12500 + (y 0).val → (i 1).val = (y 1).val → x y = X i)
    (hw : w = W) (j : S12500x128.Idx) (i : S12500x128.Idx) (h0 : (i 0).val = n * 12500 + (j 0).val) (h1 : (i 1).val = (j 1).val) :
    k3_pay1 (F := Ideal) x w j = mm X W i := by
  subst hw
  obtain ⟨p, q, rfl⟩ : ∃ (p : Fin 12500) (q : Fin 128), j = ix2 p q := ⟨j 0, j 1, eq_ix2 j⟩
  obtain ⟨r, q', rfl⟩ : ∃ (r : Fin 12500) (q' : Fin 128), i = ix2 r q' := ⟨i 0, i 1, eq_ix2 i⟩
  obtain rfl : q' = q := Fin.ext h1
  exact (k3_pay1_at x w p q').trans (mmAt_row x X w p r q' fun k => hx (ix2 p k) (ix2 r k) h0 rfl)

/-- What point `t` writes back is block `t` of the product of the arrays as the region finds them. -/
theorem flushed3_eq (c : Dev nD) (t : Fin cfg3.N) :
    (dat3 V c).flushed 2 t = ((cfg3.win 2).blk t).view.read (Elt Ideal)
      (mm (V c (Pipeline.arrRef spec3 0)) (V c (Pipeline.arrRef spec3 1))) := by
  show (cfg3.win 2).cut (grid3.coords t) ((dat3 V c).after 2 t) = _
  rw [after3_2]
  unfold out3_2
  rw [View.canon_unit_zero hz_3]
  simp only [View.ld_unit_zero (S := S12500x128) hz_3, View.ld_unit_zero (S := S128x128) hz_3]
  obtain ⟨e0, e1, e2, e3, e4, e5⟩ := idx3 t
  funext j
  refine pt3 _ _ _ _ (win3_2.index t (0 : Fin 2)) (fun y i h0 h1 => ?_) (funext fun y => ?_) j _ ?_ ?_
  · show V c (Pipeline.arrRef spec3 0) (((cfg3.win 0).blk t).view.emb y) = V c (Pipeline.arrRef spec3 0) i
    refine congrArg (V c (Pipeline.arrRef spec3 0)) (funext fun a => Fin.ext ?_)
    match a with
    | ⟨0, _⟩ => show win3_0.index t (0 : Fin 2) * 12500 + 1 * (y 0).val = (i 0).val; omega
    | ⟨1, _⟩ => show win3_0.index t (1 : Fin 2) * 128 + 1 * (y 1).val = (i 1).val; omega
  · show V c (Pipeline.arrRef spec3 1) (((cfg3.win 1).blk t).view.emb y) = V c (Pipeline.arrRef spec3 1) y
    refine congrArg (V c (Pipeline.arrRef spec3 1)) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show win3_2.index t (0 : Fin 2) * 12500 + 1 * (j 0).val = win3_2.index t (0 : Fin 2) * 12500 + (j 0).val; omega
  · show win3_2.index t (1 : Fin 2) * 128 + 1 * (j 1).val = (j 1).val; omega

/-- An index of the result array is in point `t`'s block iff each coordinate is in the block's range. -/
theorem mem_blk3 (t : Fin cfg3.N) (i : S12500x128.Idx) :
    i ∈ ((cfg3.win 2).blk t).view.set ↔ ∀ a : Fin 2, win3_2.index t a * S12500x128.size a ≤ (i a).val ∧ (i a).val < win3_2.index t a * S12500x128.size a + S12500x128.size a := by
  show i ∈ ((View.whole main_v126).slice (win3_2.rect t)).set ↔ _
  rw [View.set_slice_whole, Rect.mem_set_unit]
  exact Iff.rfl

/-- Every row of the result is in the block of the point row / 12500. -/
theorem cover3 (i : S12500x128.Idx) : ∃ t : Fin cfg3.N, (cfg3.win 2).flush t = true ∧ i ∈ ((cfg3.win 2).blk t).view.set := by
  have hi0 : (i 0).val < 12500 := (i 0).isLt
  have hi1 : (i 1).val < 128 := (i 1).isLt
  have hN : grid3.N = 1 := N_3
  let t : Fin cfg3.N := ⟨(i 0).val / 12500, by show (i 0).val / 12500 < grid3.N; omega⟩
  obtain ⟨e0, e1, e2, e3, e4, e5⟩ := idx3 t
  have ht : t.val = (i 0).val / 12500 := rfl
  refine ⟨t, flush3_2 t, ?_⟩
  rw [mem_blk3]
  intro a
  match a with
  | ⟨0, _⟩ => show win3_2.index t (0 : Fin 2) * 12500 ≤ (i 0).val ∧ (i 0).val < win3_2.index t (0 : Fin 2) * 12500 + 12500; omega
  | ⟨1, _⟩ => show win3_2.index t (1 : Fin 2) * 128 ≤ (i 1).val ∧ (i 1).val < win3_2.index t (1 : Fin 2) * 128 + 128; omega

/-- The array region 3 leaves: the product of the left array with the weight, both as the region finds them. -/
theorem final3 (c : Dev nD) : (dat3 V c).arrAt 2 cfg3.N = mm (V c (Pipeline.arrRef spec3 0)) (V c (Pipeline.arrRef spec3 1)) :=
  (dat3 V c).arrAt_eq_of_cover 2 _ (fun t _ => flushed3_eq V c t) (cover3)

end Cert.KernelIdeal.Regions

end
-- ==== Proof.Ideal.Fin4.lean ====
import proofs.«152442_j4492535791675_1_alg».proof.Proof.Ideal.Aff4
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_4 : (![0, 0] : Fin 2 → Nat) = fun _ => 0 := funext fun a => by fin_cases a <;> rfl

/-! ## Region 4: one block, the whole arrays; the array it leaves is the layer's value of the arrays it finds -/

theorem hz1_4 : (![0] : Fin 1 → Nat) = fun _ => 0 := funext fun a => by fin_cases a; rfl

/-- Every block index is zero: each window's block is its whole array. -/
theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- What the one point writes back is the whole of the layer's value. -/
theorem flushed4_eq (c : Dev nD) (t : Fin cfg4.N) :
    (dat4 V c).flushed 3 t = ((cfg4.win 3).blk t).view.read (Elt Ideal)
      (affRelu (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz_4]
  simp only [View.ld_unit_zero (S := S128x384) hz_4, View.ld_unit_zero (S := S384x128) hz_4, View.ld_unit_zero (S := S128) hz1_4]
  obtain ⟨e0, e1, e2, e3, e4, e5, e6⟩ := idx4 t
  have h0 : iblk4 V c 0 t = V c (Pipeline.arrRef spec4 0) := funext fun y => by
    show V c (Pipeline.arrRef spec4 0) (((cfg4.win 0).blk t).view.emb y) = V c (Pipeline.arrRef spec4 0) y
    refine congrArg (V c (Pipeline.arrRef spec4 0)) (funext fun a => Fin.ext ?_)
    match a with
    | ⟨0, _⟩ => show win4_0.index t (0 : Fin 2) * 128 + 1 * (y 0).val = (y 0).val; omega
    | ⟨1, _⟩ => show win4_0.index t (1 : Fin 2) * 384 + 1 * (y 1).val = (y 1).val; omega
  have h1 : iblk4 V c 1 t = V c (Pipeline.arrRef spec4 1) := funext fun y => by
    show V c (Pipeline.arrRef spec4 1) (((cfg4.win 1).blk t).view.emb y) = V c (Pipeline.arrRef spec4 1) y
    refine congrArg (V c (Pipeline.arrRef spec4 1)) (funext fun a => Fin.ext ?_)
    match a with
    | ⟨0, _⟩ => show win4_1.index t (0 : Fin 2) * 384 + 1 * (y 0).val = (y 0).val; omega
    | ⟨1, _⟩ => show win4_1.index t (1 : Fin 2) * 128 + 1 * (y 1).val = (y 1).val; omega
  have h2 : iblk4 V c 2 t = V c (Pipeline.arrRef spec4 2) := funext fun y => by
    show V c (Pipeline.arrRef spec4 2) (((cfg4.win 2).blk t).view.emb y) = V c (Pipeline.arrRef spec4 2) y
    refine congrArg (V c (Pipeline.arrRef spec4 2)) (funext fun a => Fin.ext ?_)
    match a with
    | ⟨0, _⟩ => show win4_2.index t (0 : Fin 1) * 128 + 1 * (y 0).val = (y 0).val; omega
  rw [h0, h1, h2, k4_whole]
  funext j
  show _ = affRelu _ _ _ (((cfg4.win 3).blk t).view.emb j)
  refine congrArg (affRelu _ _ _) (funext fun a => Fin.ext ?_)
  match a with
  | ⟨0, _⟩ => show (j 0).val = win4_3.index t (0 : Fin 2) * 128 + 1 * (j 0).val; omega
  | ⟨1, _⟩ => show (j 1).val = win4_3.index t (1 : Fin 2) * 128 + 1 * (j 1).val; omega

theorem mem_blk4 (t : Fin cfg4.N) (i : S128x128.Idx) :
    i ∈ ((cfg4.win 3).blk t).view.set ↔ ∀ a : Fin 2, win4_3.index t a * S128x128.size a ≤ (i a).val ∧ (i a).val < win4_3.index t a * S128x128.size a + S128x128.size a := by
  show i ∈ ((View.whole main_v187).slice (win4_3.rect t)).set ↔ _
  rw [View.set_slice_whole, Rect.mem_set_unit]
  exact Iff.rfl

theorem cover4 (i : S128x128.Idx) : ∃ t : Fin cfg4.N, (cfg4.win 3).flush t = true ∧ i ∈ ((cfg4.win 3).blk t).view.set := by
  have hi0 : (i 0).val < 128 := (i 0).isLt
  have hi1 : (i 1).val < 128 := (i 1).isLt
  obtain ⟨e0, e1, e2, e3, e4, e5, e6⟩ := idx4 t4_0
  refine ⟨t4_0, flush4_3 t4_0, ?_⟩
  rw [mem_blk4]
  intro a
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 128 ≤ (i 1).val ∧ (i 1).val < win4_3.index t4_0 (1 : Fin 2) * 128 + 128; omega

/-- The array region 4 leaves. -/
theorem final4 (c : Dev nD) : (dat4 V c).arrAt 3 cfg4.N
    = affRelu (V c (Pipeline.arrRef spec4 0)) (V c (Pipeline.arrRef spec4 1)) (V c (Pipeline.arrRef spec4 2)) :=
  (dat4 V c).arrAt_eq_of_cover 3 _ (fun t _ => flushed4_eq V c t) (cover4)

end Cert.KernelIdeal.Regions

end
-- ==== Proof.Ideal.Fin5.lean ====
import proofs.«152442_j4492535791675_1_alg».proof.Proof.Ideal.Aff5
import proofs.«152442_j4492535791675_1_alg».proof.Proof.Blocks
import Idealize.ShloMosaic.Lib.Pipeline.Value
import Idealize.ShloMosaic.Lib.ValueIdx

set_option maxRecDepth 16384

noncomputable section

namespace Cert.KernelIdeal.Regions

open Cert.KernelIdeal Cert.KernelIdeal.Gen Cert.PayVal
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz_5 : (![0, 0] : Fin 2 → Nat) = fun _ => 0 := funext fun a => by fin_cases a <;> rfl

/-! ## Region 5: one block, the whole arrays; the array it leaves is the layer's value of the arrays it finds -/

theorem hz1_5 : (![0] : Fin 1 → Nat) = fun _ => 0 := funext fun a => by fin_cases a; rfl

/-- Every block index is zero: each window's block is its whole array. -/
theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0 :=
  (by decide +kernel : ∀ t : Fin grid5.N, _)

/-- What the one point writes back is the whole of the layer's value. -/
theorem flushed5_eq (c : Dev nD) (t : Fin cfg5.N) :
    (dat5 V c).flushed 3 t = ((cfg5.win 3).blk t).view.read (Elt Ideal)
      (aff (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz_5]
  simp only [View.ld_unit_zero (S := S128x128) hz_5, View.ld_unit_zero (S := S128x128) hz_5, View.ld_unit_zero (S := S128) hz1_5]
  obtain ⟨e0, e1, e2, e3, e4, e5, e6⟩ := idx5 t
  have h0 : iblk5 V c 0 t = V c (Pipeline.arrRef spec5 0) := funext fun y => by
    show V c (Pipeline.arrRef spec5 0) (((cfg5.win 0).blk t).view.emb y) = V c (Pipeline.arrRef spec5 0) y
    refine congrArg (V c (Pipeline.arrRef spec5 0)) (funext fun a => Fin.ext ?_)
    match a with
    | ⟨0, _⟩ => show win5_0.index t (0 : Fin 2) * 128 + 1 * (y 0).val = (y 0).val; omega
    | ⟨1, _⟩ => show win5_0.index t (1 : Fin 2) * 128 + 1 * (y 1).val = (y 1).val; omega
  have h1 : iblk5 V c 1 t = V c (Pipeline.arrRef spec5 1) := funext fun y => by
    show V c (Pipeline.arrRef spec5 1) (((cfg5.win 1).blk t).view.emb y) = V c (Pipeline.arrRef spec5 1) y
    refine congrArg (V c (Pipeline.arrRef spec5 1)) (funext fun a => Fin.ext ?_)
    match a with
    | ⟨0, _⟩ => show win5_1.index t (0 : Fin 2) * 128 + 1 * (y 0).val = (y 0).val; omega
    | ⟨1, _⟩ => show win5_1.index t (1 : Fin 2) * 128 + 1 * (y 1).val = (y 1).val; omega
  have h2 : iblk5 V c 2 t = V c (Pipeline.arrRef spec5 2) := funext fun y => by
    show V c (Pipeline.arrRef spec5 2) (((cfg5.win 2).blk t).view.emb y) = V c (Pipeline.arrRef spec5 2) y
    refine congrArg (V c (Pipeline.arrRef spec5 2)) (funext fun a => Fin.ext ?_)
    match a with
    | ⟨0, _⟩ => show win5_2.index t (0 : Fin 1) * 128 + 1 * (y 0).val = (y 0).val; omega
  rw [h0, h1, h2, k5_whole]
  funext j
  show _ = aff _ _ _ (((cfg5.win 3).blk t).view.emb j)
  refine congrArg (aff _ _ _) (funext fun a => Fin.ext ?_)
  match a with
  | ⟨0, _⟩ => show (j 0).val = win5_3.index t (0 : Fin 2) * 128 + 1 * (j 0).val; omega
  | ⟨1, _⟩ => show (j 1).val = win5_3.index t (1 : Fin 2) * 128 + 1 * (j 1).val; omega

theorem mem_blk5 (t : Fin cfg5.N) (i : S128x128.Idx) :
    i ∈ ((cfg5.win 3).blk t).view.set ↔ ∀ a : Fin 2, win5_3.index t a * S128x128.size a ≤ (i a).val ∧ (i a).val < win5_3.index t a * S128x128.size a + S128x128.size a := by
  show i ∈ ((View.whole main_v188).slice (win5_3.rect t)).set ↔ _
  rw [View.set_slice_whole, Rect.mem_set_unit]
  exact Iff.rfl

theorem cover5 (i : S128x128.Idx) : ∃ t : Fin cfg5.N, (cfg5.win 3).flush t = true ∧ i ∈ ((cfg5.win 3).blk t).view.set := by
  have hi0 : (i 0).val < 128 := (i 0).isLt
  have hi1 : (i 1).val < 128 := (i 1).isLt
  obtain ⟨e0, e1, e2, e3, e4, e5, e6⟩ := idx5 t5_0
  refine ⟨t5_0, flush5_3 t5_0, ?_⟩
  rw [mem_blk5]
  intro a
  match a with
  | ⟨0, _⟩ => show win5_3.index t5_0 (0 : Fin 2) * 128 ≤ (i 0).val ∧ (i 0).val < win5_3.index t5_0 (0 : Fin 2) * 128 + 128; omega
  | ⟨1, _⟩ => show win5_3.index t5_0 (1 : Fin 2) * 128 ≤ (i 1).val ∧ (i 1).val < win5_3.index t5_0 (1 : Fin 2) * 128 + 128; omega

/-- The array region 5 leaves. -/
theorem final5 (c : Dev nD) : (dat5 V c).arrAt 3 cfg5.N
    = aff (V c (Pipeline.arrRef spec5 0)) (V c (Pipeline.arrRef spec5 1)) (V c (Pipeline.arrRef spec5 2)) :=
  (dat5 V c).arrAt_eq_of_cover 3 _ (fun t _ => flushed5_eq V c t) (cover5)

end Cert.KernelIdeal.Regions

end
-- ==== Proof.Ideal.Keep.lean ====
import proofs.«152442_j4492535791675_1_alg».proof.Proof.Ideal.Outs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each item leaves unchanged, at the boundary contents -/

/-- The twenty-six argument arrays. -/
abbrev argList : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

theorem keep1 (c : Dev nD) (r : Ref sig .tc) (h : r ∉ ([main_v0] : List (Ref sig .tc))) : Y1 m c r = Y0 m c r := by
  rw [← V1_eq m c]; exact V1_of m (outs m) c r h
theorem keep2 (c : Dev nD) (r : Ref sig .tc) (h : r ∉ hostOps1_W) : Y2 m c r = Y1 m c r := by
  rw [← V2_eq m c, ← V1_eq m c]; exact V2_of m (outs m) c r h
theorem keep3 (c : Dev nD) (r : Ref sig .tc) (h : r ∉ ([main_v10] : List (Ref sig .tc))) : Y3 m c r = Y2 m c r := by
  rw [← V3_eq m c, ← V2_eq m c]; exact V3_of m (outs m) c r h
theorem keep4 (c : Dev nD) (r : Ref sig .tc) (h : r ∉ hostOps2_W) : Y4 m c r = Y3 m c r := by
  rw [← V4_eq m c, ← V3_eq m c]; exact V4_of m (outs m) c r h
theorem keep5 (c : Dev nD) (r : Ref sig .tc) (h : r ∉ hostOps2_1_W) : Y5 m c r = Y4 m c r := by
  rw [← V5_eq m c, ← V4_eq m c]; exact V5_of m (outs m) c r h
theorem keep6 (c : Dev nD) (r : Ref sig .tc) (h : r ∉ hostOps2_2_W) : Y6 m c r = Y5 m c r := by
  rw [← V6_eq m c, ← V5_eq m c]; exact V6_of m (outs m) c r h
theorem keep7 (c : Dev nD) (r : Ref sig .tc) (h : r ∉ ([main_v68] : List (Ref sig .tc))) : Y7 m c r = Y6 m c r := by
  rw [← V7_eq m c, ← V6_eq m c]; exact V7_of m (outs m) c r h
theorem keep8 (c : Dev nD) (r : Ref sig .tc) (h : r ∉ hostOps3_W) : Y8 m c r = Y7 m c r := by
  rw [← V8_eq m c, ← V7_eq m c]; exact V8_of m (outs m) c r h
theorem keep9 (c : Dev nD) (r : Ref sig .tc) (h : r ∉ hostOps3_1_W) : Y9 m c r = Y8 m c r := by
  rw [← V9_eq m c, ← V8_eq m c]; exact V9_of m (outs m) c r h
theorem keep10 (c : Dev nD) (r : Ref sig .tc) (h : r ∉ hostOps3_2_W) : Y10 m c r = Y9 m c r := by
  rw [← V10_eq m c, ← V9_eq m c]; exact V10_of m (outs m) c r h
theorem keep11 (c : Dev nD) (r : Ref sig .tc) (h : r ∉ ([main_v126] : List (Ref sig .tc))) : Y11 m c r = Y10 m c r := by
  rw [← V11_eq m c, ← V10_eq m c]; exact V11_of m (outs m) c r h
theorem keep12 (c : Dev nD) (r : Ref sig .tc) (h : r ∉ hostOps4_W) : Y12 m c r = Y11 m c r := by
  rw [← V12_eq m c, ← V11_eq m c]; exact V12_of m (outs m) c r h
theorem keep13 (c : Dev nD) (r : Ref sig .tc) (h : r ∉ hostOps4_1_W) : Y13 m c r = Y12 m c r := by
  rw [← V13_eq m c, ← V12_eq m c]; exact V13_of m (outs m) c r h
theorem keep14 (c : Dev nD) (r : Ref sig .tc) (h : r ∉ hostOps4_2_W) : Y14 m c r = Y13 m c r := by
  rw [← V14_eq m c, ← V13_eq m c]; exact V14_of m (outs m) c r h
theorem keep15 (c : Dev nD) (r : Ref sig .tc) (h : r ∉ ([main_v187] : List (Ref sig .tc))) : Y15 m c r = Y14 m c r := by
  rw [← V15_eq m c, ← V14_eq m c]; exact V15_of m (outs m) c r h
theorem keep16 (c : Dev nD) (r : Ref sig .tc) (h : r ∉ ([main_v188] : List (Ref sig .tc))) : Y16 m c r = Y15 m c r := by
  rw [← V16_eq m c, ← V15_eq m c]; exact V16_of m (outs m) c r h

theorem args0 (c : Dev nD) (r : Ref sig .tc) : Y0 m c r = m ((c : Thread nD τ).loc r) := rfl
theorem args1 (c : Dev nD) (r : Ref sig .tc) (hr : r ∈ argList) : Y1 m c r = m ((c : Thread nD τ).loc r) :=
  (keep1 m c r ((by decide : ∀ r ∈ argList, r ∉ ([main_v0] : List (Ref sig .tc))) r hr)).trans (args0 m c r)
theorem args2 (c : Dev nD) (r : Ref sig .tc) (hr : r ∈ argList) : Y2 m c r = m ((c : Thread nD τ).loc r) :=
  (keep2 m c r ((by decide : ∀ r ∈ argList, r ∉ hostOps1_W) r hr)).trans (args1 m c r hr)
theorem args3 (c : Dev nD) (r : Ref sig .tc) (hr : r ∈ argList) : Y3 m c r = m ((c : Thread nD τ).loc r) :=
  (keep3 m c r ((by decide : ∀ r ∈ argList, r ∉ ([main_v10] : List (Ref sig .tc))) r hr)).trans (args2 m c r hr)
theorem args4 (c : Dev nD) (r : Ref sig .tc) (hr : r ∈ argList) : Y4 m c r = m ((c : Thread nD τ).loc r) :=
  (keep4 m c r ((by decide : ∀ r ∈ argList, r ∉ hostOps2_W) r hr)).trans (args3 m c r hr)
theorem args5 (c : Dev nD) (r : Ref sig .tc) (hr : r ∈ argList) : Y5 m c r = m ((c : Thread nD τ).loc r) :=
  (keep5 m c r ((by decide : ∀ r ∈ argList, r ∉ hostOps2_1_W) r hr)).trans (args4 m c r hr)
theorem args6 (c : Dev nD) (r : Ref sig .tc) (hr : r ∈ argList) : Y6 m c r = m ((c : Thread nD τ).loc r) :=
  (keep6 m c r ((by decide : ∀ r ∈ argList, r ∉ hostOps2_2_W) r hr)).trans (args5 m c r hr)
theorem args7 (c : Dev nD) (r : Ref sig .tc) (hr : r ∈ argList) : Y7 m c r = m ((c : Thread nD τ).loc r) :=
  (keep7 m c r ((by decide : ∀ r ∈ argList, r ∉ ([main_v68] : List (Ref sig .tc))) r hr)).trans (args6 m c r hr)
theorem args8 (c : Dev nD) (r : Ref sig .tc) (hr : r ∈ argList) : Y8 m c r = m ((c : Thread nD τ).loc r) :=
  (keep8 m c r ((by decide : ∀ r ∈ argList, r ∉ hostOps3_W) r hr)).trans (args7 m c r hr)
theorem args9 (c : Dev nD) (r : Ref sig .tc) (hr : r ∈ argList) : Y9 m c r = m ((c : Thread nD τ).loc r) :=
  (keep9 m c r ((by decide : ∀ r ∈ argList, r ∉ hostOps3_1_W) r hr)).trans (args8 m c r hr)
theorem args10 (c : Dev nD) (r : Ref sig .tc) (hr : r ∈ argList) : Y10 m c r = m ((c : Thread nD τ).loc r) :=
  (keep10 m c r ((by decide : ∀ r ∈ argList, r ∉ hostOps3_2_W) r hr)).trans (args9 m c r hr)
theorem args11 (c : Dev nD) (r : Ref sig .tc) (hr : r ∈ argList) : Y11 m c r = m ((c : Thread nD τ).loc r) :=
  (keep11 m c r ((by decide : ∀ r ∈ argList, r ∉ ([main_v126] : List (Ref sig .tc))) r hr)).trans (args10 m c r hr)
theorem args12 (c : Dev nD) (r : Ref sig .tc) (hr : r ∈ argList) : Y12 m c r = m ((c : Thread nD τ).loc r) :=
  (keep12 m c r ((by decide : ∀ r ∈ argList, r ∉ hostOps4_W) r hr)).trans (args11 m c r hr)
theorem args13 (c : Dev nD) (r : Ref sig .tc) (hr : r ∈ argList) : Y13 m c r = m ((c : Thread nD τ).loc r) :=
  (keep13 m c r ((by decide : ∀ r ∈ argList, r ∉ hostOps4_1_W) r hr)).trans (args12 m c r hr)
theorem args14 (c : Dev nD) (r : Ref sig .tc) (hr : r ∈ argList) : Y14 m c r = m ((c : Thread nD τ).loc r) :=
  (keep14 m c r ((by decide : ∀ r ∈ argList, r ∉ hostOps4_2_W) r hr)).trans (args13 m c r hr)
theorem args15 (c : Dev nD) (r : Ref sig .tc) (hr : r ∈ argList) : Y15 m c r = m ((c : Thread nD τ).loc r) :=
  (keep15 m c r ((by decide : ∀ r ∈ argList, r ∉ ([main_v187] : List (Ref sig .tc))) r hr)).trans (args14 m c r hr)
theorem args16 (c : Dev nD) (r : Ref sig .tc) (hr : r ∈ argList) : Y16 m c r = m ((c : Thread nD τ).loc r) :=
  (keep16 m c r ((by decide : ∀ r ∈ argList, r ∉ ([main_v188] : List (Ref sig .tc))) r hr)).trans (args15 m c r hr)

/-- The first layer's pooled array stays through the second layer's items, -/
theorem keep_v65 (c : Dev nD) : Y11 m c main_v65 = Y6 m c main_v65 :=
  (keep11 m c main_v65 (by decide)).trans ((keep10 m c main_v65 (by decide)).trans ((keep9 m c main_v65 (by decide)).trans
    ((keep8 m c main_v65 (by decide)).trans (keep7 m c main_v65 (by decide)))))
/-- and the second layer's through the third region. -/
theorem keep_v123 (c : Dev nD) : Y11 m c main_v123 = Y10 m c main_v123 := keep11 m c main_v123 (by decide)

end Cert.KernelIdeal.Regions

end
-- ==== Proof.Ideal.RunVal.lean ====
import proofs.«152442_j4492535791675_1_alg».proof.Proof.Gen.KernelIdeal.Regions

set_option maxRecDepth 1720

noncomputable section

namespace Cert.KernelIdeal.RegionsVal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main with its RESULT read back: under the hypotheses of the conditional frame (one segment record per
    region, entered from and left at the boundary contents), every weakly fair execution from memory `m` with zero counters
    terminates, and every final memory holds in the result array `main_v188` what the last boundary's contents hold there,
    and every argument array as launched. -/
theorem run_cond_val {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V14 m outs c) ∗ E 4 c) ⊢ R4.pre c)
    (hpost4 : ∀ c : Dev nD, R4.post c ⊢ iprop(StableHlo.held (c : Thread nD τ) (Pipeline.ucRefs τ sig) (V15 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c)) :
    θ_run defs (onTc (τ := τ) (main (F := F))) ⟨m, fun _ => 0, ρ⟩ (fun r => ∀ c : Dev nD,
      r.2.mem ((c.tc : Thread nD τ).loc main_v188) = V16 m outs c main_v188
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨hpre0 c, hpost0 c, hpre1 c, hpost1 c, .rfl, .rfl, hpre2 c, hpost2 c, .rfl, .rfl, hpre3 c, hpost3 c, .rfl, .rfl, hpre4 c, (hpost4 c).trans (hpre5 c), (hpost5 c).trans (sep_mono .rfl (hE6 c))⟩)
    (hinit := ?_) (QY := fun c s => s.mem ((c.tc : Thread nD τ).loc main_v188) = V16 m outs c main_v188 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v188) (Finset.mem_filter.mpr ⟨StableHlo.devRef_mem_tcRefs main_v188, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c),
        (h (Proc.devRef .tc main_arg15) (Finset.mem_filter.mpr ⟨StableHlo.devRef_mem_tcRefs main_arg15, by decide⟩)).trans (V16_main_arg15 m outs c),
        (h (Proc.devRef .tc main_arg16) (Finset.mem_filter.mpr ⟨StableHlo.devRef_mem_tcRefs main_arg16, by decide⟩)).trans (V16_main_arg16 m outs c),
        (h (Proc.devRef .tc main_arg17) (Finset.mem_filter.mpr ⟨StableHlo.devRef_mem_tcRefs main_arg17, by decide⟩)).trans (V16_main_arg17 m outs c),
        (h (Proc.devRef .tc main_arg18) (Finset.mem_filter.mpr ⟨StableHlo.devRef_mem_tcRefs main_arg18, by decide⟩)).trans (V16_main_arg18 m outs c),
        (h (Proc.devRef .tc main_arg19) (Finset.mem_filter.mpr ⟨StableHlo.devRef_mem_tcRefs main_arg19, by decide⟩)).trans (V16_main_arg19 m outs c),
        (h (Proc.devRef .tc main_arg20) (Finset.mem_filter.mpr ⟨StableHlo.devRef_mem_tcRefs main_arg20, by decide⟩)).trans (V16_main_arg20 m outs c),
        (h (Proc.devRef .tc main_arg21) (Finset.mem_filter.mpr ⟨StableHlo.devRef_mem_tcRefs main_arg21, by decide⟩)).trans (V16_main_arg21 m outs c),
        (h (Proc.devRef .tc main_arg22) (Finset.mem_filter.mpr ⟨StableHlo.devRef_mem_tcRefs main_arg22, by decide⟩)).trans (V16_main_arg22 m outs c),
        (h (Proc.devRef .tc main_arg23) (Finset.mem_filter.mpr ⟨StableHlo.devRef_mem_tcRefs main_arg23, by decide⟩)).trans (V16_main_arg23 m outs c),
        (h (Proc.devRef .tc main_arg24) (Finset.mem_filter.mpr ⟨StableHlo.devRef_mem_tcRefs main_arg24, by decide⟩)).trans (V16_main_arg24 m outs c),
        (h (Proc.devRef .tc main_arg25) (Finset.mem_filter.mpr ⟨StableHlo.devRef_mem_tcRefs main_arg25, by decide⟩)).trans (V16_main_arg25 m outs c)⟩
    · iexact HSI

end Cert.KernelIdeal.RegionsVal

end
-- ==== Proof.Chains.lean ====
/-
  Between two regions the kernel's program applies host operations to the arrays the regions wrote: a gather
  of the encoded rows, and for each graph layer the degree count, its inverse square root, the gather of the
  rows along the edges, their scaling, the scatter-add, the bias, the maximum with zero and the pooling
  scatter-adds. The reference applies the very same operations to its own stages. So if the array a region
  wrote is the reference's stage at that point, and the argument arrays agree, then each array a later region
  reads is the reference's stage at the corresponding point: the two terms are one, operation by operation.
-/
import proofs.«152442_j4492535791675_1_alg».proof.Proof.Gen.KernelIdeal.Launch
import proofs.«152442_j4492535791675_1_alg».proof.Proof.RefReadGen
import Idealize.ShloMosaic.Lib.StableHlo.Run

noncomputable section

namespace Cert.Chains

open Cert.KernelIdeal Cert.KernelIdeal.Gen Idealize.ShloMosaic Idealize.ShloMosaic.TcCoe Idealize.SL.Sem Idealize.ShloMosaic.StableHlo
open Cert.ReferenceIdeal.ReadP

/-- The inverse square root of the degree where the degree is positive, and zero elsewhere, is taken by a
    function the program calls; its select is stated at references that carry their tensor type, and moving a
    value between a reference's own type and the carried one is the identity. -/
theorem sel_cast_1 (A : (main_v25 : Ref sig .tc).ty.Contents (Elt Ideal)) (B : (main_v26 : Ref sig .tc).ty.Contents (Elt Ideal))
    (C : (main_call0_v1 : Ref sig .tc).ty.Contents (Elt Ideal)) :
    (StableHlo.TRef.of main_v27 : StableHlo.TRef sig ⟨S200000, .f32⟩).toBuf (Val := Elt Ideal)
      (select ((StableHlo.TRef.of main_v25 : StableHlo.TRef sig ⟨S200000, .i1⟩).ofBuf (Val := Elt Ideal) A)
        ((StableHlo.TRef.of main_v26 : StableHlo.TRef sig ⟨S200000, .f32⟩).ofBuf (Val := Elt Ideal) B)
        ((StableHlo.TRef.of main_call0_v1 : StableHlo.TRef sig ⟨S200000, .f32⟩).ofBuf (Val := Elt Ideal) C))
      = select (s := S200000) A B C := rfl

/-- The inverse square root of the degree where the degree is positive, and zero elsewhere, is taken by a
    function the program calls; its select is stated at references that carry their tensor type, and moving a
    value between a reference's own type and the carried one is the identity. -/
theorem sel_cast_2 (A : (main_v83 : Ref sig .tc).ty.Contents (Elt Ideal)) (B : (main_v84 : Ref sig .tc).ty.Contents (Elt Ideal))
    (C : (main_call1_v1 : Ref sig .tc).ty.Contents (Elt Ideal)) :
    (StableHlo.TRef.of main_v85 : StableHlo.TRef sig ⟨S50000, .f32⟩).toBuf (Val := Elt Ideal)
      (select ((StableHlo.TRef.of main_v83 : StableHlo.TRef sig ⟨S50000, .i1⟩).ofBuf (Val := Elt Ideal) A)
        ((StableHlo.TRef.of main_v84 : StableHlo.TRef sig ⟨S50000, .f32⟩).ofBuf (Val := Elt Ideal) B)
        ((StableHlo.TRef.of main_call1_v1 : StableHlo.TRef sig ⟨S50000, .f32⟩).ofBuf (Val := Elt Ideal) C))
      = select (s := S50000) A B C := rfl

/-- The inverse square root of the degree where the degree is positive, and zero elsewhere, is taken by a
    function the program calls; its select is stated at references that carry their tensor type, and moving a
    value between a reference's own type and the carried one is the identity. -/
theorem sel_cast_3 (A : (main_v141 : Ref sig .tc).ty.Contents (Elt Ideal)) (B : (main_v142 : Ref sig .tc).ty.Contents (Elt Ideal))
    (C : (main_call2_v1 : Ref sig .tc).ty.Contents (Elt Ideal)) :
    (StableHlo.TRef.of main_v143 : StableHlo.TRef sig ⟨S12500, .f32⟩).toBuf (Val := Elt Ideal)
      (select ((StableHlo.TRef.of main_v141 : StableHlo.TRef sig ⟨S12500, .i1⟩).ofBuf (Val := Elt Ideal) A)
        ((StableHlo.TRef.of main_v142 : StableHlo.TRef sig ⟨S12500, .f32⟩).ofBuf (Val := Elt Ideal) B)
        ((StableHlo.TRef.of main_call2_v1 : StableHlo.TRef sig ⟨S12500, .f32⟩).ofBuf (Val := Elt Ideal) C))
      = select (s := S12500) A B C := rfl

/-! ## Before the first graph layer: the gather of the encoded rows, and the layer's weight -/

theorem a7 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x18 : (⟨S200000, .i32⟩ : BufTy).Contents (Elt Ideal))
    (h0 : W main_v0 = val_main_v50 (F := Ideal) x0 x1 x2 x3 x4 x5 x6 x7 x8 x9 x10 x11) (h18 : W main_arg18 = x18) :
    StableHlo.after (hostOps1 (F := Ideal)) W main_v7 = val_main_v57 (F := Ideal) x0 x1 x2 x3 x4 x5 x6 x7 x8 x9 x10 x11 x18 := by
  after_results
  rw [h0, h18]
  rfl

theorem a9 (W : Valuation τ sig (Elt Ideal)) (x12 : (⟨S3x128x128, .f32⟩ : BufTy).Contents (Elt Ideal)) (h12 : W main_arg12 = x12) :
    StableHlo.after (hostOps1 (F := Ideal)) W main_v9 = val_main_v59 (F := Ideal) x12 := by
  after_results
  rw [h12]
  rfl

/-! ## After the first graph layer's product -/

set_option maxRecDepth 100000 in
set_option maxHeartbeats 40000000 in
theorem b65 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal))
    (h10 : W main_v10 = val_main_v62 (F := Ideal) x0 x1 x2 x3 x4 x5 x6 x7 x8 x9 x10 x11 x12 x18) (h13 : W main_arg13 = x13) (h19 : W main_arg19 = x19) (h22 : W main_arg22 = x22) :
    StableHlo.after (hostOps2_2 (F := Ideal)) (StableHlo.after (hostOps2_1 (F := Ideal)) (StableHlo.after (hostOps2 (F := Ideal)) W)) main_v65
      = val_main_v113 (F := Ideal) x0 x1 x2 x3 x4 x5 x6 x7 x8 x9 x10 x11 x12 x13 x18 x19 x22 := by
  subst h13 h19 h22
  unfold val_main_v113 val_main_v112 val_main_v109 val_main_v108 val_main_v105 val_main_v102 val_main_v84
  rw [← h10]
  after_results_simp
  rw [sel_cast_1]
  rfl

set_option maxRecDepth 100000 in
set_option maxHeartbeats 40000000 in
theorem b67 (W : Valuation τ sig (Elt Ideal)) (x12 : (⟨S3x128x128, .f32⟩ : BufTy).Contents (Elt Ideal)) (h12 : W main_arg12 = x12) :
    StableHlo.after (hostOps2_2 (F := Ideal)) (StableHlo.after (hostOps2_1 (F := Ideal)) (StableHlo.after (hostOps2 (F := Ideal)) W)) main_v67
      = val_main_v115 (F := Ideal) x12 := by
  subst h12
  after_results_simp <;> rfl

/-! ## After the second graph layer's product -/

set_option maxRecDepth 100000 in
set_option maxHeartbeats 40000000 in
theorem c123 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal))
    (h68 : W main_v68 = val_main_v118 (F := Ideal) x0 x1 x2 x3 x4 x5 x6 x7 x8 x9 x10 x11 x12 x13 x18 x19 x22) (h13 : W main_arg13 = x13) (h20 : W main_arg20 = x20) (h23 : W main_arg23 = x23) :
    StableHlo.after (hostOps3_2 (F := Ideal)) (StableHlo.after (hostOps3_1 (F := Ideal)) (StableHlo.after (hostOps3 (F := Ideal)) W)) main_v123
      = val_main_v169 (F := Ideal) x0 x1 x2 x3 x4 x5 x6 x7 x8 x9 x10 x11 x12 x13 x18 x19 x20 x22 x23 := by
  subst h13 h20 h23
  unfold val_main_v169 val_main_v168 val_main_v165 val_main_v164 val_main_v161 val_main_v158 val_main_v140
  rw [← h68]
  after_results_simp
  rw [sel_cast_2]
  rfl

set_option maxRecDepth 100000 in
set_option maxHeartbeats 40000000 in
theorem c125 (W : Valuation τ sig (Elt Ideal)) (x12 : (⟨S3x128x128, .f32⟩ : BufTy).Contents (Elt Ideal)) (h12 : W main_arg12 = x12) :
    StableHlo.after (hostOps3_2 (F := Ideal)) (StableHlo.after (hostOps3_1 (F := Ideal)) (StableHlo.after (hostOps3 (F := Ideal)) W)) main_v125
      = val_main_v171 (F := Ideal) x12 := by
  subst h12
  after_results_simp <;> rfl

set_option maxRecDepth 100000 in
set_option maxHeartbeats 40000000 in
/-- The first layer's pooled array is not touched by the second layer's host operations. -/
theorem c65 (W : Valuation τ sig (Elt Ideal)) :
    StableHlo.after (hostOps3_2 (F := Ideal)) (StableHlo.after (hostOps3_1 (F := Ideal)) (StableHlo.after (hostOps3 (F := Ideal)) W)) main_v65
      = W main_v65 := by
  after_results_simp

/-! ## After the third graph layer's product: the three pooled sums side by side -/

set_option maxRecDepth 100000 in
set_option maxHeartbeats 40000000 in
/-- The pooled sum of the first layer's rows over the first batch assignment. -/
theorem d179 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal)) (x24 : (⟨S50000, .i32⟩ : BufTy).Contents (Elt Ideal))
    (h65 : W main_v65 = val_main_v113 (F := Ideal) x0 x1 x2 x3 x4 x5 x6 x7 x8 x9 x10 x11 x12 x13 x18 x19 x22) (h24 : W main_arg24 = x24) :
    StableHlo.after (hostOps4_2 (F := Ideal)) (StableHlo.after (hostOps4_1 (F := Ideal)) (StableHlo.after (hostOps4 (F := Ideal)) W)) main_v179 = val_main_v224 (F := Ideal) x0 x1 x2 x3 x4 x5 x6 x7 x8 x9 x10 x11 x12 x13 x18 x19 x22 x24 := by
  subst h24
  unfold val_main_v224
  rw [← h65]
  after_results_simp <;> rfl

set_option maxRecDepth 100000 in
set_option maxHeartbeats 40000000 in
/-- The pooled sum of the second layer's rows over the second batch assignment. -/
theorem d182 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal)) (x25 : (⟨S12500, .i32⟩ : BufTy).Contents (Elt Ideal))
    (h123 : W main_v123 = val_main_v169 (F := Ideal) x0 x1 x2 x3 x4 x5 x6 x7 x8 x9 x10 x11 x12 x13 x18 x19 x20 x22 x23) (h25 : W main_arg25 = x25) :
    StableHlo.after (hostOps4_2 (F := Ideal)) (StableHlo.after (hostOps4_1 (F := Ideal)) (StableHlo.after (hostOps4 (F := Ideal)) W)) main_v182 = val_main_v227 (F := Ideal) x0 x1 x2 x3 x4 x5 x6 x7 x8 x9 x10 x11 x12 x13 x18 x19 x20 x22 x23 x25 := by
  subst h25
  unfold val_main_v227
  rw [← h123]
  after_results_simp <;> rfl

set_option maxRecDepth 100000 in
set_option maxHeartbeats 40000000 in
/-- The third layer after its product, pooled over the second batch assignment. -/
theorem d185 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 : (⟨S50000, .i32⟩ : BufTy).Contents (Elt Ideal)) (x25 : (⟨S12500, .i32⟩ : BufTy).Contents (Elt Ideal))
    (h126 : W main_v126 = val_main_v174 (F := Ideal) x0 x1 x2 x3 x4 x5 x6 x7 x8 x9 x10 x11 x12 x13 x18 x19 x20 x22 x23) (h13 : W main_arg13 = x13) (h21 : W main_arg21 = x21) (h25 : W main_arg25 = x25) :
    StableHlo.after (hostOps4_2 (F := Ideal)) (StableHlo.after (hostOps4_1 (F := Ideal)) (StableHlo.after (hostOps4 (F := Ideal)) W)) main_v185 = val_main_v230 (F := Ideal) x0 x1 x2 x3 x4 x5 x6 x7 x8 x9 x10 x11 x12 x13 x18 x19 x20 x21 x22 x23 x25 := by
  subst h13 h21 h25
  unfold val_main_v230 val_main_v221 val_main_v220 val_main_v217 val_main_v214 val_main_v196
  rw [← h126]
  after_results_simp
  rw [sel_cast_3]
  rfl

set_option maxRecDepth 100000 in
set_option maxHeartbeats 40000000 in
/-- The three pooled sums side by side. -/
theorem d186_pieces (W : Valuation τ sig (Elt Ideal)) :
    StableHlo.after (hostOps4_2 (F := Ideal)) (StableHlo.after (hostOps4_1 (F := Ideal)) (StableHlo.after (hostOps4 (F := Ideal)) W)) main_v186
      = concatenate S128x384 1 [⟨S128x128, StableHlo.after (hostOps4_2 (F := Ideal)) (StableHlo.after (hostOps4_1 (F := Ideal)) (StableHlo.after (hostOps4 (F := Ideal)) W)) main_v179⟩, ⟨S128x128, StableHlo.after (hostOps4_2 (F := Ideal)) (StableHlo.after (hostOps4_1 (F := Ideal)) (StableHlo.after (hostOps4 (F := Ideal)) W)) main_v182⟩, ⟨S128x128, StableHlo.after (hostOps4_2 (F := Ideal)) (StableHlo.after (hostOps4_1 (F := Ideal)) (StableHlo.after (hostOps4 (F := Ideal)) W)) main_v185⟩]
          concatenates_S128x128_S128x128_S128x128_S128x384_d1 := by
  after_results_simp <;> rfl

theorem d186 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 x24 : (⟨S50000, .i32⟩ : BufTy).Contents (Elt Ideal)) (x25 : (⟨S12500, .i32⟩ : BufTy).Contents (Elt Ideal))
    (h126 : W main_v126 = val_main_v174 (F := Ideal) x0 x1 x2 x3 x4 x5 x6 x7 x8 x9 x10 x11 x12 x13 x18 x19 x20 x22 x23)
    (h65 : W main_v65 = val_main_v113 (F := Ideal) x0 x1 x2 x3 x4 x5 x6 x7 x8 x9 x10 x11 x12 x13 x18 x19 x22)
    (h123 : W main_v123 = val_main_v169 (F := Ideal) x0 x1 x2 x3 x4 x5 x6 x7 x8 x9 x10 x11 x12 x13 x18 x19 x20 x22 x23)
    (h13 : W main_arg13 = x13) (h21 : W main_arg21 = x21) (h24 : W main_arg24 = x24) (h25 : W main_arg25 = x25) :
    StableHlo.after (hostOps4_2 (F := Ideal)) (StableHlo.after (hostOps4_1 (F := Ideal)) (StableHlo.after (hostOps4 (F := Ideal)) W)) main_v186 = val_main_v231 (F := Ideal) x0 x1 x2 x3 x4 x5 x6 x7 x8 x9 x10 x11 x12 x13 x18 x19 x20 x21 x22 x23 x24 x25 := by
  rw [d186_pieces, d179 W x0 x1 x2 x3 x4 x5 x6 x7 x8 x9 x10 x11 x12 x13 x18 x19 x22 x24 h65 h24, d182 W x0 x1 x2 x3 x4 x5 x6 x7 x8 x9 x10 x11 x12 x13 x18 x19 x20 x22 x23 x25 h123 h25,
    d185 W x0 x1 x2 x3 x4 x5 x6 x7 x8 x9 x10 x11 x12 x13 x18 x19 x20 x21 x22 x23 x25 h126 h13 h21 h25]
  rfl

end Cert.Chains

end
-- ==== Proof.RefStages.lean ====
/-
  The stages of the reference that the kernel computes in its six regions, in the same words.

  The reference encodes the raw features with one chain of whole-array operations: four slices, four dot
  products with a bias and a rectifier, a join along the columns, a dot product with W_in, a bias and the
  rectifier with per-column slopes. Read entry by entry this is the row encoder of EncSpec applied to the
  row of the raw features. Each of its five later dot products is the plain matrix product of MatSum of its
  two operands (the classifier's with the bias row added, the first of them rectified at zero).
-/
import proofs.«152442_j4492535791675_1_alg».proof.Proof.RefReadGen
import proofs.«152442_j4492535791675_1_alg».proof.Proof.MatSum
import proofs.«152442_j4492535791675_1_alg».proof.Proof.EncSpec

noncomputable section

namespace Cert.RefVal

open Cert.ReferenceIdeal Cert.ReferenceIdeal.Gen Cert.ReferenceIdeal.ReadP Cert.PayVal
open Idealize.ShloMosaic Idealize.ShloMosaic.ValueIdx

/-- The host's plain dot product of two arrays is their matrix product. -/
theorem hostDot_plain {R K C : Nat} (D : DotDims ⟨2, ![R, K]⟩ ⟨2, ![K, C]⟩ ⟨2, ![R, C]⟩) (hD : D = DotDims.plain R K C)
    (prec : Option ContractPrecision) (l : FVec Ideal ⟨2, ![R, K]⟩ .f32) (r : FVec Ideal ⟨2, ![K, C]⟩ .f32) :
    Host.dotGeneral D prec l r = mm l r := by
  funext i
  obtain ⟨p, q, rfl⟩ : ∃ (p : Fin R) (q : Fin C), i = ix2 p q := ⟨i 0, i 1, eq_ix2 i⟩
  exact dotGeneral_plain D hD prec .single l r p q

/-- A bias vector broadcast to one row and then over the rows reads b q at (p, q). -/
theorem bias_bcast_at {α : Type} {R C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if C = 1 then 0 else q.val; rw [if_neg hC])]
  exact broadcastInDim_apply ![1] h1 b (ix2 (0 : Fin 1) q) (ix1 q) (fun a => match a with
    | ⟨0, _⟩ => by show q.val = if C = 1 then 0 else q.val; rw [if_neg hC])

/-- A scalar broadcast to every entry reads the scalar. -/
theorem scalar_bcast_at {α : Type} {t : Shape} (x : (⟨0, ![]⟩ : Shape).Idx → α)
    (h : (⟨0, ![]⟩ : Shape).BroadcastsInDim t ![]) (i : t.Idx) :
    broadcastInDim t ![] h x i = x ix0 :=
  broadcastInDim_apply ![] h x i ix0 (fun a => a.elim0)

/-! ## The three graph-layer products -/

theorem ref_v62 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x18 : (⟨S200000, .i32⟩ : BufTy).Contents (Elt Ideal)) :
    val_main_v62 (F := Ideal) x0 x1 x2 x3 x4 x5 x6 x7 x8 x9 x10 x11 x12 x18 = mm (val_main_v57 (F := Ideal) x0 x1 x2 x3 x4 x5 x6 x7 x8 x9 x10 x11 x18) (val_main_v59 (F := Ideal) x12) := by
  unfold val_main_v62
  exact hostDot_plain _ rfl _ _ _

theorem ref_v118 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal)) :
    val_main_v118 (F := Ideal) x0 x1 x2 x3 x4 x5 x6 x7 x8 x9 x10 x11 x12 x13 x18 x19 x22 = mm (val_main_v113 (F := Ideal) x0 x1 x2 x3 x4 x5 x6 x7 x8 x9 x10 x11 x12 x13 x18 x19 x22) (val_main_v115 (F := Ideal) x12) := by
  unfold val_main_v118
  exact hostDot_plain _ rfl _ _ _

theorem ref_v174 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal)) :
    val_main_v174 (F := Ideal) x0 x1 x2 x3 x4 x5 x6 x7 x8 x9 x10 x11 x12 x13 x18 x19 x20 x22 x23 = mm (val_main_v169 (F := Ideal) x0 x1 x2 x3 x4 x5 x6 x7 x8 x9 x10 x11 x12 x13 x18 x19 x20 x22 x23) (val_main_v171 (F := Ideal) x12) := by
  unfold val_main_v174
  exact hostDot_plain _ rfl _ _ _

/-! ## The classifier -/

theorem ref_v236 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x14 : (⟨S384x128, .f32⟩ : BufTy).Contents (Elt Ideal)) (x15 : (⟨S128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 x24 : (⟨S50000, .i32⟩ : BufTy).Contents (Elt Ideal)) (x25 : (⟨S12500, .i32⟩ : BufTy).Contents (Elt Ideal)) :
    val_main_v236 (F := Ideal) x0 x1 x2 x3 x4 x5 x6 x7 x8 x9 x10 x11 x12 x13 x14 x15 x18 x19 x20 x21 x22 x23 x24 x25 = affRelu (val_main_v231 (F := Ideal) x0 x1 x2 x3 x4 x5 x6 x7 x8 x9 x10 x11 x12 x13 x18 x19 x20 x21 x22 x23 x24 x25) x14 x15 := by
  funext i
  obtain ⟨p, q, rfl⟩ : ∃ (p : Fin 128) (q : Fin 128), i = ix2 p q := ⟨i 0, i 1, eq_ix2 i⟩
  rw [affRelu_ix2]
  unfold val_main_v236 val_main_v235 val_main_v232 val_main_v234 val_main_v233 val_main_call13_v0 val_main_call13_cst
  rw [hostDot_plain dot_S128x384_S384x128_S128x128_1_0_0_1_n_n rfl]
  show max (mm _ x14 (ix2 p q) + broadcastInDim S128x128 ![0, 1] bcast_S1x128_S128x128_0_1 (broadcastInDim S1x128 ![1] bcast_S128_S1x128_1 x15) (ix2 p q))
      (broadcastInDim S128x128 ![] bcast_S_S128x128 (constant (F := Ideal) S_ .f32 0x00000000#32) (ix2 p q)) = _
  rw [bias_bcast_at (by decide), scalar_bcast_at, mm_ix2]
  show max _ (Ideal.ofBits .f32 0x00000000#32) = _
  rw [Ideal.ofBits_zero_f32]

theorem ref_v240 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x14 : (⟨S384x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 x24 : (⟨S50000, .i32⟩ : BufTy).Contents (Elt Ideal)) (x25 : (⟨S12500, .i32⟩ : BufTy).Contents (Elt Ideal)) :
    val_main_v240 (F := Ideal) x0 x1 x2 x3 x4 x5 x6 x7 x8 x9 x10 x11 x12 x13 x14 x15 x16 x17 x18 x19 x20 x21 x22 x23 x24 x25 = aff (val_main_v236 (F := Ideal) x0 x1 x2 x3 x4 x5 x6 x7 x8 x9 x10 x11 x12 x13 x14 x15 x18 x19 x20 x21 x22 x23 x24 x25) x16 x17 := by
  funext i
  obtain ⟨p, q, rfl⟩ : ∃ (p : Fin 128) (q : Fin 128), i = ix2 p q := ⟨i 0, i 1, eq_ix2 i⟩
  rw [aff_ix2]
  unfold val_main_v240 val_main_v237 val_main_v239 val_main_v238
  rw [hostDot_plain dot_S128x128_S128x128_S128x128_1_0_0_1_n_n rfl]
  show mm _ x16 (ix2 p q) + broadcastInDim S128x128 ![0, 1] bcast_S1x128_S128x128_0_1 (broadcastInDim S1x128 ![1] bcast_S128_S1x128_1 x17) (ix2 p q) = _
  rw [bias_bcast_at (by decide), mm_ix2]

/-! ## The encoder -/

/-- The rectifier over a whole array as the host spells it (a comparison with the broadcast zero, a product with
    the slopes, a select), read at an index. -/
theorem lkVecR_at {s : Shape} (A S : FVec Ideal s .f32) (h : S_.BroadcastsInDim s ![]) (i : s.Idx) :
    select (cmpf .ogt A (broadcastInDim s ![] h (constant (F := Ideal) S_ .f32 0x00000000#32))) A (mulf S A) i
      = lk (S i) (A i) := by
  show Scalar.select (FloatOps.cmpf .ogt (A i) (broadcastInDim s ![] h (constant (F := Ideal) S_ .f32 0x00000000#32) i)) (A i) (S i * A i) = _
  rw [scalar_bcast_at]
  rfl

/-- One projection as the reference computes it over all 50000 rows. -/
def rProjVec {K : Nat} (off : Nat) (x : FVec Ideal S50000x1544 .f32)
    (hs : S50000x1544.Slices ![0, off] ⟨2, ![50000, K]⟩)
    (D : DotDims ⟨2, ![50000, K]⟩ ⟨2, ![K, 32]⟩ S50000x32)
    (W : FVec Ideal ⟨2, ![K, 32]⟩ .f32) (b : FVec Ideal S32 .f32) : FVec Ideal S50000x32 .f32 :=
  select
    (cmpf .ogt
      (addf (Host.dotGeneral D none (extractStridedSlice ⟨2, ![50000, K]⟩ ![0, off] x hs) W)
        (broadcastInDim S50000x32 ![0, 1] bcast_S1x32_S50000x32_0_1 (broadcastInDim S1x32 ![1] bcast_S32_S1x32_1 b)))
      (broadcastInDim S50000x32 ![] bcast_S_S50000x32 (constant S_ .f32 0x00000000#32)))
    (addf (Host.dotGeneral D none (extractStridedSlice ⟨2, ![50000, K]⟩ ![0, off] x hs) W)
      (broadcastInDim S50000x32 ![0, 1] bcast_S1x32_S50000x32_0_1 (broadcastInDim S1x32 ![1] bcast_S32_S1x32_1 b)))
    (mulf (broadcastInDim S50000x32 ![] bcast_S_S50000x32 (constant S_ .f32 0x3C23D70A#32))
      (addf (Host.dotGeneral D none (extractStridedSlice ⟨2, ![50000, K]⟩ ![0, off] x hs) W)
        (broadcastInDim S50000x32 ![0, 1] bcast_S1x32_S50000x32_0_1 (broadcastInDim S1x32 ![1] bcast_S32_S1x32_1 b))))

/-- Row r of that projection is the projection of row r of the raw features. -/
theorem rProjVec_at {K : Nat} (off : Nat) (hoff : off + K ≤ 1544) (x : FVec Ideal S50000x1544 .f32)
    (hs : S50000x1544.Slices ![0, off] ⟨2, ![50000, K]⟩)
    (D : DotDims ⟨2, ![50000, K]⟩ ⟨2, ![K, 32]⟩ S50000x32) (hD : D = DotDims.plain 50000 K 32)
    (W : FVec Ideal ⟨2, ![K, 32]⟩ .f32) (b : FVec Ideal S32 .f32) (r : Fin 50000) (j : Fin 32) :
    rProjVec off x hs D W b (ix2 r j) = proj off hoff W b (fun c => x (ix2 r c)) j := by
  have hz : (addf (Host.dotGeneral D none (extractStridedSlice ⟨2, ![50000, K]⟩ ![0, off] x hs) W)
        (broadcastInDim S50000x32 ![0, 1] bcast_S1x32_S50000x32_0_1 (broadcastInDim S1x32 ![1] bcast_S32_S1x32_1 b))) (ix2 r j)
      = (∑ k : Fin K, x (ix2 r ⟨off + k.val, by have := k.isLt; omega⟩) * W (ix2 k j)) + b (ix1 j) := by
    show Host.dotGeneral D none (extractStridedSlice ⟨2, ![50000, K]⟩ ![0, off] x hs) W (ix2 r j)
        + broadcastInDim S50000x32 ![0, 1] bcast_S1x32_S50000x32_0_1 (broadcastInDim S1x32 ![1] bcast_S32_S1x32_1 b) (ix2 r j) = _
    rw [hostDot_plain D hD, mm_ix2, bias_bcast_at (by decide)]
    refine congrArg (· + b (ix1 j)) (Finset.sum_congr rfl fun k _ => ?_)
    rw [slice2_axis1_eq]
  unfold rProjVec
  rw [lkVecR_at, scalar_bcast_at, hz]
  rfl

/-- The reference's last encoder stage over all rows. -/
def rEncVec (d t n c : FVec Ideal S50000x32 .f32) (Win : FVec Ideal S128x128 .f32) (bin a : FVec Ideal S128 .f32) :
    FVec Ideal S50000x128 .f32 :=
  select
    (cmpf .ogt
      (addf (Host.dotGeneral dot_S50000x128_S128x128_S50000x128_1_0_0_1_n_n none
          (concatenate S50000x128 1 [⟨S50000x32, d⟩, ⟨S50000x32, t⟩, ⟨S50000x32, n⟩, ⟨S50000x32, c⟩] concatenates_S50000x32_S50000x32_S50000x32_S50000x32_S50000x128_d1) Win)
        (broadcastInDim S50000x128 ![0, 1] bcast_S1x128_S50000x128_0_1 (broadcastInDim S1x128 ![1] bcast_S128_S1x128_1 bin)))
      (broadcastInDim S50000x128 ![] bcast_S_S50000x128 (constant S_ .f32 0x00000000#32)))
    (addf (Host.dotGeneral dot_S50000x128_S128x128_S50000x128_1_0_0_1_n_n none
        (concatenate S50000x128 1 [⟨S50000x32, d⟩, ⟨S50000x32, t⟩, ⟨S50000x32, n⟩, ⟨S50000x32, c⟩] concatenates_S50000x32_S50000x32_S50000x32_S50000x32_S50000x128_d1) Win)
      (broadcastInDim S50000x128 ![0, 1] bcast_S1x128_S50000x128_0_1 (broadcastInDim S1x128 ![1] bcast_S128_S1x128_1 bin)))
    (mulf (broadcastInDim S50000x128 ![0, 1] bcast_S1x128_S50000x128_0_1 (broadcastInDim S1x128 ![1] bcast_S128_S1x128_1 a))
      (addf (Host.dotGeneral dot_S50000x128_S128x128_S50000x128_1_0_0_1_n_n none
          (concatenate S50000x128 1 [⟨S50000x32, d⟩, ⟨S50000x32, t⟩, ⟨S50000x32, n⟩, ⟨S50000x32, c⟩] concatenates_S50000x32_S50000x32_S50000x32_S50000x32_S50000x128_d1) Win)
        (broadcastInDim S50000x128 ![0, 1] bcast_S1x128_S50000x128_0_1 (broadcastInDim S1x128 ![1] bcast_S128_S1x128_1 bin))))

theorem rEncVec_at (d t n c : FVec Ideal S50000x32 .f32) (Win : FVec Ideal S128x128 .f32) (bin a : FVec Ideal S128 .f32)
    (r : Fin 50000) (q : Fin 128) :
    rEncVec d t n c Win bin a (ix2 r q)
      = lk (a (ix1 q)) ((∑ k : Fin 128,
          (if h0 : k.val < 32 then d (ix2 r ⟨k.val, h0⟩)
           else if h1 : k.val < 64 then t (ix2 r ⟨k.val - 32, by omega⟩)
           else if h2 : k.val < 96 then n (ix2 r ⟨k.val - 64, by omega⟩)
           else c (ix2 r ⟨k.val - 96, by have := k.isLt; omega⟩)) * Win (ix2 k q)) + bin (ix1 q)) := by
  have hz : (addf (Host.dotGeneral dot_S50000x128_S128x128_S50000x128_1_0_0_1_n_n none
          (concatenate S50000x128 1 [⟨S50000x32, d⟩, ⟨S50000x32, t⟩, ⟨S50000x32, n⟩, ⟨S50000x32, c⟩] concatenates_S50000x32_S50000x32_S50000x32_S50000x32_S50000x128_d1) Win)
        (broadcastInDim S50000x128 ![0, 1] bcast_S1x128_S50000x128_0_1 (broadcastInDim S1x128 ![1] bcast_S128_S1x128_1 bin))) (ix2 r q)
      = (∑ k : Fin 128,
          (if h0 : k.val < 32 then d (ix2 r ⟨k.val, h0⟩)
           else if h1 : k.val < 64 then t (ix2 r ⟨k.val - 32, by omega⟩)
           else if h2 : k.val < 96 then n (ix2 r ⟨k.val - 64, by omega⟩)
           else c (ix2 r ⟨k.val - 96, by have := k.isLt; omega⟩)) * Win (ix2 k q)) + bin (ix1 q) := by
    show Host.dotGeneral dot_S50000x128_S128x128_S50000x128_1_0_0_1_n_n none
          (concatenate S50000x128 1 [⟨S50000x32, d⟩, ⟨S50000x32, t⟩, ⟨S50000x32, n⟩, ⟨S50000x32, c⟩] concatenates_S50000x32_S50000x32_S50000x32_S50000x32_S50000x128_d1) Win (ix2 r q)
        + broadcastInDim S50000x128 ![0, 1] bcast_S1x128_S50000x128_0_1 (broadcastInDim S1x128 ![1] bcast_S128_S1x128_1 bin) (ix2 r q) = _
    rw [hostDot_plain dot_S50000x128_S128x128_S50000x128_1_0_0_1_n_n rfl, mm_ix2, bias_bcast_at (by decide)]
    refine congrArg (· + bin (ix1 q)) (Finset.sum_congr rfl fun k _ => congrArg (· * Win (ix2 k q)) ?_)
    exact concat4_at d t n c _ r k
  unfold rEncVec
  rw [lkVecR_at, bias_bcast_at (by decide), hz]

/-- THE REFERENCE'S ENCODER is the row encoder applied to every row of the raw features. -/
theorem ref_v50 (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) :
    val_main_v50 (F := Ideal) x0 x1 x2 x3 x4 x5 x6 x7 x8 x9 x10 x11 = enc x0 x1 x2 x3 x4 x5 x6 x7 x8 x9 x10 x11 := by
  have e : val_main_v50 (F := Ideal) x0 x1 x2 x3 x4 x5 x6 x7 x8 x9 x10 x11
      = rEncVec (rProjVec 776 x0 slices_S50000x1544_S50000x768_0_776 dot_S50000x768_S768x32_S50000x32_1_0_0_1_n_n x1 x2)
          (rProjVec 6 x0 slices_S50000x1544_S50000x768_0_6 dot_S50000x768_S768x32_S50000x32_1_0_0_1_n_n x3 x4)
          (rProjVec 0 x0 slices_S50000x1544_S50000x6_0_0 dot_S50000x6_S6x32_S50000x32_1_0_0_1_n_n x5 x6)
          (rProjVec 774 x0 slices_S50000x1544_S50000x2_0_774 dot_S50000x2_S2x32_S50000x32_1_0_0_1_n_n x7 x8) x9 x10 x11 := rfl
  rw [e]
  funext i
  obtain ⟨r, q, rfl⟩ : ∃ (r : Fin 50000) (q : Fin 128), i = ix2 r q := ⟨i 0, i 1, eq_ix2 i⟩
  rw [enc_ix2, rEncVec_at]
  unfold encRow
  refine congrArg (fun z => lk (x11 (ix1 q)) (z + x10 (ix1 q))) (Finset.sum_congr rfl fun k _ => congrArg (· * x9 (ix2 k q)) ?_)
  unfold feat
  by_cases h0 : k.val < 32
  · rw [dif_pos h0, dif_pos h0]
    exact rProjVec_at 776 (by decide) x0 _ _ rfl x1 x2 r _
  · rw [dif_neg h0, dif_neg h0]
    by_cases h1 : k.val < 64
    · rw [dif_pos h1, dif_pos h1]
      exact rProjVec_at 6 (by decide) x0 _ _ rfl x3 x4 r _
    · rw [dif_neg h1, dif_neg h1]
      by_cases h2 : k.val < 96
      · rw [dif_pos h2, dif_pos h2]
        exact rProjVec_at 0 (by decide) x0 _ _ rfl x5 x6 r _
      · rw [dif_neg h2, dif_neg h2]
        exact rProjVec_at 774 (by decide) x0 _ _ rfl x7 x8 r _

end Cert.RefVal

end
-- ==== Proof.Ideal.Val.lean ====
import proofs.«152442_j4492535791675_1_alg».proof.Proof.Ideal.Fin0
import proofs.«152442_j4492535791675_1_alg».proof.Proof.Ideal.Fin1
import proofs.«152442_j4492535791675_1_alg».proof.Proof.Ideal.Fin2
import proofs.«152442_j4492535791675_1_alg».proof.Proof.Ideal.Fin3
import proofs.«152442_j4492535791675_1_alg».proof.Proof.Ideal.Fin4
import proofs.«152442_j4492535791675_1_alg».proof.Proof.Ideal.Fin5
import proofs.«152442_j4492535791675_1_alg».proof.Proof.Ideal.Keep
import proofs.«152442_j4492535791675_1_alg».proof.Proof.Ideal.Frame
import proofs.«152442_j4492535791675_1_alg».proof.Proof.Ideal.RunVal
import proofs.«152442_j4492535791675_1_alg».proof.Proof.Chains
import proofs.«152442_j4492535791675_1_alg».proof.Proof.RefStages

set_option maxRecDepth 16384

noncomputable section

namespace Cert.KernelIdeal.Regions

open Cert.KernelIdeal Cert.KernelIdeal.Gen Cert.PayVal
open Cert.ReferenceIdeal.ReadP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (m : (ℓ : Loc nD τ sig) → Buf (Elt Ideal) ℓ)

/-! ## The kernel's arrays, boundary by boundary, are the reference's stages of the same arguments

    Each region leaves one function of the arrays it finds (the encoder, a matrix product, a product plus a bias); each
    host stretch applies the operations the reference applies. Going down @main, the array each region writes and the
    arrays the next one reads are the reference's stages at the corresponding points. -/

/-- Region 0 leaves the reference's encoded features. -/
theorem s1 (c : Dev nD) : o1 m c = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold o1
  exact (final0 (YT0 m) c).trans (Cert.RefVal.ref_v50 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

/-- The rows gathered for the first layer, -/
theorem s7 (c : Dev nD) : Y2 m c main_v7 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18)) := by
  unfold Y2
  exact Cert.Chains.a7 (Y1 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18)) ((Y1_out m c).trans (s1 m c)) (args1 m c main_arg18 (by decide))
/-- and the first layer's weight. -/
theorem s9 (c : Dev nD) : Y2 m c main_v9 = val_main_v59 (F := Ideal) (m ((c : Thread nD τ).loc main_arg12)) := by
  unfold Y2
  exact Cert.Chains.a9 (Y1 m c) (m ((c : Thread nD τ).loc main_arg12)) (args1 m c main_arg12 (by decide))

/-- Region 1 leaves the first layer's product. -/
theorem s10 (c : Dev nD) : o3 m c = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg18)) := by
  unfold o3
  refine (final1 (YT2 m) c).trans ?_
  show mm (Y2 m c main_v7) (Y2 m c main_v9) = _
  rw [s7, s9]
  exact (Cert.RefVal.ref_v62 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg18))).symm

/-- The first layer's pooled features, -/
theorem s65 (c : Dev nD) : Y6 m c main_v65 = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) := by
  unfold Y6 Y5 Y4
  exact Cert.Chains.b65 (Y3 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) ((Y3_out m c).trans (s10 m c)) (args3 m c main_arg13 (by decide)) (args3 m c main_arg19 (by decide)) (args3 m c main_arg22 (by decide))
/-- and the second layer's weight. -/
theorem s67 (c : Dev nD) : Y6 m c main_v67 = val_main_v115 (F := Ideal) (m ((c : Thread nD τ).loc main_arg12)) := by
  unfold Y6 Y5 Y4
  exact Cert.Chains.b67 (Y3 m c) (m ((c : Thread nD τ).loc main_arg12)) (args3 m c main_arg12 (by decide))

/-- Region 2 leaves the second layer's product. -/
theorem s68 (c : Dev nD) : o7 m c = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) := by
  unfold o7
  refine (final2 (YT6 m) c).trans ?_
  show mm (Y6 m c main_v65) (Y6 m c main_v67) = _
  rw [s65, s67]
  exact (Cert.RefVal.ref_v118 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22))).symm

/-- The second layer's pooled features, -/
theorem s123 (c : Dev nD) : Y10 m c main_v123 = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg22)) (m ((c : Thread nD τ).loc main_arg23)) := by
  unfold Y10 Y9 Y8
  exact Cert.Chains.c123 (Y7 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg22)) (m ((c : Thread nD τ).loc main_arg23)) ((Y7_out m c).trans (s68 m c)) (args7 m c main_arg13 (by decide)) (args7 m c main_arg20 (by decide)) (args7 m c main_arg23 (by decide))
/-- and the third layer's weight. -/
theorem s125 (c : Dev nD) : Y10 m c main_v125 = val_main_v171 (F := Ideal) (m ((c : Thread nD τ).loc main_arg12)) := by
  unfold Y10 Y9 Y8
  exact Cert.Chains.c125 (Y7 m c) (m ((c : Thread nD τ).loc main_arg12)) (args7 m c main_arg12 (by decide))

/-- Region 3 leaves the third layer's product. -/
theorem s126 (c : Dev nD) : o11 m c = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg22)) (m ((c : Thread nD τ).loc main_arg23)) := by
  unfold o11
  refine (final3 (YT10 m) c).trans ?_
  show mm (Y10 m c main_v123) (Y10 m c main_v125) = _
  rw [s123, s125]
  exact (Cert.RefVal.ref_v174 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg22)) (m ((c : Thread nD τ).loc main_arg23))).symm

/-- The first layer's pooled features are still there after the second layer's items. -/
theorem s65' (c : Dev nD) : Y11 m c main_v65 = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) := by
  rw [keep11 m c main_v65 (by decide)]
  unfold Y10 Y9 Y8
  rw [Cert.Chains.c65 (Y7 m c), keep7 m c main_v65 (by decide)]
  exact s65 m c

/-- The three pooled sums side by side. -/
theorem s186 (c : Dev nD) : Y14 m c main_v186 = val_main_v231 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold Y14 Y13 Y12
  exact Cert.Chains.d186 (Y11 m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) ((Y11_out m c).trans (s126 m c)) (s65' m c)
    ((keep_v123 m c).trans (s123 m c)) (args11 m c main_arg13 (by decide)) (args11 m c main_arg21 (by decide)) (args11 m c main_arg24 (by decide)) (args11 m c main_arg25 (by decide))

/-- Region 4 leaves the classifier's hidden layer. -/
theorem s187 (c : Dev nD) : o15 m c = val_main_v236 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold o15
  refine (final4 (YT14 m) c).trans ?_
  show affRelu (Y14 m c main_v186) (Y14 m c main_arg14) (Y14 m c main_arg15) = _
  rw [s186, args14 m c main_arg14 (by decide), args14 m c main_arg15 (by decide)]
  exact (Cert.RefVal.ref_v236 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))).symm

/-- Region 5 leaves the reference's result. -/
theorem s188 (c : Dev nD) : o16 m c = val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  unfold o16
  refine (final5 (YT15 m) c).trans ?_
  show aff (Y15 m c main_v187) (Y15 m c main_arg16) (Y15 m c main_arg17) = _
  rw [Y15_out, s187, args15 m c main_arg16 (by decide), args15 m c main_arg17 (by decide)]
  exact (Cert.RefVal.ref_v240 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))).symm

set_option maxHeartbeats 4000000 in
set_option backward.isDefEq.respectTransparency.types false in
/-- The kernel program's run with its result named: the reference's last stage of the launch contents of the arguments;
    the arguments end as launched. -/
theorem run_val (ρ : Dev nD → PrngReg) : θ_run defs (onTc (τ := τ) (main (F := Ideal))) ⟨m, fun _ => 0, ρ⟩ (fun r => ∀ c : Dev nD,
      r.2.mem ((c.tc : Thread nD τ).loc main_v188) = val_main_v240 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans ((congrFun (V16_eq m c) _).trans ((Y16_out m c).trans (s188 m c))), (h c).2⟩)
    (Cert.KernelIdeal.RegionsVal.run_cond_val m (emb₁) () 𝒱₀ L lv (fun _ _ => rfl) ρ (outs m) (pdats m) 0 (fun _ => (BI.emp : sProp (MT nD τ sig Unit (Elt Ideal) ℕ (UR sig nD τ) ℕ)))
      (initOf (Pipeline.cells cfgs cellOf_inj) (Pipeline.launchToks cfgs cellOf_inj)) hu₀ Es (hE0 ρ) hE6
      (reg0 m) (hpre0 m) (hpost0 m) (reg1 m) (hpre1 m) (hpost1 m) (reg2 m) (hpre2 m) (hpost2 m)
      (reg3 m) (hpre3 m) (hpost3 m) (reg4 m) (hpre4 m) (hpost4 m) (reg5 m) (hpre5 m) (hpost5 m))

end Cert.KernelIdeal.Regions

end
-- ==== Proof.RefSegs.lean ====
/-
  The reference's @main, cut at the five points where a later stage depends on the earlier operations only
  through one array: after the encoded features, and after each of the three layers' products. The five lists, in
  order, are the program's list of operations.
-/
import proofs.«152442_j4492535791675_1_alg».proof.Proof.RefRunGen

noncomputable section

namespace Cert.RefVal

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 1–60 of @main: the encoder: the four slices of the raw features, their products, biases and rectifiers, the join, the mixing product, its bias and the parametric rectifier. -/
abbrev seg1 : List (HloOp τ sig (Elt F)) :=
  [ unary main_arg0 main_v0 ((extractStridedSlice S50000x6 ![0, 0] · slices_S50000x1544_S50000x6_0_0) : (⟨S50000x1544, .f32⟩ : BufTy).Contents (Elt F) → (⟨S50000x6, .f32⟩ : BufTy).Contents (Elt F)),
    binary main_v0 main_arg5 main_v1 ((fun l r => Host.dotGeneral dot_S50000x6_S6x32_S50000x32_1_0_0_1_n_n none l r) : (⟨S50000x6, .f32⟩ : BufTy).Contents (Elt F) → (⟨S6x32, .f32⟩ : BufTy).Contents (Elt F) → (⟨S50000x32, .f32⟩ : BufTy).Contents (Elt F)),
    unary main_arg6 main_v2 (broadcastInDim S1x32 ![1] bcast_S32_S1x32_1 : (⟨S32, .f32⟩ : BufTy).Contents (Elt F) → (⟨S1x32, .f32⟩ : BufTy).Contents (Elt F)),
    unary main_v2 main_v3 (broadcastInDim S50000x32 ![0, 1] bcast_S1x32_S50000x32_0_1 : (⟨S1x32, .f32⟩ : BufTy).Contents (Elt F) → (⟨S50000x32, .f32⟩ : BufTy).Contents (Elt F)),
    binary main_v1 main_v3 main_v4 (addf : (⟨S50000x32, .f32⟩ : BufTy).Contents (Elt F) → (⟨S50000x32, .f32⟩ : BufTy).Contents (Elt F) → (⟨S50000x32, .f32⟩ : BufTy).Contents (Elt F)),
    nullary main_cst (constant S_ .f32 0x00000000#32),
    unary main_cst main_v5 (broadcastInDim S50000x32 ![] bcast_S_S50000x32 : (⟨S_, .f32⟩ : BufTy).Contents (Elt F) → (⟨S50000x32, .f32⟩ : BufTy).Contents (Elt F)),
    binary main_v4 main_v5 main_v6 (cmpf .ogt : (⟨S50000x32, .f32⟩ : BufTy).Contents (Elt F) → (⟨S50000x32, .f32⟩ : BufTy).Contents (Elt F) → (⟨S50000x32, .i1⟩ : BufTy).Contents (Elt F)),
    nullary main_cst_0 (constant S_ .f32 0x3C23D70A#32),
    unary main_cst_0 main_v7 (broadcastInDim S50000x32 ![] bcast_S_S50000x32 : (⟨S_, .f32⟩ : BufTy).Contents (Elt F) → (⟨S50000x32, .f32⟩ : BufTy).Contents (Elt F)),
    binary main_v7 main_v4 main_v8 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v6) (TRef.of (T := ⟨S50000x32, .f32⟩) main_v4) (TRef.of (T := ⟨S50000x32, .f32⟩) main_v8) (TRef.of (T := ⟨S50000x32, .f32⟩) main_v9) select,
    unary main_arg0 main_v10 ((extractStridedSlice S50000x768 ![0, 6] · slices_S50000x1544_S50000x768_0_6) : (⟨S50000x1544, .f32⟩ : BufTy).Contents (Elt F) → (⟨S50000x768, .f32⟩ : BufTy).Contents (Elt F)),
    binary main_v10 main_arg3 main_v11 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg4 main_v12 (broadcastInDim S1x32 ![1] bcast_S32_S1x32_1 : (⟨S32, .f32⟩ : BufTy).Contents (Elt F) → (⟨S1x32, .f32⟩ : BufTy).Contents (Elt F)),
    unary main_v12 main_v13 (broadcastInDim S50000x32 ![0, 1] bcast_S1x32_S50000x32_0_1 : (⟨S1x32, .f32⟩ : BufTy).Contents (Elt F) → (⟨S50000x32, .f32⟩ : BufTy).Contents (Elt F)),
    binary main_v11 main_v13 main_v14 (addf : (⟨S50000x32, .f32⟩ : BufTy).Contents (Elt F) → (⟨S50000x32, .f32⟩ : BufTy).Contents (Elt F) → (⟨S50000x32, .f32⟩ : BufTy).Contents (Elt F)),
    nullary main_cst_1 (constant S_ .f32 0x00000000#32),
    unary main_cst_1 main_v15 (broadcastInDim S50000x32 ![] bcast_S_S50000x32 : (⟨S_, .f32⟩ : BufTy).Contents (Elt F) → (⟨S50000x32, .f32⟩ : BufTy).Contents (Elt F)),
    binary main_v14 main_v15 main_v16 (cmpf .ogt : (⟨S50000x32, .f32⟩ : BufTy).Contents (Elt F) → (⟨S50000x32, .f32⟩ : BufTy).Contents (Elt F) → (⟨S50000x32, .i1⟩ : BufTy).Contents (Elt F)),
    nullary main_cst_2 (constant S_ .f32 0x3C23D70A#32),
    unary main_cst_2 main_v17 (broadcastInDim S50000x32 ![] bcast_S_S50000x32 : (⟨S_, .f32⟩ : BufTy).Contents (Elt F) → (⟨S50000x32, .f32⟩ : BufTy).Contents (Elt F)),
    binary main_v17 main_v14 main_v18 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v16) (TRef.of (T := ⟨S50000x32, .f32⟩) main_v14) (TRef.of (T := ⟨S50000x32, .f32⟩) main_v18) (TRef.of (T := ⟨S50000x32, .f32⟩) main_v19) select,
    unary main_arg0 main_v20 ((extractStridedSlice S50000x2 ![0, 774] · slices_S50000x1544_S50000x2_0_774) : (⟨S50000x1544, .f32⟩ : BufTy).Contents (Elt F) → (⟨S50000x2, .f32⟩ : BufTy).Contents (Elt F)),
    binary main_v20 main_arg7 main_v21 ((fun l r => Host.dotGeneral dot_S50000x2_S2x32_S50000x32_1_0_0_1_n_n none l r) : (⟨S50000x2, .f32⟩ : BufTy).Contents (Elt F) → (⟨S2x32, .f32⟩ : BufTy).Contents (Elt F) → (⟨S50000x32, .f32⟩ : BufTy).Contents (Elt F)),
    unary main_arg8 main_v22 (broadcastInDim S1x32 ![1] bcast_S32_S1x32_1 : (⟨S32, .f32⟩ : BufTy).Contents (Elt F) → (⟨S1x32, .f32⟩ : BufTy).Contents (Elt F)),
    unary main_v22 main_v23 (broadcastInDim S50000x32 ![0, 1] bcast_S1x32_S50000x32_0_1 : (⟨S1x32, .f32⟩ : BufTy).Contents (Elt F) → (⟨S50000x32, .f32⟩ : BufTy).Contents (Elt F)),
    binary main_v21 main_v23 main_v24 (addf : (⟨S50000x32, .f32⟩ : BufTy).Contents (Elt F) → (⟨S50000x32, .f32⟩ : BufTy).Contents (Elt F) → (⟨S50000x32, .f32⟩ : BufTy).Contents (Elt F)),
    nullary main_cst_3 (constant S_ .f32 0x00000000#32),
    unary main_cst_3 main_v25 (broadcastInDim S50000x32 ![] bcast_S_S50000x32 : (⟨S_, .f32⟩ : BufTy).Contents (Elt F) → (⟨S50000x32, .f32⟩ : BufTy).Contents (Elt F)),
    binary main_v24 main_v25 main_v26 (cmpf .ogt : (⟨S50000x32, .f32⟩ : BufTy).Contents (Elt F) → (⟨S50000x32, .f32⟩ : BufTy).Contents (Elt F) → (⟨S50000x32, .i1⟩ : BufTy).Contents (Elt F)),
    nullary main_cst_4 (constant S_ .f32 0x3C23D70A#32),
    unary main_cst_4 main_v27 (broadcastInDim S50000x32 ![] bcast_S_S50000x32 : (⟨S_, .f32⟩ : BufTy).Contents (Elt F) → (⟨S50000x32, .f32⟩ : BufTy).Contents (Elt F)),
    binary main_v27 main_v24 main_v28 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v26) (TRef.of (T := ⟨S50000x32, .f32⟩) main_v24) (TRef.of (T := ⟨S50000x32, .f32⟩) main_v28) (TRef.of (T := ⟨S50000x32, .f32⟩) main_v29) select,
    unary main_arg0 main_v30 ((extractStridedSlice S50000x768 ![0, 776] · slices_S50000x1544_S50000x768_0_776) : (⟨S50000x1544, .f32⟩ : BufTy).Contents (Elt F) → (⟨S50000x768, .f32⟩ : BufTy).Contents (Elt F)),
    binary main_v30 main_arg1 main_v31 ((fun l r => Host.dotGeneral dot_S50000x768_S768x32_S50000x32_1_0_0_1_n_n none l r) : (⟨S50000x768, .f32⟩ : BufTy).Contents (Elt F) → (⟨S768x32, .f32⟩ : BufTy).Contents (Elt F) → (⟨S50000x32, .f32⟩ : BufTy).Contents (Elt F)),
    unary main_arg2 main_v32 (broadcastInDim S1x32 ![1] bcast_S32_S1x32_1 : (⟨S32, .f32⟩ : BufTy).Contents (Elt F) → (⟨S1x32, .f32⟩ : BufTy).Contents (Elt F)),
    unary main_v32 main_v33 (broadcastInDim S50000x32 ![0, 1] bcast_S1x32_S50000x32_0_1 : (⟨S1x32, .f32⟩ : BufTy).Contents (Elt F) → (⟨S50000x32, .f32⟩ : BufTy).Contents (Elt F)),
    binary main_v31 main_v33 main_v34 (addf : (⟨S50000x32, .f32⟩ : BufTy).Contents (Elt F) → (⟨S50000x32, .f32⟩ : BufTy).Contents (Elt F) → (⟨S50000x32, .f32⟩ : BufTy).Contents (Elt F)),
    nullary main_cst_5 (constant S_ .f32 0x00000000#32),
    unary main_cst_5 main_v35 (broadcastInDim S50000x32 ![] bcast_S_S50000x32 : (⟨S_, .f32⟩ : BufTy).Contents (Elt F) → (⟨S50000x32, .f32⟩ : BufTy).Contents (Elt F)),
    binary main_v34 main_v35 main_v36 (cmpf .ogt : (⟨S50000x32, .f32⟩ : BufTy).Contents (Elt F) → (⟨S50000x32, .f32⟩ : BufTy).Contents (Elt F) → (⟨S50000x32, .i1⟩ : BufTy).Contents (Elt F)),
    nullary main_cst_6 (constant S_ .f32 0x3C23D70A#32),
    unary main_cst_6 main_v37 (broadcastInDim S50000x32 ![] bcast_S_S50000x32 : (⟨S_, .f32⟩ : BufTy).Contents (Elt F) → (⟨S50000x32, .f32⟩ : BufTy).Contents (Elt F)),
    binary main_v37 main_v34 main_v38 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v36) (TRef.of (T := ⟨S50000x32, .f32⟩) main_v34) (TRef.of (T := ⟨S50000x32, .f32⟩) main_v38) (TRef.of (T := ⟨S50000x32, .f32⟩) main_v39) select,
    nary ![main_v39, main_v19, main_v9, main_v29] main_v40 (fun u => concatenate S50000x128 1 [⟨S50000x32, u 0⟩, ⟨S50000x32, u 1⟩, ⟨S50000x32, u 2⟩, ⟨S50000x32, u 3⟩] concatenates_S50000x32_S50000x32_S50000x32_S50000x32_S50000x128_d1),
    binary main_v40 main_arg9 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    unary main_cst_7 main_v45 (broadcastInDim S50000x128 ![] bcast_S_S50000x128 : (⟨S_, .f32⟩ : BufTy).Contents (Elt F) → (⟨S50000x128, .f32⟩ : BufTy).Contents (Elt F)),
    binary main_v44 main_v45 main_v46 (cmpf .ogt : (⟨S50000x128, .f32⟩ : BufTy).Contents (Elt F) → (⟨S50000x128, .f32⟩ : BufTy).Contents (Elt F) → (⟨S50000x128, .i1⟩ : BufTy).Contents (Elt F)),
    unary main_arg11 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v48 main_v44 main_v49 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v46) (TRef.of (T := ⟨S50000x128, .f32⟩) main_v44) (TRef.of (T := ⟨S50000x128, .f32⟩) main_v49) (TRef.of (T := ⟨S50000x128, .f32⟩) main_v50) select ]

set_option maxHeartbeats 40000000 in
/-- Operations 61–74 of @main: the gather of the encoded rows, the first layer's weight, and their product. -/
abbrev seg2 : List (HloOp τ sig (Elt F)) :=
  [ nullary main_c (constantI S_ 32 0#32),
    unary main_c main_v51 (broadcastInDim S200000 ![] bcast_S_S200000 : (⟨S_, .i32⟩ : BufTy).Contents (Elt F) → (⟨S200000, .i32⟩ : BufTy).Contents (Elt F)),
    binary main_arg18 main_v51 main_v52 (cmpi .slt : (⟨S200000, .i32⟩ : BufTy).Contents (Elt F) → (⟨S200000, .i32⟩ : BufTy).Contents (Elt F) → (⟨S200000, .i1⟩ : BufTy).Contents (Elt F)),
    nullary main_c_8 (constantI S_ 32 50000#32),
    unary main_c_8 main_v53 (broadcastInDim S200000 ![] bcast_S_S200000 : (⟨S_, .i32⟩ : BufTy).Contents (Elt F) → (⟨S200000, .i32⟩ : BufTy).Contents (Elt F)),
    binary main_arg18 main_v53 main_v54 (addi : (⟨S200000, .i32⟩ : BufTy).Contents (Elt F) → (⟨S200000, .i32⟩ : BufTy).Contents (Elt F) → (⟨S200000, .i32⟩ : BufTy).Contents (Elt F)),
    ternary main_v52 main_v54 main_arg18 main_v55 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v55 main_v56 (broadcastInDim S200000x1 ![0] bcast_S200000_S200000x1_0 : (⟨S200000, .i32⟩ : BufTy).Contents (Elt F) → (⟨S200000x1, .i32⟩ : BufTy).Contents (Elt F)),
    binary main_v50 main_v56 main_v57 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    unary main_arg12 main_v58 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v58 main_v59 rfl shapeCasts_S1x128x128_S128x128,
    unary main_arg13 main_v60 ((extractStridedSlice S1x128 ![0, 0] · slices_S3x128_S1x128_0_0) : (⟨S3x128, .f32⟩ : BufTy).Contents (Elt F) → (⟨S1x128, .f32⟩ : BufTy).Contents (Elt F)),
    reshape main_v60 main_v61 rfl shapeCasts_S1x128_S128,
    binary main_v57 main_v59 main_v62 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)) ]

set_option maxHeartbeats 40000000 in
/-- Operations 75–148 of @main: the first layer's aggregation, bias, rectifier and pooling, the second layer's weight, and their product. -/
abbrev seg3 : List (HloOp τ sig (Elt F)) :=
  [ nullary main_v63 (iotaInDim S200000 32 0),
    unary main_arg19 main_v64 ((extractStridedSlice S1x1600000 ![0, 0] · slices_S2x1600000_S1x1600000_0_0) : (⟨S2x1600000, .i32⟩ : BufTy).Contents (Elt F) → (⟨S1x1600000, .i32⟩ : BufTy).Contents (Elt F)),
    reshape main_v64 main_v65 rfl shapeCasts_S1x1600000_S1600000,
    binary main_v65 main_v63 main_v66 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)),
    unary main_arg19 main_v67 ((extractStridedSlice S1x1600000 ![1, 0] · slices_S2x1600000_S1x1600000_1_0) : (⟨S2x1600000, .i32⟩ : BufTy).Contents (Elt F) → (⟨S1x1600000, .i32⟩ : BufTy).Contents (Elt F)),
    reshape main_v67 main_v68 rfl shapeCasts_S1x1600000_S1600000,
    binary main_v68 main_v63 main_v69 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)),
    nullary main_cst_9 (constant S_ .f32 0x3F800000#32),
    unary main_cst_9 main_v70 (broadcastInDim S1800000 ![] bcast_S_S1800000 : (⟨S_, .f32⟩ : BufTy).Contents (Elt F) → (⟨S1800000, .f32⟩ : BufTy).Contents (Elt F)),
    nullary main_cst_10 (constant S_ .f32 0x00000000#32),
    unary main_cst_10 main_v71 (broadcastInDim S200000 ![] bcast_S_S200000 : (⟨S_, .f32⟩ : BufTy).Contents (Elt F) → (⟨S200000, .f32⟩ : BufTy).Contents (Elt F)),
    unary main_v69 main_v72 (broadcastInDim S1800000x1 ![0] bcast_S1800000_S1800000x1_0 : (⟨S1800000, .i32⟩ : BufTy).Contents (Elt F) → (⟨S1800000x1, .i32⟩ : BufTy).Contents (Elt F)),
    ternary main_v71 main_v72 main_v70 main_v73 ((fun x i u => Host.scatterAdd scatter_S200000_S1800000x1_S1800000_n_0_0_1 x i u) : (⟨S200000, .f32⟩ : BufTy).Contents (Elt F) → (⟨S1800000x1, .i32⟩ : BufTy).Contents (Elt F) → (⟨S1800000, .f32⟩ : BufTy).Contents (Elt F) → (⟨S200000, .f32⟩ : BufTy).Contents (Elt F)),
    nullary main_cst_11 (constant S_ .f32 0x00000000#32),
    unary main_cst_11 main_v74 (broadcastInDim S200000 ![] bcast_S_S200000 : (⟨S_, .f32⟩ : BufTy).Contents (Elt F) → (⟨S200000, .f32⟩ : BufTy).Contents (Elt F)),
    binary main_v73 main_v74 main_v75 (cmpf .ogt : (⟨S200000, .f32⟩ : BufTy).Contents (Elt F) → (⟨S200000, .f32⟩ : BufTy).Contents (Elt F) → (⟨S200000, .i1⟩ : BufTy).Contents (Elt F)),
    unary main_v73 main_v76 (Host.rsqrt : (⟨S200000, .f32⟩ : BufTy).Contents (Elt F) → (⟨S200000, .f32⟩ : BufTy).Contents (Elt F)),
    nullary main_cst_12 (constant S_ .f32 0x00000000#32),
    TRef.unary (TRef.of (T := ⟨S_, .f32⟩) main_cst_12) (TRef.of (T := ⟨S_, .f32⟩) main_call5_v0) id,
    TRef.unary (TRef.of (T := ⟨S_, .f32⟩) main_call5_v0) (TRef.of (T := ⟨S200000, .f32⟩) main_call5_v1) (broadcastInDim S200000 ![] bcast_S_S200000),
    TRef.ternary (TRef.of (T := ⟨S200000, .i1⟩) main_v75) (TRef.of (T := ⟨S200000, .f32⟩) main_v76) (TRef.of (T := ⟨S200000, .f32⟩) main_call5_v1) (TRef.of (T := ⟨S200000, .f32⟩) main_v77) select,
    nullary main_c_13 (constantI S_ 32 0#32),
    unary main_c_13 main_v78 (broadcastInDim S1800000 ![] bcast_S_S1800000 : (⟨S_, .i32⟩ : BufTy).Contents (Elt F) → (⟨S1800000, .i32⟩ : BufTy).Contents (Elt F)),
    binary main_v66 main_v78 main_v79 (cmpi .slt : (⟨S1800000, .i32⟩ : BufTy).Contents (Elt F) → (⟨S1800000, .i32⟩ : BufTy).Contents (Elt F) → (⟨S1800000, .i1⟩ : BufTy).Contents (Elt F)),
    nullary main_c_14 (constantI S_ 32 200000#32),
    unary main_c_14 main_v80 (broadcastInDim S1800000 ![] bcast_S_S1800000 : (⟨S_, .i32⟩ : BufTy).Contents (Elt F) → (⟨S1800000, .i32⟩ : BufTy).Contents (Elt F)),
    binary main_v66 main_v80 main_v81 (addi : (⟨S1800000, .i32⟩ : BufTy).Contents (Elt F) → (⟨S1800000, .i32⟩ : BufTy).Contents (Elt F) → (⟨S1800000, .i32⟩ : BufTy).Contents (Elt F)),
    ternary main_v79 main_v81 main_v66 main_v82 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v82 main_v83 (broadcastInDim S1800000x1 ![0] bcast_S1800000_S1800000x1_0 : (⟨S1800000, .i32⟩ : BufTy).Contents (Elt F) → (⟨S1800000x1, .i32⟩ : BufTy).Contents (Elt F)),
    binary main_v62 main_v83 main_v84 ((fun x i => Host.gather gather_S200000x128_S1800000x1_S1800000x128_1_0_n_n_0_1_1128 x i) : (⟨S200000x128, .f32⟩ : BufTy).Contents (Elt F) → (⟨S1800000x1, .i32⟩ : BufTy).Contents (Elt F) → (⟨S1800000x128, .f32⟩ : BufTy).Contents (Elt F)),
    nullary main_c_15 (constantI S_ 32 0#32),
    unary main_c_15 main_v85 (broadcastInDim S1800000 ![] bcast_S_S1800000 : (⟨S_, .i32⟩ : BufTy).Contents (Elt F) → (⟨S1800000, .i32⟩ : BufTy).Contents (Elt F)),
    binary main_v66 main_v85 main_v86 (cmpi .slt : (⟨S1800000, .i32⟩ : BufTy).Contents (Elt F) → (⟨S1800000, .i32⟩ : BufTy).Contents (Elt F) → (⟨S1800000, .i1⟩ : BufTy).Contents (Elt F)),
    nullary main_c_16 (constantI S_ 32 200000#32),
    unary main_c_16 main_v87 (broadcastInDim S1800000 ![] bcast_S_S1800000 : (⟨S_, .i32⟩ : BufTy).Contents (Elt F) → (⟨S1800000, .i32⟩ : BufTy).Contents (Elt F)),
    binary main_v66 main_v87 main_v88 (addi : (⟨S1800000, .i32⟩ : BufTy).Contents (Elt F) → (⟨S1800000, .i32⟩ : BufTy).Contents (Elt F) → (⟨S1800000, .i32⟩ : BufTy).Contents (Elt F)),
    ternary main_v86 main_v88 main_v66 main_v89 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v89 main_v90 (broadcastInDim S1800000x1 ![0] bcast_S1800000_S1800000x1_0 : (⟨S1800000, .i32⟩ : BufTy).Contents (Elt F) → (⟨S1800000x1, .i32⟩ : BufTy).Contents (Elt F)),
    binary main_v77 main_v90 main_v91 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    nullary main_c_17 (constantI S_ 32 0#32),
    unary main_c_17 main_v92 (broadcastInDim S1800000 ![] bcast_S_S1800000 : (⟨S_, .i32⟩ : BufTy).Contents (Elt F) → (⟨S1800000, .i32⟩ : BufTy).Contents (Elt F)),
    binary main_v69 main_v92 main_v93 (cmpi .slt : (⟨S1800000, .i32⟩ : BufTy).Contents (Elt F) → (⟨S1800000, .i32⟩ : BufTy).Contents (Elt F) → (⟨S1800000, .i1⟩ : BufTy).Contents (Elt F)),
    nullary main_c_18 (constantI S_ 32 200000#32),
    unary main_c_18 main_v94 (broadcastInDim S1800000 ![] bcast_S_S1800000 : (⟨S_, .i32⟩ : BufTy).Contents (Elt F) → (⟨S1800000, .i32⟩ : BufTy).Contents (Elt F)),
    binary main_v69 main_v94 main_v95 (addi : (⟨S1800000, .i32⟩ : BufTy).Contents (Elt F) → (⟨S1800000, .i32⟩ : BufTy).Contents (Elt F) → (⟨S1800000, .i32⟩ : BufTy).Contents (Elt F)),
    ternary main_v93 main_v95 main_v69 main_v96 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v96 main_v97 (broadcastInDim S1800000x1 ![0] bcast_S1800000_S1800000x1_0 : (⟨S1800000, .i32⟩ : BufTy).Contents (Elt F) → (⟨S1800000x1, .i32⟩ : BufTy).Contents (Elt F)),
    binary main_v77 main_v97 main_v98 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    binary main_v91 main_v98 main_v99 (mulf : (⟨S1800000, .f32⟩ : BufTy).Contents (Elt F) → (⟨S1800000, .f32⟩ : BufTy).Contents (Elt F) → (⟨S1800000, .f32⟩ : BufTy).Contents (Elt F)),
    unary main_v99 main_v100 (broadcastInDim S1800000x1 ![0] bcast_S1800000_S1800000x1_0 : (⟨S1800000, .f32⟩ : BufTy).Contents (Elt F) → (⟨S1800000x1, .f32⟩ : BufTy).Contents (Elt F)),
    unary main_v100 main_v101 (broadcastInDim S1800000x128 ![0, 1] bcast_S1800000x1_S1800000x128_0_1 : (⟨S1800000x1, .f32⟩ : BufTy).Contents (Elt F) → (⟨S1800000x128, .f32⟩ : BufTy).Contents (Elt F)),
    binary main_v84 main_v101 main_v102 (mulf : (⟨S1800000x128, .f32⟩ : BufTy).Contents (Elt F) → (⟨S1800000x128, .f32⟩ : BufTy).Contents (Elt F) → (⟨S1800000x128, .f32⟩ : BufTy).Contents (Elt F)),
    nullary main_cst_19 (constant S_ .f32 0x00000000#32),
    unary main_cst_19 main_v103 (broadcastInDim S200000x128 ![] bcast_S_S200000x128 : (⟨S_, .f32⟩ : BufTy).Contents (Elt F) → (⟨S200000x128, .f32⟩ : BufTy).Contents (Elt F)),
    unary main_v69 main_v104 (broadcastInDim S1800000x1 ![0] bcast_S1800000_S1800000x1_0 : (⟨S1800000, .i32⟩ : BufTy).Contents (Elt F) → (⟨S1800000x1, .i32⟩ : BufTy).Contents (Elt F)),
    ternary main_v103 main_v104 main_v102 main_v105 ((fun x i u => Host.scatterAdd scatter_S200000x128_S1800000x1_S1800000x128_1_0_0_1 x i u) : (⟨S200000x128, .f32⟩ : BufTy).Contents (Elt F) → (⟨S1800000x1, .i32⟩ : BufTy).Contents (Elt F) → (⟨S1800000x128, .f32⟩ : BufTy).Contents (Elt F) → (⟨S200000x128, .f32⟩ : BufTy).Contents (Elt F)),
    unary main_v61 main_v106 (broadcastInDim S1x128 ![1] bcast_S128_S1x128_1 : (⟨S128, .f32⟩ : BufTy).Contents (Elt F) → (⟨S1x128, .f32⟩ : BufTy).Contents (Elt F)),
    unary main_v106 main_v107 (broadcastInDim S200000x128 ![0, 1] bcast_S1x128_S200000x128_0_1 : (⟨S1x128, .f32⟩ : BufTy).Contents (Elt F) → (⟨S200000x128, .f32⟩ : BufTy).Contents (Elt F)),
    binary main_v105 main_v107 main_v108 (addf : (⟨S200000x128, .f32⟩ : BufTy).Contents (Elt F) → (⟨S200000x128, .f32⟩ : BufTy).Contents (Elt F) → (⟨S200000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S200000x128, .f32⟩) main_call6_v0) (broadcastInDim S200000x128 ![] bcast_S_S200000x128),
    TRef.binary (TRef.of (T := ⟨S200000x128, .f32⟩) main_v108) (TRef.of (T := ⟨S200000x128, .f32⟩) main_call6_v0) (TRef.of (T := ⟨S200000x128, .f32⟩) main_v109) maximumf,
    nullary main_cst_20 (constant S_ .f32 0x00000000#32),
    unary main_cst_20 main_v110 (broadcastInDim S50000x128 ![] bcast_S_S50000x128 : (⟨S_, .f32⟩ : BufTy).Contents (Elt F) → (⟨S50000x128, .f32⟩ : BufTy).Contents (Elt F)),
    unary main_arg22 main_v111 (broadcastInDim S200000x1 ![0] bcast_S200000_S200000x1_0 : (⟨S200000, .i32⟩ : BufTy).Contents (Elt F) → (⟨S200000x1, .i32⟩ : BufTy).Contents (Elt F)),
    ternary main_v110 main_v111 main_v109 main_v112 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v112) (TRef.of (T := ⟨S50000x128, .f32⟩) main_call7_v0) (TRef.of (T := ⟨S50000x128, .f32⟩) main_v113) maximumf,
    unary main_arg12 main_v114 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v114 main_v115 rfl shapeCasts_S1x128x128_S128x128,
    unary main_arg13 main_v116 ((extractStridedSlice S1x128 ![1, 0] · slices_S3x128_S1x128_1_0) : (⟨S3x128, .f32⟩ : BufTy).Contents (Elt F) → (⟨S1x128, .f32⟩ : BufTy).Contents (Elt F)),
    reshape main_v116 main_v117 rfl shapeCasts_S1x128_S128,
    binary main_v113 main_v115 main_v118 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxHeartbeats 40000000 in
/-- Operations 149–222 of @main: the second layer's aggregation, bias, rectifier and pooling, the third layer's weight, and their product. -/
abbrev seg4 : List (HloOp τ sig (Elt F)) :=
  [ nullary main_v119 (iotaInDim S50000 32 0),
    unary main_arg20 main_v120 ((extractStridedSlice S1x400000 ![0, 0] · slices_S2x400000_S1x400000_0_0) : (⟨S2x400000, .i32⟩ : BufTy).Contents (Elt F) → (⟨S1x400000, .i32⟩ : BufTy).Contents (Elt F)),
    reshape main_v120 main_v121 rfl shapeCasts_S1x400000_S400000,
    binary main_v121 main_v119 main_v122 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    unary main_arg20 main_v123 ((extractStridedSlice S1x400000 ![1, 0] · slices_S2x400000_S1x400000_1_0) : (⟨S2x400000, .i32⟩ : BufTy).Contents (Elt F) → (⟨S1x400000, .i32⟩ : BufTy).Contents (Elt F)),
    reshape main_v123 main_v124 rfl shapeCasts_S1x400000_S400000,
    binary main_v124 main_v119 main_v125 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    nullary main_cst_21 (constant S_ .f32 0x3F800000#32),
    unary main_cst_21 main_v126 (broadcastInDim S450000 ![] bcast_S_S450000 : (⟨S_, .f32⟩ : BufTy).Contents (Elt F) → (⟨S450000, .f32⟩ : BufTy).Contents (Elt F)),
    nullary main_cst_22 (constant S_ .f32 0x00000000#32),
    unary main_cst_22 main_v127 (broadcastInDim S50000 ![] bcast_S_S50000 : (⟨S_, .f32⟩ : BufTy).Contents (Elt F) → (⟨S50000, .f32⟩ : BufTy).Contents (Elt F)),
    unary main_v125 main_v128 (broadcastInDim S450000x1 ![0] bcast_S450000_S450000x1_0 : (⟨S450000, .i32⟩ : BufTy).Contents (Elt F) → (⟨S450000x1, .i32⟩ : BufTy).Contents (Elt F)),
    ternary main_v127 main_v128 main_v126 main_v129 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_23 (constant S_ .f32 0x00000000#32),
    unary main_cst_23 main_v130 (broadcastInDim S50000 ![] bcast_S_S50000 : (⟨S_, .f32⟩ : BufTy).Contents (Elt F) → (⟨S50000, .f32⟩ : BufTy).Contents (Elt F)),
    binary main_v129 main_v130 main_v131 (cmpf .ogt : (⟨S50000, .f32⟩ : BufTy).Contents (Elt F) → (⟨S50000, .f32⟩ : BufTy).Contents (Elt F) → (⟨S50000, .i1⟩ : BufTy).Contents (Elt F)),
    unary main_v129 main_v132 (Host.rsqrt : (⟨S50000, .f32⟩ : BufTy).Contents (Elt F) → (⟨S50000, .f32⟩ : BufTy).Contents (Elt F)),
    nullary main_cst_24 (constant S_ .f32 0x00000000#32),
    TRef.unary (TRef.of (T := ⟨S_, .f32⟩) main_cst_24) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v131) (TRef.of (T := ⟨S50000, .f32⟩) main_v132) (TRef.of (T := ⟨S50000, .f32⟩) main_call8_v1) (TRef.of (T := ⟨S50000, .f32⟩) main_v133) select,
    nullary main_c_25 (constantI S_ 32 0#32),
    unary main_c_25 main_v134 (broadcastInDim S450000 ![] bcast_S_S450000 : (⟨S_, .i32⟩ : BufTy).Contents (Elt F) → (⟨S450000, .i32⟩ : BufTy).Contents (Elt F)),
    binary main_v122 main_v134 main_v135 (cmpi .slt : (⟨S450000, .i32⟩ : BufTy).Contents (Elt F) → (⟨S450000, .i32⟩ : BufTy).Contents (Elt F) → (⟨S450000, .i1⟩ : BufTy).Contents (Elt F)),
    nullary main_c_26 (constantI S_ 32 50000#32),
    unary main_c_26 main_v136 (broadcastInDim S450000 ![] bcast_S_S450000 : (⟨S_, .i32⟩ : BufTy).Contents (Elt F) → (⟨S450000, .i32⟩ : BufTy).Contents (Elt F)),
    binary main_v122 main_v136 main_v137 (addi : (⟨S450000, .i32⟩ : BufTy).Contents (Elt F) → (⟨S450000, .i32⟩ : BufTy).Contents (Elt F) → (⟨S450000, .i32⟩ : BufTy).Contents (Elt F)),
    ternary main_v135 main_v137 main_v122 main_v138 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v138 main_v139 (broadcastInDim S450000x1 ![0] bcast_S450000_S450000x1_0 : (⟨S450000, .i32⟩ : BufTy).Contents (Elt F) → (⟨S450000x1, .i32⟩ : BufTy).Contents (Elt F)),
    binary main_v118 main_v139 main_v140 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    nullary main_c_27 (constantI S_ 32 0#32),
    unary main_c_27 main_v141 (broadcastInDim S450000 ![] bcast_S_S450000 : (⟨S_, .i32⟩ : BufTy).Contents (Elt F) → (⟨S450000, .i32⟩ : BufTy).Contents (Elt F)),
    binary main_v122 main_v141 main_v142 (cmpi .slt : (⟨S450000, .i32⟩ : BufTy).Contents (Elt F) → (⟨S450000, .i32⟩ : BufTy).Contents (Elt F) → (⟨S450000, .i1⟩ : BufTy).Contents (Elt F)),
    nullary main_c_28 (constantI S_ 32 50000#32),
    unary main_c_28 main_v143 (broadcastInDim S450000 ![] bcast_S_S450000 : (⟨S_, .i32⟩ : BufTy).Contents (Elt F) → (⟨S450000, .i32⟩ : BufTy).Contents (Elt F)),
    binary main_v122 main_v143 main_v144 (addi : (⟨S450000, .i32⟩ : BufTy).Contents (Elt F) → (⟨S450000, .i32⟩ : BufTy).Contents (Elt F) → (⟨S450000, .i32⟩ : BufTy).Contents (Elt F)),
    ternary main_v142 main_v144 main_v122 main_v145 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v145 main_v146 (broadcastInDim S450000x1 ![0] bcast_S450000_S450000x1_0 : (⟨S450000, .i32⟩ : BufTy).Contents (Elt F) → (⟨S450000x1, .i32⟩ : BufTy).Contents (Elt F)),
    binary main_v133 main_v146 main_v147 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    nullary main_c_29 (constantI S_ 32 0#32),
    unary main_c_29 main_v148 (broadcastInDim S450000 ![] bcast_S_S450000 : (⟨S_, .i32⟩ : BufTy).Contents (Elt F) → (⟨S450000, .i32⟩ : BufTy).Contents (Elt F)),
    binary main_v125 main_v148 main_v149 (cmpi .slt : (⟨S450000, .i32⟩ : BufTy).Contents (Elt F) → (⟨S450000, .i32⟩ : BufTy).Contents (Elt F) → (⟨S450000, .i1⟩ : BufTy).Contents (Elt F)),
    nullary main_c_30 (constantI S_ 32 50000#32),
    unary main_c_30 main_v150 (broadcastInDim S450000 ![] bcast_S_S450000 : (⟨S_, .i32⟩ : BufTy).Contents (Elt F) → (⟨S450000, .i32⟩ : BufTy).Contents (Elt F)),
    binary main_v125 main_v150 main_v151 (addi : (⟨S450000, .i32⟩ : BufTy).Contents (Elt F) → (⟨S450000, .i32⟩ : BufTy).Contents (Elt F) → (⟨S450000, .i32⟩ : BufTy).Contents (Elt F)),
    ternary main_v149 main_v151 main_v125 main_v152 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v152 main_v153 (broadcastInDim S450000x1 ![0] bcast_S450000_S450000x1_0 : (⟨S450000, .i32⟩ : BufTy).Contents (Elt F) → (⟨S450000x1, .i32⟩ : BufTy).Contents (Elt F)),
    binary main_v133 main_v153 main_v154 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v147 main_v154 main_v155 (mulf : (⟨S450000, .f32⟩ : BufTy).Contents (Elt F) → (⟨S450000, .f32⟩ : BufTy).Contents (Elt F) → (⟨S450000, .f32⟩ : BufTy).Contents (Elt F)),
    unary main_v155 main_v156 (broadcastInDim S450000x1 ![0] bcast_S450000_S450000x1_0 : (⟨S450000, .f32⟩ : BufTy).Contents (Elt F) → (⟨S450000x1, .f32⟩ : BufTy).Contents (Elt F)),
    unary main_v156 main_v157 (broadcastInDim S450000x128 ![0, 1] bcast_S450000x1_S450000x128_0_1 : (⟨S450000x1, .f32⟩ : BufTy).Contents (Elt F) → (⟨S450000x128, .f32⟩ : BufTy).Contents (Elt F)),
    binary main_v140 main_v157 main_v158 (mulf : (⟨S450000x128, .f32⟩ : BufTy).Contents (Elt F) → (⟨S450000x128, .f32⟩ : BufTy).Contents (Elt F) → (⟨S450000x128, .f32⟩ : BufTy).Contents (Elt F)),
    nullary main_cst_31 (constant S_ .f32 0x00000000#32),
    unary main_cst_31 main_v159 (broadcastInDim S50000x128 ![] bcast_S_S50000x128 : (⟨S_, .f32⟩ : BufTy).Contents (Elt F) → (⟨S50000x128, .f32⟩ : BufTy).Contents (Elt F)),
    unary main_v125 main_v160 (broadcastInDim S450000x1 ![0] bcast_S450000_S450000x1_0 : (⟨S450000, .i32⟩ : BufTy).Contents (Elt F) → (⟨S450000x1, .i32⟩ : BufTy).Contents (Elt F)),
    ternary main_v159 main_v160 main_v158 main_v161 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    unary main_v117 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v161 main_v163 main_v164 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v164) (TRef.of (T := ⟨S50000x128, .f32⟩) main_call9_v0) (TRef.of (T := ⟨S50000x128, .f32⟩) main_v165) maximumf,
    nullary main_cst_32 (constant S_ .f32 0x00000000#32),
    unary main_cst_32 main_v166 (broadcastInDim S12500x128 ![] bcast_S_S12500x128 : (⟨S_, .f32⟩ : BufTy).Contents (Elt F) → (⟨S12500x128, .f32⟩ : BufTy).Contents (Elt F)),
    unary main_arg23 main_v167 (broadcastInDim S50000x1 ![0] bcast_S50000_S50000x1_0 : (⟨S50000, .i32⟩ : BufTy).Contents (Elt F) → (⟨S50000x1, .i32⟩ : BufTy).Contents (Elt F)),
    ternary main_v166 main_v167 main_v165 main_v168 ((fun x i u => Host.scatterAdd scatter_S12500x128_S50000x1_S50000x128_1_0_0_1 x i u) : (⟨S12500x128, .f32⟩ : BufTy).Contents (Elt F) → (⟨S50000x1, .i32⟩ : BufTy).Contents (Elt F) → (⟨S50000x128, .f32⟩ : BufTy).Contents (Elt F) → (⟨S12500x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S12500x128, .f32⟩) main_call10_v0) (broadcastInDim S12500x128 ![] bcast_S_S12500x128),
    TRef.binary (TRef.of (T := ⟨S12500x128, .f32⟩) main_v168) (TRef.of (T := ⟨S12500x128, .f32⟩) main_call10_v0) (TRef.of (T := ⟨S12500x128, .f32⟩) main_v169) maximumf,
    unary main_arg12 main_v170 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v170 main_v171 rfl shapeCasts_S1x128x128_S128x128,
    unary main_arg13 main_v172 ((extractStridedSlice S1x128 ![2, 0] · slices_S3x128_S1x128_2_0) : (⟨S3x128, .f32⟩ : BufTy).Contents (Elt F) → (⟨S1x128, .f32⟩ : BufTy).Contents (Elt F)),
    reshape main_v172 main_v173 rfl shapeCasts_S1x128_S128,
    binary main_v169 main_v171 main_v174 ((fun l r => Host.dotGeneral dot_S12500x128_S128x128_S12500x128_1_0_0_1_n_n none l r) : (⟨S12500x128, .f32⟩ : BufTy).Contents (Elt F) → (⟨S128x128, .f32⟩ : BufTy).Contents (Elt F) → (⟨S12500x128, .f32⟩ : BufTy).Contents (Elt F)) ]

set_option maxHeartbeats 40000000 in
/-- Operations 223–308 of @main: the third layer's aggregation, bias and rectifier, the three pooled sums side by side, and the classifier. -/
abbrev seg5 : List (HloOp τ sig (Elt F)) :=
  [ nullary main_v175 (iotaInDim S12500 32 0),
    unary main_arg21 main_v176 ((extractStridedSlice S1x100000 ![0, 0] · slices_S2x100000_S1x100000_0_0) : (⟨S2x100000, .i32⟩ : BufTy).Contents (Elt F) → (⟨S1x100000, .i32⟩ : BufTy).Contents (Elt F)),
    reshape main_v176 main_v177 rfl shapeCasts_S1x100000_S100000,
    binary main_v177 main_v175 main_v178 ((fun a b => concatenate S112500 0 [⟨S100000, a⟩, ⟨S12500, b⟩] concatenates_S100000_S12500_S112500_d0) : (⟨S100000, .i32⟩ : BufTy).Contents (Elt F) → (⟨S12500, .i32⟩ : BufTy).Contents (Elt F) → (⟨S112500, .i32⟩ : BufTy).Contents (Elt F)),
    unary main_arg21 main_v179 ((extractStridedSlice S1x100000 ![1, 0] · slices_S2x100000_S1x100000_1_0) : (⟨S2x100000, .i32⟩ : BufTy).Contents (Elt F) → (⟨S1x100000, .i32⟩ : BufTy).Contents (Elt F)),
    reshape main_v179 main_v180 rfl shapeCasts_S1x100000_S100000,
    binary main_v180 main_v175 main_v181 ((fun a b => concatenate S112500 0 [⟨S100000, a⟩, ⟨S12500, b⟩] concatenates_S100000_S12500_S112500_d0) : (⟨S100000, .i32⟩ : BufTy).Contents (Elt F) → (⟨S12500, .i32⟩ : BufTy).Contents (Elt F) → (⟨S112500, .i32⟩ : BufTy).Contents (Elt F)),
    nullary main_cst_33 (constant S_ .f32 0x3F800000#32),
    unary main_cst_33 main_v182 (broadcastInDim S112500 ![] bcast_S_S112500 : (⟨S_, .f32⟩ : BufTy).Contents (Elt F) → (⟨S112500, .f32⟩ : BufTy).Contents (Elt F)),
    nullary main_cst_34 (constant S_ .f32 0x00000000#32),
    unary main_cst_34 main_v183 (broadcastInDim S12500 ![] bcast_S_S12500 : (⟨S_, .f32⟩ : BufTy).Contents (Elt F) → (⟨S12500, .f32⟩ : BufTy).Contents (Elt F)),
    unary main_v181 main_v184 (broadcastInDim S112500x1 ![0] bcast_S112500_S112500x1_0 : (⟨S112500, .i32⟩ : BufTy).Contents (Elt F) → (⟨S112500x1, .i32⟩ : BufTy).Contents (Elt F)),
    ternary main_v183 main_v184 main_v182 main_v185 ((fun x i u => Host.scatterAdd scatter_S12500_S112500x1_S112500_n_0_0_1 x i u) : (⟨S12500, .f32⟩ : BufTy).Contents (Elt F) → (⟨S112500x1, .i32⟩ : BufTy).Contents (Elt F) → (⟨S112500, .f32⟩ : BufTy).Contents (Elt F) → (⟨S12500, .f32⟩ : BufTy).Contents (Elt F)),
    nullary main_cst_35 (constant S_ .f32 0x00000000#32),
    unary main_cst_35 main_v186 (broadcastInDim S12500 ![] bcast_S_S12500 : (⟨S_, .f32⟩ : BufTy).Contents (Elt F) → (⟨S12500, .f32⟩ : BufTy).Contents (Elt F)),
    binary main_v185 main_v186 main_v187 (cmpf .ogt : (⟨S12500, .f32⟩ : BufTy).Contents (Elt F) → (⟨S12500, .f32⟩ : BufTy).Contents (Elt F) → (⟨S12500, .i1⟩ : BufTy).Contents (Elt F)),
    unary main_v185 main_v188 (Host.rsqrt : (⟨S12500, .f32⟩ : BufTy).Contents (Elt F) → (⟨S12500, .f32⟩ : BufTy).Contents (Elt F)),
    nullary main_cst_36 (constant S_ .f32 0x00000000#32),
    TRef.unary (TRef.of (T := ⟨S_, .f32⟩) main_cst_36) (TRef.of (T := ⟨S_, .f32⟩) main_call11_v0) id,
    TRef.unary (TRef.of (T := ⟨S_, .f32⟩) main_call11_v0) (TRef.of (T := ⟨S12500, .f32⟩) main_call11_v1) (broadcastInDim S12500 ![] bcast_S_S12500),
    TRef.ternary (TRef.of (T := ⟨S12500, .i1⟩) main_v187) (TRef.of (T := ⟨S12500, .f32⟩) main_v188) (TRef.of (T := ⟨S12500, .f32⟩) main_call11_v1) (TRef.of (T := ⟨S12500, .f32⟩) main_v189) select,
    nullary main_c_37 (constantI S_ 32 0#32),
    unary main_c_37 main_v190 (broadcastInDim S112500 ![] bcast_S_S112500 : (⟨S_, .i32⟩ : BufTy).Contents (Elt F) → (⟨S112500, .i32⟩ : BufTy).Contents (Elt F)),
    binary main_v178 main_v190 main_v191 (cmpi .slt : (⟨S112500, .i32⟩ : BufTy).Contents (Elt F) → (⟨S112500, .i32⟩ : BufTy).Contents (Elt F) → (⟨S112500, .i1⟩ : BufTy).Contents (Elt F)),
    nullary main_c_38 (constantI S_ 32 12500#32),
    unary main_c_38 main_v192 (broadcastInDim S112500 ![] bcast_S_S112500 : (⟨S_, .i32⟩ : BufTy).Contents (Elt F) → (⟨S112500, .i32⟩ : BufTy).Contents (Elt F)),
    binary main_v178 main_v192 main_v193 (addi : (⟨S112500, .i32⟩ : BufTy).Contents (Elt F) → (⟨S112500, .i32⟩ : BufTy).Contents (Elt F) → (⟨S112500, .i32⟩ : BufTy).Contents (Elt F)),
    ternary main_v191 main_v193 main_v178 main_v194 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v194 main_v195 (broadcastInDim S112500x1 ![0] bcast_S112500_S112500x1_0 : (⟨S112500, .i32⟩ : BufTy).Contents (Elt F) → (⟨S112500x1, .i32⟩ : BufTy).Contents (Elt F)),
    binary main_v174 main_v195 main_v196 ((fun x i => Host.gather gather_S12500x128_S112500x1_S112500x128_1_0_n_n_0_1_1128 x i) : (⟨S12500x128, .f32⟩ : BufTy).Contents (Elt F) → (⟨S112500x1, .i32⟩ : BufTy).Contents (Elt F) → (⟨S112500x128, .f32⟩ : BufTy).Contents (Elt F)),
    nullary main_c_39 (constantI S_ 32 0#32),
    unary main_c_39 main_v197 (broadcastInDim S112500 ![] bcast_S_S112500 : (⟨S_, .i32⟩ : BufTy).Contents (Elt F) → (⟨S112500, .i32⟩ : BufTy).Contents (Elt F)),
    binary main_v178 main_v197 main_v198 (cmpi .slt : (⟨S112500, .i32⟩ : BufTy).Contents (Elt F) → (⟨S112500, .i32⟩ : BufTy).Contents (Elt F) → (⟨S112500, .i1⟩ : BufTy).Contents (Elt F)),
    nullary main_c_40 (constantI S_ 32 12500#32),
    unary main_c_40 main_v199 (broadcastInDim S112500 ![] bcast_S_S112500 : (⟨S_, .i32⟩ : BufTy).Contents (Elt F) → (⟨S112500, .i32⟩ : BufTy).Contents (Elt F)),
    binary main_v178 main_v199 main_v200 (addi : (⟨S112500, .i32⟩ : BufTy).Contents (Elt F) → (⟨S112500, .i32⟩ : BufTy).Contents (Elt F) → (⟨S112500, .i32⟩ : BufTy).Contents (Elt F)),
    ternary main_v198 main_v200 main_v178 main_v201 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v201 main_v202 (broadcastInDim S112500x1 ![0] bcast_S112500_S112500x1_0 : (⟨S112500, .i32⟩ : BufTy).Contents (Elt F) → (⟨S112500x1, .i32⟩ : BufTy).Contents (Elt F)),
    binary main_v189 main_v202 main_v203 ((fun x i => Host.gather gather_S12500_S112500x1_S112500_n_0_n_n_0_1_1 x i) : (⟨S12500, .f32⟩ : BufTy).Contents (Elt F) → (⟨S112500x1, .i32⟩ : BufTy).Contents (Elt F) → (⟨S112500, .f32⟩ : BufTy).Contents (Elt F)),
    nullary main_c_41 (constantI S_ 32 0#32),
    unary main_c_41 main_v204 (broadcastInDim S112500 ![] bcast_S_S112500 : (⟨S_, .i32⟩ : BufTy).Contents (Elt F) → (⟨S112500, .i32⟩ : BufTy).Contents (Elt F)),
    binary main_v181 main_v204 main_v205 (cmpi .slt : (⟨S112500, .i32⟩ : BufTy).Contents (Elt F) → (⟨S112500, .i32⟩ : BufTy).Contents (Elt F) → (⟨S112500, .i1⟩ : BufTy).Contents (Elt F)),
    nullary main_c_42 (constantI S_ 32 12500#32),
    unary main_c_42 main_v206 (broadcastInDim S112500 ![] bcast_S_S112500 : (⟨S_, .i32⟩ : BufTy).Contents (Elt F) → (⟨S112500, .i32⟩ : BufTy).Contents (Elt F)),
    binary main_v181 main_v206 main_v207 (addi : (⟨S112500, .i32⟩ : BufTy).Contents (Elt F) → (⟨S112500, .i32⟩ : BufTy).Contents (Elt F) → (⟨S112500, .i32⟩ : BufTy).Contents (Elt F)),
    ternary main_v205 main_v207 main_v181 main_v208 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v208 main_v209 (broadcastInDim S112500x1 ![0] bcast_S112500_S112500x1_0 : (⟨S112500, .i32⟩ : BufTy).Contents (Elt F) → (⟨S112500x1, .i32⟩ : BufTy).Contents (Elt F)),
    binary main_v189 main_v209 main_v210 ((fun x i => Host.gather gather_S12500_S112500x1_S112500_n_0_n_n_0_1_1 x i) : (⟨S12500, .f32⟩ : BufTy).Contents (Elt F) → (⟨S112500x1, .i32⟩ : BufTy).Contents (Elt F) → (⟨S112500, .f32⟩ : BufTy).Contents (Elt F)),
    binary main_v203 main_v210 main_v211 (mulf : (⟨S112500, .f32⟩ : BufTy).Contents (Elt F) → (⟨S112500, .f32⟩ : BufTy).Contents (Elt F) → (⟨S112500, .f32⟩ : BufTy).Contents (Elt F)),
    unary main_v211 main_v212 (broadcastInDim S112500x1 ![0] bcast_S112500_S112500x1_0 : (⟨S112500, .f32⟩ : BufTy).Contents (Elt F) → (⟨S112500x1, .f32⟩ : BufTy).Contents (Elt F)),
    unary main_v212 main_v213 (broadcastInDim S112500x128 ![0, 1] bcast_S112500x1_S112500x128_0_1 : (⟨S112500x1, .f32⟩ : BufTy).Contents (Elt F) → (⟨S112500x128, .f32⟩ : BufTy).Contents (Elt F)),
    binary main_v196 main_v213 main_v214 (mulf : (⟨S112500x128, .f32⟩ : BufTy).Contents (Elt F) → (⟨S112500x128, .f32⟩ : BufTy).Contents (Elt F) → (⟨S112500x128, .f32⟩ : BufTy).Contents (Elt F)),
    nullary main_cst_43 (constant S_ .f32 0x00000000#32),
    unary main_cst_43 main_v215 (broadcastInDim S12500x128 ![] bcast_S_S12500x128 : (⟨S_, .f32⟩ : BufTy).Contents (Elt F) → (⟨S12500x128, .f32⟩ : BufTy).Contents (Elt F)),
    unary main_v181 main_v216 (broadcastInDim S112500x1 ![0] bcast_S112500_S112500x1_0 : (⟨S112500, .i32⟩ : BufTy).Contents (Elt F) → (⟨S112500x1, .i32⟩ : BufTy).Contents (Elt F)),
    ternary main_v215 main_v216 main_v214 main_v217 ((fun x i u => Host.scatterAdd scatter_S12500x128_S112500x1_S112500x128_1_0_0_1 x i u) : (⟨S12500x128, .f32⟩ : BufTy).Contents (Elt F) → (⟨S112500x1, .i32⟩ : BufTy).Contents (Elt F) → (⟨S112500x128, .f32⟩ : BufTy).Contents (Elt F) → (⟨S12500x128, .f32⟩ : BufTy).Contents (Elt F)),
    unary main_v173 main_v218 (broadcastInDim S1x128 ![1] bcast_S128_S1x128_1 : (⟨S128, .f32⟩ : BufTy).Contents (Elt F) → (⟨S1x128, .f32⟩ : BufTy).Contents (Elt F)),
    unary main_v218 main_v219 (broadcastInDim S12500x128 ![0, 1] bcast_S1x128_S12500x128_0_1 : (⟨S1x128, .f32⟩ : BufTy).Contents (Elt F) → (⟨S12500x128, .f32⟩ : BufTy).Contents (Elt F)),
    binary main_v217 main_v219 main_v220 (addf : (⟨S12500x128, .f32⟩ : BufTy).Contents (Elt F) → (⟨S12500x128, .f32⟩ : BufTy).Contents (Elt F) → (⟨S12500x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S12500x128, .f32⟩) main_call12_v0) (broadcastInDim S12500x128 ![] bcast_S_S12500x128),
    TRef.binary (TRef.of (T := ⟨S12500x128, .f32⟩) main_v220) (TRef.of (T := ⟨S12500x128, .f32⟩) main_call12_v0) (TRef.of (T := ⟨S12500x128, .f32⟩) main_v221) maximumf,
    nullary main_cst_44 (constant S_ .f32 0x00000000#32),
    unary main_cst_44 main_v222 (broadcastInDim S128x128 ![] bcast_S_S128x128 : (⟨S_, .f32⟩ : BufTy).Contents (Elt F) → (⟨S128x128, .f32⟩ : BufTy).Contents (Elt F)),
    unary main_arg24 main_v223 (broadcastInDim S50000x1 ![0] bcast_S50000_S50000x1_0 : (⟨S50000, .i32⟩ : BufTy).Contents (Elt F) → (⟨S50000x1, .i32⟩ : BufTy).Contents (Elt F)),
    ternary main_v222 main_v223 main_v113 main_v224 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_45 (constant S_ .f32 0x00000000#32),
    unary main_cst_45 main_v225 (broadcastInDim S128x128 ![] bcast_S_S128x128 : (⟨S_, .f32⟩ : BufTy).Contents (Elt F) → (⟨S128x128, .f32⟩ : BufTy).Contents (Elt F)),
    unary main_arg25 main_v226 (broadcastInDim S12500x1 ![0] bcast_S12500_S12500x1_0 : (⟨S12500, .i32⟩ : BufTy).Contents (Elt F) → (⟨S12500x1, .i32⟩ : BufTy).Contents (Elt F)),
    ternary main_v225 main_v226 main_v169 main_v227 ((fun x i u => Host.scatterAdd scatter_S128x128_S12500x1_S12500x128_1_0_0_1 x i u) : (⟨S128x128, .f32⟩ : BufTy).Contents (Elt F) → (⟨S12500x1, .i32⟩ : BufTy).Contents (Elt F) → (⟨S12500x128, .f32⟩ : BufTy).Contents (Elt F) → (⟨S128x128, .f32⟩ : BufTy).Contents (Elt F)),
    nullary main_cst_46 (constant S_ .f32 0x00000000#32),
    unary main_cst_46 main_v228 (broadcastInDim S128x128 ![] bcast_S_S128x128 : (⟨S_, .f32⟩ : BufTy).Contents (Elt F) → (⟨S128x128, .f32⟩ : BufTy).Contents (Elt F)),
    unary main_arg25 main_v229 (broadcastInDim S12500x1 ![0] bcast_S12500_S12500x1_0 : (⟨S12500, .i32⟩ : BufTy).Contents (Elt F) → (⟨S12500x1, .i32⟩ : BufTy).Contents (Elt F)),
    ternary main_v228 main_v229 main_v221 main_v230 ((fun x i u => Host.scatterAdd scatter_S128x128_S12500x1_S12500x128_1_0_0_1 x i u) : (⟨S128x128, .f32⟩ : BufTy).Contents (Elt F) → (⟨S12500x1, .i32⟩ : BufTy).Contents (Elt F) → (⟨S12500x128, .f32⟩ : BufTy).Contents (Elt F) → (⟨S128x128, .f32⟩ : BufTy).Contents (Elt F)),
    nary ![main_v224, main_v227, main_v230] main_v231 (fun u => concatenate S128x384 1 [⟨S128x128, u 0⟩, ⟨S128x128, u 1⟩, ⟨S128x128, u 2⟩] concatenates_S128x128_S128x128_S128x128_S128x384_d1),
    binary main_v231 main_arg14 main_v232 ((fun l r => Host.dotGeneral dot_S128x384_S384x128_S128x128_1_0_0_1_n_n none l r) : (⟨S128x384, .f32⟩ : BufTy).Contents (Elt F) → (⟨S384x128, .f32⟩ : BufTy).Contents (Elt F) → (⟨S128x128, .f32⟩ : BufTy).Contents (Elt F)),
    unary main_arg15 main_v233 (broadcastInDim S1x128 ![1] bcast_S128_S1x128_1 : (⟨S128, .f32⟩ : BufTy).Contents (Elt F) → (⟨S1x128, .f32⟩ : BufTy).Contents (Elt F)),
    unary main_v233 main_v234 (broadcastInDim S128x128 ![0, 1] bcast_S1x128_S128x128_0_1 : (⟨S1x128, .f32⟩ : BufTy).Contents (Elt F) → (⟨S128x128, .f32⟩ : BufTy).Contents (Elt F)),
    binary main_v232 main_v234 main_v235 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S128x128, .f32⟩) main_call13_v0) (broadcastInDim S128x128 ![] bcast_S_S128x128),
    TRef.binary (TRef.of (T := ⟨S128x128, .f32⟩) main_v235) (TRef.of (T := ⟨S128x128, .f32⟩) main_call13_v0) (TRef.of (T := ⟨S128x128, .f32⟩) main_v236) maximumf,
    binary main_v236 main_arg16 main_v237 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg17 main_v238 (broadcastInDim S1x128 ![1] bcast_S128_S1x128_1 : (⟨S128, .f32⟩ : BufTy).Contents (Elt F) → (⟨S1x128, .f32⟩ : BufTy).Contents (Elt F)),
    unary main_v238 main_v239 (broadcastInDim S128x128 ![0, 1] bcast_S1x128_S128x128_0_1 : (⟨S1x128, .f32⟩ : BufTy).Contents (Elt F) → (⟨S128x128, .f32⟩ : BufTy).Contents (Elt F)),
    binary main_v237 main_v239 main_v240 (addf : (⟨S128x128, .f32⟩ : BufTy).Contents (Elt F) → (⟨S128x128, .f32⟩ : BufTy).Contents (Elt F) → (⟨S128x128, .f32⟩ : BufTy).Contents (Elt F)) ]

set_option maxRecDepth 8192 in
set_option maxHeartbeats 40000000 in
/-- The five lists, in order, are @main's operations. -/
theorem ops_split : (Cert.ReferenceIdeal.ValueP.ops : List (HloOp τ sig (Elt F))) = seg1 ++ (seg2 ++ (seg3 ++ (seg4 ++ seg5))) := rfl

end Cert.RefVal

end
-- ==== Proof.RefSeg12.lean ====
/-
  The first two stretches of the reference's @main, read at the arrays that matter: the encoder's operations leave
  the encoded features, and the gather, the weight's slice and the product after them leave the first layer's product.
-/
import proofs.«152442_j4492535791675_1_alg».proof.Proof.RefSegs
import proofs.«152442_j4492535791675_1_alg».proof.Proof.RefReadGen

noncomputable section

namespace Cert.RefVal

open Cert.ReferenceIdeal Cert.ReferenceIdeal.Gen Idealize.ShloMosaic Idealize.ShloMosaic.TcCoe Idealize.SL.Sem Idealize.ShloMosaic.StableHlo
open Cert.ReferenceIdeal.ReadP

set_option maxRecDepth 16384 in
set_option maxHeartbeats 40000000 in
/-- After the encoder's operations the buffer of the encoded features holds the encoder stage of the arguments. -/
theorem e1 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (h0 : W main_arg0 = x0) (h1 : W main_arg1 = x1) (h2 : W main_arg2 = x2) (h3 : W main_arg3 = x3) (h4 : W main_arg4 = x4) (h5 : W main_arg5 = x5) (h6 : W main_arg6 = x6) (h7 : W main_arg7 = x7) (h8 : W main_arg8 = x8) (h9 : W main_arg9 = x9) (h10 : W main_arg10 = x10) (h11 : W main_arg11 = x11) :
    StableHlo.after (seg1 (F := Ideal)) W main_v50 = val_main_v50 (F := Ideal) x0 x1 x2 x3 x4 x5 x6 x7 x8 x9 x10 x11 := by
  subst h0 h1 h2 h3 h4 h5 h6 h7 h8 h9 h10 h11
  after_results_simp
  rfl

set_option maxRecDepth 16384 in
set_option maxHeartbeats 40000000 in
/-- After the gather, the weight's slice and the product, the first layer's product holds its stage. -/
theorem e2 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S3x128x128, .f32⟩ : BufTy).Contents (Elt Ideal)) (x18 : (⟨S200000, .i32⟩ : BufTy).Contents (Elt Ideal))
    (h50 : W main_v50 = val_main_v50 (F := Ideal) x0 x1 x2 x3 x4 x5 x6 x7 x8 x9 x10 x11) (h12 : W main_arg12 = x12) (h18 : W main_arg18 = x18) :
    StableHlo.after (seg2 (F := Ideal)) W main_v62 = val_main_v62 (F := Ideal) x0 x1 x2 x3 x4 x5 x6 x7 x8 x9 x10 x11 x12 x18 := by
  subst h12 h18
  after_results_simp
  rw [h50]
  rfl

set_option maxRecDepth 16384 in
set_option maxHeartbeats 40000000 in
/-- The same stretch slices the first layer's bias out of the bias array. -/
theorem e2_61 (W : Valuation τ sig (Elt Ideal)) (x13 : (⟨S3x128, .f32⟩ : BufTy).Contents (Elt Ideal)) (h13 : W main_arg13 = x13) :
    StableHlo.after (seg2 (F := Ideal)) W main_v61 = val_main_v61 (F := Ideal) x13 := by
  subst h13
  after_results_simp
  rfl

end Cert.RefVal

end
-- ==== Proof.RefSeg345.lean ====
/-
  The reference's graph layers and classifier, stage by stage.

  After the encoded features the reference's program goes through three graph layers and a classifier. Each cut of
  the program (RefSegs) depends on the earlier operations through one array only: the previous product. Read back
  through its operations, a cut leaves, at the buffers the next cut reads, the reference's stages of the same
  arguments: the layer's pooled features and the next product; at the end the three pooled sums side by side and
  the classifier's two layers.
-/
import proofs.«152442_j4492535791675_1_alg».proof.Proof.RefSegs
import proofs.«152442_j4492535791675_1_alg».proof.Proof.RefReadGen
import Idealize.ShloMosaic.Lib.StableHlo.Run

noncomputable section

namespace Cert.RefVal

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The cuts with the called functions' operations written at their plain references

    A function the program calls (the select of the inverse square root against zero; the maximum with zero) states
    its operations at references that carry their tensor type; at the references themselves they are the same
    operations, so each cut is the same list. -/

set_option maxHeartbeats 123200000 in
abbrev seg3p : List (HloOp τ sig (Elt F)) :=
  [ nullary main_v63 (iotaInDim S200000 32 0),
    unary main_arg19 main_v64 ((extractStridedSlice S1x1600000 ![0, 0] · slices_S2x1600000_S1x1600000_0_0) : (⟨S2x1600000, .i32⟩ : BufTy).Contents (Elt F) → (⟨S1x1600000, .i32⟩ : BufTy).Contents (Elt F)),
    reshape main_v64 main_v65 rfl shapeCasts_S1x1600000_S1600000,
    binary main_v65 main_v63 main_v66 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)),
    unary main_arg19 main_v67 ((extractStridedSlice S1x1600000 ![1, 0] · slices_S2x1600000_S1x1600000_1_0) : (⟨S2x1600000, .i32⟩ : BufTy).Contents (Elt F) → (⟨S1x1600000, .i32⟩ : BufTy).Contents (Elt F)),
    reshape main_v67 main_v68 rfl shapeCasts_S1x1600000_S1600000,
    binary main_v68 main_v63 main_v69 ((fun a b => concatenate S1800000 0 [⟨S1600000, a⟩, ⟨S200000, b⟩] concatenates_S1600000_S200000_S1800000_d0) : (⟨S1600000, .i32⟩ : BufTy).Contents (Elt F) → (⟨S200000, .i32⟩ : BufTy).Contents (Elt F) → (⟨S1800000, .i32⟩ : BufTy).Contents (Elt F)),
    nullary main_cst_9 (constant S_ .f32 0x3F800000#32),
    unary main_cst_9 main_v70 (broadcastInDim S1800000 ![] bcast_S_S1800000 : (⟨S_, .f32⟩ : BufTy).Contents (Elt F) → (⟨S1800000, .f32⟩ : BufTy).Contents (Elt F)),
    nullary main_cst_10 (constant S_ .f32 0x00000000#32),
    unary main_cst_10 main_v71 (broadcastInDim S200000 ![] bcast_S_S200000 : (⟨S_, .f32⟩ : BufTy).Contents (Elt F) → (⟨S200000, .f32⟩ : BufTy).Contents (Elt F)),
    unary main_v69 main_v72 (broadcastInDim S1800000x1 ![0] bcast_S1800000_S1800000x1_0 : (⟨S1800000, .i32⟩ : BufTy).Contents (Elt F) → (⟨S1800000x1, .i32⟩ : BufTy).Contents (Elt F)),
    ternary main_v71 main_v72 main_v70 main_v73 ((fun x i u => Host.scatterAdd scatter_S200000_S1800000x1_S1800000_n_0_0_1 x i u) : (⟨S200000, .f32⟩ : BufTy).Contents (Elt F) → (⟨S1800000x1, .i32⟩ : BufTy).Contents (Elt F) → (⟨S1800000, .f32⟩ : BufTy).Contents (Elt F) → (⟨S200000, .f32⟩ : BufTy).Contents (Elt F)),
    nullary main_cst_11 (constant S_ .f32 0x00000000#32),
    unary main_cst_11 main_v74 (broadcastInDim S200000 ![] bcast_S_S200000 : (⟨S_, .f32⟩ : BufTy).Contents (Elt F) → (⟨S200000, .f32⟩ : BufTy).Contents (Elt F)),
    binary main_v73 main_v74 main_v75 (cmpf .ogt : (⟨S200000, .f32⟩ : BufTy).Contents (Elt F) → (⟨S200000, .f32⟩ : BufTy).Contents (Elt F) → (⟨S200000, .i1⟩ : BufTy).Contents (Elt F)),
    unary main_v73 main_v76 (Host.rsqrt : (⟨S200000, .f32⟩ : BufTy).Contents (Elt F) → (⟨S200000, .f32⟩ : BufTy).Contents (Elt F)),
    nullary main_cst_12 (constant S_ .f32 0x00000000#32),
    unary main_cst_12 main_call5_v0 (id : (⟨S_, .f32⟩ : BufTy).Contents (Elt F) → (⟨S_, .f32⟩ : BufTy).Contents (Elt F)),
    unary main_call5_v0 main_call5_v1 ((broadcastInDim S200000 ![] bcast_S_S200000) : (⟨S_, .f32⟩ : BufTy).Contents (Elt F) → (⟨S200000, .f32⟩ : BufTy).Contents (Elt F)),
    ternary main_v75 main_v76 main_call5_v1 main_v77 (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F)),
    nullary main_c_13 (constantI S_ 32 0#32),
    unary main_c_13 main_v78 (broadcastInDim S1800000 ![] bcast_S_S1800000 : (⟨S_, .i32⟩ : BufTy).Contents (Elt F) → (⟨S1800000, .i32⟩ : BufTy).Contents (Elt F)),
    binary main_v66 main_v78 main_v79 (cmpi .slt : (⟨S1800000, .i32⟩ : BufTy).Contents (Elt F) → (⟨S1800000, .i32⟩ : BufTy).Contents (Elt F) → (⟨S1800000, .i1⟩ : BufTy).Contents (Elt F)),
    nullary main_c_14 (constantI S_ 32 200000#32),
    unary main_c_14 main_v80 (broadcastInDim S1800000 ![] bcast_S_S1800000 : (⟨S_, .i32⟩ : BufTy).Contents (Elt F) → (⟨S1800000, .i32⟩ : BufTy).Contents (Elt F)),
    binary main_v66 main_v80 main_v81 (addi : (⟨S1800000, .i32⟩ : BufTy).Contents (Elt F) → (⟨S1800000, .i32⟩ : BufTy).Contents (Elt F) → (⟨S1800000, .i32⟩ : BufTy).Contents (Elt F)),
    ternary main_v79 main_v81 main_v66 main_v82 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v82 main_v83 (broadcastInDim S1800000x1 ![0] bcast_S1800000_S1800000x1_0 : (⟨S1800000, .i32⟩ : BufTy).Contents (Elt F) → (⟨S1800000x1, .i32⟩ : BufTy).Contents (Elt F)),
    binary main_v62 main_v83 main_v84 ((fun x i => Host.gather gather_S200000x128_S1800000x1_S1800000x128_1_0_n_n_0_1_1128 x i) : (⟨S200000x128, .f32⟩ : BufTy).Contents (Elt F) → (⟨S1800000x1, .i32⟩ : BufTy).Contents (Elt F) → (⟨S1800000x128, .f32⟩ : BufTy).Contents (Elt F)),
    nullary main_c_15 (constantI S_ 32 0#32),
    unary main_c_15 main_v85 (broadcastInDim S1800000 ![] bcast_S_S1800000 : (⟨S_, .i32⟩ : BufTy).Contents (Elt F) → (⟨S1800000, .i32⟩ : BufTy).Contents (Elt F)),
    binary main_v66 main_v85 main_v86 (cmpi .slt : (⟨S1800000, .i32⟩ : BufTy).Contents (Elt F) → (⟨S1800000, .i32⟩ : BufTy).Contents (Elt F) → (⟨S1800000, .i1⟩ : BufTy).Contents (Elt F)),
    nullary main_c_16 (constantI S_ 32 200000#32),
    unary main_c_16 main_v87 (broadcastInDim S1800000 ![] bcast_S_S1800000 : (⟨S_, .i32⟩ : BufTy).Contents (Elt F) → (⟨S1800000, .i32⟩ : BufTy).Contents (Elt F)),
    binary main_v66 main_v87 main_v88 (addi : (⟨S1800000, .i32⟩ : BufTy).Contents (Elt F) → (⟨S1800000, .i32⟩ : BufTy).Contents (Elt F) → (⟨S1800000, .i32⟩ : BufTy).Contents (Elt F)),
    ternary main_v86 main_v88 main_v66 main_v89 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v89 main_v90 (broadcastInDim S1800000x1 ![0] bcast_S1800000_S1800000x1_0 : (⟨S1800000, .i32⟩ : BufTy).Contents (Elt F) → (⟨S1800000x1, .i32⟩ : BufTy).Contents (Elt F)),
    binary main_v77 main_v90 main_v91 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    nullary main_c_17 (constantI S_ 32 0#32),
    unary main_c_17 main_v92 (broadcastInDim S1800000 ![] bcast_S_S1800000 : (⟨S_, .i32⟩ : BufTy).Contents (Elt F) → (⟨S1800000, .i32⟩ : BufTy).Contents (Elt F)),
    binary main_v69 main_v92 main_v93 (cmpi .slt : (⟨S1800000, .i32⟩ : BufTy).Contents (Elt F) → (⟨S1800000, .i32⟩ : BufTy).Contents (Elt F) → (⟨S1800000, .i1⟩ : BufTy).Contents (Elt F)),
    nullary main_c_18 (constantI S_ 32 200000#32),
    unary main_c_18 main_v94 (broadcastInDim S1800000 ![] bcast_S_S1800000 : (⟨S_, .i32⟩ : BufTy).Contents (Elt F) → (⟨S1800000, .i32⟩ : BufTy).Contents (Elt F)),
    binary main_v69 main_v94 main_v95 (addi : (⟨S1800000, .i32⟩ : BufTy).Contents (Elt F) → (⟨S1800000, .i32⟩ : BufTy).Contents (Elt F) → (⟨S1800000, .i32⟩ : BufTy).Contents (Elt F)),
    ternary main_v93 main_v95 main_v69 main_v96 (select : (⟨S1800000, .i1⟩ : BufTy).Contents (Elt F) → (⟨S1800000, .i32⟩ : BufTy).Contents (Elt F) → (⟨S1800000, .i32⟩ : BufTy).Contents (Elt F) → (⟨S1800000, .i32⟩ : BufTy).Contents (Elt F)),
    unary main_v96 main_v97 (broadcastInDim S1800000x1 ![0] bcast_S1800000_S1800000x1_0 : (⟨S1800000, .i32⟩ : BufTy).Contents (Elt F) → (⟨S1800000x1, .i32⟩ : BufTy).Contents (Elt F)),
    binary main_v77 main_v97 main_v98 ((fun x i => Host.gather gather_S200000_S1800000x1_S1800000_n_0_n_n_0_1_1 x i) : (⟨S200000, .f32⟩ : BufTy).Contents (Elt F) → (⟨S1800000x1, .i32⟩ : BufTy).Contents (Elt F) → (⟨S1800000, .f32⟩ : BufTy).Contents (Elt F)),
    binary main_v91 main_v98 main_v99 (mulf : (⟨S1800000, .f32⟩ : BufTy).Contents (Elt F) → (⟨S1800000, .f32⟩ : BufTy).Contents (Elt F) → (⟨S1800000, .f32⟩ : BufTy).Contents (Elt F)),
    unary main_v99 main_v100 (broadcastInDim S1800000x1 ![0] bcast_S1800000_S1800000x1_0 : (⟨S1800000, .f32⟩ : BufTy).Contents (Elt F) → (⟨S1800000x1, .f32⟩ : BufTy).Contents (Elt F)),
    unary main_v100 main_v101 (broadcastInDim S1800000x128 ![0, 1] bcast_S1800000x1_S1800000x128_0_1 : (⟨S1800000x1, .f32⟩ : BufTy).Contents (Elt F) → (⟨S1800000x128, .f32⟩ : BufTy).Contents (Elt F)),
    binary main_v84 main_v101 main_v102 (mulf : (⟨S1800000x128, .f32⟩ : BufTy).Contents (Elt F) → (⟨S1800000x128, .f32⟩ : BufTy).Contents (Elt F) → (⟨S1800000x128, .f32⟩ : BufTy).Contents (Elt F)),
    nullary main_cst_19 (constant S_ .f32 0x00000000#32),
    unary main_cst_19 main_v103 (broadcastInDim S200000x128 ![] bcast_S_S200000x128 : (⟨S_, .f32⟩ : BufTy).Contents (Elt F) → (⟨S200000x128, .f32⟩ : BufTy).Contents (Elt F)),
    unary main_v69 main_v104 (broadcastInDim S1800000x1 ![0] bcast_S1800000_S1800000x1_0 : (⟨S1800000, .i32⟩ : BufTy).Contents (Elt F) → (⟨S1800000x1, .i32⟩ : BufTy).Contents (Elt F)),
    ternary main_v103 main_v104 main_v102 main_v105 ((fun x i u => Host.scatterAdd scatter_S200000x128_S1800000x1_S1800000x128_1_0_0_1 x i u) : (⟨S200000x128, .f32⟩ : BufTy).Contents (Elt F) → (⟨S1800000x1, .i32⟩ : BufTy).Contents (Elt F) → (⟨S1800000x128, .f32⟩ : BufTy).Contents (Elt F) → (⟨S200000x128, .f32⟩ : BufTy).Contents (Elt F)),
    unary main_v61 main_v106 (broadcastInDim S1x128 ![1] bcast_S128_S1x128_1 : (⟨S128, .f32⟩ : BufTy).Contents (Elt F) → (⟨S1x128, .f32⟩ : BufTy).Contents (Elt F)),
    unary main_v106 main_v107 (broadcastInDim S200000x128 ![0, 1] bcast_S1x128_S200000x128_0_1 : (⟨S1x128, .f32⟩ : BufTy).Contents (Elt F) → (⟨S200000x128, .f32⟩ : BufTy).Contents (Elt F)),
    binary main_v105 main_v107 main_v108 (addf : (⟨S200000x128, .f32⟩ : BufTy).Contents (Elt F) → (⟨S200000x128, .f32⟩ : BufTy).Contents (Elt F) → (⟨S200000x128, .f32⟩ : BufTy).Contents (Elt F)),
    nullary main_call6_cst (constant S_ .f32 0x00000000#32),
    unary main_call6_cst main_call6_v0 ((broadcastInDim S200000x128 ![] bcast_S_S200000x128) : (⟨S_, .f32⟩ : BufTy).Contents (Elt F) → (⟨S200000x128, .f32⟩ : BufTy).Contents (Elt F)),
    binary main_v108 main_call6_v0 main_v109 (maximumf : (⟨S200000x128, .f32⟩ : BufTy).Contents (Elt F) → (⟨S200000x128, .f32⟩ : BufTy).Contents (Elt F) → (⟨S200000x128, .f32⟩ : BufTy).Contents (Elt F)),
    nullary main_cst_20 (constant S_ .f32 0x00000000#32),
    unary main_cst_20 main_v110 (broadcastInDim S50000x128 ![] bcast_S_S50000x128 : (⟨S_, .f32⟩ : BufTy).Contents (Elt F) → (⟨S50000x128, .f32⟩ : BufTy).Contents (Elt F)),
    unary main_arg22 main_v111 (broadcastInDim S200000x1 ![0] bcast_S200000_S200000x1_0 : (⟨S200000, .i32⟩ : BufTy).Contents (Elt F) → (⟨S200000x1, .i32⟩ : BufTy).Contents (Elt F)),
    ternary main_v110 main_v111 main_v109 main_v112 ((fun x i u => Host.scatterAdd scatter_S50000x128_S200000x1_S200000x128_1_0_0_1 x i u) : (⟨S50000x128, .f32⟩ : BufTy).Contents (Elt F) → (⟨S200000x1, .i32⟩ : BufTy).Contents (Elt F) → (⟨S200000x128, .f32⟩ : BufTy).Contents (Elt F) → (⟨S50000x128, .f32⟩ : BufTy).Contents (Elt F)),
    nullary main_call7_cst (constant S_ .f32 0x00000000#32),
    unary main_call7_cst main_call7_v0 ((broadcastInDim S50000x128 ![] bcast_S_S50000x128) : (⟨S_, .f32⟩ : BufTy).Contents (Elt F) → (⟨S50000x128, .f32⟩ : BufTy).Contents (Elt F)),
    binary main_v112 main_call7_v0 main_v113 (maximumf : (⟨S50000x128, .f32⟩ : BufTy).Contents (Elt F) → (⟨S50000x128, .f32⟩ : BufTy).Contents (Elt F) → (⟨S50000x128, .f32⟩ : BufTy).Contents (Elt F)),
    unary main_arg12 main_v114 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v114 main_v115 rfl shapeCasts_S1x128x128_S128x128,
    unary main_arg13 main_v116 ((extractStridedSlice S1x128 ![1, 0] · slices_S3x128_S1x128_1_0) : (⟨S3x128, .f32⟩ : BufTy).Contents (Elt F) → (⟨S1x128, .f32⟩ : BufTy).Contents (Elt F)),
    reshape main_v116 main_v117 rfl shapeCasts_S1x128_S128,
    binary main_v113 main_v115 main_v118 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

set_option maxHeartbeats 123200000 in
abbrev seg4p : List (HloOp τ sig (Elt F)) :=
  [ nullary main_v119 (iotaInDim S50000 32 0),
    unary main_arg20 main_v120 ((extractStridedSlice S1x400000 ![0, 0] · slices_S2x400000_S1x400000_0_0) : (⟨S2x400000, .i32⟩ : BufTy).Contents (Elt F) → (⟨S1x400000, .i32⟩ : BufTy).Contents (Elt F)),
    reshape main_v120 main_v121 rfl shapeCasts_S1x400000_S400000,
    binary main_v121 main_v119 main_v122 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    unary main_arg20 main_v123 ((extractStridedSlice S1x400000 ![1, 0] · slices_S2x400000_S1x400000_1_0) : (⟨S2x400000, .i32⟩ : BufTy).Contents (Elt F) → (⟨S1x400000, .i32⟩ : BufTy).Contents (Elt F)),
    reshape main_v123 main_v124 rfl shapeCasts_S1x400000_S400000,
    binary main_v124 main_v119 main_v125 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    nullary main_cst_21 (constant S_ .f32 0x3F800000#32),
    unary main_cst_21 main_v126 (broadcastInDim S450000 ![] bcast_S_S450000 : (⟨S_, .f32⟩ : BufTy).Contents (Elt F) → (⟨S450000, .f32⟩ : BufTy).Contents (Elt F)),
    nullary main_cst_22 (constant S_ .f32 0x00000000#32),
    unary main_cst_22 main_v127 (broadcastInDim S50000 ![] bcast_S_S50000 : (⟨S_, .f32⟩ : BufTy).Contents (Elt F) → (⟨S50000, .f32⟩ : BufTy).Contents (Elt F)),
    unary main_v125 main_v128 (broadcastInDim S450000x1 ![0] bcast_S450000_S450000x1_0 : (⟨S450000, .i32⟩ : BufTy).Contents (Elt F) → (⟨S450000x1, .i32⟩ : BufTy).Contents (Elt F)),
    ternary main_v127 main_v128 main_v126 main_v129 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_23 (constant S_ .f32 0x00000000#32),
    unary main_cst_23 main_v130 (broadcastInDim S50000 ![] bcast_S_S50000 : (⟨S_, .f32⟩ : BufTy).Contents (Elt F) → (⟨S50000, .f32⟩ : BufTy).Contents (Elt F)),
    binary main_v129 main_v130 main_v131 (cmpf .ogt : (⟨S50000, .f32⟩ : BufTy).Contents (Elt F) → (⟨S50000, .f32⟩ : BufTy).Contents (Elt F) → (⟨S50000, .i1⟩ : BufTy).Contents (Elt F)),
    unary main_v129 main_v132 (Host.rsqrt : (⟨S50000, .f32⟩ : BufTy).Contents (Elt F) → (⟨S50000, .f32⟩ : BufTy).Contents (Elt F)),
    nullary main_cst_24 (constant S_ .f32 0x00000000#32),
    unary main_cst_24 main_call8_v0 (id : (⟨S_, .f32⟩ : BufTy).Contents (Elt F) → (⟨S_, .f32⟩ : BufTy).Contents (Elt F)),
    unary main_call8_v0 main_call8_v1 ((broadcastInDim S50000 ![] bcast_S_S50000) : (⟨S_, .f32⟩ : BufTy).Contents (Elt F) → (⟨S50000, .f32⟩ : BufTy).Contents (Elt F)),
    ternary main_v131 main_v132 main_call8_v1 main_v133 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c_25 (constantI S_ 32 0#32),
    unary main_c_25 main_v134 (broadcastInDim S450000 ![] bcast_S_S450000 : (⟨S_, .i32⟩ : BufTy).Contents (Elt F) → (⟨S450000, .i32⟩ : BufTy).Contents (Elt F)),
    binary main_v122 main_v134 main_v135 (cmpi .slt : (⟨S450000, .i32⟩ : BufTy).Contents (Elt F) → (⟨S450000, .i32⟩ : BufTy).Contents (Elt F) → (⟨S450000, .i1⟩ : BufTy).Contents (Elt F)),
    nullary main_c_26 (constantI S_ 32 50000#32),
    unary main_c_26 main_v136 (broadcastInDim S450000 ![] bcast_S_S450000 : (⟨S_, .i32⟩ : BufTy).Contents (Elt F) → (⟨S450000, .i32⟩ : BufTy).Contents (Elt F)),
    binary main_v122 main_v136 main_v137 (addi : (⟨S450000, .i32⟩ : BufTy).Contents (Elt F) → (⟨S450000, .i32⟩ : BufTy).Contents (Elt F) → (⟨S450000, .i32⟩ : BufTy).Contents (Elt F)),
    ternary main_v135 main_v137 main_v122 main_v138 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v138 main_v139 (broadcastInDim S450000x1 ![0] bcast_S450000_S450000x1_0 : (⟨S450000, .i32⟩ : BufTy).Contents (Elt F) → (⟨S450000x1, .i32⟩ : BufTy).Contents (Elt F)),
    binary main_v118 main_v139 main_v140 ((fun x i => Host.gather gather_S50000x128_S450000x1_S450000x128_1_0_n_n_0_1_1128 x i) : (⟨S50000x128, .f32⟩ : BufTy).Contents (Elt F) → (⟨S450000x1, .i32⟩ : BufTy).Contents (Elt F) → (⟨S450000x128, .f32⟩ : BufTy).Contents (Elt F)),
    nullary main_c_27 (constantI S_ 32 0#32),
    unary main_c_27 main_v141 (broadcastInDim S450000 ![] bcast_S_S450000 : (⟨S_, .i32⟩ : BufTy).Contents (Elt F) → (⟨S450000, .i32⟩ : BufTy).Contents (Elt F)),
    binary main_v122 main_v141 main_v142 (cmpi .slt : (⟨S450000, .i32⟩ : BufTy).Contents (Elt F) → (⟨S450000, .i32⟩ : BufTy).Contents (Elt F) → (⟨S450000, .i1⟩ : BufTy).Contents (Elt F)),
    nullary main_c_28 (constantI S_ 32 50000#32),
    unary main_c_28 main_v143 (broadcastInDim S450000 ![] bcast_S_S450000 : (⟨S_, .i32⟩ : BufTy).Contents (Elt F) → (⟨S450000, .i32⟩ : BufTy).Contents (Elt F)),
    binary main_v122 main_v143 main_v144 (addi : (⟨S450000, .i32⟩ : BufTy).Contents (Elt F) → (⟨S450000, .i32⟩ : BufTy).Contents (Elt F) → (⟨S450000, .i32⟩ : BufTy).Contents (Elt F)),
    ternary main_v142 main_v144 main_v122 main_v145 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v145 main_v146 (broadcastInDim S450000x1 ![0] bcast_S450000_S450000x1_0 : (⟨S450000, .i32⟩ : BufTy).Contents (Elt F) → (⟨S450000x1, .i32⟩ : BufTy).Contents (Elt F)),
    binary main_v133 main_v146 main_v147 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    nullary main_c_29 (constantI S_ 32 0#32),
    unary main_c_29 main_v148 (broadcastInDim S450000 ![] bcast_S_S450000 : (⟨S_, .i32⟩ : BufTy).Contents (Elt F) → (⟨S450000, .i32⟩ : BufTy).Contents (Elt F)),
    binary main_v125 main_v148 main_v149 (cmpi .slt : (⟨S450000, .i32⟩ : BufTy).Contents (Elt F) → (⟨S450000, .i32⟩ : BufTy).Contents (Elt F) → (⟨S450000, .i1⟩ : BufTy).Contents (Elt F)),
    nullary main_c_30 (constantI S_ 32 50000#32),
    unary main_c_30 main_v150 (broadcastInDim S450000 ![] bcast_S_S450000 : (⟨S_, .i32⟩ : BufTy).Contents (Elt F) → (⟨S450000, .i32⟩ : BufTy).Contents (Elt F)),
    binary main_v125 main_v150 main_v151 (addi : (⟨S450000, .i32⟩ : BufTy).Contents (Elt F) → (⟨S450000, .i32⟩ : BufTy).Contents (Elt F) → (⟨S450000, .i32⟩ : BufTy).Contents (Elt F)),
    ternary main_v149 main_v151 main_v125 main_v152 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v152 main_v153 (broadcastInDim S450000x1 ![0] bcast_S450000_S450000x1_0 : (⟨S450000, .i32⟩ : BufTy).Contents (Elt F) → (⟨S450000x1, .i32⟩ : BufTy).Contents (Elt F)),
    binary main_v133 main_v153 main_v154 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v147 main_v154 main_v155 (mulf : (⟨S450000, .f32⟩ : BufTy).Contents (Elt F) → (⟨S450000, .f32⟩ : BufTy).Contents (Elt F) → (⟨S450000, .f32⟩ : BufTy).Contents (Elt F)),
    unary main_v155 main_v156 (broadcastInDim S450000x1 ![0] bcast_S450000_S450000x1_0 : (⟨S450000, .f32⟩ : BufTy).Contents (Elt F) → (⟨S450000x1, .f32⟩ : BufTy).Contents (Elt F)),
    unary main_v156 main_v157 (broadcastInDim S450000x128 ![0, 1] bcast_S450000x1_S450000x128_0_1 : (⟨S450000x1, .f32⟩ : BufTy).Contents (Elt F) → (⟨S450000x128, .f32⟩ : BufTy).Contents (Elt F)),
    binary main_v140 main_v157 main_v158 (mulf : (⟨S450000x128, .f32⟩ : BufTy).Contents (Elt F) → (⟨S450000x128, .f32⟩ : BufTy).Contents (Elt F) → (⟨S450000x128, .f32⟩ : BufTy).Contents (Elt F)),
    nullary main_cst_31 (constant S_ .f32 0x00000000#32),
    unary main_cst_31 main_v159 (broadcastInDim S50000x128 ![] bcast_S_S50000x128 : (⟨S_, .f32⟩ : BufTy).Contents (Elt F) → (⟨S50000x128, .f32⟩ : BufTy).Contents (Elt F)),
    unary main_v125 main_v160 (broadcastInDim S450000x1 ![0] bcast_S450000_S450000x1_0 : (⟨S450000, .i32⟩ : BufTy).Contents (Elt F) → (⟨S450000x1, .i32⟩ : BufTy).Contents (Elt F)),
    ternary main_v159 main_v160 main_v158 main_v161 ((fun x i u => Host.scatterAdd scatter_S50000x128_S450000x1_S450000x128_1_0_0_1 x i u) : (⟨S50000x128, .f32⟩ : BufTy).Contents (Elt F) → (⟨S450000x1, .i32⟩ : BufTy).Contents (Elt F) → (⟨S450000x128, .f32⟩ : BufTy).Contents (Elt F) → (⟨S50000x128, .f32⟩ : BufTy).Contents (Elt F)),
    unary main_v117 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v161 main_v163 main_v164 (addf : (⟨S50000x128, .f32⟩ : BufTy).Contents (Elt F) → (⟨S50000x128, .f32⟩ : BufTy).Contents (Elt F) → (⟨S50000x128, .f32⟩ : BufTy).Contents (Elt F)),
    nullary main_call9_cst (constant S_ .f32 0x00000000#32),
    unary main_call9_cst main_call9_v0 ((broadcastInDim S50000x128 ![] bcast_S_S50000x128) : (⟨S_, .f32⟩ : BufTy).Contents (Elt F) → (⟨S50000x128, .f32⟩ : BufTy).Contents (Elt F)),
    binary main_v164 main_call9_v0 main_v165 (maximumf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x00000000#32),
    unary main_cst_32 main_v166 (broadcastInDim S12500x128 ![] bcast_S_S12500x128 : (⟨S_, .f32⟩ : BufTy).Contents (Elt F) → (⟨S12500x128, .f32⟩ : BufTy).Contents (Elt F)),
    unary main_arg23 main_v167 (broadcastInDim S50000x1 ![0] bcast_S50000_S50000x1_0 : (⟨S50000, .i32⟩ : BufTy).Contents (Elt F) → (⟨S50000x1, .i32⟩ : BufTy).Contents (Elt F)),
    ternary main_v166 main_v167 main_v165 main_v168 ((fun x i u => Host.scatterAdd scatter_S12500x128_S50000x1_S50000x128_1_0_0_1 x i u) : (⟨S12500x128, .f32⟩ : BufTy).Contents (Elt F) → (⟨S50000x1, .i32⟩ : BufTy).Contents (Elt F) → (⟨S50000x128, .f32⟩ : BufTy).Contents (Elt F) → (⟨S12500x128, .f32⟩ : BufTy).Contents (Elt F)),
    nullary main_call10_cst (constant S_ .f32 0x00000000#32),
    unary main_call10_cst main_call10_v0 ((broadcastInDim S12500x128 ![] bcast_S_S12500x128) : (⟨S_, .f32⟩ : BufTy).Contents (Elt F) → (⟨S12500x128, .f32⟩ : BufTy).Contents (Elt F)),
    binary main_v168 main_call10_v0 main_v169 (maximumf : (⟨S12500x128, .f32⟩ : BufTy).Contents (Elt F) → (⟨S12500x128, .f32⟩ : BufTy).Contents (Elt F) → (⟨S12500x128, .f32⟩ : BufTy).Contents (Elt F)),
    unary main_arg12 main_v170 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v170 main_v171 rfl shapeCasts_S1x128x128_S128x128,
    unary main_arg13 main_v172 ((extractStridedSlice S1x128 ![2, 0] · slices_S3x128_S1x128_2_0) : (⟨S3x128, .f32⟩ : BufTy).Contents (Elt F) → (⟨S1x128, .f32⟩ : BufTy).Contents (Elt F)),
    reshape main_v172 main_v173 rfl shapeCasts_S1x128_S128,
    binary main_v169 main_v171 main_v174 ((fun l r => Host.dotGeneral dot_S12500x128_S128x128_S12500x128_1_0_0_1_n_n none l r) : (⟨S12500x128, .f32⟩ : BufTy).Contents (Elt F) → (⟨S128x128, .f32⟩ : BufTy).Contents (Elt F) → (⟨S12500x128, .f32⟩ : BufTy).Contents (Elt F)) ]

set_option maxHeartbeats 123200000 in
abbrev seg5p : List (HloOp τ sig (Elt F)) :=
  [ nullary main_v175 (iotaInDim S12500 32 0),
    unary main_arg21 main_v176 ((extractStridedSlice S1x100000 ![0, 0] · slices_S2x100000_S1x100000_0_0) : (⟨S2x100000, .i32⟩ : BufTy).Contents (Elt F) → (⟨S1x100000, .i32⟩ : BufTy).Contents (Elt F)),
    reshape main_v176 main_v177 rfl shapeCasts_S1x100000_S100000,
    binary main_v177 main_v175 main_v178 ((fun a b => concatenate S112500 0 [⟨S100000, a⟩, ⟨S12500, b⟩] concatenates_S100000_S12500_S112500_d0) : (⟨S100000, .i32⟩ : BufTy).Contents (Elt F) → (⟨S12500, .i32⟩ : BufTy).Contents (Elt F) → (⟨S112500, .i32⟩ : BufTy).Contents (Elt F)),
    unary main_arg21 main_v179 ((extractStridedSlice S1x100000 ![1, 0] · slices_S2x100000_S1x100000_1_0) : (⟨S2x100000, .i32⟩ : BufTy).Contents (Elt F) → (⟨S1x100000, .i32⟩ : BufTy).Contents (Elt F)),
    reshape main_v179 main_v180 rfl shapeCasts_S1x100000_S100000,
    binary main_v180 main_v175 main_v181 ((fun a b => concatenate S112500 0 [⟨S100000, a⟩, ⟨S12500, b⟩] concatenates_S100000_S12500_S112500_d0) : (⟨S100000, .i32⟩ : BufTy).Contents (Elt F) → (⟨S12500, .i32⟩ : BufTy).Contents (Elt F) → (⟨S112500, .i32⟩ : BufTy).Contents (Elt F)),
    nullary main_cst_33 (constant S_ .f32 0x3F800000#32),
    unary main_cst_33 main_v182 (broadcastInDim S112500 ![] bcast_S_S112500 : (⟨S_, .f32⟩ : BufTy).Contents (Elt F) → (⟨S112500, .f32⟩ : BufTy).Contents (Elt F)),
    nullary main_cst_34 (constant S_ .f32 0x00000000#32),
    unary main_cst_34 main_v183 (broadcastInDim S12500 ![] bcast_S_S12500 : (⟨S_, .f32⟩ : BufTy).Contents (Elt F) → (⟨S12500, .f32⟩ : BufTy).Contents (Elt F)),
    unary main_v181 main_v184 (broadcastInDim S112500x1 ![0] bcast_S112500_S112500x1_0 : (⟨S112500, .i32⟩ : BufTy).Contents (Elt F) → (⟨S112500x1, .i32⟩ : BufTy).Contents (Elt F)),
    ternary main_v183 main_v184 main_v182 main_v185 ((fun x i u => Host.scatterAdd scatter_S12500_S112500x1_S112500_n_0_0_1 x i u) : (⟨S12500, .f32⟩ : BufTy).Contents (Elt F) → (⟨S112500x1, .i32⟩ : BufTy).Contents (Elt F) → (⟨S112500, .f32⟩ : BufTy).Contents (Elt F) → (⟨S12500, .f32⟩ : BufTy).Contents (Elt F)),
    nullary main_cst_35 (constant S_ .f32 0x00000000#32),
    unary main_cst_35 main_v186 (broadcastInDim S12500 ![] bcast_S_S12500 : (⟨S_, .f32⟩ : BufTy).Contents (Elt F) → (⟨S12500, .f32⟩ : BufTy).Contents (Elt F)),
    binary main_v185 main_v186 main_v187 (cmpf .ogt : (⟨S12500, .f32⟩ : BufTy).Contents (Elt F) → (⟨S12500, .f32⟩ : BufTy).Contents (Elt F) → (⟨S12500, .i1⟩ : BufTy).Contents (Elt F)),
    unary main_v185 main_v188 (Host.rsqrt : (⟨S12500, .f32⟩ : BufTy).Contents (Elt F) → (⟨S12500, .f32⟩ : BufTy).Contents (Elt F)),
    nullary main_cst_36 (constant S_ .f32 0x00000000#32),
    unary main_cst_36 main_call11_v0 (id : (⟨S_, .f32⟩ : BufTy).Contents (Elt F) → (⟨S_, .f32⟩ : BufTy).Contents (Elt F)),
    unary main_call11_v0 main_call11_v1 ((broadcastInDim S12500 ![] bcast_S_S12500) : (⟨S_, .f32⟩ : BufTy).Contents (Elt F) → (⟨S12500, .f32⟩ : BufTy).Contents (Elt F)),
    ternary main_v187 main_v188 main_call11_v1 main_v189 (select : (⟨S12500, .i1⟩ : BufTy).Contents (Elt F) → (⟨S12500, .f32⟩ : BufTy).Contents (Elt F) → (⟨S12500, .f32⟩ : BufTy).Contents (Elt F) → (⟨S12500, .f32⟩ : BufTy).Contents (Elt F)),
    nullary main_c_37 (constantI S_ 32 0#32),
    unary main_c_37 main_v190 (broadcastInDim S112500 ![] bcast_S_S112500 : (⟨S_, .i32⟩ : BufTy).Contents (Elt F) → (⟨S112500, .i32⟩ : BufTy).Contents (Elt F)),
    binary main_v178 main_v190 main_v191 (cmpi .slt : (⟨S112500, .i32⟩ : BufTy).Contents (Elt F) → (⟨S112500, .i32⟩ : BufTy).Contents (Elt F) → (⟨S112500, .i1⟩ : BufTy).Contents (Elt F)),
    nullary main_c_38 (constantI S_ 32 12500#32),
    unary main_c_38 main_v192 (broadcastInDim S112500 ![] bcast_S_S112500 : (⟨S_, .i32⟩ : BufTy).Contents (Elt F) → (⟨S112500, .i32⟩ : BufTy).Contents (Elt F)),
    binary main_v178 main_v192 main_v193 (addi : (⟨S112500, .i32⟩ : BufTy).Contents (Elt F) → (⟨S112500, .i32⟩ : BufTy).Contents (Elt F) → (⟨S112500, .i32⟩ : BufTy).Contents (Elt F)),
    ternary main_v191 main_v193 main_v178 main_v194 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v194 main_v195 (broadcastInDim S112500x1 ![0] bcast_S112500_S112500x1_0 : (⟨S112500, .i32⟩ : BufTy).Contents (Elt F) → (⟨S112500x1, .i32⟩ : BufTy).Contents (Elt F)),
    binary main_v174 main_v195 main_v196 ((fun x i => Host.gather gather_S12500x128_S112500x1_S112500x128_1_0_n_n_0_1_1128 x i) : (⟨S12500x128, .f32⟩ : BufTy).Contents (Elt F) → (⟨S112500x1, .i32⟩ : BufTy).Contents (Elt F) → (⟨S112500x128, .f32⟩ : BufTy).Contents (Elt F)),
    nullary main_c_39 (constantI S_ 32 0#32),
    unary main_c_39 main_v197 (broadcastInDim S112500 ![] bcast_S_S112500 : (⟨S_, .i32⟩ : BufTy).Contents (Elt F) → (⟨S112500, .i32⟩ : BufTy).Contents (Elt F)),
    binary main_v178 main_v197 main_v198 (cmpi .slt : (⟨S112500, .i32⟩ : BufTy).Contents (Elt F) → (⟨S112500, .i32⟩ : BufTy).Contents (Elt F) → (⟨S112500, .i1⟩ : BufTy).Contents (Elt F)),
    nullary main_c_40 (constantI S_ 32 12500#32),
    unary main_c_40 main_v199 (broadcastInDim S112500 ![] bcast_S_S112500 : (⟨S_, .i32⟩ : BufTy).Contents (Elt F) → (⟨S112500, .i32⟩ : BufTy).Contents (Elt F)),
    binary main_v178 main_v199 main_v200 (addi : (⟨S112500, .i32⟩ : BufTy).Contents (Elt F) → (⟨S112500, .i32⟩ : BufTy).Contents (Elt F) → (⟨S112500, .i32⟩ : BufTy).Contents (Elt F)),
    ternary main_v198 main_v200 main_v178 main_v201 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v201 main_v202 (broadcastInDim S112500x1 ![0] bcast_S112500_S112500x1_0 : (⟨S112500, .i32⟩ : BufTy).Contents (Elt F) → (⟨S112500x1, .i32⟩ : BufTy).Contents (Elt F)),
    binary main_v189 main_v202 main_v203 ((fun x i => Host.gather gather_S12500_S112500x1_S112500_n_0_n_n_0_1_1 x i) : (⟨S12500, .f32⟩ : BufTy).Contents (Elt F) → (⟨S112500x1, .i32⟩ : BufTy).Contents (Elt F) → (⟨S112500, .f32⟩ : BufTy).Contents (Elt F)),
    nullary main_c_41 (constantI S_ 32 0#32),
    unary main_c_41 main_v204 (broadcastInDim S112500 ![] bcast_S_S112500 : (⟨S_, .i32⟩ : BufTy).Contents (Elt F) → (⟨S112500, .i32⟩ : BufTy).Contents (Elt F)),
    binary main_v181 main_v204 main_v205 (cmpi .slt : (⟨S112500, .i32⟩ : BufTy).Contents (Elt F) → (⟨S112500, .i32⟩ : BufTy).Contents (Elt F) → (⟨S112500, .i1⟩ : BufTy).Contents (Elt F)),
    nullary main_c_42 (constantI S_ 32 12500#32),
    unary main_c_42 main_v206 (broadcastInDim S112500 ![] bcast_S_S112500 : (⟨S_, .i32⟩ : BufTy).Contents (Elt F) → (⟨S112500, .i32⟩ : BufTy).Contents (Elt F)),
    binary main_v181 main_v206 main_v207 (addi : (⟨S112500, .i32⟩ : BufTy).Contents (Elt F) → (⟨S112500, .i32⟩ : BufTy).Contents (Elt F) → (⟨S112500, .i32⟩ : BufTy).Contents (Elt F)),
    ternary main_v205 main_v207 main_v181 main_v208 (select : (⟨S112500, .i1⟩ : BufTy).Contents (Elt F) → (⟨S112500, .i32⟩ : BufTy).Contents (Elt F) → (⟨S112500, .i32⟩ : BufTy).Contents (Elt F) → (⟨S112500, .i32⟩ : BufTy).Contents (Elt F)),
    unary main_v208 main_v209 (broadcastInDim S112500x1 ![0] bcast_S112500_S112500x1_0 : (⟨S112500, .i32⟩ : BufTy).Contents (Elt F) → (⟨S112500x1, .i32⟩ : BufTy).Contents (Elt F)),
    binary main_v189 main_v209 main_v210 ((fun x i => Host.gather gather_S12500_S112500x1_S112500_n_0_n_n_0_1_1 x i) : (⟨S12500, .f32⟩ : BufTy).Contents (Elt F) → (⟨S112500x1, .i32⟩ : BufTy).Contents (Elt F) → (⟨S112500, .f32⟩ : BufTy).Contents (Elt F)),
    binary main_v203 main_v210 main_v211 (mulf : (⟨S112500, .f32⟩ : BufTy).Contents (Elt F) → (⟨S112500, .f32⟩ : BufTy).Contents (Elt F) → (⟨S112500, .f32⟩ : BufTy).Contents (Elt F)),
    unary main_v211 main_v212 (broadcastInDim S112500x1 ![0] bcast_S112500_S112500x1_0 : (⟨S112500, .f32⟩ : BufTy).Contents (Elt F) → (⟨S112500x1, .f32⟩ : BufTy).Contents (Elt F)),
    unary main_v212 main_v213 (broadcastInDim S112500x128 ![0, 1] bcast_S112500x1_S112500x128_0_1 : (⟨S112500x1, .f32⟩ : BufTy).Contents (Elt F) → (⟨S112500x128, .f32⟩ : BufTy).Contents (Elt F)),
    binary main_v196 main_v213 main_v214 (mulf : (⟨S112500x128, .f32⟩ : BufTy).Contents (Elt F) → (⟨S112500x128, .f32⟩ : BufTy).Contents (Elt F) → (⟨S112500x128, .f32⟩ : BufTy).Contents (Elt F)),
    nullary main_cst_43 (constant S_ .f32 0x00000000#32),
    unary main_cst_43 main_v215 (broadcastInDim S12500x128 ![] bcast_S_S12500x128 : (⟨S_, .f32⟩ : BufTy).Contents (Elt F) → (⟨S12500x128, .f32⟩ : BufTy).Contents (Elt F)),
    unary main_v181 main_v216 (broadcastInDim S112500x1 ![0] bcast_S112500_S112500x1_0 : (⟨S112500, .i32⟩ : BufTy).Contents (Elt F) → (⟨S112500x1, .i32⟩ : BufTy).Contents (Elt F)),
    ternary main_v215 main_v216 main_v214 main_v217 ((fun x i u => Host.scatterAdd scatter_S12500x128_S112500x1_S112500x128_1_0_0_1 x i u) : (⟨S12500x128, .f32⟩ : BufTy).Contents (Elt F) → (⟨S112500x1, .i32⟩ : BufTy).Contents (Elt F) → (⟨S112500x128, .f32⟩ : BufTy).Contents (Elt F) → (⟨S12500x128, .f32⟩ : BufTy).Contents (Elt F)),
    unary main_v173 main_v218 (broadcastInDim S1x128 ![1] bcast_S128_S1x128_1 : (⟨S128, .f32⟩ : BufTy).Contents (Elt F) → (⟨S1x128, .f32⟩ : BufTy).Contents (Elt F)),
    unary main_v218 main_v219 (broadcastInDim S12500x128 ![0, 1] bcast_S1x128_S12500x128_0_1 : (⟨S1x128, .f32⟩ : BufTy).Contents (Elt F) → (⟨S12500x128, .f32⟩ : BufTy).Contents (Elt F)),
    binary main_v217 main_v219 main_v220 (addf : (⟨S12500x128, .f32⟩ : BufTy).Contents (Elt F) → (⟨S12500x128, .f32⟩ : BufTy).Contents (Elt F) → (⟨S12500x128, .f32⟩ : BufTy).Contents (Elt F)),
    nullary main_call12_cst (constant S_ .f32 0x00000000#32),
    unary main_call12_cst main_call12_v0 ((broadcastInDim S12500x128 ![] bcast_S_S12500x128) : (⟨S_, .f32⟩ : BufTy).Contents (Elt F) → (⟨S12500x128, .f32⟩ : BufTy).Contents (Elt F)),
    binary main_v220 main_call12_v0 main_v221 (maximumf : (⟨S12500x128, .f32⟩ : BufTy).Contents (Elt F) → (⟨S12500x128, .f32⟩ : BufTy).Contents (Elt F) → (⟨S12500x128, .f32⟩ : BufTy).Contents (Elt F)),
    nullary main_cst_44 (constant S_ .f32 0x00000000#32),
    unary main_cst_44 main_v222 (broadcastInDim S128x128 ![] bcast_S_S128x128 : (⟨S_, .f32⟩ : BufTy).Contents (Elt F) → (⟨S128x128, .f32⟩ : BufTy).Contents (Elt F)),
    unary main_arg24 main_v223 (broadcastInDim S50000x1 ![0] bcast_S50000_S50000x1_0 : (⟨S50000, .i32⟩ : BufTy).Contents (Elt F) → (⟨S50000x1, .i32⟩ : BufTy).Contents (Elt F)),
    ternary main_v222 main_v223 main_v113 main_v224 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_45 (constant S_ .f32 0x00000000#32),
    unary main_cst_45 main_v225 (broadcastInDim S128x128 ![] bcast_S_S128x128 : (⟨S_, .f32⟩ : BufTy).Contents (Elt F) → (⟨S128x128, .f32⟩ : BufTy).Contents (Elt F)),
    unary main_arg25 main_v226 (broadcastInDim S12500x1 ![0] bcast_S12500_S12500x1_0 : (⟨S12500, .i32⟩ : BufTy).Contents (Elt F) → (⟨S12500x1, .i32⟩ : BufTy).Contents (Elt F)),
    ternary main_v225 main_v226 main_v169 main_v227 ((fun x i u => Host.scatterAdd scatter_S128x128_S12500x1_S12500x128_1_0_0_1 x i u) : (⟨S128x128, .f32⟩ : BufTy).Contents (Elt F) → (⟨S12500x1, .i32⟩ : BufTy).Contents (Elt F) → (⟨S12500x128, .f32⟩ : BufTy).Contents (Elt F) → (⟨S128x128, .f32⟩ : BufTy).Contents (Elt F)),
    nullary main_cst_46 (constant S_ .f32 0x00000000#32),
    unary main_cst_46 main_v228 (broadcastInDim S128x128 ![] bcast_S_S128x128 : (⟨S_, .f32⟩ : BufTy).Contents (Elt F) → (⟨S128x128, .f32⟩ : BufTy).Contents (Elt F)),
    unary main_arg25 main_v229 (broadcastInDim S12500x1 ![0] bcast_S12500_S12500x1_0 : (⟨S12500, .i32⟩ : BufTy).Contents (Elt F) → (⟨S12500x1, .i32⟩ : BufTy).Contents (Elt F)),
    ternary main_v228 main_v229 main_v221 main_v230 ((fun x i u => Host.scatterAdd scatter_S128x128_S12500x1_S12500x128_1_0_0_1 x i u) : (⟨S128x128, .f32⟩ : BufTy).Contents (Elt F) → (⟨S12500x1, .i32⟩ : BufTy).Contents (Elt F) → (⟨S12500x128, .f32⟩ : BufTy).Contents (Elt F) → (⟨S128x128, .f32⟩ : BufTy).Contents (Elt F)),
    nary ![main_v224, main_v227, main_v230] main_v231 (fun u => concatenate S128x384 1 [⟨S128x128, u 0⟩, ⟨S128x128, u 1⟩, ⟨S128x128, u 2⟩] concatenates_S128x128_S128x128_S128x128_S128x384_d1),
    binary main_v231 main_arg14 main_v232 ((fun l r => Host.dotGeneral dot_S128x384_S384x128_S128x128_1_0_0_1_n_n none l r) : (⟨S128x384, .f32⟩ : BufTy).Contents (Elt F) → (⟨S384x128, .f32⟩ : BufTy).Contents (Elt F) → (⟨S128x128, .f32⟩ : BufTy).Contents (Elt F)),
    unary main_arg15 main_v233 (broadcastInDim S1x128 ![1] bcast_S128_S1x128_1 : (⟨S128, .f32⟩ : BufTy).Contents (Elt F) → (⟨S1x128, .f32⟩ : BufTy).Contents (Elt F)),
    unary main_v233 main_v234 (broadcastInDim S128x128 ![0, 1] bcast_S1x128_S128x128_0_1 : (⟨S1x128, .f32⟩ : BufTy).Contents (Elt F) → (⟨S128x128, .f32⟩ : BufTy).Contents (Elt F)),
    binary main_v232 main_v234 main_v235 (addf : (⟨S128x128, .f32⟩ : BufTy).Contents (Elt F) → (⟨S128x128, .f32⟩ : BufTy).Contents (Elt F) → (⟨S128x128, .f32⟩ : BufTy).Contents (Elt F)),
    nullary main_call13_cst (constant S_ .f32 0x00000000#32),
    unary main_call13_cst main_call13_v0 ((broadcastInDim S128x128 ![] bcast_S_S128x128) : (⟨S_, .f32⟩ : BufTy).Contents (Elt F) → (⟨S128x128, .f32⟩ : BufTy).Contents (Elt F)),
    binary main_v235 main_call13_v0 main_v236 (maximumf : (⟨S128x128, .f32⟩ : BufTy).Contents (Elt F) → (⟨S128x128, .f32⟩ : BufTy).Contents (Elt F) → (⟨S128x128, .f32⟩ : BufTy).Contents (Elt F)),
    binary main_v236 main_arg16 main_v237 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg17 main_v238 (broadcastInDim S1x128 ![1] bcast_S128_S1x128_1 : (⟨S128, .f32⟩ : BufTy).Contents (Elt F) → (⟨S1x128, .f32⟩ : BufTy).Contents (Elt F)),
    unary main_v238 main_v239 (broadcastInDim S128x128 ![0, 1] bcast_S1x128_S128x128_0_1 : (⟨S1x128, .f32⟩ : BufTy).Contents (Elt F) → (⟨S128x128, .f32⟩ : BufTy).Contents (Elt F)),
    binary main_v237 main_v239 main_v240 (addf : (⟨S128x128, .f32⟩ : BufTy).Contents (Elt F) → (⟨S128x128, .f32⟩ : BufTy).Contents (Elt F) → (⟨S128x128, .f32⟩ : BufTy).Contents (Elt F)) ]

set_option maxRecDepth 100000 in
set_option maxHeartbeats 123200000 in
theorem seg3_eq : (seg3 : List (HloOp τ sig (Elt F))) = seg3p := rfl
set_option maxRecDepth 100000 in
set_option maxHeartbeats 123200000 in
theorem seg4_eq : (seg4 : List (HloOp τ sig (Elt F))) = seg4p := rfl
set_option maxRecDepth 100000 in
set_option maxHeartbeats 123200000 in
theorem seg5_eq : (seg5 : List (HloOp τ sig (Elt F))) = seg5p := rfl

/-! ## The first graph layer after its product, and the second layer's product -/

set_option maxRecDepth 100000 in
set_option maxHeartbeats 40000000 in
theorem e3_113 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal))
    (h62 : W main_v62 = val_main_v62 (F := Ideal) x0 x1 x2 x3 x4 x5 x6 x7 x8 x9 x10 x11 x12 x18) (h61 : W main_v61 = val_main_v61 (F := Ideal) x13) (h19 : W main_arg19 = x19) (h22 : W main_arg22 = x22) :
    StableHlo.after (seg3 (F := Ideal)) W main_v113 = val_main_v113 (F := Ideal) x0 x1 x2 x3 x4 x5 x6 x7 x8 x9 x10 x11 x12 x13 x18 x19 x22 := by
  rw [seg3_eq]
  subst h19 h22
  unfold val_main_v113 val_main_v112 val_main_v109 val_main_v108 val_main_v107 val_main_v106 val_main_v105 val_main_v102 val_main_v84
  rw [← h62, ← h61]
  after_results_simp <;> rfl

set_option maxRecDepth 100000 in
set_option maxHeartbeats 40000000 in
theorem e3_118 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal))
    (h62 : W main_v62 = val_main_v62 (F := Ideal) x0 x1 x2 x3 x4 x5 x6 x7 x8 x9 x10 x11 x12 x18) (h61 : W main_v61 = val_main_v61 (F := Ideal) x13) (h12 : W main_arg12 = x12) (h19 : W main_arg19 = x19) (h22 : W main_arg22 = x22) :
    StableHlo.after (seg3 (F := Ideal)) W main_v118 = val_main_v118 (F := Ideal) x0 x1 x2 x3 x4 x5 x6 x7 x8 x9 x10 x11 x12 x13 x18 x19 x22 := by
  have e := e3_113 W x0 x1 x2 x3 x4 x5 x6 x7 x8 x9 x10 x11 x12 x13 x18 x19 x22 h62 h61 h19 h22
  rw [seg3_eq] at e ⊢
  subst h12
  unfold val_main_v118
  rw [← e]
  after_results_simp <;> rfl

set_option maxRecDepth 100000 in
set_option maxHeartbeats 40000000 in
theorem e3_117 (W : Valuation τ sig (Elt Ideal)) (x13 : (⟨S3x128, .f32⟩ : BufTy).Contents (Elt Ideal)) (h13 : W main_arg13 = x13) :
    StableHlo.after (seg3 (F := Ideal)) W main_v117 = val_main_v117 (F := Ideal) x13 := by
  rw [seg3_eq]
  subst h13
  after_results_simp <;> rfl

/-! ## The second graph layer after its product, and the third layer's product -/

set_option maxRecDepth 100000 in
set_option maxHeartbeats 40000000 in
theorem e4_169 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal))
    (h118 : W main_v118 = val_main_v118 (F := Ideal) x0 x1 x2 x3 x4 x5 x6 x7 x8 x9 x10 x11 x12 x13 x18 x19 x22) (h117 : W main_v117 = val_main_v117 (F := Ideal) x13) (h20 : W main_arg20 = x20) (h23 : W main_arg23 = x23) :
    StableHlo.after (seg4 (F := Ideal)) W main_v169 = val_main_v169 (F := Ideal) x0 x1 x2 x3 x4 x5 x6 x7 x8 x9 x10 x11 x12 x13 x18 x19 x20 x22 x23 := by
  rw [seg4_eq]
  subst h20 h23
  unfold val_main_v169 val_main_v168 val_main_v165 val_main_v164 val_main_v163 val_main_v162 val_main_v161 val_main_v158 val_main_v140
  rw [← h118, ← h117]
  after_results_simp <;> rfl

set_option maxRecDepth 100000 in
set_option maxHeartbeats 40000000 in
theorem e4_174 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal))
    (h118 : W main_v118 = val_main_v118 (F := Ideal) x0 x1 x2 x3 x4 x5 x6 x7 x8 x9 x10 x11 x12 x13 x18 x19 x22) (h117 : W main_v117 = val_main_v117 (F := Ideal) x13) (h12 : W main_arg12 = x12) (h20 : W main_arg20 = x20) (h23 : W main_arg23 = x23) :
    StableHlo.after (seg4 (F := Ideal)) W main_v174 = val_main_v174 (F := Ideal) x0 x1 x2 x3 x4 x5 x6 x7 x8 x9 x10 x11 x12 x13 x18 x19 x20 x22 x23 := by
  have e := e4_169 W x0 x1 x2 x3 x4 x5 x6 x7 x8 x9 x10 x11 x12 x13 x18 x19 x20 x22 x23 h118 h117 h20 h23
  rw [seg4_eq] at e ⊢
  subst h12
  unfold val_main_v174
  rw [← e]
  after_results_simp <;> rfl

set_option maxRecDepth 100000 in
set_option maxHeartbeats 40000000 in
theorem e4_173 (W : Valuation τ sig (Elt Ideal)) (x13 : (⟨S3x128, .f32⟩ : BufTy).Contents (Elt Ideal)) (h13 : W main_arg13 = x13) :
    StableHlo.after (seg4 (F := Ideal)) W main_v173 = val_main_v173 (F := Ideal) x13 := by
  rw [seg4_eq]
  subst h13
  after_results_simp <;> rfl

/-! ## The third graph layer after its product, the three pooled sums and the classifier -/

set_option maxRecDepth 100000 in
set_option maxHeartbeats 40000000 in
theorem e5_224 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x22 : (⟨S200000, .i32⟩ : BufTy).Contents (Elt Ideal)) (x24 : (⟨S50000, .i32⟩ : BufTy).Contents (Elt Ideal))
    (h113 : W main_v113 = val_main_v113 (F := Ideal) x0 x1 x2 x3 x4 x5 x6 x7 x8 x9 x10 x11 x12 x13 x18 x19 x22) (h24 : W main_arg24 = x24) :
    StableHlo.after (seg5 (F := Ideal)) W main_v224 = val_main_v224 (F := Ideal) x0 x1 x2 x3 x4 x5 x6 x7 x8 x9 x10 x11 x12 x13 x18 x19 x22 x24 := by
  rw [seg5_eq]
  subst h24
  unfold val_main_v224
  rw [← h113]
  after_results_simp <;> rfl

set_option maxRecDepth 100000 in
set_option maxHeartbeats 40000000 in
theorem e5_227 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x22 : (⟨S200000, .i32⟩ : BufTy).Contents (Elt Ideal)) (x23 : (⟨S50000, .i32⟩ : BufTy).Contents (Elt Ideal)) (x25 : (⟨S12500, .i32⟩ : BufTy).Contents (Elt Ideal))
    (h169 : W main_v169 = val_main_v169 (F := Ideal) x0 x1 x2 x3 x4 x5 x6 x7 x8 x9 x10 x11 x12 x13 x18 x19 x20 x22 x23) (h25 : W main_arg25 = x25) :
    StableHlo.after (seg5 (F := Ideal)) W main_v227 = val_main_v227 (F := Ideal) x0 x1 x2 x3 x4 x5 x6 x7 x8 x9 x10 x11 x12 x13 x18 x19 x20 x22 x23 x25 := by
  rw [seg5_eq]
  subst h25
  unfold val_main_v227
  rw [← h169]
  after_results_simp <;> rfl

set_option maxRecDepth 100000 in
set_option maxHeartbeats 40000000 in
theorem e5_230 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 : (⟨S50000, .i32⟩ : BufTy).Contents (Elt Ideal)) (x25 : (⟨S12500, .i32⟩ : BufTy).Contents (Elt Ideal))
    (h174 : W main_v174 = val_main_v174 (F := Ideal) x0 x1 x2 x3 x4 x5 x6 x7 x8 x9 x10 x11 x12 x13 x18 x19 x20 x22 x23) (h173 : W main_v173 = val_main_v173 (F := Ideal) x13) (h21 : W main_arg21 = x21) (h25 : W main_arg25 = x25) :
    StableHlo.after (seg5 (F := Ideal)) W main_v230 = val_main_v230 (F := Ideal) x0 x1 x2 x3 x4 x5 x6 x7 x8 x9 x10 x11 x12 x13 x18 x19 x20 x21 x22 x23 x25 := by
  rw [seg5_eq]
  subst h21 h25
  unfold val_main_v230 val_main_v221 val_main_v220 val_main_v219 val_main_v218 val_main_v217 val_main_v214 val_main_v196
  rw [← h174, ← h173]
  after_results_simp <;> rfl

set_option maxRecDepth 100000 in
set_option maxHeartbeats 40000000 in
theorem e5_pieces (W : Valuation τ sig (Elt Ideal)) :
    StableHlo.after (seg5 (F := Ideal)) W main_v231
      = concatenate S128x384 1 [⟨S128x128, StableHlo.after (seg5 (F := Ideal)) W main_v224⟩, ⟨S128x128, StableHlo.after (seg5 (F := Ideal)) W main_v227⟩, ⟨S128x128, StableHlo.after (seg5 (F := Ideal)) W main_v230⟩]
          concatenates_S128x128_S128x128_S128x128_S128x384_d1 := by
  rw [seg5_eq]
  after_results_simp <;> rfl

theorem e5_231 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 x24 : (⟨S50000, .i32⟩ : BufTy).Contents (Elt Ideal)) (x25 : (⟨S12500, .i32⟩ : BufTy).Contents (Elt Ideal))
    (h174 : W main_v174 = val_main_v174 (F := Ideal) x0 x1 x2 x3 x4 x5 x6 x7 x8 x9 x10 x11 x12 x13 x18 x19 x20 x22 x23) (h113 : W main_v113 = val_main_v113 (F := Ideal) x0 x1 x2 x3 x4 x5 x6 x7 x8 x9 x10 x11 x12 x13 x18 x19 x22) (h169 : W main_v169 = val_main_v169 (F := Ideal) x0 x1 x2 x3 x4 x5 x6 x7 x8 x9 x10 x11 x12 x13 x18 x19 x20 x22 x23)
    (h173 : W main_v173 = val_main_v173 (F := Ideal) x13) (h21 : W main_arg21 = x21) (h24 : W main_arg24 = x24) (h25 : W main_arg25 = x25) :
    StableHlo.after (seg5 (F := Ideal)) W main_v231 = val_main_v231 (F := Ideal) x0 x1 x2 x3 x4 x5 x6 x7 x8 x9 x10 x11 x12 x13 x18 x19 x20 x21 x22 x23 x24 x25 := by
  rw [e5_pieces, e5_224 W x0 x1 x2 x3 x4 x5 x6 x7 x8 x9 x10 x11 x12 x13 x18 x19 x22 x24 h113 h24, e5_227 W x0 x1 x2 x3 x4 x5 x6 x7 x8 x9 x10 x11 x12 x13 x18 x19 x20 x22 x23 x25 h169 h25, e5_230 W x0 x1 x2 x3 x4 x5 x6 x7 x8 x9 x10 x11 x12 x13 x18 x19 x20 x21 x22 x23 x25 h174 h173 h21 h25]
  rfl

set_option maxRecDepth 100000 in
set_option maxHeartbeats 40000000 in
theorem e5_240 (W : Valuation τ sig (Elt Ideal)) (x0 : (⟨S50000x1544, .f32⟩ : BufTy).Contents (Elt Ideal)) (x1 : (⟨S768x32, .f32⟩ : BufTy).Contents (Elt Ideal)) (x2 : (⟨S32, .f32⟩ : BufTy).Contents (Elt Ideal)) (x3 : (⟨S768x32, .f32⟩ : BufTy).Contents (Elt Ideal)) (x4 : (⟨S32, .f32⟩ : BufTy).Contents (Elt Ideal)) (x5 : (⟨S6x32, .f32⟩ : BufTy).Contents (Elt Ideal)) (x6 : (⟨S32, .f32⟩ : BufTy).Contents (Elt Ideal)) (x7 : (⟨S2x32, .f32⟩ : BufTy).Contents (Elt Ideal)) (x8 : (⟨S32, .f32⟩ : BufTy).Contents (Elt Ideal)) (x9 : (⟨S128x128, .f32⟩ : BufTy).Contents (Elt Ideal)) (x10 x11 : (⟨S128, .f32⟩ : BufTy).Contents (Elt Ideal)) (x12 : (⟨S3x128x128, .f32⟩ : BufTy).Contents (Elt Ideal)) (x13 : (⟨S3x128, .f32⟩ : BufTy).Contents (Elt Ideal)) (x14 : (⟨S384x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S200000, .i32⟩ : BufTy).Contents (Elt Ideal)) (x19 : (⟨S2x1600000, .i32⟩ : BufTy).Contents (Elt Ideal)) (x20 : (⟨S2x400000, .i32⟩ : BufTy).Contents (Elt Ideal)) (x21 : (⟨S2x100000, .i32⟩ : BufTy).Contents (Elt Ideal)) (x22 : (⟨S200000, .i32⟩ : BufTy).Contents (Elt Ideal)) (x23 x24 : (⟨S50000, .i32⟩ : BufTy).Contents (Elt Ideal)) (x25 : (⟨S12500, .i32⟩ : BufTy).Contents (Elt Ideal))
    (h174 : W main_v174 = val_main_v174 (F := Ideal) x0 x1 x2 x3 x4 x5 x6 x7 x8 x9 x10 x11 x12 x13 x18 x19 x20 x22 x23) (h113 : W main_v113 = val_main_v113 (F := Ideal) x0 x1 x2 x3 x4 x5 x6 x7 x8 x9 x10 x11 x12 x13 x18 x19 x22) (h169 : W main_v169 = val_main_v169 (F := Ideal) x0 x1 x2 x3 x4 x5 x6 x7 x8 x9 x10 x11 x12 x13 x18 x19 x20 x22 x23)
    (h173 : W main_v173 = val_main_v173 (F := Ideal) x13) (h14 : W main_arg14 = x14) (h15 : W main_arg15 = x15) (h16 : W main_arg16 = x16) (h17 : W main_arg17 = x17)
    (h21 : W main_arg21 = x21) (h24 : W main_arg24 = x24) (h25 : W main_arg25 = x25) :
    StableHlo.after (seg5 (F := Ideal)) W main_v240 = val_main_v240 (F := Ideal) x0 x1 x2 x3 x4 x5 x6 x7 x8 x9 x10 x11 x12 x13 x14 x15 x16 x17 x18 x19 x20 x21 x22 x23 x24 x25 := by
  have e := e5_231 W x0 x1 x2 x3 x4 x5 x6 x7 x8 x9 x10 x11 x12 x13 x18 x19 x20 x21 x22 x23 x24 x25 h174 h113 h169 h173 h21 h24 h25
  rw [seg5_eq] at e ⊢
  subst h14 h15 h16 h17
  unfold val_main_v240 val_main_v237 val_main_v236 val_main_v235 val_main_v232
  rw [← e]
  after_results_simp <;> rfl

end Cert.RefVal

end
-- ==== Proof.RefRunStaged.lean ====
/-
  The reference program runs to its end, leaves in its result buffer the last stage of its arguments, and leaves its
  twenty-six arguments as it found them.

  The program is a straight line of 308 host operations; its final memory is the fold of the operations' results over
  the launch contents. The line is cut in five lists (RefSegs). An argument keeps its contents through every list
  because no operation writes it: each operation writes one reference, the written references are listed per list,
  and no argument is among them. Going down the five lists, the array at each cut is the reference's stage of the
  arguments there: the encoded features, then the three layers' products, then the result.
-/
import proofs.«152442_j4492535791675_1_alg».proof.Proof.RefSegs
import proofs.«152442_j4492535791675_1_alg».proof.Proof.RefSeg12
import proofs.«152442_j4492535791675_1_alg».proof.Proof.RefSeg345
import proofs.«152442_j4492535791675_1_alg».proof.Proof.RefReadGen

noncomputable section

namespace Cert.RefVal

open Cert.ReferenceIdeal Cert.ReferenceIdeal.Gen Cert.ReferenceIdeal.ValueP Idealize.ShloMosaic Idealize.ShloMosaic.TcCoe Idealize.SL.Sem Idealize.ShloMosaic.StableHlo
open Cert.ReferenceIdeal.ReadP

variable {F : FTy → Type} [FloatOps F]

/-- A line of operations after another: the fold of the second over the fold of the first. -/
theorem after_append {Val : EltTy → Type} : ∀ (a b : List (HloOp τ sig Val)) (V : Valuation τ sig Val),
    after (a ++ b) V = after b (after a V)
  | [], _, _ => rfl
  | op :: a, b, V => after_append a b (op.result V)

/-- A reference outside a list that holds, in order, the one reference each operation of a line writes keeps its
    contents through the line. -/
theorem after_of_map_writes {Val : EltTy → Type} (os : List (HloOp τ sig Val)) (V : Valuation τ sig Val) (l : List (Ref sig .tc))
    (h : os.map (·.writes) = l.map (fun y => ({Proc.devRef (τ := τ) .tc y} : Finset (DevRef τ sig)))) {r : Ref sig .tc} (hr : r ∉ l) :
    after os V (Proc.devRef .tc r) = V (Proc.devRef .tc r) :=
  after_of_forall_not_mem os V fun op hop hb => by
    have hm : op.writes ∈ os.map (·.writes) := List.mem_map.2 ⟨op, hop, rfl⟩
    rw [h] at hm
    obtain ⟨y, hy, e⟩ := List.mem_map.1 hm
    rw [← e] at hb
    have e2 := Finset.mem_singleton.1 hb
    exact hr (Proc.devRef_injective _ e2 ▸ hy)

/-- The references the operations of the first list write, in order. -/
abbrev wl1 : List (Ref sig .tc) := [main_v0, main_v1, main_v2, main_v3, main_v4, main_cst, main_v5, main_v6, main_cst_0, main_v7, main_v8, main_v9, main_v10, main_v11, main_v12, main_v13, main_v14, main_cst_1, main_v15, main_v16, main_cst_2, main_v17, main_v18, main_v19, main_v20, main_v21, main_v22, main_v23, main_v24, main_cst_3, main_v25, main_v26, main_cst_4, main_v27, main_v28, main_v29, main_v30, main_v31, main_v32, main_v33, main_v34, main_cst_5, main_v35, main_v36, main_cst_6, main_v37, main_v38, main_v39, main_v40, main_v41, main_v42, main_v43, main_v44, main_cst_7, main_v45, main_v46, main_v47, main_v48, main_v49, main_v50]

set_option maxRecDepth 100000 in
set_option maxHeartbeats 40000000 in
theorem seg1_writes : (seg1 (F := F)).map (·.writes) = wl1.map (fun y => ({Proc.devRef (τ := τ) .tc y} : Finset (DevRef τ sig))) := by
  simp only [seg1, wl1, List.map_cons, List.map_nil, nullary_writes, unary_writes, binary_writes, ternary_writes, reshape_writes, nary_writes]

/-- The references the operations of the second list write, in order. -/
abbrev wl2 : List (Ref sig .tc) := [main_c, main_v51, main_v52, main_c_8, main_v53, main_v54, main_v55, main_v56, main_v57, main_v58, main_v59, main_v60, main_v61, main_v62]

set_option maxRecDepth 100000 in
set_option maxHeartbeats 40000000 in
theorem seg2_writes : (seg2 (F := F)).map (·.writes) = wl2.map (fun y => ({Proc.devRef (τ := τ) .tc y} : Finset (DevRef τ sig))) := by
  simp only [seg2, wl2, List.map_cons, List.map_nil, nullary_writes, unary_writes, binary_writes, ternary_writes, reshape_writes, nary_writes]

/-- The references the operations of the third list write, in order. -/
abbrev wl3 : List (Ref sig .tc) := [main_v63, main_v64, main_v65, main_v66, main_v67, main_v68, main_v69, main_cst_9, main_v70, main_cst_10, main_v71, main_v72, main_v73, main_cst_11, main_v74, main_v75, main_v76, main_cst_12, main_call5_v0, main_call5_v1, main_v77, main_c_13, main_v78, main_v79, main_c_14, main_v80, main_v81, main_v82, main_v83, main_v84, main_c_15, main_v85, main_v86, main_c_16, main_v87, main_v88, main_v89, main_v90, main_v91, main_c_17, main_v92, main_v93, main_c_18, main_v94, main_v95, main_v96, main_v97, main_v98, main_v99, main_v100, main_v101, main_v102, main_cst_19, main_v103, main_v104, main_v105, main_v106, main_v107, main_v108, main_call6_cst, main_call6_v0, main_v109, main_cst_20, main_v110, main_v111, main_v112, main_call7_cst, main_call7_v0, main_v113, main_v114, main_v115, main_v116, main_v117, main_v118]

set_option maxRecDepth 100000 in
set_option maxHeartbeats 40000000 in
theorem seg3_writes : (seg3 (F := F)).map (·.writes) = wl3.map (fun y => ({Proc.devRef (τ := τ) .tc y} : Finset (DevRef τ sig))) := by
  simp only [seg3, wl3, List.map_cons, List.map_nil, nullary_writes, unary_writes, binary_writes, ternary_writes, reshape_writes, nary_writes]

/-- The references the operations of the fourth list write, in order. -/
abbrev wl4 : List (Ref sig .tc) := [main_v119, main_v120, main_v121, main_v122, main_v123, main_v124, main_v125, main_cst_21, main_v126, main_cst_22, main_v127, main_v128, main_v129, main_cst_23, main_v130, main_v131, main_v132, main_cst_24, main_call8_v0, main_call8_v1, main_v133, main_c_25, main_v134, main_v135, main_c_26, main_v136, main_v137, main_v138, main_v139, main_v140, main_c_27, main_v141, main_v142, main_c_28, main_v143, main_v144, main_v145, main_v146, main_v147, main_c_29, main_v148, main_v149, main_c_30, main_v150, main_v151, main_v152, main_v153, main_v154, main_v155, main_v156, main_v157, main_v158, main_cst_31, main_v159, main_v160, main_v161, main_v162, main_v163, main_v164, main_call9_cst, main_call9_v0, main_v165, main_cst_32, main_v166, main_v167, main_v168, main_call10_cst, main_call10_v0, main_v169, main_v170, main_v171, main_v172, main_v173, main_v174]

set_option maxRecDepth 100000 in
set_option maxHeartbeats 40000000 in
theorem seg4_writes : (seg4 (F := F)).map (·.writes) = wl4.map (fun y => ({Proc.devRef (τ := τ) .tc y} : Finset (DevRef τ sig))) := by
  simp only [seg4, wl4, List.map_cons, List.map_nil, nullary_writes, unary_writes, binary_writes, ternary_writes, reshape_writes, nary_writes]

/-- The references the operations of the fifth list write, in order. -/
abbrev wl5 : List (Ref sig .tc) := [main_v175, main_v176, main_v177, main_v178, main_v179, main_v180, main_v181, main_cst_33, main_v182, main_cst_34, main_v183, main_v184, main_v185, main_cst_35, main_v186, main_v187, main_v188, main_cst_36, main_call11_v0, main_call11_v1, main_v189, main_c_37, main_v190, main_v191, main_c_38, main_v192, main_v193, main_v194, main_v195, main_v196, main_c_39, main_v197, main_v198, main_c_40, main_v199, main_v200, main_v201, main_v202, main_v203, main_c_41, main_v204, main_v205, main_c_42, main_v206, main_v207, main_v208, main_v209, main_v210, main_v211, main_v212, main_v213, main_v214, main_cst_43, main_v215, main_v216, main_v217, main_v218, main_v219, main_v220, main_call12_cst, main_call12_v0, main_v221, main_cst_44, main_v222, main_v223, main_v224, main_cst_45, main_v225, main_v226, main_v227, main_cst_46, main_v228, main_v229, main_v230, main_v231, main_v232, main_v233, main_v234, main_v235, main_call13_cst, main_call13_v0, main_v236, main_v237, main_v238, main_v239, main_v240]

set_option maxRecDepth 100000 in
set_option maxHeartbeats 40000000 in
theorem seg5_writes : (seg5 (F := F)).map (·.writes) = wl5.map (fun y => ({Proc.devRef (τ := τ) .tc y} : Finset (DevRef τ sig))) := by
  simp only [seg5, wl5, List.map_cons, List.map_nil, nullary_writes, unary_writes, binary_writes, ternary_writes, reshape_writes, nary_writes]

/-- The twenty-six argument arrays. -/
abbrev argList : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

variable (m : (ℓ : Loc nD τ sig) → Buf (Elt Ideal) ℓ) (c : Dev nD)

/-! ## The contents after each list -/

abbrev U0 : Valuation τ sig (Elt Ideal) := launchContents m c
def U1 : Valuation τ sig (Elt Ideal) := after (seg1 (F := Ideal)) (U0 m c)
def U2 : Valuation τ sig (Elt Ideal) := after (seg2 (F := Ideal)) (U1 m c)
def U3 : Valuation τ sig (Elt Ideal) := after (seg3 (F := Ideal)) (U2 m c)
def U4 : Valuation τ sig (Elt Ideal) := after (seg4 (F := Ideal)) (U3 m c)
def U5 : Valuation τ sig (Elt Ideal) := after (seg5 (F := Ideal)) (U4 m c)

/-- The fold over the whole line is the fold over the five lists in turn. -/
theorem after_ops : after (ops (F := Ideal)) (launchContents m c) = U5 m c := by
  rw [ops_split, after_append, after_append, after_append, after_append]; rfl

/-! Every list leaves every argument as it was. -/
theorem karg0 (r : Ref sig .tc) : U0 m c (Proc.devRef .tc r) = m ((c.tc : Thread nD τ).loc r) := rfl
theorem karg1 (r : Ref sig .tc) (hr : r ∈ argList) : U1 m c (Proc.devRef .tc r) = m ((c.tc : Thread nD τ).loc r) :=
  (after_of_map_writes _ _ wl1 seg1_writes ((by decide : ∀ r ∈ argList, r ∉ wl1) r hr)).trans (karg0 m c r)
theorem karg2 (r : Ref sig .tc) (hr : r ∈ argList) : U2 m c (Proc.devRef .tc r) = m ((c.tc : Thread nD τ).loc r) :=
  (after_of_map_writes _ _ wl2 seg2_writes ((by decide : ∀ r ∈ argList, r ∉ wl2) r hr)).trans (karg1 m c r hr)
theorem karg3 (r : Ref sig .tc) (hr : r ∈ argList) : U3 m c (Proc.devRef .tc r) = m ((c.tc : Thread nD τ).loc r) :=
  (after_of_map_writes _ _ wl3 seg3_writes ((by decide : ∀ r ∈ argList, r ∉ wl3) r hr)).trans (karg2 m c r hr)
theorem karg4 (r : Ref sig .tc) (hr : r ∈ argList) : U4 m c (Proc.devRef .tc r) = m ((c.tc : Thread nD τ).loc r) :=
  (after_of_map_writes _ _ wl4 seg4_writes ((by decide : ∀ r ∈ argList, r ∉ wl4) r hr)).trans (karg3 m c r hr)
theorem karg5 (r : Ref sig .tc) (hr : r ∈ argList) : U5 m c (Proc.devRef .tc r) = m ((c.tc : Thread nD τ).loc r) :=
  (after_of_map_writes _ _ wl5 seg5_writes ((by decide : ∀ r ∈ argList, r ∉ wl5) r hr)).trans (karg4 m c r hr)

/-! ## The array at each cut is the reference's stage there -/

theorem t50 : U1 m c main_v50 = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold U1
  exact e1 (U0 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (karg0 m c main_arg0) (karg0 m c main_arg1) (karg0 m c main_arg2) (karg0 m c main_arg3) (karg0 m c main_arg4) (karg0 m c main_arg5) (karg0 m c main_arg6) (karg0 m c main_arg7) (karg0 m c main_arg8) (karg0 m c main_arg9) (karg0 m c main_arg10) (karg0 m c main_arg11)

theorem t62 : U2 m c main_v62 = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg18)) := by
  unfold U2
  exact e2 (U1 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg18)) (t50 m c) (karg1 m c main_arg12 (by decide)) (karg1 m c main_arg18 (by decide))

theorem t61 : U2 m c main_v61 = val_main_v61 (F := Ideal) (m ((c.tc : Thread nD τ).loc main_arg13)) := by
  unfold U2
  exact e2_61 (U1 m c) (m ((c.tc : Thread nD τ).loc main_arg13)) (karg1 m c main_arg13 (by decide))

theorem t113 : U3 m c main_v113 = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) := by
  unfold U3
  exact e3_113 (U2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) (t62 m c) (t61 m c) (karg2 m c main_arg19 (by decide)) (karg2 m c main_arg22 (by decide))

theorem t118 : U3 m c main_v118 = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) := by
  unfold U3
  exact e3_118 (U2 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) (t62 m c) (t61 m c) (karg2 m c main_arg12 (by decide)) (karg2 m c main_arg19 (by decide)) (karg2 m c main_arg22 (by decide))

theorem t117 : U3 m c main_v117 = val_main_v117 (F := Ideal) (m ((c.tc : Thread nD τ).loc main_arg13)) := by
  unfold U3
  exact e3_117 (U2 m c) (m ((c.tc : Thread nD τ).loc main_arg13)) (karg2 m c main_arg13 (by decide))

theorem t169 : U4 m c main_v169 = val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg22)) (m ((c.tc : Thread nD τ).loc main_arg23)) := by
  unfold U4
  exact e4_169 (U3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg22)) (m ((c.tc : Thread nD τ).loc main_arg23)) (t118 m c) (t117 m c) (karg3 m c main_arg20 (by decide)) (karg3 m c main_arg23 (by decide))

theorem t174 : U4 m c main_v174 = val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg22)) (m ((c.tc : Thread nD τ).loc main_arg23)) := by
  unfold U4
  exact e4_174 (U3 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg22)) (m ((c.tc : Thread nD τ).loc main_arg23)) (t118 m c) (t117 m c) (karg3 m c main_arg12 (by decide)) (karg3 m c main_arg20 (by decide)) (karg3 m c main_arg23 (by decide))

/-- The first layer's pooled features are not written by the fourth list. -/
theorem t113' : U4 m c main_v113 = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg22)) := by
  unfold U4
  exact (after_of_map_writes _ _ wl4 seg4_writes (by decide)).trans (t113 m c)

theorem t173 : U4 m c main_v173 = val_main_v173 (F := Ideal) (m ((c.tc : Thread nD τ).loc main_arg13)) := by
  unfold U4
  exact e4_173 (U3 m c) (m ((c.tc : Thread nD τ).loc main_arg13)) (karg3 m c main_arg13 (by decide))

theorem t240 : U5 m c main_v240 = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  unfold U5
  exact e5_240 (U4 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (t174 m c) (t113' m c) (t169 m c) (t173 m c) (karg4 m c main_arg14 (by decide)) (karg4 m c main_arg15 (by decide)) (karg4 m c main_arg16 (by decide)) (karg4 m c main_arg17 (by decide)) (karg4 m c main_arg21 (by decide)) (karg4 m c main_arg24 (by decide)) (karg4 m c main_arg25 (by decide))

set_option maxRecDepth 8192 in
set_option maxHeartbeats 40000000 in
/-- On every device, from any memory with zero counters: every weakly fair execution of the reference program
    terminates with its result at the last stage of the arguments' launch contents, and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v240) = val_main_v240 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v240).trans ((congrFun (after_ops m c) _).trans (t240 m c)),
      (h c main_arg0).trans ((congrFun (after_ops m c) _).trans (karg5 m c main_arg0 (by decide))),
      (h c main_arg1).trans ((congrFun (after_ops m c) _).trans (karg5 m c main_arg1 (by decide))),
      (h c main_arg2).trans ((congrFun (after_ops m c) _).trans (karg5 m c main_arg2 (by decide))),
      (h c main_arg3).trans ((congrFun (after_ops m c) _).trans (karg5 m c main_arg3 (by decide))),
      (h c main_arg4).trans ((congrFun (after_ops m c) _).trans (karg5 m c main_arg4 (by decide))),
      (h c main_arg5).trans ((congrFun (after_ops m c) _).trans (karg5 m c main_arg5 (by decide))),
      (h c main_arg6).trans ((congrFun (after_ops m c) _).trans (karg5 m c main_arg6 (by decide))),
      (h c main_arg7).trans ((congrFun (after_ops m c) _).trans (karg5 m c main_arg7 (by decide))),
      (h c main_arg8).trans ((congrFun (after_ops m c) _).trans (karg5 m c main_arg8 (by decide))),
      (h c main_arg9).trans ((congrFun (after_ops m c) _).trans (karg5 m c main_arg9 (by decide))),
      (h c main_arg10).trans ((congrFun (after_ops m c) _).trans (karg5 m c main_arg10 (by decide))),
      (h c main_arg11).trans ((congrFun (after_ops m c) _).trans (karg5 m c main_arg11 (by decide))),
      (h c main_arg12).trans ((congrFun (after_ops m c) _).trans (karg5 m c main_arg12 (by decide))),
      (h c main_arg13).trans ((congrFun (after_ops m c) _).trans (karg5 m c main_arg13 (by decide))),
      (h c main_arg14).trans ((congrFun (after_ops m c) _).trans (karg5 m c main_arg14 (by decide))),
      (h c main_arg15).trans ((congrFun (after_ops m c) _).trans (karg5 m c main_arg15 (by decide))),
      (h c main_arg16).trans ((congrFun (after_ops m c) _).trans (karg5 m c main_arg16 (by decide))),
      (h c main_arg17).trans ((congrFun (after_ops m c) _).trans (karg5 m c main_arg17 (by decide))),
      (h c main_arg18).trans ((congrFun (after_ops m c) _).trans (karg5 m c main_arg18 (by decide))),
      (h c main_arg19).trans ((congrFun (after_ops m c) _).trans (karg5 m c main_arg19 (by decide))),
      (h c main_arg20).trans ((congrFun (after_ops m c) _).trans (karg5 m c main_arg20 (by decide))),
      (h c main_arg21).trans ((congrFun (after_ops m c) _).trans (karg5 m c main_arg21 (by decide))),
      (h c main_arg22).trans ((congrFun (after_ops m c) _).trans (karg5 m c main_arg22 (by decide))),
      (h c main_arg23).trans ((congrFun (after_ops m c) _).trans (karg5 m c main_arg23 (by decide))),
      (h c main_arg24).trans ((congrFun (after_ops m c) _).trans (karg5 m c main_arg24 (by decide))),
      (h c main_arg25).trans ((congrFun (after_ops m c) _).trans (karg5 m c main_arg25 (by decide)))⟩)
    (run_seq scopedRefs_eq scopedSems_eq defs main (fun _ => ops) main_eq (fun _ => ops_sub) m ρ)

end Cert.RefVal

end
-- ==== Proof.RefRun.lean ====
/-
  The reference program's run: it terminates without a fault and leaves its twenty-six arguments as it
  found them. The staged run names the result buffer at the reference's last stage of the arguments; the
  frame is that run with the statement about the result dropped.
-/
import proofs.«152442_j4492535791675_1_alg».proof.Defs
import proofs.«152442_j4492535791675_1_alg».proof.Proof.Gen.ReferenceIdeal
import proofs.«152442_j4492535791675_1_alg».proof.Proof.RefRunStaged
import proofs.«152442_j4492535791675_1_alg».proof.Proof.Gen.Pre_finite_inputs

noncomputable section

namespace Cert.RefVal

open Idealize.ShloMosaic Idealize.SL.Sem

/-- The reference runs to its end and its arguments are unchanged. -/
theorem frame_ri : Cert.frame_ReferenceIdeal := fun m ρ _ =>
  (θ_run Cert.ReferenceIdeal.defs _ _).mono (fun _ h c => (h c).2)
    (Cert.RefVal.run' m ρ)

end Cert.RefVal

end
-- ==== Proof.lean ====
/- The five claims of the certificate.

   The kernel program is six regions among stretches of host operations. Each region's body is run once on whole
   staging buffers (Proof/Bits and Proof/Ideal: the encoder, three row-blocked matrix products, two classifier layers),
   which gives the region's segment record; the conditional frame over the six records is the frame of both printed
   kernel programs. The reference's frame is its run with the result dropped. The idealization rewrote nothing, so it
   is preserved trivially. For the algebraic claim the kernel program's run is read back at its result: each region
   leaves one function of the arrays it finds — the row encoder of every row, a matrix product, a product plus a bias
   — and each host stretch applies the operations the reference applies, so going down @main every array is the
   reference's stage of the same arguments, and the two results are one function of the arguments. -/
import proofs.«152442_j4492535791675_1_alg».proof.Defs
import proofs.«152442_j4492535791675_1_alg».proof.Proof.Gen.Kernel
import proofs.«152442_j4492535791675_1_alg».proof.Proof.Gen.KernelIdeal
import proofs.«152442_j4492535791675_1_alg».proof.Proof.Gen.ReferenceIdeal
import proofs.«152442_j4492535791675_1_alg».proof.Proof.Gen.Pre_finite_inputs
import proofs.«152442_j4492535791675_1_alg».proof.Proof.Bits.Frame
import proofs.«152442_j4492535791675_1_alg».proof.Proof.Ideal.Frame
import proofs.«152442_j4492535791675_1_alg».proof.Proof.Ideal.Val
import proofs.«152442_j4492535791675_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Regions.frame m ρ
theorem frame_ki : Cert.frame_KernelIdeal := fun m ρ _ => Cert.KernelIdeal.Regions.frame m ρ

/-- Both programs end with the reference's last stage of the kernel program's argument arrays. -/
theorem algebraic : Cert.algebraic_KernelIdeal_ReferenceIdeal := by
  intro m ρ m' ρ' _ hagree
  refine ⟨fun c => Cert.ReferenceIdeal.ReadP.val_main_v240 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    Cert.KernelIdeal.Regions.run_val m ρ, ?_⟩
  refine (θ_run Cert.ReferenceIdeal.defs _ _).mono (fun _ h c => ⟨(h c).1.trans ?_, (h c).2⟩)
    (Cert.RefVal.run' m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]

theorem claim : Cert.Claim := ⟨Cert.Kernel.Gen.facts, Cert.KernelIdeal.Gen.facts, Cert.ReferenceIdeal.Gen.facts, Cert.Pre_finite_inputs.Gen.facts,
  frame_k, frame_ki, Cert.RefVal.frame_ri, trivial, algebraic⟩

end Cert.Proof

end
